-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v29_0)) (v1 : (c : Dev Cert.KernelIdeal.nD) → Buf (Elt Ideal) ((c.tc : Thread Cert.KernelIdeal.nD Cert.KernelIdeal.τ).loc Cert.KernelIdeal.main_v44_0)) (v2 : (c : Dev Cert.KernelIdeal.nD) → Buf (Elt Ideal) ((c.tc : Thread Cert.KernelIdeal.nD Cert.KernelIdeal.τ).loc Cert.KernelIdeal.main_v59_0)) (v3 : (c : Dev Cert.KernelIdeal.nD) → Buf (Elt Ideal) ((c.tc : Thread Cert.KernelIdeal.nD Cert.KernelIdeal.τ).loc Cert.KernelIdeal.main_v59_1)) (v4 : (c : Dev Cert.KernelIdeal.nD) → Buf (Elt Ideal) ((c.tc : Thread Cert.KernelIdeal.nD Cert.KernelIdeal.τ).loc Cert.KernelIdeal.main_v44_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29_0) = v0 c
          ∧ r.2.mem ((c.tc : Thread Cert.KernelIdeal.nD Cert.KernelIdeal.τ).loc Cert.KernelIdeal.main_v44_0) = v1 c
          ∧ r.2.mem ((c.tc : Thread Cert.KernelIdeal.nD Cert.KernelIdeal.τ).loc Cert.KernelIdeal.main_v59_0) = v2 c
          ∧ r.2.mem ((c.tc : Thread Cert.KernelIdeal.nD Cert.KernelIdeal.τ).loc Cert.KernelIdeal.main_v59_1) = v3 c
          ∧ r.2.mem ((c.tc : Thread Cert.KernelIdeal.nD Cert.KernelIdeal.τ).loc Cert.KernelIdeal.main_v44_1) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v118) = v2 c
          ∧ r.2.mem ((c.tc : Thread Cert.ReferenceIdeal.nD Cert.ReferenceIdeal.τ).loc Cert.ReferenceIdeal.main_v136) = v3 c
          ∧ r.2.mem ((c.tc : Thread Cert.ReferenceIdeal.nD Cert.ReferenceIdeal.τ).loc Cert.ReferenceIdeal.main_v94) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part7 {F : FTy → Type} [FloatOps F] (main_arg25 : FVec F S256 .f32) (main_v118 : IVec S_ 1) (main_v119 : FVec F S256 .f32) : IVec S_ 1 :=
  let main_cst_46 : FVec F S_ .f32 := constant S_ .f32 0x7F800000#32
  let main_v120 : FVec F S256 .f32 := broadcastInDim S256 ![] bcast_S_S256 main_cst_46
  let main_v121 : IVec S256 1 := cmpf .olt main_v119 main_v120
  let main_c_47 : IVec S_ 1 := constantI S_ 1 1#1
  let main_v122 : IVec S_ 1 := (fun x v => Host.reduce IntOp.andi x v reducesTo_S256_S_d0 h_S_) main_v121 main_c_47
  let main_v123 : IVec S_ 1 := andi main_v118 main_v122
  let main_v124 : FVec F S256 .f32 := Host.absf main_arg25
  let main_cst_48 : FVec F S_ .f32 := constant S_ .f32 0x7F800000#32
  let main_v125 : FVec F S256 .f32 := broadcastInDim S256 ![] bcast_S_S256 main_cst_48
  let main_v126 : IVec S256 1 := cmpf .olt main_v124 main_v125
  let main_c_49 : IVec S_ 1 := constantI S_ 1 1#1
  let main_v127 : IVec S_ 1 := (fun x v => Host.reduce IntOp.andi x v reducesTo_S256_S_d0 h_S_) main_v126 main_c_49
  let main_v128 : IVec S_ 1 := andi main_v123 main_v127
  main_v128

def fn_part6 {F : FTy → Type} [FloatOps F] (main_arg21 : FVec F S256 .f32) (main_arg22 : FVec F S256 .f32) (main_arg23 : FVec F S256 .f32) (main_arg24 : FVec F S256 .f32) (main_arg25 : FVec F S256 .f32) (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  let main_v104 : FVec F S256 .f32 := Host.absf main_arg21
  let main_cst_40 : FVec F S_ .f32 := constant S_ .f32 0x7F800000#32
  let main_v105 : FVec F S256 .f32 := broadcastInDim S256 ![] bcast_S_S256 main_cst_40
  let main_v106 : IVec S256 1 := cmpf .olt main_v104 main_v105
  let main_c_41 : IVec S_ 1 := constantI S_ 1 1#1
  let main_v107 : IVec S_ 1 := (fun x v => Host.reduce IntOp.andi x v reducesTo_S256_S_d0 h_S_) main_v106 main_c_41
  let main_v108 : IVec S_ 1 := andi main_v103 main_v107
  let main_v109 : FVec F S256 .f32 := Host.absf main_arg22
  let main_cst_42 : FVec F S_ .f32 := constant S_ .f32 0x7F800000#32
  let main_v110 : FVec F S256 .f32 := broadcastInDim S256 ![] bcast_S_S256 main_cst_42
  let main_v111 : IVec S256 1 := cmpf .olt main_v109 main_v110
  let main_c_43 : IVec S_ 1 := constantI S_ 1 1#1
  let main_v112 : IVec S_ 1 := (fun x v => Host.reduce IntOp.andi x v reducesTo_S256_S_d0 h_S_) main_v111 main_c_43
  let main_v113 : IVec S_ 1 := andi main_v108 main_v112
  let main_v114 : FVec F S256 .f32 := Host.absf main_arg23
  let main_cst_44 : FVec F S_ .f32 := constant S_ .f32 0x7F800000#32
  let main_v115 : FVec F S256 .f32 := broadcastInDim S256 ![] bcast_S_S256 main_cst_44
  let main_v116 : IVec S256 1 := cmpf .olt main_v114 main_v115
  let main_c_45 : IVec S_ 1 := constantI S_ 1 1#1
  let main_v117 : IVec S_ 1 := (fun x v => Host.reduce IntOp.andi x v reducesTo_S256_S_d0 h_S_) main_v116 main_c_45
  let main_v118 : IVec S_ 1 := andi main_v113 main_v117
  let main_v119 : FVec F S256 .f32 := Host.absf main_arg24
  fn_part7 (F := F) main_arg25 main_v118 main_v119

def fn_part5 {F : FTy → Type} [FloatOps F] (main_arg18 : FVec F S256x256 .f32) (main_arg19 : FVec F S256 .f32) (main_arg20 : FVec F S256 .f32) (main_arg21 : FVec F S256 .f32) (main_arg22 : FVec F S256 .f32) (main_arg23 : FVec F S256 .f32) (main_arg24 : FVec F S256 .f32) (main_arg25 : FVec F S256 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256x256 .f32 := Host.absf main_arg18
  let main_cst_34 : FVec F S_ .f32 := constant S_ .f32 0x7F800000#32
  let main_v90 : FVec F S256x256 .f32 := broadcastInDim S256x256 ![] bcast_S_S256x256 main_cst_34
  let main_v91 : IVec S256x256 1 := cmpf .olt main_v89 main_v90
  let main_c_35 : IVec S_ 1 := constantI S_ 1 1#1
  let main_v92 : IVec S_ 1 := (fun x v => Host.reduce IntOp.andi x v reducesTo_S256x256_S_d0_1 h_S_) main_v91 main_c_35
  let main_v93 : IVec S_ 1 := andi main_v88 main_v92
  let main_v94 : FVec F S256 .f32 := Host.absf main_arg19
  let main_cst_36 : FVec F S_ .f32 := constant S_ .f32 0x7F800000#32
  let main_v95 : FVec F S256 .f32 := broadcastInDim S256 ![] bcast_S_S256 main_cst_36
  let main_v96 : IVec S256 1 := cmpf .olt main_v94 main_v95
  let main_c_37 : IVec S_ 1 := constantI S_ 1 1#1
  let main_v97 : IVec S_ 1 := (fun x v => Host.reduce IntOp.andi x v reducesTo_S256_S_d0 h_S_) main_v96 main_c_37
  let main_v98 : IVec S_ 1 := andi main_v93 main_v97
  let main_v99 : FVec F S256 .f32 := Host.absf main_arg20
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_arg21 main_arg22 main_arg23 main_arg24 main_arg25 main_v98 main_v101 main_c_39

def fn_part4 {F : FTy → Type} [FloatOps F] (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S256 .f32) (main_arg21 : FVec F S256 .f32) (main_arg22 : FVec F S256 .f32) (main_arg23 : FVec F S256 .f32) (main_arg24 : FVec F S256 .f32) (main_arg25 : FVec F S256 .f32) (main_v63 : IVec S_ 1) (main_v67 : IVec S_ 1) : IVec S_ 1 :=
  let main_v68 : IVec S_ 1 := andi main_v63 main_v67
  let main_v69 : FVec F S256x256 .f32 := Host.absf main_arg14
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256 .f32 := Host.absf main_arg15
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x256 .f32 := Host.absf main_arg16
  let main_cst_30 : FVec F S_ .f32 := constant S_ .f32 0x7F800000#32
  let main_v80 : FVec F S256x256 .f32 := broadcastInDim S256x256 ![] bcast_S_S256x256 main_cst_30
  let main_v81 : IVec S256x256 1 := cmpf .olt main_v79 main_v80
  let main_c_31 : IVec S_ 1 := constantI S_ 1 1#1
  let main_v82 : IVec S_ 1 := (fun x v => Host.reduce IntOp.andi x v reducesTo_S256x256_S_d0_1 h_S_) main_v81 main_c_31
  let main_v83 : IVec S_ 1 := andi main_v78 main_v82
  let main_v84 : FVec F S256 .f32 := Host.absf main_arg17
  let main_cst_32 : FVec F S_ .f32 := constant S_ .f32 0x7F800000#32
  fn_part5 (F := F) main_arg18 main_arg19 main_arg20 main_arg21 main_arg22 main_arg23 main_arg24 main_arg25 main_v83 main_v84 main_cst_32

def fn_part3 {F : FTy → Type} [FloatOps F] (main_arg11 : FVec F S256 .f32) (main_arg12 : FVec F S256x1 .f32) (main_arg13 : FVec F S1 .f32) (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S256 .f32) (main_arg21 : FVec F S256 .f32) (main_arg22 : FVec F S256 .f32) (main_arg23 : FVec F S256 .f32) (main_arg24 : FVec F S256 .f32) (main_arg25 : FVec F S256 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg11
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x1 .f32 := Host.absf main_arg12
  let main_cst_22 : FVec F S_ .f32 := constant S_ .f32 0x7F800000#32
  let main_v60 : FVec F S256x1 .f32 := broadcastInDim S256x1 ![] bcast_S_S256x1 main_cst_22
  let main_v61 : IVec S256x1 1 := cmpf .olt main_v59 main_v60
  let main_c_23 : IVec S_ 1 := constantI S_ 1 1#1
  let main_v62 : IVec S_ 1 := (fun x v => Host.reduce IntOp.andi x v reducesTo_S256x1_S_d0_1 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg14 main_arg15 main_arg16 main_arg17 main_arg18 main_arg19 main_arg20 main_arg21 main_arg22 main_arg23 main_arg24 main_arg25 main_v63 main_v67

def fn_part2 {F : FTy → Type} [FloatOps F] (main_arg7 : FVec F S256 .f32) (main_arg8 : FVec F S256x256 .f32) (main_arg9 : FVec F S256 .f32) (main_arg10 : FVec F S256x256 .f32) (main_arg11 : FVec F S256 .f32) (main_arg12 : FVec F S256x1 .f32) (main_arg13 : FVec F S1 .f32) (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S256 .f32) (main_arg21 : FVec F S256 .f32) (main_arg22 : FVec F S256 .f32) (main_arg23 : FVec F S256 .f32) (main_arg24 : FVec F S256 .f32) (main_arg25 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_arg11 main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x1 .f32) (main_arg13 : FVec F S1 .f32) (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S256 .f32) (main_arg21 : FVec F S256 .f32) (main_arg22 : FVec F S256 .f32) (main_arg23 : FVec F S256 .f32) (main_arg24 : FVec F S256 .f32) (main_arg25 : FVec F S256 .f32) (main_v13 : IVec S_ 1) (main_v16 : IVec S65536x256 1) : IVec S_ 1 :=
  let main_c_5 : IVec S_ 1 := constantI S_ 1 1#1
  let main_v17 : IVec S_ 1 := (fun x v => Host.reduce IntOp.andi x v reducesTo_S65536x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg6
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S65536x256 .f32) (main_arg1 : FVec F S65536x256 .f32) (main_arg2 : FVec F S65536x256 .f32) (main_arg3 : FVec F S65536x256 .f32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) (main_arg12 : FVec F S256x1 .f32) (main_arg13 : FVec F S1 .f32) (main_arg14 : FVec F S256x256 .f32) (main_arg15 : FVec F S256 .f32) (main_arg16 : FVec F S256x256 .f32) (main_arg17 : FVec F S256 .f32) (main_arg18 : FVec F S256x256 .f32) (main_arg19 : FVec F S256 .f32) (main_arg20 : FVec F S256 .f32) (main_arg21 : FVec F S256 .f32) (main_arg22 : FVec F S256 .f32) (main_arg23 : FVec F S256 .f32) (main_arg24 : FVec F S256 .f32) (main_arg25 : FVec F S256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x256 .f32 := Host.absf main_arg1
  let main_cst_0 : FVec F S_ .f32 := constant S_ .f32 0x7F800000#32
  let main_v5 : FVec F S65536x256 .f32 := broadcastInDim S65536x256 ![] bcast_S_S65536x256 main_cst_0
  let main_v6 : IVec S65536x256 1 := cmpf .olt main_v4 main_v5
  let main_c_1 : IVec S_ 1 := constantI S_ 1 1#1
  let main_v7 : IVec S_ 1 := (fun x v => Host.reduce IntOp.andi x v reducesTo_S65536x256_S_d0_1 h_S_) main_v6 main_c_1
  let main_v8 : IVec S_ 1 := andi main_v3 main_v7
  let main_v9 : FVec F S65536x256 .f32 := Host.absf main_arg2
  let main_cst_2 : FVec F S_ .f32 := constant S_ .f32 0x7F800000#32
  let main_v10 : FVec F S65536x256 .f32 := broadcastInDim S65536x256 ![] bcast_S_S65536x256 main_cst_2
  let main_v11 : IVec S65536x256 1 := cmpf .olt main_v9 main_v10
  let main_c_3 : IVec S_ 1 := constantI S_ 1 1#1
  let main_v12 : IVec S_ 1 := (fun x v => Host.reduce IntOp.andi x v reducesTo_S65536x256_S_d0_1 h_S_) main_v11 main_c_3
  let main_v13 : IVec S_ 1 := andi main_v8 main_v12
  let main_v14 : FVec F S65536x256 .f32 := Host.absf main_arg3
  let main_cst_4 : FVec F S_ .f32 := constant S_ .f32 0x7F800000#32
  let main_v15 : FVec F S65536x256 .f32 := broadcastInDim S65536x256 ![] bcast_S_S65536x256 main_cst_4
  let main_v16 : IVec S65536x256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S65536x256 : Shape := ⟨2, ![65536, 256]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x256 : Shape := ⟨2, ![1, 256]⟩
abbrev S1x1 : Shape := ⟨2, ![1, 1]⟩
abbrev S16x256 : Shape := ⟨2, ![16, 256]⟩
abbrev S2048x256 : Shape := ⟨2, ![2048, 256]⟩
abbrev S8x256 : Shape := ⟨2, ![8, 256]⟩
abbrev S_ : Shape := ⟨0, ![]⟩
abbrev S2048x1 : Shape := ⟨2, ![2048, 1]⟩

abbrev nBuf : Space → Nat
  | .hbm => 105
  | .vmem => 78
  | .smem => 0
  | _ => 0

abbrev bufTy : (tb : Table) → Fin (tcTables nBuf tb) → BufTy
  | .hbm, ⟨0, _⟩ => ⟨S65536x256, .f32⟩
  | .hbm, ⟨1, _⟩ => ⟨S65536x256, .f32⟩
  | .hbm, ⟨2, _⟩ => ⟨S65536x256, .f32⟩
  | .hbm, ⟨3, _⟩ => ⟨S65536x256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S256x1, .f32⟩
  | .hbm, ⟨13, _⟩ => ⟨S1, .f32⟩
  | .hbm, ⟨14, _⟩ => ⟨S256x256, .f32⟩
  | .hbm, ⟨15, _⟩ => ⟨S256, .f32⟩
  | .hbm, ⟨16, _⟩ => ⟨S256x256, .f32⟩
  | .hbm, ⟨17, _⟩ => ⟨S256, .f32⟩
  | .hbm, ⟨18, _⟩ => ⟨S256x256, .f32⟩
  | .hbm, ⟨19, _⟩ => ⟨S256, .f32⟩
  | .hbm, ⟨20, _⟩ => ⟨S256, .f32⟩
  | .hbm, ⟨21, _⟩ => ⟨S256, .f32⟩
  | .hbm, ⟨22, _⟩ => ⟨S256, .f32⟩
  | .hbm, ⟨23, _⟩ => ⟨S256, .f32⟩
  | .hbm, ⟨24, _⟩ => ⟨S256, .f32⟩
  | .hbm, ⟨25, _⟩ => ⟨S256, .f32⟩
  | .hbm, ⟨26, _⟩ => ⟨S1x256, .f32⟩
  | .hbm, ⟨27, _⟩ => ⟨S1x256, .f32⟩
  | .hbm, ⟨28, _⟩ => ⟨S1x256, .f32⟩
  | .hbm, ⟨29, _⟩ => ⟨S1x256, .f32⟩
  | .hbm, ⟨30, _⟩ => ⟨S1x256, .f32⟩
  | .hbm, ⟨31, _⟩ => ⟨S1x256, .f32⟩
  | .hbm, ⟨32, _⟩ => ⟨S1x256, .f32⟩
  | .hbm, ⟨33, _⟩ => ⟨S1x256, .f32⟩
  | .hbm, ⟨34, _⟩ => ⟨S1x256, .f32⟩
  | .hbm, ⟨35, _⟩ => ⟨S1x256, .f32⟩
  | .hbm, ⟨36, _⟩ => ⟨S1x256, .f32⟩
  | .hbm, ⟨37, _⟩ => ⟨S1x256, .f32⟩
  | .hbm, ⟨38, _⟩ => ⟨S1x256, .f32⟩
  | .hbm, ⟨39, _⟩ => ⟨S1x1, .f32⟩
  | .hbm, ⟨40, _⟩ => ⟨S65536x256, .bf16⟩
  | .hbm, ⟨41, _⟩ => ⟨S65536x256, .f32⟩
  | .hbm, ⟨42, _⟩ => ⟨S16x256, .f32⟩
  | .hbm, ⟨43, _⟩ => ⟨S16x256, .f32⟩
  | .hbm, ⟨44, _⟩ => ⟨S1x256, .f32⟩
  | .hbm, ⟨45, _⟩ => ⟨S1x256, .f32⟩
  | .hbm, ⟨46, _⟩ => ⟨S1x256, .f32⟩
  | .hbm, ⟨47, _⟩ => ⟨S1x256, .f32⟩
  | .hbm, ⟨48, _⟩ => ⟨S1x256, .f32⟩
  | .hbm, ⟨49, _⟩ => ⟨S1x256, .f32⟩
  | .hbm, ⟨50, _⟩ => ⟨S_, .f32⟩
  | .hbm, ⟨51, _⟩ => ⟨S1x256, .f32⟩
  | .hbm, ⟨52, _⟩ => ⟨S1x256, .f32⟩
  | .hbm, ⟨53, _⟩ => ⟨S_, .f32⟩
  | .hbm, ⟨54, _⟩ => ⟨S1x256, .f32⟩
  | .hbm, ⟨55, _⟩ => ⟨S1x256, .f32⟩
  | .hbm, ⟨56, _⟩ => ⟨S1x256, .f32⟩
  | .hbm, ⟨57, _⟩ => ⟨S1x256, .f32⟩
  | .hbm, ⟨58, _⟩ => ⟨S_, .f32⟩
  | .hbm, ⟨59, _⟩ => ⟨S1x256, .f32⟩
  | .hbm, ⟨60, _⟩ => ⟨S1x256, .f32⟩
  | .hbm, ⟨61, _⟩ => ⟨S65536x256, .f32⟩
  | .hbm, ⟨62, _⟩ => ⟨S65536x256, .f32⟩
  | .hbm, ⟨63, _⟩ => ⟨S16x256, .f32⟩
  | .hbm, ⟨64, _⟩ => ⟨S16x256, .f32⟩
  | .hbm, ⟨65, _⟩ => ⟨S1x256, .f32⟩
  | .hbm, ⟨66, _⟩ => ⟨S1x256, .f32⟩
  | .hbm, ⟨67, _⟩ => ⟨S1x256, .f32⟩
  | .hbm, ⟨68, _⟩ => ⟨S1x256, .f32⟩
  | .hbm, ⟨69, _⟩ => ⟨S1x256, .f32⟩
  | .hbm, ⟨70, _⟩ => ⟨S1x256, .f32⟩
  | .hbm, ⟨71, _⟩ => ⟨S_, .f32⟩
  | .hbm, ⟨72, _⟩ => ⟨S1x256, .f32⟩
  | .hbm, ⟨73, _⟩ => ⟨S1x256, .f32⟩
  | .hbm, ⟨74, _⟩ => ⟨S_, .f32⟩
  | .hbm, ⟨75, _⟩ => ⟨S1x256, .f32⟩
  | .hbm, ⟨76, _⟩ => ⟨S1x256, .f32⟩
  | .hbm, ⟨77, _⟩ => ⟨S1x256, .f32⟩
  | .hbm, ⟨78, _⟩ => ⟨S1x256, .f32⟩
  | .hbm, ⟨79, _⟩ => ⟨S_, .f32⟩
  | .hbm, ⟨80, _⟩ => ⟨S1x256, .f32⟩
  | .hbm, ⟨81, _⟩ => ⟨S1x256, .f32⟩
  | .hbm, ⟨82, _⟩ => ⟨S65536x256, .f32⟩
  | .hbm, ⟨83, _⟩ => ⟨S65536x256, .f32⟩
  | .hbm, ⟨84, _⟩ => ⟨S16x256, .f32⟩
  | .hbm, ⟨85, _⟩ => ⟨S16x256, .f32⟩
  | .hbm, ⟨86, _⟩ => ⟨S1x256, .f32⟩
  | .hbm, ⟨87, _⟩ => ⟨S1x256, .f32⟩
  | .hbm, ⟨88, _⟩ => ⟨S1x256, .f32⟩
  | .hbm, ⟨89, _⟩ => ⟨S1x256, .f32⟩
  | .hbm, ⟨90, _⟩ => ⟨S1x256, .f32⟩
  | .hbm, ⟨91, _⟩ => ⟨S1x256, .f32⟩
  | .hbm, ⟨92, _⟩ => ⟨S_, .f32⟩
  | .hbm, ⟨93, _⟩ => ⟨S1x256, .f32⟩
  | .hbm, ⟨94, _⟩ => ⟨S1x256, .f32⟩
  | .hbm, ⟨95, _⟩ => ⟨S_, .f32⟩
  | .hbm, ⟨96, _⟩ => ⟨S1x256, .f32⟩
  | .hbm, ⟨97, _⟩ => ⟨S1x256, .f32⟩
  | .hbm, ⟨98, _⟩ => ⟨S1x256, .f32⟩
  | .hbm, ⟨99, _⟩ => ⟨S1x256, .f32⟩
  | .hbm, ⟨100, _⟩ => ⟨S_, .f32⟩
  | .hbm, ⟨101, _⟩ => ⟨S1x256, .f32⟩
  | .hbm, ⟨102, _⟩ => ⟨S1x256, .f32⟩
  | .hbm, ⟨103, _⟩ => ⟨S65536x256, .f32⟩
  | .hbm, ⟨104, _⟩ => ⟨S65536x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S256x256, .f32⟩
  | .local _ .vmem, ⟨5, _⟩ => ⟨S1x256, .f32⟩
  | .local _ .vmem, ⟨6, _⟩ => ⟨S256x256, .f32⟩
  | .local _ .vmem, ⟨7, _⟩ => ⟨S1x256, .f32⟩
  | .local _ .vmem, ⟨8, _⟩ => ⟨S2048x256, .bf16⟩
  | .local _ .vmem, ⟨9, _⟩ => ⟨S2048x256, .bf16⟩
  | .local _ .vmem, ⟨10, _⟩ => ⟨S2048x256, .f32⟩
  | .local _ .vmem, ⟨11, _⟩ => ⟨S2048x256, .f32⟩
  | .local _ .vmem, ⟨12, _⟩ => ⟨S8x256, .f32⟩
  | .local _ .vmem, ⟨13, _⟩ => ⟨S8x256, .f32⟩
  | .local _ .vmem, ⟨14, _⟩ => ⟨S8x256, .f32⟩
  | .local _ .vmem, ⟨15, _⟩ => ⟨S8x256, .f32⟩
  | .local _ .vmem, ⟨16, _⟩ => ⟨S2048x256, .f32⟩
  | .local _ .vmem, ⟨17, _⟩ => ⟨S2048x256, .f32⟩
  | .local _ .vmem, ⟨18, _⟩ => ⟨S1x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S256x256, .f32⟩
  | .local _ .vmem, ⟨23, _⟩ => ⟨S1x256, .f32⟩
  | .local _ .vmem, ⟨24, _⟩ => ⟨S2048x256, .f32⟩
  | .local _ .vmem, ⟨25, _⟩ => ⟨S2048x256, .f32⟩
  | .local _ .vmem, ⟨26, _⟩ => ⟨S2048x256, .f32⟩
  | .local _ .vmem, ⟨27, _⟩ => ⟨S2048x256, .f32⟩
  | .local _ .vmem, ⟨28, _⟩ => ⟨S8x256, .f32⟩
  | .local _ .vmem, ⟨29, _⟩ => ⟨S8x256, .f32⟩
  | .local _ .vmem, ⟨30, _⟩ => ⟨S8x256, .f32⟩
  | .local _ .vmem, ⟨31, _⟩ => ⟨S8x256, .f32⟩
  | .local _ .vmem, ⟨32, _⟩ => ⟨S2048x256, .bf16⟩
  | .local _ .vmem, ⟨33, _⟩ => ⟨S2048x256, .bf16⟩
  | .local _ .vmem, ⟨34, _⟩ => ⟨S2048x256, .f32⟩
  | .local _ .vmem, ⟨35, _⟩ => ⟨S2048x256, .f32⟩
  | .local _ .vmem, ⟨36, _⟩ => ⟨S1x256, .f32⟩
  | .local _ .vmem, ⟨37, _⟩ => ⟨S1x256, .f32⟩
  | .local _ .vmem, ⟨38, _⟩ => ⟨S1x256, .f32⟩
  | .local _ .vmem, ⟨39, _⟩ => ⟨S1x256, .f32⟩
  | .local _ .vmem, ⟨40, _⟩ => ⟨S2048x256, .f32⟩
  | .local _ .vmem, ⟨41, _⟩ => ⟨S2048x256, .f32⟩
  | .local _ .vmem, ⟨42, _⟩ => ⟨S2048x256, .f32⟩
  | .local _ .vmem, ⟨43, _⟩ => ⟨S2048x256, .f32⟩
  | .local _ .vmem, ⟨44, _⟩ => ⟨S256x256, .f32⟩
  | .local _ .vmem, ⟨45, _⟩ => ⟨S1x256, .f32⟩
  | .local _ .vmem, ⟨46, _⟩ => ⟨S256x256, .f32⟩
  | .local _ .vmem, ⟨47, _⟩ => ⟨S1x256, .f32⟩
  | .local _ .vmem, ⟨48, _⟩ => ⟨S256x256, .f32⟩
  | .local _ .vmem, ⟨49, _⟩ => ⟨S1x256, .f32⟩
  | .local _ .vmem, ⟨50, _⟩ => ⟨S256x256, .f32⟩
  | .local _ .vmem, ⟨51, _⟩ => ⟨S1x256, .f32⟩
  | .local _ .vmem, ⟨52, _⟩ => ⟨S2048x256, .f32⟩
  | .local _ .vmem, ⟨53, _⟩ => ⟨S2048x256, .f32⟩
  | .local _ .vmem, ⟨54, _⟩ => ⟨S2048x256, .f32⟩
  | .local _ .vmem, ⟨55, _⟩ => ⟨S2048x256, .f32⟩
  | .local _ .vmem, ⟨56, _⟩ => ⟨S8x256, .f32⟩
  | .local _ .vmem, ⟨57, _⟩ => ⟨S8x256, .f32⟩
  | .local _ .vmem, ⟨58, _⟩ => ⟨S8x256, .f32⟩
  | .local _ .vmem, ⟨59, _⟩ => ⟨S8x256, .f32⟩
  | .local _ .vmem, ⟨60, _⟩ => ⟨S2048x256, .f32⟩
  | .local _ .vmem, ⟨61, _⟩ => ⟨S2048x256, .f32⟩
  | .local _ .vmem, ⟨62, _⟩ => ⟨S1x256, .f32⟩
  | .local _ .vmem, ⟨63, _⟩ => ⟨S1x256, .f32⟩
  | .local _ .vmem, ⟨64, _⟩ => ⟨S1x256, .f32⟩
  | .local _ .vmem, ⟨65, _⟩ => ⟨S1x256, .f32⟩
  | .local _ .vmem, ⟨66, _⟩ => ⟨S2048x256, .f32⟩
  | .local _ .vmem, ⟨67, _⟩ => ⟨S2048x256, .f32⟩
  | .local _ .vmem, ⟨68, _⟩ => ⟨S2048x256, .f32⟩
  | .local _ .vmem, ⟨69, _⟩ => ⟨S2048x256, .f32⟩
  | .local _ .vmem, ⟨70, _⟩ => ⟨S256x256, .f32⟩
  | .local _ .vmem, ⟨71, _⟩ => ⟨S1x256, .f32⟩
  | .local _ .vmem, ⟨72, _⟩ => ⟨S256x1, .f32⟩
  | .local _ .vmem, ⟨73, _⟩ => ⟨S1x1, .f32⟩
  | .local _ .vmem, ⟨74, _⟩ => ⟨S2048x256, .f32⟩
  | .local _ .vmem, ⟨75, _⟩ => ⟨S2048x256, .f32⟩
  | .local _ .vmem, ⟨76, _⟩ => ⟨S2048x256, .f32⟩
  | .local _ .vmem, ⟨77, _⟩ => ⟨S2048x256, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | _, _ => false

abbrev semScoped : Fin 0 → Bool
  | ⟨_, h⟩ => absurd h (Nat.not_lt_zero _)

abbrev dmaSemScoped : Fin 78 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | _ => false

abbrev sig : RefSig :=
  ofTc nBuf bufTy 0 78 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14_0 : Ref sig .tc := ⟨.hbm, 40, rfl⟩
abbrev main_v14_1 : Ref sig .tc := ⟨.hbm, 41, rfl⟩
abbrev main_v14_2 : Ref sig .tc := ⟨.hbm, 42, rfl⟩
abbrev main_v14_3 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_cst : Ref sig .tc := ⟨.hbm, 50, rfl⟩
abbrev main_v21 : Ref sig .tc := ⟨.hbm, 51, rfl⟩
abbrev main_v22 : Ref sig .tc := ⟨.hbm, 52, rfl⟩
abbrev main_cst_0 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_cst_1 : Ref sig .tc := ⟨.hbm, 58, rfl⟩
abbrev main_v27 : Ref sig .tc := ⟨.hbm, 59, rfl⟩
abbrev main_v28 : Ref sig .tc := ⟨.hbm, 60, rfl⟩
abbrev main_v29_0 : Ref sig .tc := ⟨.hbm, 61, rfl⟩
abbrev main_v29_1 : Ref sig .tc := ⟨.hbm, 62, rfl⟩
abbrev main_v29_2 : Ref sig .tc := ⟨.hbm, 63, rfl⟩
abbrev main_v29_3 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_cst_2 : Ref sig .tc := ⟨.hbm, 71, rfl⟩
abbrev main_v36 : Ref sig .tc := ⟨.hbm, 72, rfl⟩
abbrev main_v37 : Ref sig .tc := ⟨.hbm, 73, rfl⟩
abbrev main_cst_3 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_cst_4 : Ref sig .tc := ⟨.hbm, 79, rfl⟩
abbrev main_v42 : Ref sig .tc := ⟨.hbm, 80, rfl⟩
abbrev main_v43 : Ref sig .tc := ⟨.hbm, 81, rfl⟩
abbrev main_v44_0 : Ref sig .tc := ⟨.hbm, 82, rfl⟩
abbrev main_v44_1 : Ref sig .tc := ⟨.hbm, 83, rfl⟩
abbrev main_v44_2 : Ref sig .tc := ⟨.hbm, 84, rfl⟩
abbrev main_v44_3 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_cst_5 : Ref sig .tc := ⟨.hbm, 92, rfl⟩
abbrev main_v51 : Ref sig .tc := ⟨.hbm, 93, rfl⟩
abbrev main_v52 : Ref sig .tc := ⟨.hbm, 94, rfl⟩
abbrev main_cst_6 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_cst_7 : Ref sig .tc := ⟨.hbm, 100, rfl⟩
abbrev main_v57 : Ref sig .tc := ⟨.hbm, 101, rfl⟩
abbrev main_v58 : Ref sig .tc := ⟨.hbm, 102, rfl⟩
abbrev main_v59_0 : Ref sig .tc := ⟨.hbm, 103, rfl⟩
abbrev main_v59_1 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg9_1 : Ref sig .tc := ⟨.vmem, 29, rfl⟩
abbrev cc1_stg10_0 : Ref sig .tc := ⟨.vmem, 30, rfl⟩
abbrev cc1_stg10_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg3_0 : Ref sig .tc := ⟨.vmem, 37, rfl⟩
abbrev cc2_stg4_0 : Ref sig .tc := ⟨.vmem, 38, rfl⟩
abbrev cc2_stg5_0 : Ref sig .tc := ⟨.vmem, 39, rfl⟩
abbrev cc2_stg6_0 : Ref sig .tc := ⟨.vmem, 40, rfl⟩
abbrev cc2_stg6_1 : Ref sig .tc := ⟨.vmem, 41, rfl⟩
abbrev cc2_stg7_0 : Ref sig .tc := ⟨.vmem, 42, rfl⟩
abbrev cc2_stg7_1 : Ref sig .tc := ⟨.vmem, 43, rfl⟩
abbrev cc2_stg8_0 : Ref sig .tc := ⟨.vmem, 44, rfl⟩
abbrev cc2_stg9_0 : Ref sig .tc := ⟨.vmem, 45, rfl⟩
abbrev cc2_stg10_0 : Ref sig .tc := ⟨.vmem, 46, rfl⟩
abbrev cc2_stg11_0 : Ref sig .tc := ⟨.vmem, 47, rfl⟩
abbrev cc2_stg12_0 : Ref sig .tc := ⟨.vmem, 48, rfl⟩
abbrev cc2_stg13_0 : Ref sig .tc := ⟨.vmem, 49, rfl⟩
abbrev cc2_stg14_0 : Ref sig .tc := ⟨.vmem, 50, rfl⟩
abbrev cc2_stg15_0 : Ref sig .tc := ⟨.vmem, 51, rfl⟩
abbrev cc2_stg16_0 : Ref sig .tc := ⟨.vmem, 52, rfl⟩
abbrev cc2_stg16_1 : Ref sig .tc := ⟨.vmem, 53, rfl⟩
abbrev cc2_stg17_0 : Ref sig .tc := ⟨.vmem, 54, rfl⟩
abbrev cc2_stg17_1 : Ref sig .tc := ⟨.vmem, 55, rfl⟩
abbrev cc2_stg18_0 : Ref sig .tc := ⟨.vmem, 56, rfl⟩
abbrev cc2_stg18_1 : Ref sig .tc := ⟨.vmem, 57, rfl⟩
abbrev cc2_stg19_0 : Ref sig .tc := ⟨.vmem, 58, rfl⟩
abbrev cc2_stg19_1 : Ref sig .tc := ⟨.vmem, 59, rfl⟩
abbrev cc3_stg0_0 : Ref sig .tc := ⟨.vmem, 60, rfl⟩
abbrev cc3_stg0_1 : Ref sig .tc := ⟨.vmem, 61, rfl⟩
abbrev cc3_stg1_0 : Ref sig .tc := ⟨.vmem, 62, rfl⟩
abbrev cc3_stg2_0 : Ref sig .tc := ⟨.vmem, 63, rfl⟩
abbrev cc3_stg3_0 : Ref sig .tc := ⟨.vmem, 64, rfl⟩
abbrev cc3_stg4_0 : Ref sig .tc := ⟨.vmem, 65, rfl⟩
abbrev cc3_stg5_0 : Ref sig .tc := ⟨.vmem, 66, rfl⟩
abbrev cc3_stg5_1 : Ref sig .tc := ⟨.vmem, 67, rfl⟩
abbrev cc3_stg6_0 : Ref sig .tc := ⟨.vmem, 68, rfl⟩
abbrev cc3_stg6_1 : Ref sig .tc := ⟨.vmem, 69, rfl⟩
abbrev cc3_stg7_0 : Ref sig .tc := ⟨.vmem, 70, rfl⟩
abbrev cc3_stg8_0 : Ref sig .tc := ⟨.vmem, 71, rfl⟩
abbrev cc3_stg9_0 : Ref sig .tc := ⟨.vmem, 72, rfl⟩
abbrev cc3_stg10_0 : Ref sig .tc := ⟨.vmem, 73, rfl⟩
abbrev cc3_stg11_0 : Ref sig .tc := ⟨.vmem, 74, rfl⟩
abbrev cc3_stg11_1 : Ref sig .tc := ⟨.vmem, 75, rfl⟩
abbrev cc3_stg12_0 : Ref sig .tc := ⟨.vmem, 76, rfl⟩
abbrev cc3_stg12_1 : Ref sig .tc := ⟨.vmem, 77, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem7_1 : DmaSem sig := 25
abbrev cc1_sem8_0 : DmaSem sig := 26
abbrev cc1_sem8_1 : DmaSem sig := 27
abbrev cc1_sem9_0 : DmaSem sig := 28
abbrev cc1_sem9_1 : DmaSem sig := 29
abbrev cc1_sem10_0 : DmaSem sig := 30
abbrev cc1_sem10_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem3_0 : DmaSem sig := 37
abbrev cc2_sem4_0 : DmaSem sig := 38
abbrev cc2_sem5_0 : DmaSem sig := 39
abbrev cc2_sem6_0 : DmaSem sig := 40
abbrev cc2_sem6_1 : DmaSem sig := 41
abbrev cc2_sem7_0 : DmaSem sig := 42
abbrev cc2_sem7_1 : DmaSem sig := 43
abbrev cc2_sem8_0 : DmaSem sig := 44
abbrev cc2_sem9_0 : DmaSem sig := 45
abbrev cc2_sem10_0 : DmaSem sig := 46
abbrev cc2_sem11_0 : DmaSem sig := 47
abbrev cc2_sem12_0 : DmaSem sig := 48
abbrev cc2_sem13_0 : DmaSem sig := 49
abbrev cc2_sem14_0 : DmaSem sig := 50
abbrev cc2_sem15_0 : DmaSem sig := 51
abbrev cc2_sem16_0 : DmaSem sig := 52
abbrev cc2_sem16_1 : DmaSem sig := 53
abbrev cc2_sem17_0 : DmaSem sig := 54
abbrev cc2_sem17_1 : DmaSem sig := 55
abbrev cc2_sem18_0 : DmaSem sig := 56
abbrev cc2_sem18_1 : DmaSem sig := 57
abbrev cc2_sem19_0 : DmaSem sig := 58
abbrev cc2_sem19_1 : DmaSem sig := 59
abbrev cc3_sem0_0 : DmaSem sig := 60
abbrev cc3_sem0_1 : DmaSem sig := 61
abbrev cc3_sem1_0 : DmaSem sig := 62
abbrev cc3_sem2_0 : DmaSem sig := 63
abbrev cc3_sem3_0 : DmaSem sig := 64
abbrev cc3_sem4_0 : DmaSem sig := 65
abbrev cc3_sem5_0 : DmaSem sig := 66
abbrev cc3_sem5_1 : DmaSem sig := 67
abbrev cc3_sem6_0 : DmaSem sig := 68
abbrev cc3_sem6_1 : DmaSem sig := 69
abbrev cc3_sem7_0 : DmaSem sig := 70
abbrev cc3_sem8_0 : DmaSem sig := 71
abbrev cc3_sem9_0 : DmaSem sig := 72
abbrev cc3_sem10_0 : DmaSem sig := 73
abbrev cc3_sem11_0 : DmaSem sig := 74
abbrev cc3_sem11_1 : DmaSem sig := 75
abbrev cc3_sem12_0 : DmaSem sig := 76
abbrev cc3_sem12_1 : DmaSem sig := 77

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev grid1 : Pipeline.Grid := ⟨2, ![2, 16], ![false, false]⟩

def cc1_transform_0 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_8 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S2048x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S2048x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S8x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S8x256 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, false]

abbrev grid2 : Pipeline.Grid := ⟨2, ![2, 16], ![false, false]⟩

def cc2_transform_0 (i : grid2.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc2_transform_7 (i : grid2.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc2_transform_17 (i : grid2.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc2_transform_18 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_19 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S2048x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev stage2_7 : Fin 2 → Memref sig .tc .vmem S2048x256 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true]

abbrev stage2_8 : Fin 1 → Memref sig .tc .vmem S256x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S1x256 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 1 → Memref sig .tc .vmem S256x256 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false, false]

abbrev stage2_11 : Fin 1 → Memref sig .tc .vmem S1x256 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false, false]

abbrev stage2_12 : Fin 1 → Memref sig .tc .vmem S256x256 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false, false]

abbrev stage2_13 : Fin 1 → Memref sig .tc .vmem S1x256 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false, false]

abbrev stage2_14 : Fin 1 → Memref sig .tc .vmem S256x256 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false, false]

abbrev stage2_15 : Fin 1 → Memref sig .tc .vmem S1x256 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false, false]

abbrev stage2_16 : Fin 2 → Memref sig .tc .vmem S2048x256 .f32 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![true, true]

abbrev stage2_17 : Fin 2 → Memref sig .tc .vmem S2048x256 .f32 := fun | 0 => Memref.whole cc2_stg17_0 | 1 => Memref.whole cc2_stg17_1 | ⟨_ + 2, h⟩ => absurd h (Nat.not_lt.2 (Nat.le_add_left _ _))
abbrev sem2_17 : Fin 2 → DmaSem sig := fun | 0 => cc2_sem17_0 | 1 => cc2_sem17_1 | ⟨_ + 2, h⟩ => absurd h (Nat.not_lt.2 (Nat.le_add_left _ _))
abbrev reads2_17 : Fin grid2.rank → Bool := ![true, true]

abbrev stage2_18 : Fin 2 → Memref sig .tc .vmem S8x256 .f32 := fun | 0 => Memref.whole cc2_stg18_0 | 1 => Memref.whole cc2_stg18_1 | ⟨_ + 2, h⟩ => absurd h (Nat.not_lt.2 (Nat.le_add_left _ _))
abbrev sem2_18 : Fin 2 → DmaSem sig := fun | 0 => cc2_sem18_0 | 1 => cc2_sem18_1 | ⟨_ + 2, h⟩ => absurd h (Nat.not_lt.2 (Nat.le_add_left _ _))
abbrev reads2_18 : Fin grid2.rank → Bool := ![true, false]

abbrev stage2_19 : Fin 2 → Memref sig .tc .vmem S8x256 .f32 := fun | 0 => Memref.whole cc2_stg19_0 | 1 => Memref.whole cc2_stg19_1 | ⟨_ + 2, h⟩ => absurd h (Nat.not_lt.2 (Nat.le_add_left _ _))
abbrev sem2_19 : Fin 2 → DmaSem sig := fun | 0 => cc2_sem19_0 | 1 => cc2_sem19_1 | ⟨_ + 2, h⟩ => absurd h (Nat.not_lt.2 (Nat.le_add_left _ _))
abbrev reads2_19 : Fin grid2.rank → Bool := ![true, false]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_12 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2048x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2048x256 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S256x256 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x256 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S256x1 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x1 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 2 → Memref sig .tc .vmem S2048x256 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev stage3_12 : Fin 2 → Memref sig .tc .vmem S2048x256 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true]

class Facts₀ : Prop where
  shapeCasts_S256_S1x256 : S256.ShapeCasts S1x256
  shapeCasts_S1_S1x1 : S1.ShapeCasts S1x1
  inb_S8x256_S8x256_0_0 : ∀ a, (![0, 0] : Fin 2 → Nat) a + S8x256.size a ≤ S8x256.size a
  h_S8x256 : 0 < S8x256.numel
  inb_S2048x256_S2048x256_0_0 : ∀ a, (![0, 0] : Fin 2 → Nat) a + S2048x256.size a ≤ S2048x256.size a
  h_S2048x256 : 0 < S2048x256.numel
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  packedbf16_S2048x256_S2048x256_0_0 : (Rect.unit (s := S2048x256) ![0, 0] S2048x256.size inb_S2048x256_S2048x256_0_0).PackedRows (EltTy.packing .bf16)
  reduces_S2048x256_S256 : S2048x256.Reduces [0] S256
  shapeCasts_S8x256_S8x256 : S8x256.ShapeCasts S8x256
  broadcasts_S1x256_S8x256 : S1x256.Broadcasts S8x256
  slices_S16x256_S1x256_0_0 : S16x256.Slices ![0, 0] S1x256
  slices_S16x256_S1x256_8_0 : S16x256.Slices ![8, 0] S1x256
  bcast_S_S1x256 : S_.BroadcastsInDim S1x256 (![] : Fin 0 → Fin S1x256.rank)
  shapeCasts_S2048x256_S2048x256 : S2048x256.ShapeCasts S2048x256
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  broadcasts_S2048x1_S2048x256 : S2048x1.Broadcasts S2048x256
  dot_S2048x256_S256x256_S2048x256_1_0_0_1_n_n_wf : DotDims.WF S2048x256 S256x256 S2048x256 [1] [0] [0] [1] [] []
  dot_S2048x256_S256x1_S2048x1_1_0_0_1_n_n_wf : DotDims.WF S2048x256 S256x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S65536x256.size a
  hwx0_0 : ∀ i : grid0.Coords, EltTy.bits .f32 = 32 ∨ (Rect.block (s := S65536x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S65536x256.size a
  hwx0_1 : ∀ i : grid0.Coords, EltTy.bits .f32 = 32 ∨ (Rect.block (s := S65536x256) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x256.size a ≤ S65536x256.size a
  hwx0_6 : ∀ i : grid0.Coords, EltTy.bits .bf16 = 32 ∨ (Rect.block (s := S65536x256) S2048x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x256.size a ≤ S65536x256.size a
  hwx0_7 : ∀ i : grid0.Coords, EltTy.bits .f32 = 32 ∨ (Rect.block (s := S65536x256) S2048x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x256.size a ≤ S16x256.size a
  hwx0_8 : ∀ i : grid0.Coords, EltTy.bits .f32 = 32 ∨ (Rect.block (s := S16x256) S8x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x256.size a ≤ S16x256.size a
  hwx0_9 : ∀ i : grid0.Coords, EltTy.bits .f32 = 32 ∨ (Rect.block (s := S16x256) S8x256.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x256.size a ≤ S65536x256.size a
  hwx1_0 : ∀ i : grid1.Coords, EltTy.bits .f32 = 32 ∨ (Rect.block (s := S65536x256) S2048x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .f32 = 32 ∨ (Rect.block (s := S256x256) S256x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2048x256.size a ≤ S65536x256.size a
  hwx1_7 : ∀ i : grid1.Coords, EltTy.bits .f32 = 32 ∨ (Rect.block (s := S65536x256) S2048x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2048x256.size a ≤ S65536x256.size a
  hwx1_8 : ∀ i : grid1.Coords, EltTy.bits .f32 = 32 ∨ (Rect.block (s := S65536x256) S2048x256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S8x256.size a ≤ S16x256.size a
  hwx1_9 : ∀ i : grid1.Coords, EltTy.bits .f32 = 32 ∨ (Rect.block (s := S16x256) S8x256.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S8x256.size a ≤ S16x256.size a
  hwx1_10 : ∀ i : grid1.Coords, EltTy.bits .f32 = 32 ∨ (Rect.block (s := S16x256) S8x256.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S65536x256.size a
  hwx2_0 : ∀ i : grid2.Coords, EltTy.bits .bf16 = 32 ∨ (Rect.block (s := S65536x256) S2048x256.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x256.size a ≤ S65536x256.size a
  hwx2_1 : ∀ i : grid2.Coords, EltTy.bits .f32 = 32 ∨ (Rect.block (s := S65536x256) S2048x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2048x256.size a ≤ S65536x256.size a
  hwx2_6 : ∀ i : grid2.Coords, EltTy.bits .f32 = 32 ∨ (Rect.block (s := S65536x256) S2048x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2048x256.size a ≤ S65536x256.size a
  hwx2_7 : ∀ i : grid2.Coords, EltTy.bits .f32 = 32 ∨ (Rect.block (s := S65536x256) S2048x256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S256x256.size a ≤ S256x256.size a
  hwx2_8 : ∀ i : grid2.Coords, EltTy.bits .f32 = 32 ∨ (Rect.block (s := S256x256) S256x256.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x256.size a ≤ S1x256.size a
  hwx2_9 : ∀ i : grid2.Coords, EltTy.bits .f32 = 32 ∨ (Rect.block (s := S1x256) S1x256.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S256x256.size a ≤ S256x256.size a
  hwx2_10 : ∀ i : grid2.Coords, EltTy.bits .f32 = 32 ∨ (Rect.block (s := S256x256) S256x256.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x256.size a ≤ S1x256.size a
  hwx2_11 : ∀ i : grid2.Coords, EltTy.bits .f32 = 32 ∨ (Rect.block (s := S1x256) S1x256.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S256x256.size a ≤ S256x256.size a
  hwx2_12 : ∀ i : grid2.Coords, EltTy.bits .f32 = 32 ∨ (Rect.block (s := S256x256) S256x256.size (cc2_transform_12 i) (hinb2_12 i)).WholeWords (EltTy.packing .f32)
  hstage2_13 : ∀ j, (stage2_13 j).IsWhole
  nbuf2_13 : grid2.bufCount reads2_13 true = 1
  hreads2_13 : ∀ i i' : grid2.Coords, (∀ a, reads2_13 a = true → i a = i' a) → cc2_transform_13 i = cc2_transform_13 i'
  hinb2_13 : ∀ (i : grid2.Coords) a, (cc2_transform_13 i a + 1) * S1x256.size a ≤ S1x256.size a
  hwx2_13 : ∀ i : grid2.Coords, EltTy.bits .f32 = 32 ∨ (Rect.block (s := S1x256) S1x256.size (cc2_transform_13 i) (hinb2_13 i)).WholeWords (EltTy.packing .f32)
  hstage2_14 : ∀ j, (stage2_14 j).IsWhole
  nbuf2_14 : grid2.bufCount reads2_14 true = 1
  hreads2_14 : ∀ i i' : grid2.Coords, (∀ a, reads2_14 a = true → i a = i' a) → cc2_transform_14 i = cc2_transform_14 i'
  hinb2_14 : ∀ (i : grid2.Coords) a, (cc2_transform_14 i a + 1) * S256x256.size a ≤ S256x256.size a
  hwx2_14 : ∀ i : grid2.Coords, EltTy.bits .f32 = 32 ∨ (Rect.block (s := S256x256) S256x256.size (cc2_transform_14 i) (hinb2_14 i)).WholeWords (EltTy.packing .f32)
  hstage2_15 : ∀ j, (stage2_15 j).IsWhole
  nbuf2_15 : grid2.bufCount reads2_15 true = 1
  hreads2_15 : ∀ i i' : grid2.Coords, (∀ a, reads2_15 a = true → i a = i' a) → cc2_transform_15 i = cc2_transform_15 i'
  hinb2_15 : ∀ (i : grid2.Coords) a, (cc2_transform_15 i a + 1) * S1x256.size a ≤ S1x256.size a
  hwx2_15 : ∀ i : grid2.Coords, EltTy.bits .f32 = 32 ∨ (Rect.block (s := S1x256) S1x256.size (cc2_transform_15 i) (hinb2_15 i)).WholeWords (EltTy.packing .f32)
  hstage2_16 : ∀ j, (stage2_16 j).IsWhole
  nbuf2_16 : grid2.bufCount reads2_16 false = 2
  hreads2_16 : ∀ i i' : grid2.Coords, (∀ a, reads2_16 a = true → i a = i' a) → cc2_transform_16 i = cc2_transform_16 i'
  hinb2_16 : ∀ (i : grid2.Coords) a, (cc2_transform_16 i a + 1) * S2048x256.size a ≤ S65536x256.size a
  hwx2_16 : ∀ i : grid2.Coords, EltTy.bits .f32 = 32 ∨ (Rect.block (s := S65536x256) S2048x256.size (cc2_transform_16 i) (hinb2_16 i)).WholeWords (EltTy.packing .f32)
  hstage2_17 : ∀ j, (stage2_17 j).IsWhole
  nbuf2_17 : grid2.bufCount reads2_17 false = 2
  hreads2_17 : ∀ i i' : grid2.Coords, (∀ a, reads2_17 a = true → i a = i' a) → cc2_transform_17 i = cc2_transform_17 i'
  hinb2_17 : ∀ (i : grid2.Coords) a, (cc2_transform_17 i a + 1) * S2048x256.size a ≤ S65536x256.size a
  hwx2_17 : ∀ i : grid2.Coords, EltTy.bits .f32 = 32 ∨ (Rect.block (s := S65536x256) S2048x256.size (cc2_transform_17 i) (hinb2_17 i)).WholeWords (EltTy.packing .f32)
  hstage2_18 : ∀ j, (stage2_18 j).IsWhole
  nbuf2_18 : grid2.bufCount reads2_18 false = 2
  hreads2_18 : ∀ i i' : grid2.Coords, (∀ a, reads2_18 a = true → i a = i' a) → cc2_transform_18 i = cc2_transform_18 i'
  hinb2_18 : ∀ (i : grid2.Coords) a, (cc2_transform_18 i a + 1) * S8x256.size a ≤ S16x256.size a
  hwx2_18 : ∀ i : grid2.Coords, EltTy.bits .f32 = 32 ∨ (Rect.block (s := S16x256) S8x256.size (cc2_transform_18 i) (hinb2_18 i)).WholeWords (EltTy.packing .f32)
  hstage2_19 : ∀ j, (stage2_19 j).IsWhole
  nbuf2_19 : grid2.bufCount reads2_19 false = 2
  hreads2_19 : ∀ i i' : grid2.Coords, (∀ a, reads2_19 a = true → i a = i' a) → cc2_transform_19 i = cc2_transform_19 i'
  hinb2_19 : ∀ (i : grid2.Coords) a, (cc2_transform_19 i a + 1) * S8x256.size a ≤ S16x256.size a
  hwx2_19 : ∀ i : grid2.Coords, EltTy.bits .f32 = 32 ∨ (Rect.block (s := S16x256) S8x256.size (cc2_transform_19 i) (hinb2_19 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x256.size a ≤ S65536x256.size a
  hwx3_0 : ∀ i : grid3.Coords, EltTy.bits .f32 = 32 ∨ (Rect.block (s := S65536x256) S2048x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x256.size a ≤ S1x256.size a
  hwx3_4 : ∀ i : grid3.Coords, EltTy.bits .f32 = 32 ∨ (Rect.block (s := S1x256) S1x256.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2048x256.size a ≤ S65536x256.size a
  hwx3_5 : ∀ i : grid3.Coords, EltTy.bits .f32 = 32 ∨ (Rect.block (s := S65536x256) S2048x256.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2048x256.size a ≤ S65536x256.size a
  hwx3_6 : ∀ i : grid3.Coords, EltTy.bits .f32 = 32 ∨ (Rect.block (s := S65536x256) S2048x256.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S256x256.size a ≤ S256x256.size a
  hwx3_7 : ∀ i : grid3.Coords, EltTy.bits .f32 = 32 ∨ (Rect.block (s := S256x256) S256x256.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S1x256.size a ≤ S1x256.size a
  hwx3_8 : ∀ i : grid3.Coords, EltTy.bits .f32 = 32 ∨ (Rect.block (s := S1x256) S1x256.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S256x1.size a ≤ S256x1.size a
  hwx3_9 : ∀ i : grid3.Coords, EltTy.bits .f32 = 32 ∨ (Rect.block (s := S256x1) S256x1.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S1x1.size a ≤ S1x1.size a
  hwx3_10 : ∀ i : grid3.Coords, EltTy.bits .f32 = 32 ∨ (Rect.block (s := S1x1) S1x1.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S2048x256.size a ≤ S65536x256.size a
  hwx3_11 : ∀ i : grid3.Coords, EltTy.bits .f32 = 32 ∨ (Rect.block (s := S65536x256) S2048x256.size (cc3_transform_11 i) (hinb3_11 i)).WholeWords (EltTy.packing .f32)
  hstage3_12 : ∀ j, (stage3_12 j).IsWhole
  nbuf3_12 : grid3.bufCount reads3_12 false = 2
  hreads3_12 : ∀ i i' : grid3.Coords, (∀ a, reads3_12 a = true → i a = i' a) → cc3_transform_12 i = cc3_transform_12 i'
  hinb3_12 : ∀ (i : grid3.Coords) a, (cc3_transform_12 i a + 1) * S2048x256.size a ≤ S65536x256.size a
  hwx3_12 : ∀ i : grid3.Coords, EltTy.bits .f32 = 32 ∨ (Rect.block (s := S65536x256) S2048x256.size (cc3_transform_12 i) (hinb3_12 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x1_S2048x1_1_0_0_1_n_n : DotDims S2048x256 S256x1 S2048x1 where
  lhsContracting := [1]
  rhsContracting := [0]
  lhsNonContracting := [0]
  rhsNonContracting := [1]
  lhsBatch := []
  rhsBatch := []
  wf := dot_S2048x256_S256x1_S2048x1_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14_0) S2048x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v14_1) S2048x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v14_2) S8x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v14_3) S8x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v14_1) S2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v2) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v29_0) S2048x256.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v29_1) S2048x256.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v29_2) S8x256.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v29_3) S8x256.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v14_0) S2048x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29_1) S2048x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v37) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v9) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v10) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg2) S2048x256.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_arg3) S2048x256.size cc2_transform_7 reads2_7 false false 2 stage2_7 sem2_7
    hrank2 hreads2_7 hinb2_7 nbuf2_7 (Memref.isWhole_whole _) hwx2_7 hstage2_7

abbrev win2_8 : Pipeline.Window sig grid2 :=
  Pipeline.Window.ofSpec (Memref.whole main_arg14) S256x256.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v4) S1x256.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg16) S256x256.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v5) S1x256.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_arg10) S256x256.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v3) S1x256.size cc2_transform_13 reads2_13 false true 1 stage2_13 sem2_13
    hrank2 hreads2_13 hinb2_13 nbuf2_13 (Memref.isWhole_whole _) hwx2_13 hstage2_13

abbrev win2_14 : Pipeline.Window sig grid2 :=
  Pipeline.Window.ofSpec (Memref.whole main_arg8) S256x256.size cc2_transform_14 reads2_14 false true 1 stage2_14 sem2_14
    hrank2 hreads2_14 hinb2_14 nbuf2_14 (Memref.isWhole_whole _) hwx2_14 hstage2_14

abbrev win2_15 : Pipeline.Window sig grid2 :=
  Pipeline.Window.ofSpec (Memref.whole main_v2) S1x256.size cc2_transform_15 reads2_15 false true 1 stage2_15 sem2_15
    hrank2 hreads2_15 hinb2_15 nbuf2_15 (Memref.isWhole_whole _) hwx2_15 hstage2_15

abbrev win2_16 : Pipeline.Window sig grid2 :=
  Pipeline.Window.ofSpec (Memref.whole main_v44_0) S2048x256.size cc2_transform_16 reads2_16 true false 2 stage2_16 sem2_16
    hrank2 hreads2_16 hinb2_16 nbuf2_16 (Memref.isWhole_whole _) hwx2_16 hstage2_16

abbrev win2_17 : Pipeline.Window sig grid2 :=
  Pipeline.Window.ofSpec (Memref.whole main_v44_1) S2048x256.size cc2_transform_17 reads2_17 true false 2 stage2_17 sem2_17
    hrank2 hreads2_17 hinb2_17 nbuf2_17 (Memref.isWhole_whole _) hwx2_17 hstage2_17

abbrev win2_18 : Pipeline.Window sig grid2 :=
  Pipeline.Window.ofSpec (Memref.whole main_v44_2) S8x256.size cc2_transform_18 reads2_18 true false 2 stage2_18 sem2_18
    hrank2 hreads2_18 hinb2_18 nbuf2_18 (Memref.isWhole_whole _) hwx2_18 hstage2_18

abbrev win2_19 : Pipeline.Window sig grid2 :=
  Pipeline.Window.ofSpec (Memref.whole main_v44_3) S8x256.size cc2_transform_19 reads2_19 true false 2 stage2_19 sem2_19
    hrank2 hreads2_19 hinb2_19 nbuf2_19 (Memref.isWhole_whole _) hwx2_19 hstage2_19

abbrev win2 : Fin 20 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | 14 => win2_14 | 15 => win2_15 | 16 => win2_16 | 17 => win2_17 | 18 => win2_18 | 19 => win2_19 | ⟨_ + 20, h⟩ => absurd h (Nat.not_lt.2 (Nat.le_add_left _ _))
abbrev spec2 : Fin 20 → Pipeline.WinSpec sig grid2.rank := fun w => (win2 w).toWinSpec

abbrev win3_0 : Pipeline.Window sig grid3 :=
  Pipeline.Window.ofSpec (Memref.whole main_v44_1) S2048x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v58) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v11) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v12) S1x256.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v29_0) S2048x256.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v44_0) S2048x256.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_arg18) S256x256.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v6) S1x256.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_arg12) S256x1.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v13) S1x1.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v59_0) S2048x256.size cc3_transform_11 reads3_11 true false 2 stage3_11 sem3_11
    hrank3 hreads3_11 hinb3_11 nbuf3_11 (Memref.isWhole_whole _) hwx3_11 hstage3_11

abbrev win3_12 : Pipeline.Window sig grid3 :=
  Pipeline.Window.ofSpec (Memref.whole main_v59_1) S2048x256.size cc3_transform_12 reads3_12 true false 2 stage3_12 sem3_12
    hrank3 hreads3_12 hinb3_12 nbuf3_12 (Memref.isWhole_whole _) hwx3_12 hstage3_12

abbrev win3 : Fin 13 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | ⟨_ + 13, h⟩ => absurd h (Nat.not_lt.2 (Nat.le_add_left _ _))
abbrev spec3 : Fin 13 → Pipeline.WinSpec sig grid3.rank := fun w => (win3 w).toWinSpec

class Facts : Prop extends Facts₀ where

variable [Facts]
-- ==== ReferenceIdeal.lean ====
abbrev S65536x256 : Shape := ⟨2, ![65536, 256]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x256 : Shape := ⟨2, ![1, 256]⟩
abbrev S_ : Shape := ⟨0, ![]⟩
abbrev S65536x1 : Shape := ⟨2, ![65536, 1]⟩
abbrev S1x1 : Shape := ⟨2, ![1, 1]⟩

abbrev nBuf : Space → Nat
  | .hbm => 251
  | .vmem => 0
  | .smem => 0
  | _ => 0

abbrev hbmTy0_0 (i : Nat) : BufTy := match i % 128 with
  | 0 => ⟨S65536x256, .f32⟩
  | 1 => ⟨S65536x256, .f32⟩
  | 2 => ⟨S65536x256, .f32⟩
  | 3 => ⟨S65536x256, .f32⟩
  | 4 => ⟨S256x256, .f32⟩
  | 5 => ⟨S256, .f32⟩
  | 6 => ⟨S256x256, .f32⟩
  | 7 => ⟨S256, .f32⟩
  | 8 => ⟨S256x256, .f32⟩
  | 9 => ⟨S256, .f32⟩
  | 10 => ⟨S256x256, .f32⟩
  | 11 => ⟨S256, .f32⟩
  | 12 => ⟨S256x1, .f32⟩
  | 13 => ⟨S1, .f32⟩
  | 14 => ⟨S256x256, .f32⟩
  | 15 => ⟨S256, .f32⟩
  | 16 => ⟨S256x256, .f32⟩
  | 17 => ⟨S256, .f32⟩
  | 18 => ⟨S256x256, .f32⟩
  | 19 => ⟨S256, .f32⟩
  | 20 => ⟨S256, .f32⟩
  | 21 => ⟨S256, .f32⟩
  | 22 => ⟨S256, .f32⟩
  | 23 => ⟨S256, .f32⟩
  | 24 => ⟨S256, .f32⟩
  | 25 => ⟨S256, .f32⟩
  | 26 => ⟨S65536x256, .f32⟩
  | 27 => ⟨S1x256, .f32⟩
  | 28 => ⟨S65536x256, .f32⟩
  | 29 => ⟨S65536x256, .f32⟩
  | 30 => ⟨S65536x256, .f32⟩
  | 31 => ⟨S65536x256, .f32⟩
  | 32 => ⟨S1x256, .f32⟩
  | 33 => ⟨S65536x256, .f32⟩
  | 34 => ⟨S65536x256, .f32⟩
  | 35 => ⟨S_, .f32⟩
  | 36 => ⟨S256, .f32⟩
  | 37 => ⟨S_, .f32⟩
  | 38 => ⟨S256, .f32⟩
  | 39 => ⟨S256, .f32⟩
  | 40 => ⟨S_, .i32⟩
  | 41 => ⟨S_, .f32⟩
  | 42 => ⟨S256, .f32⟩
  | 43 => ⟨S1x256, .f32⟩
  | 44 => ⟨S_, .f32⟩
  | 45 => ⟨S1x256, .f32⟩
  | 46 => ⟨S1x256, .f32⟩
  | 47 => ⟨S65536x256, .f32⟩
  | 48 => ⟨S65536x256, .f32⟩
  | 49 => ⟨S65536x256, .f32⟩
  | 50 => ⟨S_, .f32⟩
  | 51 => ⟨S_, .f32⟩
  | 52 => ⟨S_, .f32⟩
  | 53 => ⟨S_, .f32⟩
  | 54 => ⟨S256, .f32⟩
  | 55 => ⟨S256, .f32⟩
  | 56 => ⟨S256, .f32⟩
  | 57 => ⟨S_, .f32⟩
  | 58 => ⟨S_, .i1⟩
  | 59 => ⟨S_, .f32⟩
  | 60 => ⟨S_, .f32⟩
  | 61 => ⟨S256, .f32⟩
  | 62 => ⟨S256, .f32⟩
  | 63 => ⟨S1x256, .f32⟩
  | 64 => ⟨S65536x256, .f32⟩
  | 65 => ⟨S65536x256, .f32⟩
  | 66 => ⟨S_, .f32⟩
  | 67 => ⟨S256, .f32⟩
  | 68 => ⟨S256, .f32⟩
  | 69 => ⟨S256, .f32⟩
  | 70 => ⟨S1x256, .f32⟩
  | 71 => ⟨S65536x256, .f32⟩
  | 72 => ⟨S65536x256, .f32⟩
  | 73 => ⟨S1x256, .f32⟩
  | 74 => ⟨S65536x256, .f32⟩
  | 75 => ⟨S65536x256, .f32⟩
  | 76 => ⟨S1x256, .f32⟩
  | 77 => ⟨S65536x256, .f32⟩
  | 78 => ⟨S65536x256, .f32⟩
  | 79 => ⟨S_, .f32⟩
  | 80 => ⟨S65536x256, .f32⟩
  | 81 => ⟨S65536x256, .i1⟩
  | 82 => ⟨S_, .f32⟩
  | 83 => ⟨S65536x256, .f32⟩
  | 84 => ⟨S65536x256, .f32⟩
  | 85 => ⟨S65536x256, .f32⟩
  | 86 => ⟨S65536x256, .f32⟩
  | 87 => ⟨S1x256, .f32⟩
  | 88 => ⟨S65536x256, .f32⟩
  | 89 => ⟨S65536x256, .f32⟩
  | 90 => ⟨S_, .f32⟩
  | 91 => ⟨S256, .f32⟩
  | 92 => ⟨S_, .f32⟩
  | 93 => ⟨S256, .f32⟩
  | 94 => ⟨S256, .f32⟩
  | 95 => ⟨S_, .i32⟩
  | 96 => ⟨S_, .f32⟩
  | 97 => ⟨S256, .f32⟩
  | 98 => ⟨S1x256, .f32⟩
  | 99 => ⟨S_, .f32⟩
  | 100 => ⟨S1x256, .f32⟩
  | 101 => ⟨S1x256, .f32⟩
  | 102 => ⟨S65536x256, .f32⟩
  | 103 => ⟨S65536x256, .f32⟩
  | 104 => ⟨S65536x256, .f32⟩
  | 105 => ⟨S_, .f32⟩
  | 106 => ⟨S_, .f32⟩
  | 107 => ⟨S_, .f32⟩
  | 108 => ⟨S_, .f32⟩
  | 109 => ⟨S256, .f32⟩
  | 110 => ⟨S256, .f32⟩
  | 111 => ⟨S256, .f32⟩
  | 112 => ⟨S_, .f32⟩
  | 113 => ⟨S_, .i1⟩
  | 114 => ⟨S_, .f32⟩
  | 115 => ⟨S_, .f32⟩
  | 116 => ⟨S256, .f32⟩
  | 117 => ⟨S256, .f32⟩
  | 118 => ⟨S1x256, .f32⟩
  | 119 => ⟨S65536x256, .f32⟩
  | 120 => ⟨S65536x256, .f32⟩
  | 121 => ⟨S_, .f32⟩
  | 122 => ⟨S256, .f32⟩
  | 123 => ⟨S256, .f32⟩
  | 124 => ⟨S256, .f32⟩
  | 125 => ⟨S1x256, .f32⟩
  | 126 => ⟨S65536x256, .f32⟩
  | 127 => ⟨S65536x256, .f32⟩
  | _ => ⟨S65536x256, .f32⟩

abbrev hbmTy0_1 (i : Nat) : BufTy := match i % 128 with
  | 0 => ⟨S1x256, .f32⟩
  | 1 => ⟨S65536x256, .f32⟩
  | 2 => ⟨S65536x256, .f32⟩
  | 3 => ⟨S1x256, .f32⟩
  | 4 => ⟨S65536x256, .f32⟩
  | 5 => ⟨S65536x256, .f32⟩
  | 6 => ⟨S_, .f32⟩
  | 7 => ⟨S65536x256, .f32⟩
  | 8 => ⟨S65536x256, .i1⟩
  | 9 => ⟨S_, .f32⟩
  | 10 => ⟨S65536x256, .f32⟩
  | 11 => ⟨S65536x256, .f32⟩
  | 12 => ⟨S65536x256, .f32⟩
  | 13 => ⟨S65536x256, .f32⟩
  | 14 => ⟨S1x256, .f32⟩
  | 15 => ⟨S65536x256, .f32⟩
  | 16 => ⟨S65536x256, .f32⟩
  | 17 => ⟨S65536x256, .f32⟩
  | 18 => ⟨S65536x256, .f32⟩
  | 19 => ⟨S_, .f32⟩
  | 20 => ⟨S65536x256, .f32⟩
  | 21 => ⟨S65536x256, .f32⟩
  | 22 => ⟨S_, .f32⟩
  | 23 => ⟨S65536x256, .f32⟩
  | 24 => ⟨S65536x256, .f32⟩
  | 25 => ⟨S65536x256, .f32⟩
  | 26 => ⟨S1x256, .f32⟩
  | 27 => ⟨S65536x256, .f32⟩
  | 28 => ⟨S65536x256, .f32⟩
  | 29 => ⟨S65536x256, .f32⟩
  | 30 => ⟨S65536x256, .f32⟩
  | 31 => ⟨S_, .f32⟩
  | 32 => ⟨S65536x256, .f32⟩
  | 33 => ⟨S65536x256, .f32⟩
  | 34 => ⟨S_, .f32⟩
  | 35 => ⟨S65536x256, .f32⟩
  | 36 => ⟨S65536x256, .f32⟩
  | 37 => ⟨S65536x256, .f32⟩
  | 38 => ⟨S_, .f32⟩
  | 39 => ⟨S65536x256, .f32⟩
  | 40 => ⟨S65536x256, .f32⟩
  | 41 => ⟨S65536x256, .f32⟩
  | 42 => ⟨S1x256, .f32⟩
  | 43 => ⟨S65536x256, .f32⟩
  | 44 => ⟨S65536x256, .f32⟩
  | 45 => ⟨S65536x256, .f32⟩
  | 46 => ⟨S65536x256, .f32⟩
  | 47 => ⟨S65536x256, .f32⟩
  | 48 => ⟨S65536x256, .f32⟩
  | 49 => ⟨S1x256, .f32⟩
  | 50 => ⟨S65536x256, .f32⟩
  | 51 => ⟨S65536x256, .f32⟩
  | 52 => ⟨S_, .f32⟩
  | 53 => ⟨S256, .f32⟩
  | 54 => ⟨S_, .f32⟩
  | 55 => ⟨S256, .f32⟩
  | 56 => ⟨S256, .f32⟩
  | 57 => ⟨S_, .i32⟩
  | 58 => ⟨S_, .f32⟩
  | 59 => ⟨S256, .f32⟩
  | 60 => ⟨S1x256, .f32⟩
  | 61 => ⟨S_, .f32⟩
  | 62 => ⟨S1x256, .f32⟩
  | 63 => ⟨S1x256, .f32⟩
  | 64 => ⟨S65536x256, .f32⟩
  | 65 => ⟨S65536x256, .f32⟩
  | 66 => ⟨S65536x256, .f32⟩
  | 67 => ⟨S_, .f32⟩
  | 68 => ⟨S_, .f32⟩
  | 69 => ⟨S_, .f32⟩
  | 70 => ⟨S_, .f32⟩
  | 71 => ⟨S256, .f32⟩
  | 72 => ⟨S256, .f32⟩
  | 73 => ⟨S256, .f32⟩
  | 74 => ⟨S_, .f32⟩
  | 75 => ⟨S_, .i1⟩
  | 76 => ⟨S_, .f32⟩
  | 77 => ⟨S_, .f32⟩
  | 78 => ⟨S256, .f32⟩
  | 79 => ⟨S256, .f32⟩
  | 80 => ⟨S1x256, .f32⟩
  | 81 => ⟨S65536x256, .f32⟩
  | 82 => ⟨S65536x256, .f32⟩
  | 83 => ⟨S_, .f32⟩
  | 84 => ⟨S256, .f32⟩
  | 85 => ⟨S256, .f32⟩
  | 86 => ⟨S256, .f32⟩
  | 87 => ⟨S1x256, .f32⟩
  | 88 => ⟨S65536x256, .f32⟩
  | 89 => ⟨S65536x256, .f32⟩
  | 90 => ⟨S1x256, .f32⟩
  | 91 => ⟨S65536x256, .f32⟩
  | 92 => ⟨S65536x256, .f32⟩
  | 93 => ⟨S1x256, .f32⟩
  | 94 => ⟨S65536x256, .f32⟩
  | 95 => ⟨S65536x256, .f32⟩
  | 96 => ⟨S_, .f32⟩
  | 97 => ⟨S65536x256, .f32⟩
  | 98 => ⟨S65536x256, .i1⟩
  | 99 => ⟨S_, .f32⟩
  | 100 => ⟨S65536x256, .f32⟩
  | 101 => ⟨S65536x256, .f32⟩
  | 102 => ⟨S65536x256, .f32⟩
  | 103 => ⟨S65536x256, .f32⟩
  | 104 => ⟨S1x256, .f32⟩
  | 105 => ⟨S65536x256, .f32⟩
  | 106 => ⟨S65536x256, .f32⟩
  | 107 => ⟨S65536x256, .f32⟩
  | 108 => ⟨S65536x256, .f32⟩
  | 109 => ⟨S_, .f32⟩
  | 110 => ⟨S65536x256, .f32⟩
  | 111 => ⟨S65536x256, .f32⟩
  | 112 => ⟨S_, .f32⟩
  | 113 => ⟨S65536x256, .f32⟩
  | 114 => ⟨S65536x256, .f32⟩
  | 115 => ⟨S65536x256, .f32⟩
  | 116 => ⟨S65536x256, .f32⟩
  | 117 => ⟨S65536x1, .f32⟩
  | 118 => ⟨S1x1, .f32⟩
  | 119 => ⟨S65536x1, .f32⟩
  | 120 => ⟨S65536x1, .f32⟩
  | 121 => ⟨S65536x256, .f32⟩
  | 122 => ⟨S65536x256, .f32⟩
  | _ => ⟨S65536x256, .f32⟩

abbrev hbmTy (i : Nat) : BufTy := match i / 128 with
  | 0 => hbmTy0_0 i
  | 1 => hbmTy0_1 i
  | _ => ⟨S65536x256, .f32⟩

abbrev bufTy : (tb : Table) → Fin (tcTables nBuf tb) → BufTy
  | .hbm, ⟨i, _⟩ => hbmTy i
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_cst : Ref sig .tc := ⟨.hbm, 35, rfl⟩
abbrev main_v9 : Ref sig .tc := ⟨.hbm, 36, rfl⟩
abbrev main_cst_0 : Ref sig .tc := ⟨.hbm, 37, rfl⟩
abbrev main_v10 : Ref sig .tc := ⟨.hbm, 38, rfl⟩
abbrev main_v11 : Ref sig .tc := ⟨.hbm, 39, rfl⟩
abbrev main_c : Ref sig .tc := ⟨.hbm, 40, rfl⟩
abbrev main_call0_cst : Ref sig .tc := ⟨.hbm, 41, rfl⟩
abbrev main_call0_v0 : Ref sig .tc := ⟨.hbm, 42, rfl⟩
abbrev main_call0_v1 : Ref sig .tc := ⟨.hbm, 43, rfl⟩
abbrev main_call0_cst_0 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_v6 : Ref sig .tc := ⟨.hbm, 49, rfl⟩
abbrev main_call0_v7 : Ref sig .tc := ⟨.hbm, 50, rfl⟩
abbrev main_call0_cst_1 : Ref sig .tc := ⟨.hbm, 51, rfl⟩
abbrev main_call0_v8 : Ref sig .tc := ⟨.hbm, 52, rfl⟩
abbrev main_call0_cst_2 : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_cst_3 : Ref sig .tc := ⟨.hbm, 57, rfl⟩
abbrev main_call0_v12 : Ref sig .tc := ⟨.hbm, 58, rfl⟩
abbrev main_call0_cst_4 : Ref sig .tc := ⟨.hbm, 59, rfl⟩
abbrev main_call0_call0_v0 : Ref sig .tc := ⟨.hbm, 60, rfl⟩
abbrev main_call0_call0_v1 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_cst_1 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_cst_2 : Ref sig .tc := ⟨.hbm, 79, rfl⟩
abbrev main_v28 : Ref sig .tc := ⟨.hbm, 80, rfl⟩
abbrev main_v29 : Ref sig .tc := ⟨.hbm, 81, rfl⟩
abbrev main_cst_3 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_cst_4 : Ref sig .tc := ⟨.hbm, 90, rfl⟩
abbrev main_v37 : Ref sig .tc := ⟨.hbm, 91, rfl⟩
abbrev main_cst_5 : Ref sig .tc := ⟨.hbm, 92, rfl⟩
abbrev main_v38 : Ref sig .tc := ⟨.hbm, 93, rfl⟩
abbrev main_v39 : Ref sig .tc := ⟨.hbm, 94, rfl⟩
abbrev main_c_6 : Ref sig .tc := ⟨.hbm, 95, rfl⟩
abbrev main_call2_cst : Ref sig .tc := ⟨.hbm, 96, rfl⟩
abbrev main_call2_v0 : Ref sig .tc := ⟨.hbm, 97, rfl⟩
abbrev main_call2_v1 : Ref sig .tc := ⟨.hbm, 98, rfl⟩
abbrev main_call2_cst_0 : Ref sig .tc := ⟨.hbm, 99, rfl⟩
abbrev main_call2_v2 : Ref sig .tc := ⟨.hbm, 100, rfl⟩
abbrev main_call2_v3 : Ref sig .tc := ⟨.hbm, 101, rfl⟩
abbrev main_call2_v4 : Ref sig .tc := ⟨.hbm, 102, rfl⟩
abbrev main_call2_v5 : Ref sig .tc := ⟨.hbm, 103, rfl⟩
abbrev main_call2_v6 : Ref sig .tc := ⟨.hbm, 104, rfl⟩
abbrev main_call2_v7 : Ref sig .tc := ⟨.hbm, 105, rfl⟩
abbrev main_call2_cst_1 : Ref sig .tc := ⟨.hbm, 106, rfl⟩
abbrev main_call2_v8 : Ref sig .tc := ⟨.hbm, 107, rfl⟩
abbrev main_call2_cst_2 : Ref sig .tc := ⟨.hbm, 108, rfl⟩
abbrev main_call2_v9 : Ref sig .tc := ⟨.hbm, 109, rfl⟩
abbrev main_call2_v10 : Ref sig .tc := ⟨.hbm, 110, rfl⟩
abbrev main_call2_v11 : Ref sig .tc := ⟨.hbm, 111, rfl⟩
abbrev main_call2_cst_3 : Ref sig .tc := ⟨.hbm, 112, rfl⟩
abbrev main_call2_v12 : Ref sig .tc := ⟨.hbm, 113, rfl⟩
abbrev main_call2_cst_4 : Ref sig .tc := ⟨.hbm, 114, rfl⟩
abbrev main_call2_call0_v0 : Ref sig .tc := ⟨.hbm, 115, rfl⟩
abbrev main_call2_call0_v1 : Ref sig .tc := ⟨.hbm, 116, rfl⟩
abbrev main_v40 : Ref sig .tc := ⟨.hbm, 117, rfl⟩
abbrev main_v41 : Ref sig .tc := ⟨.hbm, 118, rfl⟩
abbrev main_v42 : Ref sig .tc := ⟨.hbm, 119, rfl⟩
abbrev main_v43 : Ref sig .tc := ⟨.hbm, 120, rfl⟩
abbrev main_cst_7 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩
abbrev main_v50 : Ref sig .tc := ⟨.hbm, 128, rfl⟩
abbrev main_v51 : Ref sig .tc := ⟨.hbm, 129, rfl⟩
abbrev main_v52 : Ref sig .tc := ⟨.hbm, 130, rfl⟩
abbrev main_v53 : Ref sig .tc := ⟨.hbm, 131, rfl⟩
abbrev main_v54 : Ref sig .tc := ⟨.hbm, 132, rfl⟩
abbrev main_v55 : Ref sig .tc := ⟨.hbm, 133, rfl⟩
abbrev main_cst_8 : Ref sig .tc := ⟨.hbm, 134, rfl⟩
abbrev main_v56 : Ref sig .tc := ⟨.hbm, 135, rfl⟩
abbrev main_v57 : Ref sig .tc := ⟨.hbm, 136, rfl⟩
abbrev main_cst_9 : Ref sig .tc := ⟨.hbm, 137, rfl⟩
abbrev main_v58 : Ref sig .tc := ⟨.hbm, 138, rfl⟩
abbrev main_v59 : Ref sig .tc := ⟨.hbm, 139, rfl⟩
abbrev main_v60 : Ref sig .tc := ⟨.hbm, 140, rfl⟩
abbrev main_v61 : Ref sig .tc := ⟨.hbm, 141, rfl⟩
abbrev main_v62 : Ref sig .tc := ⟨.hbm, 142, rfl⟩
abbrev main_v63 : Ref sig .tc := ⟨.hbm, 143, rfl⟩
abbrev main_v64 : Ref sig .tc := ⟨.hbm, 144, rfl⟩
abbrev main_v65 : Ref sig .tc := ⟨.hbm, 145, rfl⟩
abbrev main_v66 : Ref sig .tc := ⟨.hbm, 146, rfl⟩
abbrev main_cst_10 : Ref sig .tc := ⟨.hbm, 147, rfl⟩
abbrev main_v67 : Ref sig .tc := ⟨.hbm, 148, rfl⟩
abbrev main_v68 : Ref sig .tc := ⟨.hbm, 149, rfl⟩
abbrev main_cst_11 : Ref sig .tc := ⟨.hbm, 150, rfl⟩
abbrev main_v69 : Ref sig .tc := ⟨.hbm, 151, rfl⟩
abbrev main_v70 : Ref sig .tc := ⟨.hbm, 152, rfl⟩
abbrev main_v71 : Ref sig .tc := ⟨.hbm, 153, rfl⟩
abbrev main_v72 : Ref sig .tc := ⟨.hbm, 154, rfl⟩
abbrev main_v73 : Ref sig .tc := ⟨.hbm, 155, rfl⟩
abbrev main_v74 : Ref sig .tc := ⟨.hbm, 156, rfl⟩
abbrev main_v75 : Ref sig .tc := ⟨.hbm, 157, rfl⟩
abbrev main_v76 : Ref sig .tc := ⟨.hbm, 158, rfl⟩
abbrev main_cst_12 : Ref sig .tc := ⟨.hbm, 159, rfl⟩
abbrev main_v77 : Ref sig .tc := ⟨.hbm, 160, rfl⟩
abbrev main_v78 : Ref sig .tc := ⟨.hbm, 161, rfl⟩
abbrev main_cst_13 : Ref sig .tc := ⟨.hbm, 162, rfl⟩
abbrev main_v79 : Ref sig .tc := ⟨.hbm, 163, rfl⟩
abbrev main_v80 : Ref sig .tc := ⟨.hbm, 164, rfl⟩
abbrev main_v81 : Ref sig .tc := ⟨.hbm, 165, rfl⟩
abbrev main_cst_14 : Ref sig .tc := ⟨.hbm, 166, rfl⟩
abbrev main_v82 : Ref sig .tc := ⟨.hbm, 167, rfl⟩
abbrev main_v83 : Ref sig .tc := ⟨.hbm, 168, rfl⟩
abbrev main_v84 : Ref sig .tc := ⟨.hbm, 169, rfl⟩
abbrev main_v85 : Ref sig .tc := ⟨.hbm, 170, rfl⟩
abbrev main_v86 : Ref sig .tc := ⟨.hbm, 171, rfl⟩
abbrev main_v87 : Ref sig .tc := ⟨.hbm, 172, rfl⟩
abbrev main_v88 : Ref sig .tc := ⟨.hbm, 173, rfl⟩
abbrev main_v89 : Ref sig .tc := ⟨.hbm, 174, rfl⟩
abbrev main_v90 : Ref sig .tc := ⟨.hbm, 175, rfl⟩
abbrev main_v91 : Ref sig .tc := ⟨.hbm, 176, rfl⟩
abbrev main_v92 : Ref sig .tc := ⟨.hbm, 177, rfl⟩
abbrev main_v93 : Ref sig .tc := ⟨.hbm, 178, rfl⟩
abbrev main_v94 : Ref sig .tc := ⟨.hbm, 179, rfl⟩
abbrev main_cst_15 : Ref sig .tc := ⟨.hbm, 180, rfl⟩
abbrev main_v95 : Ref sig .tc := ⟨.hbm, 181, rfl⟩
abbrev main_cst_16 : Ref sig .tc := ⟨.hbm, 182, rfl⟩
abbrev main_v96 : Ref sig .tc := ⟨.hbm, 183, rfl⟩
abbrev main_v97 : Ref sig .tc := ⟨.hbm, 184, rfl⟩
abbrev main_c_17 : Ref sig .tc := ⟨.hbm, 185, rfl⟩
abbrev main_call4_cst : Ref sig .tc := ⟨.hbm, 186, rfl⟩
abbrev main_call4_v0 : Ref sig .tc := ⟨.hbm, 187, rfl⟩
abbrev main_call4_v1 : Ref sig .tc := ⟨.hbm, 188, rfl⟩
abbrev main_call4_cst_0 : Ref sig .tc := ⟨.hbm, 189, rfl⟩
abbrev main_call4_v2 : Ref sig .tc := ⟨.hbm, 190, rfl⟩
abbrev main_call4_v3 : Ref sig .tc := ⟨.hbm, 191, rfl⟩
abbrev main_call4_v4 : Ref sig .tc := ⟨.hbm, 192, rfl⟩
abbrev main_call4_v5 : Ref sig .tc := ⟨.hbm, 193, rfl⟩
abbrev main_call4_v6 : Ref sig .tc := ⟨.hbm, 194, rfl⟩
abbrev main_call4_v7 : Ref sig .tc := ⟨.hbm, 195, rfl⟩
abbrev main_call4_cst_1 : Ref sig .tc := ⟨.hbm, 196, rfl⟩
abbrev main_call4_v8 : Ref sig .tc := ⟨.hbm, 197, rfl⟩
abbrev main_call4_cst_2 : Ref sig .tc := ⟨.hbm, 198, rfl⟩
abbrev main_call4_v9 : Ref sig .tc := ⟨.hbm, 199, rfl⟩
abbrev main_call4_v10 : Ref sig .tc := ⟨.hbm, 200, rfl⟩
abbrev main_call4_v11 : Ref sig .tc := ⟨.hbm, 201, rfl⟩
abbrev main_call4_cst_3 : Ref sig .tc := ⟨.hbm, 202, rfl⟩
abbrev main_call4_v12 : Ref sig .tc := ⟨.hbm, 203, rfl⟩
abbrev main_call4_cst_4 : Ref sig .tc := ⟨.hbm, 204, rfl⟩
abbrev main_call4_call0_v0 : Ref sig .tc := ⟨.hbm, 205, rfl⟩
abbrev main_call4_call0_v1 : Ref sig .tc := ⟨.hbm, 206, rfl⟩
abbrev main_v98 : Ref sig .tc := ⟨.hbm, 207, rfl⟩
abbrev main_v99 : Ref sig .tc := ⟨.hbm, 208, rfl⟩
abbrev main_v100 : Ref sig .tc := ⟨.hbm, 209, rfl⟩
abbrev main_v101 : Ref sig .tc := ⟨.hbm, 210, rfl⟩
abbrev main_cst_18 : Ref sig .tc := ⟨.hbm, 211, rfl⟩
abbrev main_v102 : Ref sig .tc := ⟨.hbm, 212, rfl⟩
abbrev main_v103 : Ref sig .tc := ⟨.hbm, 213, rfl⟩
abbrev main_v104 : Ref sig .tc := ⟨.hbm, 214, rfl⟩
abbrev main_v105 : Ref sig .tc := ⟨.hbm, 215, rfl⟩
abbrev main_v106 : Ref sig .tc := ⟨.hbm, 216, rfl⟩
abbrev main_v107 : Ref sig .tc := ⟨.hbm, 217, rfl⟩
abbrev main_v108 : Ref sig .tc := ⟨.hbm, 218, rfl⟩
abbrev main_v109 : Ref sig .tc := ⟨.hbm, 219, rfl⟩
abbrev main_v110 : Ref sig .tc := ⟨.hbm, 220, rfl⟩
abbrev main_v111 : Ref sig .tc := ⟨.hbm, 221, rfl⟩
abbrev main_v112 : Ref sig .tc := ⟨.hbm, 222, rfl⟩
abbrev main_v113 : Ref sig .tc := ⟨.hbm, 223, rfl⟩
abbrev main_cst_19 : Ref sig .tc := ⟨.hbm, 224, rfl⟩
abbrev main_v114 : Ref sig .tc := ⟨.hbm, 225, rfl⟩
abbrev main_v115 : Ref sig .tc := ⟨.hbm, 226, rfl⟩
abbrev main_cst_20 : Ref sig .tc := ⟨.hbm, 227, rfl⟩
abbrev main_v116 : Ref sig .tc := ⟨.hbm, 228, rfl⟩
abbrev main_v117 : Ref sig .tc := ⟨.hbm, 229, rfl⟩
abbrev main_v118 : Ref sig .tc := ⟨.hbm, 230, rfl⟩
abbrev main_v119 : Ref sig .tc := ⟨.hbm, 231, rfl⟩
abbrev main_v120 : Ref sig .tc := ⟨.hbm, 232, rfl⟩
abbrev main_v121 : Ref sig .tc := ⟨.hbm, 233, rfl⟩
abbrev main_v122 : Ref sig .tc := ⟨.hbm, 234, rfl⟩
abbrev main_v123 : Ref sig .tc := ⟨.hbm, 235, rfl⟩
abbrev main_v124 : Ref sig .tc := ⟨.hbm, 236, rfl⟩
abbrev main_cst_21 : Ref sig .tc := ⟨.hbm, 237, rfl⟩
abbrev main_v125 : Ref sig .tc := ⟨.hbm, 238, rfl⟩
abbrev main_v126 : Ref sig .tc := ⟨.hbm, 239, rfl⟩
abbrev main_cst_22 : Ref sig .tc := ⟨.hbm, 240, rfl⟩
abbrev main_v127 : Ref sig .tc := ⟨.hbm, 241, rfl⟩
abbrev main_v128 : Ref sig .tc := ⟨.hbm, 242, rfl⟩
abbrev main_v129 : Ref sig .tc := ⟨.hbm, 243, rfl⟩
abbrev main_v130 : Ref sig .tc := ⟨.hbm, 244, rfl⟩
abbrev main_v131 : Ref sig .tc := ⟨.hbm, 245, rfl⟩
abbrev main_v132 : Ref sig .tc := ⟨.hbm, 246, rfl⟩
abbrev main_v133 : Ref sig .tc := ⟨.hbm, 247, rfl⟩
abbrev main_v134 : Ref sig .tc := ⟨.hbm, 248, rfl⟩
abbrev main_v135 : Ref sig .tc := ⟨.hbm, 249, rfl⟩
abbrev main_v136 : Ref sig .tc := ⟨.hbm, 250, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  reducesTo_S65536x256_S256_d0 : S65536x256.ReducesTo [0] S256
  h_S_ : 0 < S_.numel
  bcast_S_S256 : S_.BroadcastsInDim S256 (![] : Fin 0 → Fin S256.rank)
  bcast_S_S1x256 : S_.BroadcastsInDim S1x256 (![] : Fin 0 → Fin S1x256.rank)
  bcast_S_S65536x256 : S_.BroadcastsInDim S65536x256 (![] : Fin 0 → Fin S65536x256.rank)
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  bcast_S65536x1_S65536x256_0_1 : S65536x1.BroadcastsInDim S65536x256 (![0, 1] : Fin 2 → Fin S65536x256.rank)
  dot_S65536x256_S256x256_S65536x256_1_0_0_1_n_n_wf : DotDims.WF S65536x256 S256x256 S65536x256 [1] [0] [0] [1] [] []
  dot_S65536x256_S256x1_S65536x1_1_0_0_1_n_n_wf : DotDims.WF S65536x256 S256x1 S65536x1 [1] [0] [0] [1] [] []

variable [Facts₀]

def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def dot_S65536x256_S256x1_S65536x1_1_0_0_1_n_n : DotDims S65536x256 S256x1 S65536x1 where
  lhsContracting := [1]
  rhsContracting := [0]
  lhsNonContracting := [0]
  rhsNonContracting := [1]
  lhsBatch := []
  rhsBatch := []
  wf := dot_S65536x256_S256x1_S65536x1_1_0_0_1_n_n_wf

class Facts : Prop extends Facts₀ where

variable [Facts]
-- ==== Proof.KRun.lean ====
/-
  The kernel program's run with the final contents of its buffers kept.

  The program is four kernel launches among four stretches of host operations. Its buffer contents at every
  boundary are a fold from the launch memory: a stretch applies its operations, a launch replaces each of its
  output arrays by what its grid points wrote back and leaves every other buffer alone. The run below says that
  every weakly fair execution terminates without a fault with every unscoped buffer at the end of that fold;
  the values of the five results are then read off the fold, launch by launch.
-/
import proofs.«173010_j4303557230935_2_alg».proof.Proof.KernelIdealFrameP

set_option maxRecDepth 16384

noncomputable section

namespace Cert.KernelIdeal.KRun

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every unscoped buffer of every
    core ends at the last boundary's contents. -/
theorem run_W8 : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.KernelIdeal.KRun

end
-- ==== Proof.Spec.lean ====
/-
  The two programs as pure functions of the argument arrays, on the extended reals.

  A batch of 65536 rows of 256 features goes through three stages, each of the form "affine maps of the rows,
  then a normalisation of every column by that column's batch statistics, then a leaky rectifier":
    z₁ = (X·Wx + bx) + (P·Wh + bh),            a₁ = act (norm z₁),
    z₂ = a₁·WLC + bLC,                          a₂ = act (norm z₂),
    z₃ = σ(C·Wf + bf) ⊙ S + (σ(u·Wi + bi)·0.1) ⊙ (a₂·WLC + bLC) + (u·WC + bC),   a₃ = act (norm z₃),
    p  = σ(a₃·Wo + bo) ⊙ ((a₁ + a₂ + a₃)·WP + bP),
  where u = X·Wx + bx, norm z = ((z − μ)·rsqrt(v + ε))·γ + β with μ the column mean, and the results are
  a₁, a₂, a₃, p, z₃. The two programs differ in two ways only: in how sums of three or four terms are grouped,
  and in the column variance v — one takes the mean of the squared deviations, the other the mean of the squares
  minus the square of the mean, clamped below at 0. Both forms are stated here; that they agree for real-valued
  data is proved elsewhere.
-/
import Mathlib.Data.EReal.Inv
import Mathlib.Algebra.BigOperators.Fin
import Idealize.ShloMosaic.PureOps.Ideal
import Idealize.ShloMosaic.Lib.ValueIdx

noncomputable section

namespace Cert.Spec

open Idealize.ShloMosaic

/-- A matrix of extended reals, by row and column. -/
abbrev Mat (n k : ℕ) := Fin n → Fin k → EReal
/-- A row vector of extended reals. -/
abbrev Row (k : ℕ) := Fin k → EReal

/-- The float words both programs spell: zero, the variance offset ε, the rectifier's slope (also the cell
    gate's scale), the batch size, and one. They are kept as words; the same word on both sides is never
    evaluated. -/
def wZero : EReal := Ideal.ofBits .f32 0x00000000#32
def wEps : EReal := Ideal.ofBits .f32 0x3727C5AC#32
def wTenth : EReal := Ideal.ofBits .f32 0x3DCCCCCD#32
def wN : EReal := Ideal.ofBits .f32 0x47800000#32

/-- The matrix product, entry by entry. -/
def mm {n k p : ℕ} (X : Mat n k) (W : Mat k p) : Mat n p := fun r j => ∑ q, X r q * W q j

/-- The affine map of the rows: the product plus the bias row. -/
def lin {n k p : ℕ} (X : Mat n k) (W : Mat k p) (b : Row p) : Mat n p := fun r j => mm X W r j + b j

/-- The column means: each column's sum over the batch, divided by the batch size. -/
def mean {n p : ℕ} (Z : Mat n p) : Row p := fun j => Ideal.div (∑ r, Z r j) wN

/-- The column variance as the mean of the squared deviations from the mean. -/
def varCentered {n p : ℕ} (Z : Mat n p) : Row p :=
  fun j => Ideal.div (∑ r, (Z r j - mean Z j) * (Z r j - mean Z j)) wN

/-- The column variance as the mean of the squares minus the square of the mean, clamped below at zero. -/
def varMoments {n p : ℕ} (Z : Mat n p) : Row p :=
  fun j => max (Ideal.div (∑ r, Z r j * Z r j) wN - mean Z j * mean Z j) wZero

/-- The leaky rectifier: x where x > 0, a tenth of x elsewhere. -/
def leaky (x : EReal) : EReal := Scalar.select (Ideal.cmp .ogt x wZero) x (wTenth * x)

/-- Normalise every column by the given column statistics, scale and shift, then rectify. -/
def normAct {n p : ℕ} (mu v g be : Row p) (Z : Mat n p) : Mat n p :=
  fun r j => leaky (((Z r j - mu j) * Ideal.rsqrt (v j + wEps)) * g j + be j)

/-- The logistic function, entry by entry. -/
def sigm {n p : ℕ} (Z : Mat n p) : Mat n p := fun r j => Ideal.logistic (Z r j)

/-- The twenty-six argument arrays. -/
structure Args (nb nh : ℕ) where
  X : Mat nb nh
  P : Mat nb nh
  C : Mat nb nh
  S : Mat nb nh
  Wx : Mat nh nh
  bx : Row nh
  Wh : Mat nh nh
  bh : Row nh
  WLC : Mat nh nh
  bLC : Row nh
  WC : Mat nh nh
  bC : Row nh
  WP : Mat nh 1
  bP : Row 1
  Wf : Mat nh nh
  bf : Row nh
  Wi : Mat nh nh
  bi : Row nh
  Wo : Mat nh nh
  bo : Row nh
  g1 : Row nh
  be1 : Row nh
  g2 : Row nh
  be2 : Row nh
  g3 : Row nh
  be3 : Row nh

/-- The five results, in the programs' order: a₁, a₂, a₃, p, z₃. -/
structure Outs (nb nh : ℕ) where
  a1 : Mat nb nh
  a2 : Mat nb nh
  a3 : Mat nb nh
  p : Mat nb nh
  z3 : Mat nb nh

variable {nb nh : ℕ}

/-- u = X·Wx + bx, common to both forms. -/
def uOf (A : Args nb nh) : Mat nb nh := lin A.X A.Wx A.bx

/-! ## The form with the biases added inside each affine map, the three activations summed first-second-third,
    and the variance from the two moments -/

namespace K

def z1 (A : Args nb nh) : Mat nb nh := fun r j => uOf A r j + lin A.P A.Wh A.bh r j
def a1 (A : Args nb nh) : Mat nb nh := normAct (mean (z1 A)) (varMoments (z1 A)) A.g1 A.be1 (z1 A)
def z2 (A : Args nb nh) : Mat nb nh := lin (a1 A) A.WLC A.bLC
def a2 (A : Args nb nh) : Mat nb nh := normAct (mean (z2 A)) (varMoments (z2 A)) A.g2 A.be2 (z2 A)
def z3 (A : Args nb nh) : Mat nb nh := fun r j =>
  (sigm (lin A.C A.Wf A.bf) r j * A.S r j
    + (sigm (lin (uOf A) A.Wi A.bi) r j * wTenth) * lin (a2 A) A.WLC A.bLC r j)
  + lin (uOf A) A.WC A.bC r j
def a3 (A : Args nb nh) : Mat nb nh := normAct (mean (z3 A)) (varMoments (z3 A)) A.g3 A.be3 (z3 A)
def p (A : Args nb nh) : Mat nb nh := fun r j =>
  sigm (lin (a3 A) A.Wo A.bo) r j
    * lin (fun r' q => (a1 A r' q + a2 A r' q) + a3 A r' q) A.WP A.bP r 0

def outs (A : Args nb nh) : Outs nb nh := ⟨a1 A, a2 A, a3 A, p A, z3 A⟩

end K

/-! ## The form with the sums grouped left to right as written, the three activations summed
    first-third-second, and the variance from the squared deviations -/

namespace R

def z1 (A : Args nb nh) : Mat nb nh := fun r j => (uOf A r j + mm A.P A.Wh r j) + A.bh j
def a1 (A : Args nb nh) : Mat nb nh := normAct (mean (z1 A)) (varCentered (z1 A)) A.g1 A.be1 (z1 A)
def z2 (A : Args nb nh) : Mat nb nh := lin (a1 A) A.WLC A.bLC
def a2 (A : Args nb nh) : Mat nb nh := normAct (mean (z2 A)) (varCentered (z2 A)) A.g2 A.be2 (z2 A)
def z3 (A : Args nb nh) : Mat nb nh := fun r j =>
  ((sigm (lin A.C A.Wf A.bf) r j * A.S r j
    + (sigm (lin (uOf A) A.Wi A.bi) r j * wTenth) * lin (a2 A) A.WLC A.bLC r j)
    + mm (uOf A) A.WC r j)
  + A.bC j
def a3 (A : Args nb nh) : Mat nb nh := normAct (mean (z3 A)) (varCentered (z3 A)) A.g3 A.be3 (z3 A)
def p (A : Args nb nh) : Mat nb nh := fun r j =>
  sigm (lin (a3 A) A.Wo A.bo) r j
    * lin (fun r' q => (a1 A r' q + a3 A r' q) + a2 A r' q) A.WP A.bP r 0

def outs (A : Args nb nh) : Outs nb nh := ⟨a1 A, a2 A, a3 A, p A, z3 A⟩

end R

/-- Every argument entry is a real number (neither infinity). -/
def Args.IsReal (A : Args nb nh) : Prop :=
  (∀ r j, ∃ x : ℝ, A.X r j = x) ∧ (∀ r j, ∃ x : ℝ, A.P r j = x) ∧ (∀ r j, ∃ x : ℝ, A.C r j = x)
  ∧ (∀ r j, ∃ x : ℝ, A.S r j = x) ∧ (∀ r j, ∃ x : ℝ, A.Wx r j = x) ∧ (∀ j, ∃ x : ℝ, A.bx j = x)
  ∧ (∀ r j, ∃ x : ℝ, A.Wh r j = x) ∧ (∀ j, ∃ x : ℝ, A.bh j = x) ∧ (∀ r j, ∃ x : ℝ, A.WLC r j = x)
  ∧ (∀ j, ∃ x : ℝ, A.bLC j = x) ∧ (∀ r j, ∃ x : ℝ, A.WC r j = x) ∧ (∀ j, ∃ x : ℝ, A.bC j = x)
  ∧ (∀ r j, ∃ x : ℝ, A.WP r j = x) ∧ (∀ j, ∃ x : ℝ, A.bP j = x) ∧ (∀ r j, ∃ x : ℝ, A.Wf r j = x)
  ∧ (∀ j, ∃ x : ℝ, A.bf j = x) ∧ (∀ r j, ∃ x : ℝ, A.Wi r j = x) ∧ (∀ j, ∃ x : ℝ, A.bi j = x)
  ∧ (∀ r j, ∃ x : ℝ, A.Wo r j = x) ∧ (∀ j, ∃ x : ℝ, A.bo j = x) ∧ (∀ j, ∃ x : ℝ, A.g1 j = x)
  ∧ (∀ j, ∃ x : ℝ, A.be1 j = x) ∧ (∀ j, ∃ x : ℝ, A.g2 j = x) ∧ (∀ j, ∃ x : ℝ, A.be2 j = x)
  ∧ (∀ j, ∃ x : ℝ, A.g3 j = x) ∧ (∀ j, ∃ x : ℝ, A.be3 j = x)

/-! ## The programs' arrays as matrices

An array of a program is a function of a shape index; the specification's matrices are functions of a row and a
column. These four maps pass between the two, and are inverse to each other. -/

open Idealize.ShloMosaic.ValueIdx

/-- A rank-2 array read by row and column. -/
def toMat {n k : ℕ} (A : (⟨2, ![n, k]⟩ : Shape).Idx → EReal) : Mat n k := fun r j => A (ix2 r j)

/-- A rank-1 array read by position. -/
def toRow {k : ℕ} (b : (⟨1, ![k]⟩ : Shape).Idx → EReal) : Row k := fun j => b (ix1 j)

/-- A matrix as a rank-2 array. -/
def ofMat {n k : ℕ} (M : Mat n k) : (⟨2, ![n, k]⟩ : Shape).Idx → EReal := fun i => M (i 0) (i 1)

/-- A row as a rank-1 array. -/
def ofRow {k : ℕ} (v : Row k) : (⟨1, ![k]⟩ : Shape).Idx → EReal := fun i => v (i 0)

theorem toMat_ofMat {n k : ℕ} (M : Mat n k) : toMat (ofMat M) = M := rfl

theorem ofMat_toMat {n k : ℕ} (A : (⟨2, ![n, k]⟩ : Shape).Idx → EReal) : ofMat (toMat A) = A := by
  funext i
  exact congrArg A (eq_ix2 i).symm

theorem toRow_ofRow {k : ℕ} (v : Row k) : toRow (ofRow v) = v := rfl

theorem ofRow_toRow {k : ℕ} (b : (⟨1, ![k]⟩ : Shape).Idx → EReal) : ofRow (toRow b) = b := by
  funext i
  exact congrArg b (eq_ix1 i).symm

theorem ofMat_apply {n k : ℕ} (M : Mat n k) (r : Fin n) (j : Fin k) : ofMat M (ix2 r j) = M r j := rfl

theorem ofRow_apply {k : ℕ} (v : Row k) (j : Fin k) : ofRow v (ix1 j) = v j := rfl

/-- An array is the matrix `M` once it agrees with it entry by entry. -/
theorem eq_ofMat {n k : ℕ} (A : (⟨2, ![n, k]⟩ : Shape).Idx → EReal) (M : Mat n k)
    (h : ∀ r j, A (ix2 r j) = M r j) : A = ofMat M := by
  funext i
  exact (congrArg A (eq_ix2 i)).trans (h (i 0) (i 1))

/-- An array is the row `v` once it agrees with it entry by entry. -/
theorem eq_ofRow {k : ℕ} (b : (⟨1, ![k]⟩ : Shape).Idx → EReal) (v : Row k)
    (h : ∀ j, b (ix1 j) = v j) : b = ofRow v := by
  funext i
  exact (congrArg b (eq_ix1 i)).trans (h (i 0))

end Cert.Spec

end
-- ==== Proof.KHostFns.lean ====
/-
  The kernel program's host operations between its launches, as functions, and what they compute.

  After each of the first three launches the program holds, per core, a running column sum and a running
  column sum of squares in rows 0 and 8 of two [16, 256] arrays. It adds the two cores' rows, divides by the
  batch size 65536 to get the column means and the means of squares, and takes
  max(mean of squares − mean², 0) as the column variance. Before the first launch it only reshapes the bias
  rows [256] to [1, 256] (and the last bias [1] to [1, 1]).
-/
import proofs.«173010_j4303557230935_2_alg».proof.KernelIdeal
import proofs.«173010_j4303557230935_2_alg».proof.Proof.Spec
import Idealize.ShloMosaic.Lib.ValueIdx
import Idealize.ShloMosaic.Lib.Pipeline.Value
import Idealize.ShloMosaic.Lib.IdealHost

noncomputable section

namespace Cert.KernelIdeal.KH

open Idealize.ShloMosaic Idealize.ShloMosaic.ValueIdx Cert.KernelIdeal Cert.Spec

variable {F : FTy → Type} [FloatOps F] [Facts]

open Facts₀ Facts

/-- Rows 0 and 8 of a [16, 256] array added, divided by the batch size. -/
def hMean (s : FVec F S16x256 .f32) : FVec F S1x256 .f32 :=
  Host.divf (addf (extractStridedSlice S1x256 ![0, 0] s slices_S16x256_S1x256_0_0)
      (extractStridedSlice S1x256 ![8, 0] s slices_S16x256_S1x256_8_0))
    (broadcastInDim S1x256 ![] bcast_S_S1x256 (constant S_ .f32 0x47800000#32))

/-- The mean of squares minus the square of the mean, clamped below at zero. -/
def hVar (s q : FVec F S16x256 .f32) : FVec F S1x256 .f32 :=
  maximumf (subf (hMean q) (mulf (hMean s) (hMean s)))
    (broadcastInDim S1x256 ![] bcast_S_S1x256 (constant S_ .f32 0x00000000#32))

/-- The slice of row 0 reads row 0. -/
theorem slice0_apply {α : Type} (s : S16x256.Idx → α) (j : Fin 256) :
    extractStridedSlice S1x256 ![0, 0] s slices_S16x256_S1x256_0_0 (ix2 (0 : Fin 1) j) = s (ix2 (0 : Fin 16) j) :=
  extractStridedSlice_apply _ _ _ _ _ fun a => by
    match a with
    | ⟨0, _⟩ => rfl
    | ⟨1, _⟩ => exact (Nat.zero_add _).symm

/-- The slice of row 8 reads row 8. -/
theorem slice8_apply {α : Type} (s : S16x256.Idx → α) (j : Fin 256) :
    extractStridedSlice S1x256 ![8, 0] s slices_S16x256_S1x256_8_0 (ix2 (0 : Fin 1) j) = s (ix2 (8 : Fin 16) j) :=
  extractStridedSlice_apply _ _ _ _ _ fun a => by
    match a with
    | ⟨0, _⟩ => rfl
    | ⟨1, _⟩ => exact (Nat.zero_add _).symm

/-- The mean row, entry by entry. -/
theorem hMean_apply (s : FVec Ideal S16x256 .f32) (j : Fin 256) :
    hMean (F := Ideal) s (ix2 (0 : Fin 1) j) = Ideal.div (s (ix2 (0 : Fin 16) j) + s (ix2 (8 : Fin 16) j)) wN := by
  show Ideal.div (extractStridedSlice S1x256 ![0, 0] s slices_S16x256_S1x256_0_0 (ix2 (0 : Fin 1) j)
      + extractStridedSlice S1x256 ![8, 0] s slices_S16x256_S1x256_8_0 (ix2 (0 : Fin 1) j))
    (broadcastInDim S1x256 ![] bcast_S_S1x256 (constant (F := Ideal) S_ .f32 0x47800000#32) (ix2 (0 : Fin 1) j)) = _
  rw [slice0_apply, slice8_apply, broadcastInDim_scalar_apply]
  rfl

/-- The variance row, entry by entry. -/
theorem hVar_apply (s q : FVec Ideal S16x256 .f32) (j : Fin 256) :
    hVar (F := Ideal) s q (ix2 (0 : Fin 1) j)
      = max (hMean (F := Ideal) q (ix2 (0 : Fin 1) j)
          - hMean (F := Ideal) s (ix2 (0 : Fin 1) j) * hMean (F := Ideal) s (ix2 (0 : Fin 1) j)) wZero := by
  show max (hMean (F := Ideal) q (ix2 (0 : Fin 1) j)
        - hMean (F := Ideal) s (ix2 (0 : Fin 1) j) * hMean (F := Ideal) s (ix2 (0 : Fin 1) j))
      (broadcastInDim S1x256 ![] bcast_S_S1x256 (constant (F := Ideal) S_ .f32 0x00000000#32) (ix2 (0 : Fin 1) j)) = _
  rw [broadcastInDim_scalar_apply]
  rfl

/-- When rows 0 and 8 of `s` add up to the column sums of `Z`, the mean row is the column means of `Z`. -/
theorem hMean_eq_mean (s : FVec Ideal S16x256 .f32) (Z : Mat 65536 256)
    (hs : ∀ j, s (ix2 (0 : Fin 16) j) + s (ix2 (8 : Fin 16) j) = ∑ r, Z r j) (j : Fin 256) :
    hMean (F := Ideal) s (ix2 (0 : Fin 1) j) = mean Z j := by
  rw [hMean_apply, hs]
  rfl

/-- When moreover rows 0 and 8 of `q` add up to the column sums of squares of `Z`, the variance row is the
    variance of `Z` from its two moments. -/
theorem hVar_eq_varMoments (s q : FVec Ideal S16x256 .f32) (Z : Mat 65536 256)
    (hs : ∀ j, s (ix2 (0 : Fin 16) j) + s (ix2 (8 : Fin 16) j) = ∑ r, Z r j)
    (hq : ∀ j, q (ix2 (0 : Fin 16) j) + q (ix2 (8 : Fin 16) j) = ∑ r, Z r j * Z r j) (j : Fin 256) :
    hVar (F := Ideal) s q (ix2 (0 : Fin 1) j) = varMoments Z j := by
  rw [hVar_apply, hMean_eq_mean s Z hs, hMean_apply, hq]
  rfl

/-- A row of 256 reshaped to one row of a [1, 256] array reads the same entries. -/
theorem reshape_row {α : Type} (x : S256.Idx → α) (j : Fin 256) :
    shapeCast S1x256 x shapeCasts_S256_S1x256 (ix2 (0 : Fin 1) j) = x (ix1 j) := by
  refine (shapeCast_addUnit_apply (n := 1) ![256] x shapeCasts_S256_S1x256 (ix2 (0 : Fin 1) j)).trans ?_
  exact congrArg x (funext fun a => by match a with | ⟨0, _⟩ => rfl)

/-- The one entry reshaped to a [1, 1] array reads that entry. -/
theorem reshape_one {α : Type} (x : S1.Idx → α) :
    shapeCast S1x1 x shapeCasts_S1_S1x1 (ix2 (0 : Fin 1) (0 : Fin 1)) = x (ix1 (0 : Fin 1)) := by
  refine (shapeCast_addUnit_apply (n := 1) ![1] x shapeCasts_S1_S1x1 (ix2 (0 : Fin 1) (0 : Fin 1))).trans ?_
  exact congrArg x (funext fun a => by match a with | ⟨0, _⟩ => rfl)

end Cert.KernelIdeal.KH

end
-- ==== Proof.KChain.lean ====
/-
  Reading the kernel program's buffers back through its boundaries.

  The contents at the eight boundaries are a fold from the launch memory: a stretch of host operations rewrites
  the buffers it writes, a launch rewrites its output arrays and nothing else. So what a launch finds in one of
  its input arrays is what the last writer of that buffer left: the launch memory for an argument, a reshape of
  an argument for a bias row, an earlier launch's output array, or a stretch's statistics row. The lemmas below
  walk each buffer a launch reads (and each result buffer) back to its last writer.
-/
import proofs.«173010_j4303557230935_2_alg».proof.Proof.KernelIdealFrameP
import proofs.«173010_j4303557230935_2_alg».proof.Proof.KHostFns
import Idealize.ShloMosaic.Lib.StableHlo.Run

set_option maxRecDepth 16384

noncomputable section

namespace Cert.KernelIdeal.KC

open Cert.KernelIdeal Cert.KernelIdeal.Gen Cert.KernelIdeal.GenP
open Idealize.ShloMosaic Idealize.ShloMosaic.TcCoe Idealize.ShloMosaic.StableHlo Idealize.SL.Sem
open Idealize.ShloMosaic.Pipeline (Dat)

variable {F : FTy → Type} [FloatOps F]
variable (m : (ℓ : Loc nD τ sig) → Buf (Elt F) ℓ) (ρ : Dev nD → PrngReg) (c : Dev nD)

/-- A single written buffer lies in the set of a list that has it. -/
theorem writes_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-! ## The buffers each stretch of host operations writes -/

abbrev wl0 : List (Ref sig .tc) :=
  [main_v0, main_v1, main_v2, main_v3, main_v4, main_v5, main_v6, main_v7, main_v8, main_v9, main_v10, main_v11, main_v12, main_v13]
theorem h0_writes : (hostOps0 : List (HloOp τ sig (Elt F))).Forall fun op => op.writes ⊆ (wl0.map (Proc.devRef (τ := τ) .tc)).toFinset :=
  ⟨writes_sub_of_mem (y := main_v0) (by decide),
    writes_sub_of_mem (y := main_v1) (by decide),
    writes_sub_of_mem (y := main_v2) (by decide),
    writes_sub_of_mem (y := main_v3) (by decide),
    writes_sub_of_mem (y := main_v4) (by decide),
    writes_sub_of_mem (y := main_v5) (by decide),
    writes_sub_of_mem (y := main_v6) (by decide),
    writes_sub_of_mem (y := main_v7) (by decide),
    writes_sub_of_mem (y := main_v8) (by decide),
    writes_sub_of_mem (y := main_v9) (by decide),
    writes_sub_of_mem (y := main_v10) (by decide),
    writes_sub_of_mem (y := main_v11) (by decide),
    writes_sub_of_mem (y := main_v12) (by decide),
    writes_sub_of_mem (y := main_v13) (by decide)⟩
/-- A buffer stretch 0 does not write keeps its contents across it. -/
theorem kH0 {r : Ref sig .tc} (hr : r ∉ wl0) : W1 m ρ c (Proc.devRef .tc r) = W0 m ρ c (Proc.devRef .tc r) :=
  StableHlo.after_of_writes_sub _ _ h0_writes hr

abbrev wl1 : List (Ref sig .tc) :=
  [main_v15, main_v16, main_v17, main_v18, main_v19, main_v20, main_cst, main_v21, main_v22, main_cst_0, main_v23, main_v24, main_v25, main_v26, main_cst_1, main_v27, main_v28]
theorem h1_writes : (hostOps1 : List (HloOp τ sig (Elt F))).Forall fun op => op.writes ⊆ (wl1.map (Proc.devRef (τ := τ) .tc)).toFinset :=
  ⟨writes_sub_of_mem (y := main_v15) (by decide),
    writes_sub_of_mem (y := main_v16) (by decide),
    writes_sub_of_mem (y := main_v17) (by decide),
    writes_sub_of_mem (y := main_v18) (by decide),
    writes_sub_of_mem (y := main_v19) (by decide),
    writes_sub_of_mem (y := main_v20) (by decide),
    writes_sub_of_mem (y := main_cst) (by decide),
    writes_sub_of_mem (y := main_v21) (by decide),
    writes_sub_of_mem (y := main_v22) (by decide),
    writes_sub_of_mem (y := main_cst_0) (by decide),
    writes_sub_of_mem (y := main_v23) (by decide),
    writes_sub_of_mem (y := main_v24) (by decide),
    writes_sub_of_mem (y := main_v25) (by decide),
    writes_sub_of_mem (y := main_v26) (by decide),
    writes_sub_of_mem (y := main_cst_1) (by decide),
    writes_sub_of_mem (y := main_v27) (by decide),
    writes_sub_of_mem (y := main_v28) (by decide)⟩
/-- A buffer stretch 1 does not write keeps its contents across it. -/
theorem kH1 {r : Ref sig .tc} (hr : r ∉ wl1) : W3 m ρ c (Proc.devRef .tc r) = W2 m ρ c (Proc.devRef .tc r) :=
  StableHlo.after_of_writes_sub _ _ h1_writes hr

abbrev wl2 : List (Ref sig .tc) :=
  [main_v30, main_v31, main_v32, main_v33, main_v34, main_v35, main_cst_2, main_v36, main_v37, main_cst_3, main_v38, main_v39, main_v40, main_v41, main_cst_4, main_v42, main_v43]
theorem h2_writes : (hostOps2 : List (HloOp τ sig (Elt F))).Forall fun op => op.writes ⊆ (wl2.map (Proc.devRef (τ := τ) .tc)).toFinset :=
  ⟨writes_sub_of_mem (y := main_v30) (by decide),
    writes_sub_of_mem (y := main_v31) (by decide),
    writes_sub_of_mem (y := main_v32) (by decide),
    writes_sub_of_mem (y := main_v33) (by decide),
    writes_sub_of_mem (y := main_v34) (by decide),
    writes_sub_of_mem (y := main_v35) (by decide),
    writes_sub_of_mem (y := main_cst_2) (by decide),
    writes_sub_of_mem (y := main_v36) (by decide),
    writes_sub_of_mem (y := main_v37) (by decide),
    writes_sub_of_mem (y := main_cst_3) (by decide),
    writes_sub_of_mem (y := main_v38) (by decide),
    writes_sub_of_mem (y := main_v39) (by decide),
    writes_sub_of_mem (y := main_v40) (by decide),
    writes_sub_of_mem (y := main_v41) (by decide),
    writes_sub_of_mem (y := main_cst_4) (by decide),
    writes_sub_of_mem (y := main_v42) (by decide),
    writes_sub_of_mem (y := main_v43) (by decide)⟩
/-- A buffer stretch 2 does not write keeps its contents across it. -/
theorem kH2 {r : Ref sig .tc} (hr : r ∉ wl2) : W5 m ρ c (Proc.devRef .tc r) = W4 m ρ c (Proc.devRef .tc r) :=
  StableHlo.after_of_writes_sub _ _ h2_writes hr

abbrev wl3 : List (Ref sig .tc) :=
  [main_v45, main_v46, main_v47, main_v48, main_v49, main_v50, main_cst_5, main_v51, main_v52, main_cst_6, main_v53, main_v54, main_v55, main_v56, main_cst_7, main_v57, main_v58]
theorem h3_writes : (hostOps3 : List (HloOp τ sig (Elt F))).Forall fun op => op.writes ⊆ (wl3.map (Proc.devRef (τ := τ) .tc)).toFinset :=
  ⟨writes_sub_of_mem (y := main_v45) (by decide),
    writes_sub_of_mem (y := main_v46) (by decide),
    writes_sub_of_mem (y := main_v47) (by decide),
    writes_sub_of_mem (y := main_v48) (by decide),
    writes_sub_of_mem (y := main_v49) (by decide),
    writes_sub_of_mem (y := main_v50) (by decide),
    writes_sub_of_mem (y := main_cst_5) (by decide),
    writes_sub_of_mem (y := main_v51) (by decide),
    writes_sub_of_mem (y := main_v52) (by decide),
    writes_sub_of_mem (y := main_cst_6) (by decide),
    writes_sub_of_mem (y := main_v53) (by decide),
    writes_sub_of_mem (y := main_v54) (by decide),
    writes_sub_of_mem (y := main_v55) (by decide),
    writes_sub_of_mem (y := main_v56) (by decide),
    writes_sub_of_mem (y := main_cst_7) (by decide),
    writes_sub_of_mem (y := main_v57) (by decide),
    writes_sub_of_mem (y := main_v58) (by decide)⟩
/-- A buffer stretch 3 does not write keeps its contents across it. -/
theorem kH3 {r : Ref sig .tc} (hr : r ∉ wl3) : W7 m ρ c (Proc.devRef .tc r) = W6 m ρ c (Proc.devRef .tc r) :=
  StableHlo.after_of_writes_sub _ _ h3_writes hr

/-! ## Each buffer back to its last writer -/

theorem W1_arg0_from0 : W1 m ρ c (Proc.devRef .tc main_arg0) = W0 m ρ c (Proc.devRef .tc main_arg0) :=
  (kH0 m ρ c (r := main_arg0) (by decide))
theorem W1_arg1_from0 : W1 m ρ c (Proc.devRef .tc main_arg1) = W0 m ρ c (Proc.devRef .tc main_arg1) :=
  (kH0 m ρ c (r := main_arg1) (by decide))
theorem W1_arg4_from0 : W1 m ρ c (Proc.devRef .tc main_arg4) = W0 m ρ c (Proc.devRef .tc main_arg4) :=
  (kH0 m ρ c (r := main_arg4) (by decide))
theorem W1_arg6_from0 : W1 m ρ c (Proc.devRef .tc main_arg6) = W0 m ρ c (Proc.devRef .tc main_arg6) :=
  (kH0 m ρ c (r := main_arg6) (by decide))
theorem W3_v14_1_from2 : W3 m ρ c (Proc.devRef .tc main_v14_1) = W2 m ρ c (Proc.devRef .tc main_v14_1) :=
  (kH1 m ρ c (r := main_v14_1) (by decide))
theorem W3_v7_from1 : W3 m ρ c (Proc.devRef .tc main_v7) = W1 m ρ c (Proc.devRef .tc main_v7) :=
  ((kH1 m ρ c (r := main_v7) (by decide)).trans (W2_of_ne m ρ c main_v7 (by decide)))
theorem W3_v8_from1 : W3 m ρ c (Proc.devRef .tc main_v8) = W1 m ρ c (Proc.devRef .tc main_v8) :=
  ((kH1 m ρ c (r := main_v8) (by decide)).trans (W2_of_ne m ρ c main_v8 (by decide)))
theorem W3_v2_from1 : W3 m ρ c (Proc.devRef .tc main_v2) = W1 m ρ c (Proc.devRef .tc main_v2) :=
  ((kH1 m ρ c (r := main_v2) (by decide)).trans (W2_of_ne m ρ c main_v2 (by decide)))
theorem W3_arg8_from0 : W3 m ρ c (Proc.devRef .tc main_arg8) = W0 m ρ c (Proc.devRef .tc main_arg8) :=
  ((kH1 m ρ c (r := main_arg8) (by decide)).trans ((W2_of_ne m ρ c main_arg8 (by decide)).trans (kH0 m ρ c (r := main_arg8) (by decide))))
theorem W5_v14_0_from2 : W5 m ρ c (Proc.devRef .tc main_v14_0) = W2 m ρ c (Proc.devRef .tc main_v14_0) :=
  ((kH2 m ρ c (r := main_v14_0) (by decide)).trans ((W4_of_ne m ρ c main_v14_0 (by decide)).trans (kH1 m ρ c (r := main_v14_0) (by decide))))
theorem W5_v29_1_from4 : W5 m ρ c (Proc.devRef .tc main_v29_1) = W4 m ρ c (Proc.devRef .tc main_v29_1) :=
  (kH2 m ρ c (r := main_v29_1) (by decide))
theorem W5_v9_from1 : W5 m ρ c (Proc.devRef .tc main_v9) = W1 m ρ c (Proc.devRef .tc main_v9) :=
  ((kH2 m ρ c (r := main_v9) (by decide)).trans ((W4_of_ne m ρ c main_v9 (by decide)).trans ((kH1 m ρ c (r := main_v9) (by decide)).trans (W2_of_ne m ρ c main_v9 (by decide)))))
theorem W5_v10_from1 : W5 m ρ c (Proc.devRef .tc main_v10) = W1 m ρ c (Proc.devRef .tc main_v10) :=
  ((kH2 m ρ c (r := main_v10) (by decide)).trans ((W4_of_ne m ρ c main_v10 (by decide)).trans ((kH1 m ρ c (r := main_v10) (by decide)).trans (W2_of_ne m ρ c main_v10 (by decide)))))
theorem W5_v4_from1 : W5 m ρ c (Proc.devRef .tc main_v4) = W1 m ρ c (Proc.devRef .tc main_v4) :=
  ((kH2 m ρ c (r := main_v4) (by decide)).trans ((W4_of_ne m ρ c main_v4 (by decide)).trans ((kH1 m ρ c (r := main_v4) (by decide)).trans (W2_of_ne m ρ c main_v4 (by decide)))))
theorem W5_v5_from1 : W5 m ρ c (Proc.devRef .tc main_v5) = W1 m ρ c (Proc.devRef .tc main_v5) :=
  ((kH2 m ρ c (r := main_v5) (by decide)).trans ((W4_of_ne m ρ c main_v5 (by decide)).trans ((kH1 m ρ c (r := main_v5) (by decide)).trans (W2_of_ne m ρ c main_v5 (by decide)))))
theorem W5_v3_from1 : W5 m ρ c (Proc.devRef .tc main_v3) = W1 m ρ c (Proc.devRef .tc main_v3) :=
  ((kH2 m ρ c (r := main_v3) (by decide)).trans ((W4_of_ne m ρ c main_v3 (by decide)).trans ((kH1 m ρ c (r := main_v3) (by decide)).trans (W2_of_ne m ρ c main_v3 (by decide)))))
theorem W5_v2_from1 : W5 m ρ c (Proc.devRef .tc main_v2) = W1 m ρ c (Proc.devRef .tc main_v2) :=
  ((kH2 m ρ c (r := main_v2) (by decide)).trans (((W4_arr m ρ c 6).trans (((dat1 (V3 m ρ) c).arrAt_in 6 rfl _).trans (A_eq1 (V3 m ρ) c 6))).trans ((kH1 m ρ c (r := main_v2) (by decide)).trans (W2_of_ne m ρ c main_v2 (by decide)))))
theorem W5_arg2_from0 : W5 m ρ c (Proc.devRef .tc main_arg2) = W0 m ρ c (Proc.devRef .tc main_arg2) :=
  ((kH2 m ρ c (r := main_arg2) (by decide)).trans ((W4_of_ne m ρ c main_arg2 (by decide)).trans ((kH1 m ρ c (r := main_arg2) (by decide)).trans ((W2_of_ne m ρ c main_arg2 (by decide)).trans (kH0 m ρ c (r := main_arg2) (by decide))))))
theorem W5_arg3_from0 : W5 m ρ c (Proc.devRef .tc main_arg3) = W0 m ρ c (Proc.devRef .tc main_arg3) :=
  ((kH2 m ρ c (r := main_arg3) (by decide)).trans ((W4_of_ne m ρ c main_arg3 (by decide)).trans ((kH1 m ρ c (r := main_arg3) (by decide)).trans ((W2_of_ne m ρ c main_arg3 (by decide)).trans (kH0 m ρ c (r := main_arg3) (by decide))))))
theorem W5_arg14_from0 : W5 m ρ c (Proc.devRef .tc main_arg14) = W0 m ρ c (Proc.devRef .tc main_arg14) :=
  ((kH2 m ρ c (r := main_arg14) (by decide)).trans ((W4_of_ne m ρ c main_arg14 (by decide)).trans ((kH1 m ρ c (r := main_arg14) (by decide)).trans ((W2_of_ne m ρ c main_arg14 (by decide)).trans (kH0 m ρ c (r := main_arg14) (by decide))))))
theorem W5_arg16_from0 : W5 m ρ c (Proc.devRef .tc main_arg16) = W0 m ρ c (Proc.devRef .tc main_arg16) :=
  ((kH2 m ρ c (r := main_arg16) (by decide)).trans ((W4_of_ne m ρ c main_arg16 (by decide)).trans ((kH1 m ρ c (r := main_arg16) (by decide)).trans ((W2_of_ne m ρ c main_arg16 (by decide)).trans (kH0 m ρ c (r := main_arg16) (by decide))))))
theorem W5_arg10_from0 : W5 m ρ c (Proc.devRef .tc main_arg10) = W0 m ρ c (Proc.devRef .tc main_arg10) :=
  ((kH2 m ρ c (r := main_arg10) (by decide)).trans ((W4_of_ne m ρ c main_arg10 (by decide)).trans ((kH1 m ρ c (r := main_arg10) (by decide)).trans ((W2_of_ne m ρ c main_arg10 (by decide)).trans (kH0 m ρ c (r := main_arg10) (by decide))))))
theorem W5_arg8_from0 : W5 m ρ c (Proc.devRef .tc main_arg8) = W0 m ρ c (Proc.devRef .tc main_arg8) :=
  ((kH2 m ρ c (r := main_arg8) (by decide)).trans (((W4_arr m ρ c 5).trans (((dat1 (V3 m ρ) c).arrAt_in 5 rfl _).trans (A_eq1 (V3 m ρ) c 5))).trans ((kH1 m ρ c (r := main_arg8) (by decide)).trans ((W2_of_ne m ρ c main_arg8 (by decide)).trans (kH0 m ρ c (r := main_arg8) (by decide))))))
theorem W7_v44_1_from6 : W7 m ρ c (Proc.devRef .tc main_v44_1) = W6 m ρ c (Proc.devRef .tc main_v44_1) :=
  (kH3 m ρ c (r := main_v44_1) (by decide))
theorem W7_v11_from1 : W7 m ρ c (Proc.devRef .tc main_v11) = W1 m ρ c (Proc.devRef .tc main_v11) :=
  ((kH3 m ρ c (r := main_v11) (by decide)).trans ((W6_of_ne m ρ c main_v11 (by decide)).trans ((kH2 m ρ c (r := main_v11) (by decide)).trans ((W4_of_ne m ρ c main_v11 (by decide)).trans ((kH1 m ρ c (r := main_v11) (by decide)).trans (W2_of_ne m ρ c main_v11 (by decide)))))))
theorem W7_v12_from1 : W7 m ρ c (Proc.devRef .tc main_v12) = W1 m ρ c (Proc.devRef .tc main_v12) :=
  ((kH3 m ρ c (r := main_v12) (by decide)).trans ((W6_of_ne m ρ c main_v12 (by decide)).trans ((kH2 m ρ c (r := main_v12) (by decide)).trans ((W4_of_ne m ρ c main_v12 (by decide)).trans ((kH1 m ρ c (r := main_v12) (by decide)).trans (W2_of_ne m ρ c main_v12 (by decide)))))))
theorem W7_v6_from1 : W7 m ρ c (Proc.devRef .tc main_v6) = W1 m ρ c (Proc.devRef .tc main_v6) :=
  ((kH3 m ρ c (r := main_v6) (by decide)).trans ((W6_of_ne m ρ c main_v6 (by decide)).trans ((kH2 m ρ c (r := main_v6) (by decide)).trans ((W4_of_ne m ρ c main_v6 (by decide)).trans ((kH1 m ρ c (r := main_v6) (by decide)).trans (W2_of_ne m ρ c main_v6 (by decide)))))))
theorem W7_v13_from1 : W7 m ρ c (Proc.devRef .tc main_v13) = W1 m ρ c (Proc.devRef .tc main_v13) :=
  ((kH3 m ρ c (r := main_v13) (by decide)).trans ((W6_of_ne m ρ c main_v13 (by decide)).trans ((kH2 m ρ c (r := main_v13) (by decide)).trans ((W4_of_ne m ρ c main_v13 (by decide)).trans ((kH1 m ρ c (r := main_v13) (by decide)).trans (W2_of_ne m ρ c main_v13 (by decide)))))))
theorem W7_v29_0_from4 : W7 m ρ c (Proc.devRef .tc main_v29_0) = W4 m ρ c (Proc.devRef .tc main_v29_0) :=
  ((kH3 m ρ c (r := main_v29_0) (by decide)).trans ((W6_of_ne m ρ c main_v29_0 (by decide)).trans (kH2 m ρ c (r := main_v29_0) (by decide))))
theorem W7_v44_0_from6 : W7 m ρ c (Proc.devRef .tc main_v44_0) = W6 m ρ c (Proc.devRef .tc main_v44_0) :=
  (kH3 m ρ c (r := main_v44_0) (by decide))
theorem W7_arg18_from0 : W7 m ρ c (Proc.devRef .tc main_arg18) = W0 m ρ c (Proc.devRef .tc main_arg18) :=
  ((kH3 m ρ c (r := main_arg18) (by decide)).trans ((W6_of_ne m ρ c main_arg18 (by decide)).trans ((kH2 m ρ c (r := main_arg18) (by decide)).trans ((W4_of_ne m ρ c main_arg18 (by decide)).trans ((kH1 m ρ c (r := main_arg18) (by decide)).trans ((W2_of_ne m ρ c main_arg18 (by decide)).trans (kH0 m ρ c (r := main_arg18) (by decide))))))))
theorem W7_arg12_from0 : W7 m ρ c (Proc.devRef .tc main_arg12) = W0 m ρ c (Proc.devRef .tc main_arg12) :=
  ((kH3 m ρ c (r := main_arg12) (by decide)).trans ((W6_of_ne m ρ c main_arg12 (by decide)).trans ((kH2 m ρ c (r := main_arg12) (by decide)).trans ((W4_of_ne m ρ c main_arg12 (by decide)).trans ((kH1 m ρ c (r := main_arg12) (by decide)).trans ((W2_of_ne m ρ c main_arg12 (by decide)).trans (kH0 m ρ c (r := main_arg12) (by decide))))))))
theorem W8_v29_0_from4 : W8 m ρ c (Proc.devRef .tc main_v29_0) = W4 m ρ c (Proc.devRef .tc main_v29_0) :=
  (((W8_arr m ρ c 5).trans (((dat3 (V7 m ρ) c).arrAt_in 5 rfl _).trans (A_eq3 (V7 m ρ) c 5))).trans ((kH3 m ρ c (r := main_v29_0) (by decide)).trans ((W6_of_ne m ρ c main_v29_0 (by decide)).trans (kH2 m ρ c (r := main_v29_0) (by decide)))))
theorem W8_v44_0_from6 : W8 m ρ c (Proc.devRef .tc main_v44_0) = W6 m ρ c (Proc.devRef .tc main_v44_0) :=
  (((W8_arr m ρ c 6).trans (((dat3 (V7 m ρ) c).arrAt_in 6 rfl _).trans (A_eq3 (V7 m ρ) c 6))).trans (kH3 m ρ c (r := main_v44_0) (by decide)))
theorem W8_v44_1_from6 : W8 m ρ c (Proc.devRef .tc main_v44_1) = W6 m ρ c (Proc.devRef .tc main_v44_1) :=
  (((W8_arr m ρ c 0).trans (((dat3 (V7 m ρ) c).arrAt_in 0 rfl _).trans (A_eq3 (V7 m ρ) c 0))).trans (kH3 m ρ c (r := main_v44_1) (by decide)))

/-! ## The last writers' values -/

/-- An argument at launch is the launch memory. -/
theorem W0_arg (b : Ref sig .tc) : W0 m ρ c (Proc.devRef .tc b) = m ((c : Thread nD τ).loc b) := rfl

theorem W1_v0 : W1 m ρ c (Proc.devRef .tc main_v0) = shapeCast S1x256 (m ((c : Thread nD τ).loc main_arg5)) shapeCasts_S256_S1x256 := by
  show StableHlo.after hostOps0 _ (Proc.devRef .tc main_v0) = _
  after_results
  rfl
theorem W1_v1 : W1 m ρ c (Proc.devRef .tc main_v1) = shapeCast S1x256 (m ((c : Thread nD τ).loc main_arg7)) shapeCasts_S256_S1x256 := by
  show StableHlo.after hostOps0 _ (Proc.devRef .tc main_v1) = _
  after_results
  rfl
theorem W1_v2 : W1 m ρ c (Proc.devRef .tc main_v2) = shapeCast S1x256 (m ((c : Thread nD τ).loc main_arg9)) shapeCasts_S256_S1x256 := by
  show StableHlo.after hostOps0 _ (Proc.devRef .tc main_v2) = _
  after_results
  rfl
theorem W1_v3 : W1 m ρ c (Proc.devRef .tc main_v3) = shapeCast S1x256 (m ((c : Thread nD τ).loc main_arg11)) shapeCasts_S256_S1x256 := by
  show StableHlo.after hostOps0 _ (Proc.devRef .tc main_v3) = _
  after_results
  rfl
theorem W1_v4 : W1 m ρ c (Proc.devRef .tc main_v4) = shapeCast S1x256 (m ((c : Thread nD τ).loc main_arg15)) shapeCasts_S256_S1x256 := by
  show StableHlo.after hostOps0 _ (Proc.devRef .tc main_v4) = _
  after_results
  rfl
theorem W1_v5 : W1 m ρ c (Proc.devRef .tc main_v5) = shapeCast S1x256 (m ((c : Thread nD τ).loc main_arg17)) shapeCasts_S256_S1x256 := by
  show StableHlo.after hostOps0 _ (Proc.devRef .tc main_v5) = _
  after_results
  rfl
theorem W1_v6 : W1 m ρ c (Proc.devRef .tc main_v6) = shapeCast S1x256 (m ((c : Thread nD τ).loc main_arg19)) shapeCasts_S256_S1x256 := by
  show StableHlo.after hostOps0 _ (Proc.devRef .tc main_v6) = _
  after_results
  rfl
theorem W1_v7 : W1 m ρ c (Proc.devRef .tc main_v7) = shapeCast S1x256 (m ((c : Thread nD τ).loc main_arg20)) shapeCasts_S256_S1x256 := by
  show StableHlo.after hostOps0 _ (Proc.devRef .tc main_v7) = _
  after_results
  rfl
theorem W1_v8 : W1 m ρ c (Proc.devRef .tc main_v8) = shapeCast S1x256 (m ((c : Thread nD τ).loc main_arg21)) shapeCasts_S256_S1x256 := by
  show StableHlo.after hostOps0 _ (Proc.devRef .tc main_v8) = _
  after_results
  rfl
theorem W1_v9 : W1 m ρ c (Proc.devRef .tc main_v9) = shapeCast S1x256 (m ((c : Thread nD τ).loc main_arg22)) shapeCasts_S256_S1x256 := by
  show StableHlo.after hostOps0 _ (Proc.devRef .tc main_v9) = _
  after_results
  rfl
theorem W1_v10 : W1 m ρ c (Proc.devRef .tc main_v10) = shapeCast S1x256 (m ((c : Thread nD τ).loc main_arg23)) shapeCasts_S256_S1x256 := by
  show StableHlo.after hostOps0 _ (Proc.devRef .tc main_v10) = _
  after_results
  rfl
theorem W1_v11 : W1 m ρ c (Proc.devRef .tc main_v11) = shapeCast S1x256 (m ((c : Thread nD τ).loc main_arg24)) shapeCasts_S256_S1x256 := by
  show StableHlo.after hostOps0 _ (Proc.devRef .tc main_v11) = _
  after_results
  rfl
theorem W1_v12 : W1 m ρ c (Proc.devRef .tc main_v12) = shapeCast S1x256 (m ((c : Thread nD τ).loc main_arg25)) shapeCasts_S256_S1x256 := by
  show StableHlo.after hostOps0 _ (Proc.devRef .tc main_v12) = _
  after_results
  rfl
theorem W1_v13 : W1 m ρ c (Proc.devRef .tc main_v13) = shapeCast S1x1 (m ((c : Thread nD τ).loc main_arg13)) shapeCasts_S1_S1x1 := by
  show StableHlo.after hostOps0 _ (Proc.devRef .tc main_v13) = _
  after_results
  rfl

/-- The statistics rows after each of the first three launches. -/
theorem W3_v22 : W3 m ρ c (Proc.devRef .tc main_v22) = KH.hMean (W2 m ρ c (Proc.devRef .tc main_v14_2)) := by
  show StableHlo.after hostOps1 _ (Proc.devRef .tc main_v22) = _
  after_results_simp
  rfl
theorem W3_v28 : W3 m ρ c (Proc.devRef .tc main_v28) = KH.hVar (W2 m ρ c (Proc.devRef .tc main_v14_2)) (W2 m ρ c (Proc.devRef .tc main_v14_3)) := by
  show StableHlo.after hostOps1 _ (Proc.devRef .tc main_v28) = _
  after_results_simp
  rfl
theorem W5_v37 : W5 m ρ c (Proc.devRef .tc main_v37) = KH.hMean (W4 m ρ c (Proc.devRef .tc main_v29_2)) := by
  show StableHlo.after hostOps2 _ (Proc.devRef .tc main_v37) = _
  after_results_simp
  rfl
theorem W5_v43 : W5 m ρ c (Proc.devRef .tc main_v43) = KH.hVar (W4 m ρ c (Proc.devRef .tc main_v29_2)) (W4 m ρ c (Proc.devRef .tc main_v29_3)) := by
  show StableHlo.after hostOps2 _ (Proc.devRef .tc main_v43) = _
  after_results_simp
  rfl
theorem W7_v52 : W7 m ρ c (Proc.devRef .tc main_v52) = KH.hMean (W6 m ρ c (Proc.devRef .tc main_v44_2)) := by
  show StableHlo.after hostOps3 _ (Proc.devRef .tc main_v52) = _
  after_results_simp
  rfl
theorem W7_v58 : W7 m ρ c (Proc.devRef .tc main_v58) = KH.hVar (W6 m ρ c (Proc.devRef .tc main_v44_2)) (W6 m ρ c (Proc.devRef .tc main_v44_3)) := by
  show StableHlo.after hostOps3 _ (Proc.devRef .tc main_v58) = _
  after_results_simp
  rfl

end Cert.KernelIdeal.KC

end
-- ==== Proof.KArgs.lean ====
/-
  The kernel program's twenty-six argument arrays, as the specification's arguments.
-/
import proofs.«173010_j4303557230935_2_alg».proof.KernelIdeal
import proofs.«173010_j4303557230935_2_alg».proof.Proof.Spec

noncomputable section

namespace Cert.KernelIdeal.KV

open Idealize.ShloMosaic Idealize.ShloMosaic.TcCoe Idealize.SL.Sem Cert.KernelIdeal Cert.Spec

/-- The argument arrays a core is launched with, read as matrices and rows. -/
def argsOf (m : (ℓ : Loc nD τ sig) → Buf (Elt Ideal) ℓ) (c : Dev nD) : Cert.Spec.Args 65536 256 where
  X := toMat (m ((c.tc : Thread nD τ).loc main_arg0))
  P := toMat (m ((c.tc : Thread nD τ).loc main_arg1))
  C := toMat (m ((c.tc : Thread nD τ).loc main_arg2))
  S := toMat (m ((c.tc : Thread nD τ).loc main_arg3))
  Wx := toMat (m ((c.tc : Thread nD τ).loc main_arg4))
  bx := toRow (m ((c.tc : Thread nD τ).loc main_arg5))
  Wh := toMat (m ((c.tc : Thread nD τ).loc main_arg6))
  bh := toRow (m ((c.tc : Thread nD τ).loc main_arg7))
  WLC := toMat (m ((c.tc : Thread nD τ).loc main_arg8))
  bLC := toRow (m ((c.tc : Thread nD τ).loc main_arg9))
  WC := toMat (m ((c.tc : Thread nD τ).loc main_arg10))
  bC := toRow (m ((c.tc : Thread nD τ).loc main_arg11))
  WP := toMat (m ((c.tc : Thread nD τ).loc main_arg12))
  bP := toRow (m ((c.tc : Thread nD τ).loc main_arg13))
  Wf := toMat (m ((c.tc : Thread nD τ).loc main_arg14))
  bf := toRow (m ((c.tc : Thread nD τ).loc main_arg15))
  Wi := toMat (m ((c.tc : Thread nD τ).loc main_arg16))
  bi := toRow (m ((c.tc : Thread nD τ).loc main_arg17))
  Wo := toMat (m ((c.tc : Thread nD τ).loc main_arg18))
  bo := toRow (m ((c.tc : Thread nD τ).loc main_arg19))
  g1 := toRow (m ((c.tc : Thread nD τ).loc main_arg20))
  be1 := toRow (m ((c.tc : Thread nD τ).loc main_arg21))
  g2 := toRow (m ((c.tc : Thread nD τ).loc main_arg22))
  be2 := toRow (m ((c.tc : Thread nD τ).loc main_arg23))
  g3 := toRow (m ((c.tc : Thread nD τ).loc main_arg24))
  be3 := toRow (m ((c.tc : Thread nD τ).loc main_arg25))

end Cert.KernelIdeal.KV

end
-- ==== Proof.KDefs.lean ====
/-
  Reading the kernel program's small operands as rows of the specification: a bias or a statistic reaches a
  kernel as an array of one row, [1, k], and the last bias as a [1, 1] array.
-/
import proofs.«173010_j4303557230935_2_alg».proof.Proof.Spec

noncomputable section

namespace Cert.Spec

open Idealize.ShloMosaic Idealize.ShloMosaic.ValueIdx

/-- An array of one row read as that row. -/
def toRow1 {k : ℕ} (b : (⟨2, ![1, k]⟩ : Shape).Idx → EReal) : Row k := fun j => b (ix2 (0 : Fin 1) j)

theorem toRow1_apply {k : ℕ} (b : (⟨2, ![1, k]⟩ : Shape).Idx → EReal) (j : Fin k) : toRow1 b j = b (ix2 (0 : Fin 1) j) := rfl

/-- An array is the one-row array of `v` once it agrees with it entry by entry. -/
theorem toRow1_eq {k : ℕ} (b : (⟨2, ![1, k]⟩ : Shape).Idx → EReal) (v : Row k) (h : ∀ j, b (ix2 (0 : Fin 1) j) = v j) :
    toRow1 b = v := funext h

end Cert.Spec

end
-- ==== Proof.KValue.lean ====
/-
  The kernel program's five results as functions of its arguments.

  Each launch's output arrays are functions of the arrays it finds (the region facts, taken here as hypotheses
  and proved launch by launch elsewhere). What a launch finds is read back through the boundaries; the host
  stretches between launches turn the per-core running sums into column means and variances. Composing the four
  launches gives the results in the form of the specification that adds each bias inside its affine map, sums
  the three activations first-second-third and takes the variance from the two moments.
-/
import proofs.«173010_j4303557230935_2_alg».proof.Proof.KernelIdealFrameP
import proofs.«173010_j4303557230935_2_alg».proof.Proof.KChain
import proofs.«173010_j4303557230935_2_alg».proof.Proof.KHostFns
import proofs.«173010_j4303557230935_2_alg».proof.Proof.KArgs
import proofs.«173010_j4303557230935_2_alg».proof.Proof.KDefs
import proofs.«173010_j4303557230935_2_alg».proof.Proof.Spec

set_option maxRecDepth 16384

noncomputable section

namespace Cert.KernelIdeal.KVal

open Cert.KernelIdeal Cert.KernelIdeal.Gen Cert.KernelIdeal.GenP Cert.Spec
open Idealize.ShloMosaic Idealize.ShloMosaic.TcCoe Idealize.ShloMosaic.ValueIdx Idealize.SL.Sem
open Idealize.ShloMosaic.Pipeline (Dat)

/-- Entry contents of a launch: every TensorCore buffer of every core. -/
abbrev Entry := (c : Dev nD) → (b : Ref sig .tc) → Buf (Elt Ideal) ((c : Thread nD τ).loc b)

/-! ## What each launch computes, as functions of the arrays it finds -/

def U0 (V : Entry) (c : Dev nD) : Mat 65536 256 :=
  lin (toMat (V c main_arg0)) (toMat (V c main_arg4)) (toRow1 (V c main_v0))
def Z1 (V : Entry) (c : Dev nD) : Mat 65536 256 := fun r j =>
  U0 V c r j + lin (toMat (V c main_arg1)) (toMat (V c main_arg6)) (toRow1 (V c main_v1)) r j
def A1 (V : Entry) (c : Dev nD) : Mat 65536 256 :=
  normAct (toRow1 (V c main_v22)) (toRow1 (V c main_v28)) (toRow1 (V c main_v7)) (toRow1 (V c main_v8)) (toMat (V c main_v14_1))
def Z2 (V : Entry) (c : Dev nD) : Mat 65536 256 := lin (A1 V c) (toMat (V c main_arg8)) (toRow1 (V c main_v2))
def A2 (V : Entry) (c : Dev nD) : Mat 65536 256 :=
  normAct (toRow1 (V c main_v37)) (toRow1 (V c main_v43)) (toRow1 (V c main_v9)) (toRow1 (V c main_v10)) (toMat (V c main_v29_1))
def Z3 (V : Entry) (c : Dev nD) : Mat 65536 256 := fun r j =>
  (sigm (lin (toMat (V c main_arg2)) (toMat (V c main_arg14)) (toRow1 (V c main_v4))) r j * toMat (V c main_arg3) r j
    + (sigm (lin (toMat (V c main_v14_0)) (toMat (V c main_arg16)) (toRow1 (V c main_v5))) r j * wTenth)
        * lin (A2 V c) (toMat (V c main_arg8)) (toRow1 (V c main_v2)) r j)
  + lin (toMat (V c main_v14_0)) (toMat (V c main_arg10)) (toRow1 (V c main_v3)) r j
def A3 (V : Entry) (c : Dev nD) : Mat 65536 256 :=
  normAct (toRow1 (V c main_v52)) (toRow1 (V c main_v58)) (toRow1 (V c main_v11)) (toRow1 (V c main_v12)) (toMat (V c main_v44_1))
def Pp (V : Entry) (c : Dev nD) : Mat 65536 256 := fun r j =>
  sigm (lin (A3 V c) (toMat (V c main_arg18)) (toRow1 (V c main_v6))) r j
    * lin (fun r' q => (toMat (V c main_v29_0) r' q + toMat (V c main_v44_0) r' q) + A3 V c r' q)
        (toMat (V c main_arg12)) (toRow1 (V c main_v13)) r 0

set_option maxHeartbeats 4000000 in
/-- The region facts: what each launch leaves in its output arrays, for any entry contents. -/
structure RegFacts : Prop where
  r0_6 : ∀ (V : Entry) c, ((dat0 V c).arrAt 6 cfg0.N : S65536x256.Idx → EReal) = ofMat (U0 V c)
  r0_7 : ∀ (V : Entry) c, ((dat0 V c).arrAt 7 cfg0.N : S65536x256.Idx → EReal) = ofMat (Z1 V c)
  r0_8 : ∀ (V : Entry) c (j : Fin 256), toMat (n := 16) (k := 256) ((dat0 V c).arrAt 8 cfg0.N) (0 : Fin 16) j + toMat (n := 16) (k := 256) ((dat0 V c).arrAt 8 cfg0.N) (8 : Fin 16) j = ∑ r : Fin 65536, Z1 V c r j
  r0_9 : ∀ (V : Entry) c (j : Fin 256), toMat (n := 16) (k := 256) ((dat0 V c).arrAt 9 cfg0.N) (0 : Fin 16) j + toMat (n := 16) (k := 256) ((dat0 V c).arrAt 9 cfg0.N) (8 : Fin 16) j = ∑ r : Fin 65536, Z1 V c r j * Z1 V c r j
  r1_7 : ∀ (V : Entry) c, ((dat1 V c).arrAt 7 cfg1.N : S65536x256.Idx → EReal) = ofMat (A1 V c)
  r1_8 : ∀ (V : Entry) c, ((dat1 V c).arrAt 8 cfg1.N : S65536x256.Idx → EReal) = ofMat (Z2 V c)
  r1_9 : ∀ (V : Entry) c (j : Fin 256), toMat (n := 16) (k := 256) ((dat1 V c).arrAt 9 cfg1.N) (0 : Fin 16) j + toMat (n := 16) (k := 256) ((dat1 V c).arrAt 9 cfg1.N) (8 : Fin 16) j = ∑ r : Fin 65536, Z2 V c r j
  r1_10 : ∀ (V : Entry) c (j : Fin 256), toMat (n := 16) (k := 256) ((dat1 V c).arrAt 10 cfg1.N) (0 : Fin 16) j + toMat (n := 16) (k := 256) ((dat1 V c).arrAt 10 cfg1.N) (8 : Fin 16) j = ∑ r : Fin 65536, Z2 V c r j * Z2 V c r j
  r2_16 : ∀ (V : Entry) c, ((dat2 V c).arrAt 16 cfg2.N : S65536x256.Idx → EReal) = ofMat (A2 V c)
  r2_17 : ∀ (V : Entry) c, ((dat2 V c).arrAt 17 cfg2.N : S65536x256.Idx → EReal) = ofMat (Z3 V c)
  r2_18 : ∀ (V : Entry) c (j : Fin 256), toMat (n := 16) (k := 256) ((dat2 V c).arrAt 18 cfg2.N) (0 : Fin 16) j + toMat (n := 16) (k := 256) ((dat2 V c).arrAt 18 cfg2.N) (8 : Fin 16) j = ∑ r : Fin 65536, Z3 V c r j
  r2_19 : ∀ (V : Entry) c (j : Fin 256), toMat (n := 16) (k := 256) ((dat2 V c).arrAt 19 cfg2.N) (0 : Fin 16) j + toMat (n := 16) (k := 256) ((dat2 V c).arrAt 19 cfg2.N) (8 : Fin 16) j = ∑ r : Fin 65536, Z3 V c r j * Z3 V c r j
  r3_11 : ∀ (V : Entry) c, ((dat3 V c).arrAt 11 cfg3.N : S65536x256.Idx → EReal) = ofMat (A3 V c)
  r3_12 : ∀ (V : Entry) c, ((dat3 V c).arrAt 12 cfg3.N : S65536x256.Idx → EReal) = ofMat (Pp V c)

/-! ## The composition -/

namespace Comp

variable (h : RegFacts) (m : (ℓ : Loc nD τ sig) → Buf (Elt Ideal) ℓ) (ρ : Dev nD → PrngReg) (c : Dev nD)

/-! ### What each launch finds in its argument and bias buffers (no region fact needed) -/

theorem V1_arg0 : V1 m ρ c main_arg0 = (m ((c : Thread nD τ).loc main_arg0)) :=
  (KC.W1_arg0_from0 m ρ c).trans (KC.W0_arg m ρ c main_arg0)
theorem V1_arg1 : V1 m ρ c main_arg1 = (m ((c : Thread nD τ).loc main_arg1)) :=
  (KC.W1_arg1_from0 m ρ c).trans (KC.W0_arg m ρ c main_arg1)
theorem V1_arg4 : V1 m ρ c main_arg4 = (m ((c : Thread nD τ).loc main_arg4)) :=
  (KC.W1_arg4_from0 m ρ c).trans (KC.W0_arg m ρ c main_arg4)
theorem V1_arg6 : V1 m ρ c main_arg6 = (m ((c : Thread nD τ).loc main_arg6)) :=
  (KC.W1_arg6_from0 m ρ c).trans (KC.W0_arg m ρ c main_arg6)
theorem row1_v0 : toRow1 (V1 m ρ c main_v0) = toRow (m ((c : Thread nD τ).loc main_arg5)) :=
  funext fun j => (congrFun (KC.W1_v0 m ρ c) (ix2 (0 : Fin 1) j)).trans (KH.reshape_row _ j)
theorem row1_v1 : toRow1 (V1 m ρ c main_v1) = toRow (m ((c : Thread nD τ).loc main_arg7)) :=
  funext fun j => (congrFun (KC.W1_v1 m ρ c) (ix2 (0 : Fin 1) j)).trans (KH.reshape_row _ j)
theorem row3_v7 : toRow1 (V3 m ρ c main_v7) = toRow (m ((c : Thread nD τ).loc main_arg20)) :=
  funext fun j => (congrFun ((KC.W3_v7_from1 m ρ c).trans (KC.W1_v7 m ρ c)) (ix2 (0 : Fin 1) j)).trans (KH.reshape_row _ j)
theorem row3_v8 : toRow1 (V3 m ρ c main_v8) = toRow (m ((c : Thread nD τ).loc main_arg21)) :=
  funext fun j => (congrFun ((KC.W3_v8_from1 m ρ c).trans (KC.W1_v8 m ρ c)) (ix2 (0 : Fin 1) j)).trans (KH.reshape_row _ j)
theorem row3_v2 : toRow1 (V3 m ρ c main_v2) = toRow (m ((c : Thread nD τ).loc main_arg9)) :=
  funext fun j => (congrFun ((KC.W3_v2_from1 m ρ c).trans (KC.W1_v2 m ρ c)) (ix2 (0 : Fin 1) j)).trans (KH.reshape_row _ j)
theorem V3_arg8 : V3 m ρ c main_arg8 = (m ((c : Thread nD τ).loc main_arg8)) :=
  (KC.W3_arg8_from0 m ρ c).trans (KC.W0_arg m ρ c main_arg8)
theorem row5_v9 : toRow1 (V5 m ρ c main_v9) = toRow (m ((c : Thread nD τ).loc main_arg22)) :=
  funext fun j => (congrFun ((KC.W5_v9_from1 m ρ c).trans (KC.W1_v9 m ρ c)) (ix2 (0 : Fin 1) j)).trans (KH.reshape_row _ j)
theorem row5_v10 : toRow1 (V5 m ρ c main_v10) = toRow (m ((c : Thread nD τ).loc main_arg23)) :=
  funext fun j => (congrFun ((KC.W5_v10_from1 m ρ c).trans (KC.W1_v10 m ρ c)) (ix2 (0 : Fin 1) j)).trans (KH.reshape_row _ j)
theorem row5_v4 : toRow1 (V5 m ρ c main_v4) = toRow (m ((c : Thread nD τ).loc main_arg15)) :=
  funext fun j => (congrFun ((KC.W5_v4_from1 m ρ c).trans (KC.W1_v4 m ρ c)) (ix2 (0 : Fin 1) j)).trans (KH.reshape_row _ j)
theorem row5_v5 : toRow1 (V5 m ρ c main_v5) = toRow (m ((c : Thread nD τ).loc main_arg17)) :=
  funext fun j => (congrFun ((KC.W5_v5_from1 m ρ c).trans (KC.W1_v5 m ρ c)) (ix2 (0 : Fin 1) j)).trans (KH.reshape_row _ j)
theorem row5_v3 : toRow1 (V5 m ρ c main_v3) = toRow (m ((c : Thread nD τ).loc main_arg11)) :=
  funext fun j => (congrFun ((KC.W5_v3_from1 m ρ c).trans (KC.W1_v3 m ρ c)) (ix2 (0 : Fin 1) j)).trans (KH.reshape_row _ j)
theorem row5_v2 : toRow1 (V5 m ρ c main_v2) = toRow (m ((c : Thread nD τ).loc main_arg9)) :=
  funext fun j => (congrFun ((KC.W5_v2_from1 m ρ c).trans (KC.W1_v2 m ρ c)) (ix2 (0 : Fin 1) j)).trans (KH.reshape_row _ j)
theorem V5_arg2 : V5 m ρ c main_arg2 = (m ((c : Thread nD τ).loc main_arg2)) :=
  (KC.W5_arg2_from0 m ρ c).trans (KC.W0_arg m ρ c main_arg2)
theorem V5_arg3 : V5 m ρ c main_arg3 = (m ((c : Thread nD τ).loc main_arg3)) :=
  (KC.W5_arg3_from0 m ρ c).trans (KC.W0_arg m ρ c main_arg3)
theorem V5_arg14 : V5 m ρ c main_arg14 = (m ((c : Thread nD τ).loc main_arg14)) :=
  (KC.W5_arg14_from0 m ρ c).trans (KC.W0_arg m ρ c main_arg14)
theorem V5_arg16 : V5 m ρ c main_arg16 = (m ((c : Thread nD τ).loc main_arg16)) :=
  (KC.W5_arg16_from0 m ρ c).trans (KC.W0_arg m ρ c main_arg16)
theorem V5_arg10 : V5 m ρ c main_arg10 = (m ((c : Thread nD τ).loc main_arg10)) :=
  (KC.W5_arg10_from0 m ρ c).trans (KC.W0_arg m ρ c main_arg10)
theorem V5_arg8 : V5 m ρ c main_arg8 = (m ((c : Thread nD τ).loc main_arg8)) :=
  (KC.W5_arg8_from0 m ρ c).trans (KC.W0_arg m ρ c main_arg8)
theorem row7_v11 : toRow1 (V7 m ρ c main_v11) = toRow (m ((c : Thread nD τ).loc main_arg24)) :=
  funext fun j => (congrFun ((KC.W7_v11_from1 m ρ c).trans (KC.W1_v11 m ρ c)) (ix2 (0 : Fin 1) j)).trans (KH.reshape_row _ j)
theorem row7_v12 : toRow1 (V7 m ρ c main_v12) = toRow (m ((c : Thread nD τ).loc main_arg25)) :=
  funext fun j => (congrFun ((KC.W7_v12_from1 m ρ c).trans (KC.W1_v12 m ρ c)) (ix2 (0 : Fin 1) j)).trans (KH.reshape_row _ j)
theorem row7_v6 : toRow1 (V7 m ρ c main_v6) = toRow (m ((c : Thread nD τ).loc main_arg19)) :=
  funext fun j => (congrFun ((KC.W7_v6_from1 m ρ c).trans (KC.W1_v6 m ρ c)) (ix2 (0 : Fin 1) j)).trans (KH.reshape_row _ j)
theorem row7_v13 : toRow1 (V7 m ρ c main_v13) = toRow (m ((c : Thread nD τ).loc main_arg13)) :=
  funext fun j => by
    obtain rfl : j = (0 : Fin 1) := Subsingleton.elim _ _
    exact (congrFun ((KC.W7_v13_from1 m ρ c).trans (KC.W1_v13 m ρ c)) (ix2 (0 : Fin 1) (0 : Fin 1))).trans (KH.reshape_one _)
theorem V7_arg18 : V7 m ρ c main_arg18 = (m ((c : Thread nD τ).loc main_arg18)) :=
  (KC.W7_arg18_from0 m ρ c).trans (KC.W0_arg m ρ c main_arg18)
theorem V7_arg12 : V7 m ρ c main_arg12 = (m ((c : Thread nD τ).loc main_arg12)) :=
  (KC.W7_arg12_from0 m ρ c).trans (KC.W0_arg m ρ c main_arg12)

theorem U0_eq : U0 (V1 m ρ) c = uOf (KV.argsOf m c) := by
  unfold U0 uOf
  rw [V1_arg0 m ρ c, V1_arg4 m ρ c, row1_v0 m ρ c]
  rfl
theorem Z1_eq : Z1 (V1 m ρ) c = K.z1 (KV.argsOf m c) := by
  unfold Z1 K.z1
  rw [U0_eq m ρ c, V1_arg1 m ρ c, V1_arg6 m ρ c, row1_v1 m ρ c]
  rfl

include h

/-! ### Launch 0 -/

theorem W2_v14_0 : W2 m ρ c (Proc.devRef .tc main_v14_0) = ofMat (uOf (KV.argsOf m c)) :=
  (W2_arr m ρ c 6).trans ((h.r0_6 (V1 m ρ) c).trans (congrArg ofMat (U0_eq m ρ c)))
theorem W2_v14_1 : W2 m ρ c (Proc.devRef .tc main_v14_1) = ofMat (K.z1 (KV.argsOf m c)) :=
  (W2_arr m ρ c 7).trans ((h.r0_7 (V1 m ρ) c).trans (congrArg ofMat (Z1_eq m ρ c)))
theorem W2_s (j : Fin 256) : toMat (n := 16) (k := 256) (W2 m ρ c (Proc.devRef .tc main_v14_2)) (0 : Fin 16) j + toMat (n := 16) (k := 256) (W2 m ρ c (Proc.devRef .tc main_v14_2)) (8 : Fin 16) j = ∑ r : Fin 65536, K.z1 (KV.argsOf m c) r j :=
  (congrArg (fun a : S16x256.Idx → EReal => toMat (n := 16) (k := 256) a (0 : Fin 16) j + toMat (n := 16) (k := 256) a (8 : Fin 16) j) (W2_arr m ρ c 8)).trans
    ((h.r0_8 (V1 m ρ) c j).trans (by rw [Z1_eq m ρ c]))
theorem W2_q (j : Fin 256) : toMat (n := 16) (k := 256) (W2 m ρ c (Proc.devRef .tc main_v14_3)) (0 : Fin 16) j + toMat (n := 16) (k := 256) (W2 m ρ c (Proc.devRef .tc main_v14_3)) (8 : Fin 16) j = ∑ r : Fin 65536, K.z1 (KV.argsOf m c) r j * K.z1 (KV.argsOf m c) r j :=
  (congrArg (fun a : S16x256.Idx → EReal => toMat (n := 16) (k := 256) a (0 : Fin 16) j + toMat (n := 16) (k := 256) a (8 : Fin 16) j) (W2_arr m ρ c 9)).trans
    ((h.r0_9 (V1 m ρ) c j).trans (by rw [Z1_eq m ρ c]))

/-! ### Launch 1 -/

theorem row3_v22 : toRow1 (V3 m ρ c main_v22) = mean (K.z1 (KV.argsOf m c)) :=
  funext fun j => (congrFun (KC.W3_v22 m ρ c) (ix2 (0 : Fin 1) j)).trans (KH.hMean_eq_mean _ _ (W2_s h m ρ c) j)
theorem row3_v28 : toRow1 (V3 m ρ c main_v28) = varMoments (K.z1 (KV.argsOf m c)) :=
  funext fun j => (congrFun (KC.W3_v28 m ρ c) (ix2 (0 : Fin 1) j)).trans (KH.hVar_eq_varMoments _ _ _ (W2_s h m ρ c) (W2_q h m ρ c) j)
theorem V3_v14_1 : V3 m ρ c main_v14_1 = ofMat (K.z1 (KV.argsOf m c)) :=
  (KC.W3_v14_1_from2 m ρ c).trans (W2_v14_1 h m ρ c)

theorem A1_eq : A1 (V3 m ρ) c = K.a1 (KV.argsOf m c) := by
  unfold A1 K.a1
  rw [row3_v22 h m ρ c, row3_v28 h m ρ c, row3_v7 m ρ c, row3_v8 m ρ c, V3_v14_1 h m ρ c, toMat_ofMat]
  rfl
theorem Z2_eq : Z2 (V3 m ρ) c = K.z2 (KV.argsOf m c) := by
  unfold Z2 K.z2
  rw [A1_eq h m ρ c, V3_arg8 m ρ c, row3_v2 m ρ c]
  rfl
theorem W4_v29_0 : W4 m ρ c (Proc.devRef .tc main_v29_0) = ofMat (K.a1 (KV.argsOf m c)) :=
  (W4_arr m ρ c 7).trans ((h.r1_7 (V3 m ρ) c).trans (congrArg ofMat (A1_eq h m ρ c)))
theorem W4_v29_1 : W4 m ρ c (Proc.devRef .tc main_v29_1) = ofMat (K.z2 (KV.argsOf m c)) :=
  (W4_arr m ρ c 8).trans ((h.r1_8 (V3 m ρ) c).trans (congrArg ofMat (Z2_eq h m ρ c)))
theorem W4_s (j : Fin 256) : toMat (n := 16) (k := 256) (W4 m ρ c (Proc.devRef .tc main_v29_2)) (0 : Fin 16) j + toMat (n := 16) (k := 256) (W4 m ρ c (Proc.devRef .tc main_v29_2)) (8 : Fin 16) j = ∑ r : Fin 65536, K.z2 (KV.argsOf m c) r j :=
  (congrArg (fun a : S16x256.Idx → EReal => toMat (n := 16) (k := 256) a (0 : Fin 16) j + toMat (n := 16) (k := 256) a (8 : Fin 16) j) (W4_arr m ρ c 9)).trans
    ((h.r1_9 (V3 m ρ) c j).trans (by rw [Z2_eq h m ρ c]))
theorem W4_q (j : Fin 256) : toMat (n := 16) (k := 256) (W4 m ρ c (Proc.devRef .tc main_v29_3)) (0 : Fin 16) j + toMat (n := 16) (k := 256) (W4 m ρ c (Proc.devRef .tc main_v29_3)) (8 : Fin 16) j = ∑ r : Fin 65536, K.z2 (KV.argsOf m c) r j * K.z2 (KV.argsOf m c) r j :=
  (congrArg (fun a : S16x256.Idx → EReal => toMat (n := 16) (k := 256) a (0 : Fin 16) j + toMat (n := 16) (k := 256) a (8 : Fin 16) j) (W4_arr m ρ c 10)).trans
    ((h.r1_10 (V3 m ρ) c j).trans (by rw [Z2_eq h m ρ c]))

/-! ### Launch 2 -/

theorem row5_v37 : toRow1 (V5 m ρ c main_v37) = mean (K.z2 (KV.argsOf m c)) :=
  funext fun j => (congrFun (KC.W5_v37 m ρ c) (ix2 (0 : Fin 1) j)).trans (KH.hMean_eq_mean _ _ (W4_s h m ρ c) j)
theorem row5_v43 : toRow1 (V5 m ρ c main_v43) = varMoments (K.z2 (KV.argsOf m c)) :=
  funext fun j => (congrFun (KC.W5_v43 m ρ c) (ix2 (0 : Fin 1) j)).trans (KH.hVar_eq_varMoments _ _ _ (W4_s h m ρ c) (W4_q h m ρ c) j)
theorem V5_v14_0 : V5 m ρ c main_v14_0 = ofMat (uOf (KV.argsOf m c)) :=
  (KC.W5_v14_0_from2 m ρ c).trans (W2_v14_0 h m ρ c)
theorem V5_v29_1 : V5 m ρ c main_v29_1 = ofMat (K.z2 (KV.argsOf m c)) :=
  (KC.W5_v29_1_from4 m ρ c).trans (W4_v29_1 h m ρ c)

theorem A2_eq : A2 (V5 m ρ) c = K.a2 (KV.argsOf m c) := by
  unfold A2 K.a2
  rw [row5_v37 h m ρ c, row5_v43 h m ρ c, row5_v9 m ρ c, row5_v10 m ρ c, V5_v29_1 h m ρ c, toMat_ofMat]
  rfl
theorem Z3_eq : Z3 (V5 m ρ) c = K.z3 (KV.argsOf m c) := by
  unfold Z3 K.z3
  rw [A2_eq h m ρ c, V5_arg2 m ρ c, V5_arg3 m ρ c, V5_arg14 m ρ c, V5_arg16 m ρ c, V5_arg10 m ρ c, V5_arg8 m ρ c,
    row5_v4 m ρ c, row5_v5 m ρ c, row5_v3 m ρ c, row5_v2 m ρ c, V5_v14_0 h m ρ c, toMat_ofMat]
  rfl
theorem W6_v44_0 : W6 m ρ c (Proc.devRef .tc main_v44_0) = ofMat (K.a2 (KV.argsOf m c)) :=
  (W6_arr m ρ c 16).trans ((h.r2_16 (V5 m ρ) c).trans (congrArg ofMat (A2_eq h m ρ c)))
theorem W6_v44_1 : W6 m ρ c (Proc.devRef .tc main_v44_1) = ofMat (K.z3 (KV.argsOf m c)) :=
  (W6_arr m ρ c 17).trans ((h.r2_17 (V5 m ρ) c).trans (congrArg ofMat (Z3_eq h m ρ c)))
theorem W6_s (j : Fin 256) : toMat (n := 16) (k := 256) (W6 m ρ c (Proc.devRef .tc main_v44_2)) (0 : Fin 16) j + toMat (n := 16) (k := 256) (W6 m ρ c (Proc.devRef .tc main_v44_2)) (8 : Fin 16) j = ∑ r : Fin 65536, K.z3 (KV.argsOf m c) r j :=
  (congrArg (fun a : S16x256.Idx → EReal => toMat (n := 16) (k := 256) a (0 : Fin 16) j + toMat (n := 16) (k := 256) a (8 : Fin 16) j) (W6_arr m ρ c 18)).trans
    ((h.r2_18 (V5 m ρ) c j).trans (by rw [Z3_eq h m ρ c]))
theorem W6_q (j : Fin 256) : toMat (n := 16) (k := 256) (W6 m ρ c (Proc.devRef .tc main_v44_3)) (0 : Fin 16) j + toMat (n := 16) (k := 256) (W6 m ρ c (Proc.devRef .tc main_v44_3)) (8 : Fin 16) j = ∑ r : Fin 65536, K.z3 (KV.argsOf m c) r j * K.z3 (KV.argsOf m c) r j :=
  (congrArg (fun a : S16x256.Idx → EReal => toMat (n := 16) (k := 256) a (0 : Fin 16) j + toMat (n := 16) (k := 256) a (8 : Fin 16) j) (W6_arr m ρ c 19)).trans
    ((h.r2_19 (V5 m ρ) c j).trans (by rw [Z3_eq h m ρ c]))

/-! ### Launch 3 -/

theorem row7_v52 : toRow1 (V7 m ρ c main_v52) = mean (K.z3 (KV.argsOf m c)) :=
  funext fun j => (congrFun (KC.W7_v52 m ρ c) (ix2 (0 : Fin 1) j)).trans (KH.hMean_eq_mean _ _ (W6_s h m ρ c) j)
theorem row7_v58 : toRow1 (V7 m ρ c main_v58) = varMoments (K.z3 (KV.argsOf m c)) :=
  funext fun j => (congrFun (KC.W7_v58 m ρ c) (ix2 (0 : Fin 1) j)).trans (KH.hVar_eq_varMoments _ _ _ (W6_s h m ρ c) (W6_q h m ρ c) j)
theorem V7_v44_1 : V7 m ρ c main_v44_1 = ofMat (K.z3 (KV.argsOf m c)) :=
  (KC.W7_v44_1_from6 m ρ c).trans (W6_v44_1 h m ρ c)
theorem V7_v44_0 : V7 m ρ c main_v44_0 = ofMat (K.a2 (KV.argsOf m c)) :=
  (KC.W7_v44_0_from6 m ρ c).trans (W6_v44_0 h m ρ c)
theorem V7_v29_0 : V7 m ρ c main_v29_0 = ofMat (K.a1 (KV.argsOf m c)) :=
  (KC.W7_v29_0_from4 m ρ c).trans (W4_v29_0 h m ρ c)

theorem A3_eq : A3 (V7 m ρ) c = K.a3 (KV.argsOf m c) := by
  unfold A3 K.a3
  rw [row7_v52 h m ρ c, row7_v58 h m ρ c, row7_v11 m ρ c, row7_v12 m ρ c, V7_v44_1 h m ρ c, toMat_ofMat]
  rfl
theorem Pp_eq : Pp (V7 m ρ) c = K.p (KV.argsOf m c) := by
  unfold Pp K.p
  rw [A3_eq h m ρ c, V7_arg18 m ρ c, V7_arg12 m ρ c, row7_v6 m ρ c, row7_v13 m ρ c, V7_v29_0 h m ρ c, V7_v44_0 h m ρ c,
    toMat_ofMat, toMat_ofMat]
  rfl

/-! ### The five results at the last boundary -/

theorem W8_a3 : W8 m ρ c (Proc.devRef .tc main_v59_0) = ofMat (K.a3 (KV.argsOf m c)) :=
  (W8_arr m ρ c 11).trans ((h.r3_11 (V7 m ρ) c).trans (congrArg ofMat (A3_eq h m ρ c)))
theorem W8_p : W8 m ρ c (Proc.devRef .tc main_v59_1) = ofMat (K.p (KV.argsOf m c)) :=
  (W8_arr m ρ c 12).trans ((h.r3_12 (V7 m ρ) c).trans (congrArg ofMat (Pp_eq h m ρ c)))
theorem W8_a1 : W8 m ρ c (Proc.devRef .tc main_v29_0) = ofMat (K.a1 (KV.argsOf m c)) :=
  (KC.W8_v29_0_from4 m ρ c).trans (W4_v29_0 h m ρ c)
theorem W8_a2 : W8 m ρ c (Proc.devRef .tc main_v44_0) = ofMat (K.a2 (KV.argsOf m c)) :=
  (KC.W8_v44_0_from6 m ρ c).trans (W6_v44_0 h m ρ c)
theorem W8_z3 : W8 m ρ c (Proc.devRef .tc main_v44_1) = ofMat (K.z3 (KV.argsOf m c)) :=
  (KC.W8_v44_1_from6 m ρ c).trans (W6_v44_1 h m ρ c)

end Comp

end Cert.KernelIdeal.KVal

end
-- ==== Proof.Pay01.lean ====
/-
  The arithmetic of the first two kernels' payloads, entry by entry on the extended reals.

  Each payload of stage A (two affine maps of a block's rows, their sum, and that sum's column sums and column sums of
  squares, accumulated into eight-row partial-sum arrays) and of stage B (normalise, scale, shift and rectify a block,
  multiply it by a weight matrix, add the bias row, and accumulate the column sums and sums of squares) is read at one
  entry (row, column). At the ideal values a change of float format is the identity, the matrix unit's product into the
  zero accumulator is the plain sum over the contraction index, and a reduction over the rows from zero is the plain sum
  over the rows; so every entry is a closed expression in the loaded arrays' entries.
-/
import proofs.«173010_j4303557230935_2_alg».proof.Proof.Gen.KernelIdeal.Skeleton
import proofs.«173010_j4303557230935_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen

/-! ## The non-pointwise operations read at an entry -/

/-- The left operand's index of the product at output entry (y, j) and contraction position q is (y, q). -/
theorem lhsIdx_ix2 (y : Fin 2048) (j q : Fin 256) :
    dot_S2048x256_S256x256_S2048x256_1_0_0_1_n_n.lhsIdx (ix2 y j)
        ((contrEquiv1 dot_S2048x256_S256x256_S2048x256_1_0_0_1_n_n 256 rfl rfl).symm q) = ix2 y q := by
  funext a
  refine Fin.ext ?_
  match a with
  | ⟨0, _⟩ => rfl
  | ⟨1, _⟩ => rfl

/-- The right operand's index there is (q, j). -/
theorem rhsIdx_ix2 (y : Fin 2048) (j q : Fin 256) :
    dot_S2048x256_S256x256_S2048x256_1_0_0_1_n_n.rhsIdx (ix2 y j)
        ((contrEquiv1 dot_S2048x256_S256x256_S2048x256_1_0_0_1_n_n 256 rfl rfl).symm q) = ix2 q j := by
  funext a
  refine Fin.ext ?_
  match a with
  | ⟨0, _⟩ => rfl
  | ⟨1, _⟩ => rfl

/-- A [2048,256] by [256,256] product into the zero accumulator, read at entry (y, j): the sum over the 256
    contraction positions of the operands' products. -/
theorem matmul_ix2 {φ₁ φ₂ : FTy} (L : FVec Ideal S2048x256 φ₁) (R : FVec Ideal S256x256 φ₂) (y : Fin 2048) (j : Fin 256) :
    matmul dot_S2048x256_S256x256_S2048x256_1_0_0_1_n_n none L R (constant (F := Ideal) S2048x256 .f32 0x00000000#32) (ix2 y j)
      = ∑ q : Fin 256, L (ix2 y q) * R (ix2 q j) := by
  refine (Ideal.matmul_constant_zero_apply dot_S2048x256_S256x256_S2048x256_1_0_0_1_n_n none L R (ix2 y j)).trans ?_
  refine (Equiv.sum_comp (contrEquiv1 dot_S2048x256_S256x256_S2048x256_1_0_0_1_n_n 256 rfl rfl).symm _).symm.trans ?_
  refine Finset.sum_congr rfl fun q _ => ?_
  rw [lhsIdx_ix2, rhsIdx_ix2]

/-- The sum over the rows of a [2048,256] array, read at column j. -/
theorem colsum_ix1 (src : FVec Ideal S2048x256 .f32) (h : S2048x256.Reduces [0] S256) (hφ : FKind.Formats .f32)
    (hacc : (0x00000000#32 : BitVec 32) = FKind.add.neutral .f32 hφ) (j : Fin 256) :
    multiReduction (F := Ideal) .add [0] S256 src 0x00000000#32 h hφ hacc (ix1 j) = ∑ y : Fin 2048, src (ix2 y j) := by
  refine (Ideal.multiReduction_add_single src 0x00000000#32 h hφ hacc (ix1 j)).trans ?_
  refine Finset.sum_congr rfl fun y _ => congrArg src ?_
  funext a
  refine Fin.ext ?_
  match a with
  | ⟨0, _⟩ => rfl
  | ⟨1, _⟩ => rfl

/-- The same sum kept as a one-row array, read at (0, j). -/
theorem colsum_ix2 (src : FVec Ideal S2048x256 .f32) (h : S2048x256.Reduces [0] S256) (hφ : FKind.Formats .f32)
    (hacc : (0x00000000#32 : BitVec 32) = FKind.add.neutral .f32 hφ) (hc : S256.ShapeCasts S1x256) (j : Fin 256) :
    shapeCast S1x256 (multiReduction (F := Ideal) .add [0] S256 src 0x00000000#32 h hφ hacc) hc (ix2 (0 : Fin 1) j)
      = ∑ y : Fin 2048, src (ix2 y j) :=
  (shapeCast_a_1a_apply _ hc (0 : Fin 1) j).trans (colsum_ix1 src h hφ hacc j)

/-- A one-row array (cast to its own shape) repeated over a rows, read at (p, j): the row's entry j. -/
theorem row_bcast {α : Type} {a : ℕ} (v : S1x256.Idx → α) (hs : S1x256.ShapeCasts S1x256)
    (hb : S1x256.Broadcasts ⟨2, ![a, 256]⟩) (p : Fin a) (j : Fin 256) :
    broadcastTo ⟨2, ![a, 256]⟩ (shapeCast S1x256 v hs) hb (ix2 p j) = v (ix2 (0 : Fin 1) j) :=
  (broadcastTo_1b_ab_apply _ hb p j).trans (congrFun (shapeCast_self v hs) _)

/-! ## Stage A -/

theorem k0_pay1_apply (v26 : FVec Ideal S1x256 .f32) (v30 : FVec Ideal S8x256 .f32) (i : Fin 8) (j : Fin 256) :
    k0_pay1 (F := Ideal) v26 v30 (ix2 i j) = v30 (ix2 i j) + v26 (ix2 (0 : Fin 1) j) := by
  unfold Gen.k0_pay1
  refine (addf_apply _ _ _).trans (congrArg₂ (· + ·) ?_ ?_)
  · exact congrFun (shapeCast_self v30 _) _
  · exact row_bcast v26 _ _ i j

theorem k0_pay2_apply (v29 : FVec Ideal S1x256 .f32) (v36 : FVec Ideal S8x256 .f32) (i : Fin 8) (j : Fin 256) :
    k0_pay2 (F := Ideal) v29 v36 (ix2 i j) = v36 (ix2 i j) + v29 (ix2 (0 : Fin 1) j) := by
  unfold Gen.k0_pay2
  refine (addf_apply _ _ _).trans (congrArg₂ (· + ·) ?_ ?_)
  · exact congrFun (shapeCast_self v36 _) _
  · exact row_bcast v29 _ _ i j

theorem k0_pay3_apply (i : Fin 8) (j : Fin 256) : k0_pay3 (F := Ideal) (ix2 i j) = 0 :=
  Ideal.ofBits_zero_f32

theorem k0_pay4_apply (i : Fin 8) (j : Fin 256) : k0_pay4 (F := Ideal) (ix2 i j) = 0 :=
  Ideal.ofBits_zero_f32

theorem k0_pay5_apply (v3 : FVec Ideal S2048x256 .f32) (v4 : FVec Ideal S256x256 .f32) (v8 : FVec Ideal S1x256 .f32)
    (y : Fin 2048) (j : Fin 256) :
    k0_pay5 (F := Ideal) v3 v4 v8 (ix2 y j)
      = (∑ q : Fin 256, v3 (ix2 y q) * v4 (ix2 q j)) + v8 (ix2 (0 : Fin 1) j) := by
  unfold Gen.k0_pay5
  refine (addf_apply _ _ _).trans (congrArg₂ (· + ·) ?_ ?_)
  · exact matmul_ix2 _ _ y j
  · exact row_bcast v8 _ _ y j

theorem k0_pay6_apply (v3 : FVec Ideal S2048x256 .f32) (v4 : FVec Ideal S256x256 .f32) (v8 : FVec Ideal S1x256 .f32)
    (v12 : FVec Ideal S2048x256 .f32) (v13 : FVec Ideal S256x256 .f32) (v17 : FVec Ideal S1x256 .f32)
    (y : Fin 2048) (j : Fin 256) :
    k0_pay6 (F := Ideal) v3 v4 v8 v12 v13 v17 (ix2 y j)
      = ((∑ q : Fin 256, v3 (ix2 y q) * v4 (ix2 q j)) + v8 (ix2 (0 : Fin 1) j))
        + ((∑ q : Fin 256, v12 (ix2 y q) * v13 (ix2 q j)) + v17 (ix2 (0 : Fin 1) j)) := by
  unfold Gen.k0_pay6
  refine (addf_apply _ _ _).trans (congrArg₂ (· + ·) (k0_pay5_apply v3 v4 v8 y j) ?_)
  refine (addf_apply _ _ _).trans (congrArg₂ (· + ·) ?_ ?_)
  · exact matmul_ix2 _ _ y j
  · exact row_bcast v17 _ _ y j

theorem k0_pay7_apply (v3 : FVec Ideal S2048x256 .f32) (v4 : FVec Ideal S256x256 .f32) (v8 : FVec Ideal S1x256 .f32)
    (y : Fin 2048) (j : Fin 256) :
    k0_pay7 (F := Ideal) v3 v4 v8 (ix2 y j)
      = (∑ q : Fin 256, v3 (ix2 y q) * v4 (ix2 q j)) + v8 (ix2 (0 : Fin 1) j) := by
  unfold Gen.k0_pay7
  exact k0_pay5_apply v3 v4 v8 y j

theorem k0_pay8_apply (v3 : FVec Ideal S2048x256 .f32) (v4 : FVec Ideal S256x256 .f32) (v8 : FVec Ideal S1x256 .f32)
    (v12 : FVec Ideal S2048x256 .f32) (v13 : FVec Ideal S256x256 .f32) (v17 : FVec Ideal S1x256 .f32) (j : Fin 256) :
    k0_pay8 (F := Ideal) v3 v4 v8 v12 v13 v17 (ix2 (0 : Fin 1) j)
      = ∑ y : Fin 2048, k0_pay6 (F := Ideal) v3 v4 v8 v12 v13 v17 (ix2 y j) := by
  unfold Gen.k0_pay8
  exact colsum_ix2 _ _ _ _ _ j

theorem k0_pay9_apply (v3 : FVec Ideal S2048x256 .f32) (v4 : FVec Ideal S256x256 .f32) (v8 : FVec Ideal S1x256 .f32)
    (v12 : FVec Ideal S2048x256 .f32) (v13 : FVec Ideal S256x256 .f32) (v17 : FVec Ideal S1x256 .f32) (j : Fin 256) :
    k0_pay9 (F := Ideal) v3 v4 v8 v12 v13 v17 (ix2 (0 : Fin 1) j)
      = ∑ y : Fin 2048, k0_pay6 (F := Ideal) v3 v4 v8 v12 v13 v17 (ix2 y j)
          * k0_pay6 (F := Ideal) v3 v4 v8 v12 v13 v17 (ix2 y j) := by
  unfold Gen.k0_pay9
  exact colsum_ix2 _ _ _ _ _ j

/-! ## Stage B -/

/-- The rectifier as a payload spells it over a whole array (compare with the zero splat, select between the entry
    and a tenth of it), read at an entry. -/
theorem leaky_vec {s : Shape} (x : FVec Ideal s .f32) (i : s.Idx) :
    select (cmpf .ogt x (broadcast s (Scalar.ofBits (F := Ideal) .f32 0x00000000#32))) x
        (mulf (broadcast s (Scalar.ofBits (F := Ideal) .f32 0x3DCCCCCD#32)) x) i
      = Cert.Spec.leaky (x i) := rfl

theorem k1_pay6_apply (v3 : FVec Ideal S2048x256 .f32) (v5 v10 v16 v20 : FVec Ideal S1x256 .f32)
    (y : Fin 2048) (j : Fin 256) :
    k1_pay6 (F := Ideal) v3 v5 v10 v16 v20 (ix2 y j)
      = Cert.Spec.leaky (((v3 (ix2 y j) - v10 (ix2 (0 : Fin 1) j))
            * Ideal.rsqrt (v5 (ix2 (0 : Fin 1) j) + Cert.Spec.wEps)) * v16 (ix2 (0 : Fin 1) j)
          + v20 (ix2 (0 : Fin 1) j)) := by
  unfold Gen.k1_pay6
  refine (leaky_vec _ _).trans (congrArg Cert.Spec.leaky ?_)
  refine (addf_apply _ _ _).trans (congrArg₂ (· + ·) ?_ (row_bcast v20 _ _ y j))
  refine (mulf_apply _ _ _).trans (congrArg₂ (· * ·) ?_ (row_bcast v16 _ _ y j))
  refine (mulf_apply _ _ _).trans (congrArg₂ (· * ·) ?_ ?_)
  · refine (subf_apply _ _ _).trans (congrArg₂ (· - ·) ?_ (row_bcast v10 _ _ y j))
    exact congrFun (shapeCast_self v3 _) _
  · refine (broadcastTo_1b_ab_apply _ _ y j).trans ?_
    exact congrArg (fun t => Ideal.rsqrt (t + Cert.Spec.wEps)) (congrFun (shapeCast_self v5 _) _)

theorem k1_pay7_apply (v3 : FVec Ideal S2048x256 .f32) (v5 v10 v16 v20 : FVec Ideal S1x256 .f32)
    (v30 : FVec Ideal S256x256 .f32) (y : Fin 2048) (j : Fin 256) :
    k1_pay7 (F := Ideal) v3 v5 v10 v16 v20 v30 (ix2 y j)
      = ∑ q : Fin 256, k1_pay6 (F := Ideal) v3 v5 v10 v16 v20 (ix2 y q) * v30 (ix2 q j) := by
  unfold Gen.k1_pay7
  exact matmul_ix2 _ _ y j

theorem k1_pay1_apply (v33 : FVec Ideal S2048x256 .f32) (v34 : FVec Ideal S1x256 .f32) (y : Fin 2048) (j : Fin 256) :
    k1_pay1 (F := Ideal) v33 v34 (ix2 y j) = v33 (ix2 y j) + v34 (ix2 (0 : Fin 1) j) := by
  unfold Gen.k1_pay1
  exact (addf_apply _ _ _).trans (congrArg (v33 (ix2 y j) + ·) (row_bcast v34 _ _ y j))

theorem k1_pay2_apply (v33 : FVec Ideal S2048x256 .f32) (v34 : FVec Ideal S1x256 .f32) (v44 : FVec Ideal S8x256 .f32)
    (i : Fin 8) (j : Fin 256) :
    k1_pay2 (F := Ideal) v33 v34 v44 (ix2 i j)
      = v44 (ix2 i j) + ∑ y : Fin 2048, k1_pay1 (F := Ideal) v33 v34 (ix2 y j) := by
  unfold Gen.k1_pay2
  refine (addf_apply _ _ _).trans (congrArg₂ (· + ·) ?_ ?_)
  · exact congrFun (shapeCast_self v44 _) _
  · exact (row_bcast _ _ _ i j).trans (colsum_ix2 _ _ _ _ _ j)

theorem k1_pay3_apply (v33 : FVec Ideal S2048x256 .f32) (v34 : FVec Ideal S1x256 .f32) (v50 : FVec Ideal S8x256 .f32)
    (i : Fin 8) (j : Fin 256) :
    k1_pay3 (F := Ideal) v33 v34 v50 (ix2 i j)
      = v50 (ix2 i j) + ∑ y : Fin 2048, k1_pay1 (F := Ideal) v33 v34 (ix2 y j) * k1_pay1 (F := Ideal) v33 v34 (ix2 y j) := by
  unfold Gen.k1_pay3
  refine (addf_apply _ _ _).trans (congrArg₂ (· + ·) ?_ ?_)
  · exact congrFun (shapeCast_self v50 _) _
  · exact (row_bcast _ _ _ i j).trans (colsum_ix2 _ _ _ _ _ j)

theorem k1_pay4_apply (i : Fin 8) (j : Fin 256) : k1_pay4 (F := Ideal) (ix2 i j) = 0 :=
  Ideal.ofBits_zero_f32

theorem k1_pay5_apply (i : Fin 8) (j : Fin 256) : k1_pay5 (F := Ideal) (ix2 i j) = 0 :=
  Ideal.ofBits_zero_f32

end Cert.KernelIdeal.Pay

end
-- ==== Proof.LibBlockSum.lean ====
/- Regrouping a sum over Fin (nb * bs) into nb consecutive blocks of bs terms, in any additive commutative monoid:
   the index r = bs * t + y runs over every r < nb * bs exactly once as t runs over the blocks and y over the places in
   a block. Stated with the blocks indexed by Fin nb and by a range of naturals, and at 10000 = 50 * 200. -/
import Mathlib.Algebra.BigOperators.Fin
import Mathlib.Data.Fintype.BigOperators
import Mathlib.Logic.Equiv.Fin.Basic

namespace Cert.Lib

/-- The place y of block t lies below nb * bs. -/
theorem block_lt {nb bs : ℕ} (t : Fin nb) (y : Fin bs) : bs * t.val + y.val < nb * bs := by
  have h1 : bs * t.val + y.val < bs * (t.val + 1) := by rw [Nat.mul_succ]; exact Nat.add_lt_add_left y.isLt _
  have h2 : bs * (t.val + 1) ≤ bs * nb := Nat.mul_le_mul_left _ t.isLt
  rw [Nat.mul_comm nb bs]
  exact lt_of_lt_of_le h1 h2

/-- The same when the total is named N = nb * bs. -/
theorem block_lt_of_eq {nb bs N : ℕ} (h : nb * bs = N) (t : Fin nb) (y : Fin bs) : bs * t.val + y.val < N :=
  h ▸ block_lt t y

/-- A sum over Fin (nb * bs) is the sum over the nb blocks of the sums over the bs places of each block. -/
theorem sum_blocks {M : Type*} [AddCommMonoid M] (nb bs : ℕ) (f : Fin (nb * bs) → M) :
    ∑ t : Fin nb, ∑ y : Fin bs, f ⟨bs * t.val + y.val, block_lt t y⟩ = ∑ r : Fin (nb * bs), f r := by
  rw [← Equiv.sum_comp (finProdFinEquiv (m := nb) (n := bs)) f, Fintype.sum_prod_type]
  refine Finset.sum_congr rfl (fun t _ => Finset.sum_congr rfl (fun y _ => ?_))
  refine congrArg f (Fin.ext ?_)
  show bs * t.val + y.val = y.val + bs * t.val
  exact Nat.add_comm _ _

/-- The same for a sum over Fin N with N = nb * bs. -/
theorem sum_blocks_of_eq {M : Type*} [AddCommMonoid M] {nb bs N : ℕ} (h : nb * bs = N) (f : Fin N → M) :
    ∑ t : Fin nb, ∑ y : Fin bs, f ⟨bs * t.val + y.val, block_lt_of_eq h t y⟩ = ∑ r : Fin N, f r := by
  subst h
  exact sum_blocks nb bs f

/-- The blocks indexed by a range of naturals: if B t is the sum of block t for every t < nb, the sum of B over
    range nb is the whole sum. -/
theorem sum_range_blocks_of_eq {M : Type*} [AddCommMonoid M] {nb bs N : ℕ} (h : nb * bs = N) (f : Fin N → M)
    (B : ℕ → M)
    (hB : ∀ (t : ℕ) (ht : t < nb), B t = ∑ y : Fin bs, f ⟨bs * t + y.val, block_lt_of_eq h ⟨t, ht⟩ y⟩) :
    ∑ s ∈ Finset.range nb, B s = ∑ r : Fin N, f r := by
  rw [Finset.sum_range, ← sum_blocks_of_eq h f]
  exact Finset.sum_congr rfl (fun t _ => hB t.val t.isLt)

/-- 10000 terms are 50 blocks of 200. -/
theorem sum_blocks_10000 {M : Type*} [AddCommMonoid M] (f : Fin 10000 → M) :
    ∑ t : Fin 50, ∑ y : Fin 200, f ⟨200 * t.val + y.val, by omega⟩ = ∑ r : Fin 10000, f r :=
  sum_blocks_of_eq (nb := 50) (bs := 200) (N := 10000) rfl f

/-- 10000 terms from a range of 50 block sums. -/
theorem sum_range_blocks_10000 {M : Type*} [AddCommMonoid M] (f : Fin 10000 → M) (B : ℕ → M)
    (hB : ∀ (t : ℕ) (ht : t < 50), B t = ∑ y : Fin 200, f ⟨200 * t + y.val, by omega⟩) :
    ∑ s ∈ Finset.range 50, B s = ∑ r : Fin 10000, f r :=
  sum_range_blocks_of_eq (nb := 50) (bs := 200) (N := 10000) rfl f B hB

/-- A running sum: an accumulator that starts at b 0 and adds b (n + 1) at step n + 1 holds, after step n, the sum of
    b over range (n + 1). -/
theorem running_sum {M : Type*} [AddCommMonoid M] (b acc : ℕ → M) (h0 : acc 0 = b 0)
    (hs : ∀ n, acc (n + 1) = acc n + b (n + 1)) (n : ℕ) : acc n = ∑ t ∈ Finset.range (n + 1), b t := by
  induction n with
  | zero => rw [h0, Finset.sum_range_one]
  | succ n ih => rw [hs n, ih, Finset.sum_range_succ _ (n + 1)]

/-- The same with the steps known only below a bound N. -/
theorem running_sum_lt {M : Type*} [AddCommMonoid M] {N : ℕ} (b acc : ℕ → M) (h0 : acc 0 = b 0)
    (hs : ∀ n, n + 1 < N → acc (n + 1) = acc n + b (n + 1)) (n : ℕ) (hn : n < N) :
    acc n = ∑ t ∈ Finset.range (n + 1), b t := by
  induction n with
  | zero => rw [h0, Finset.sum_range_one]
  | succ n ih => rw [hs n hn, ih (Nat.lt_of_succ_lt hn), Finset.sum_range_succ _ (n + 1)]

/-- The same when the accumulator starts from zero plus the first term. -/
theorem running_sum_lt' {M : Type*} [AddCommMonoid M] {N : ℕ} (b acc : ℕ → M) (h0 : acc 0 = 0 + b 0)
    (hs : ∀ n, n + 1 < N → acc (n + 1) = acc n + b (n + 1)) (n : ℕ) (hn : n < N) :
    acc n = ∑ t ∈ Finset.range (n + 1), b t :=
  running_sum_lt b acc (by rw [h0, zero_add]) hs n hn

/-- An accumulator that starts at zero plus block 0 and adds block n + 1 at step n + 1, for 50 blocks of 200, holds
    after step 49 the sum of all 10000 terms. -/
theorem acc_49_10000 {M : Type*} [AddCommMonoid M] (f : Fin 10000 → M) (b acc : ℕ → M)
    (hb : ∀ (t : ℕ) (ht : t < 50), b t = ∑ y : Fin 200, f ⟨200 * t + y.val, by omega⟩)
    (h0 : acc 0 = 0 + b 0) (hs : ∀ n, n + 1 < 50 → acc (n + 1) = acc n + b (n + 1)) :
    acc 49 = ∑ r : Fin 10000, f r := by
  rw [running_sum_lt' b acc h0 hs 49 (by omega)]
  exact sum_range_blocks_10000 f b hb

end Cert.Lib
-- ==== Proof.KReg0Blocks.lean ====
/-
  Kernel launch 0's windows as index arithmetic. The grid has 32 points; point t belongs to core t / 16 and is that
  core's step t % 16. A tiled window's block at point t is rows 2048·t … 2048·t + 2047 of its 65536-row array, a
  constant window's block is its whole array, and an accumulator window's block is rows 8·(t / 16) … 8·(t / 16) + 7
  of its 16-row array. Stated here: the block index of every window at every point, a block read entry by entry,
  an output block given entry by entry as a block of one whole-array function, which point's block holds a given
  row, and the regrouping of a sum over all rows into the two cores' sixteen block sums.
-/
import proofs.«173010_j4303557230935_2_alg».proof.Proof.Gen.KernelIdeal.Launch
import proofs.«173010_j4303557230935_2_alg».proof.Proof.Gen.KernelIdeal.Points
import proofs.«173010_j4303557230935_2_alg».proof.Proof.LibBlockSum
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Reg0

open Cert.KernelIdeal Cert.KernelIdeal.Gen

/-- The grid has 32 points. -/
theorem N32 : cfg0.N = 32 := N_0

/-! ## The block index of each window at each point, decided over the grid -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 2) = t.val / 16 ∧ win0_8.index t (1 : Fin 2) = 0 :=
  (by decide +kernel : ∀ t : Fin grid0.N, _)
theorem idx9 : ∀ t : Fin cfg0.N, win0_9.index t (0 : Fin 2) = t.val / 16 ∧ win0_9.index t (1 : Fin 2) = 0 :=
  (by decide +kernel : ∀ t : Fin grid0.N, _)

/-! ## An input block read entry by entry -/

/-- Entry (y, j) of the first tiled input's block at point t is entry (2048·t + y, j) of the array. -/
theorem blk0_read (t : Fin cfg0.N) (A : S65536x256.Idx → EReal) (y : Fin 2048) (j : Fin 256)
    (h : 2048 * t.val + y.val < 65536) :
    (((cfg0.win 0).blk t).view.read (Elt Ideal) A : S2048x256.Idx → EReal) (ix2 y j)
      = A (ix2 ⟨2048 * t.val + y.val, h⟩ j) := by
  obtain ⟨e0, e1⟩ := idx0 t
  rw [View.read_apply]
  show A _ = A _
  refine congrArg A ?_
  funext a
  apply Fin.ext
  match a with
  | ⟨0, _⟩ => show win0_0.index t (0 : Fin 2) * 2048 + 1 * y.val = 2048 * t.val + y.val; rw [e0]; omega
  | ⟨1, _⟩ => show win0_0.index t (1 : Fin 2) * 256 + 1 * j.val = j.val; rw [e1]; omega

/-- The same for the second tiled input. -/
theorem blk1_read (t : Fin cfg0.N) (A : S65536x256.Idx → EReal) (y : Fin 2048) (j : Fin 256)
    (h : 2048 * t.val + y.val < 65536) :
    (((cfg0.win 1).blk t).view.read (Elt Ideal) A : S2048x256.Idx → EReal) (ix2 y j)
      = A (ix2 ⟨2048 * t.val + y.val, h⟩ j) := by
  obtain ⟨e0, e1⟩ := idx1 t
  rw [View.read_apply]
  show A _ = A _
  refine congrArg A ?_
  funext a
  apply Fin.ext
  match a with
  | ⟨0, _⟩ => show win0_1.index t (0 : Fin 2) * 2048 + 1 * y.val = 2048 * t.val + y.val; rw [e0]; omega
  | ⟨1, _⟩ => show win0_1.index t (1 : Fin 2) * 256 + 1 * j.val = j.val; rw [e1]; omega

/-- A constant window's block is its whole array: the two weight matrices, -/
theorem blk2_read (t : Fin cfg0.N) (A : S256x256.Idx → EReal) :
    (((cfg0.win 2).blk t).view.read (Elt Ideal) A : S256x256.Idx → EReal) = A := by
  obtain ⟨e0, e1⟩ := idx2 t
  funext i
  rw [View.read_apply]
  show A _ = A _
  refine congrArg A ?_
  funext a
  apply Fin.ext
  match a with
  | ⟨0, _⟩ => show win0_2.index t (0 : Fin 2) * 256 + 1 * (i 0).val = (i 0).val; rw [e0]; omega
  | ⟨1, _⟩ => show win0_2.index t (1 : Fin 2) * 256 + 1 * (i 1).val = (i 1).val; rw [e1]; omega

theorem blk4_read (t : Fin cfg0.N) (A : S256x256.Idx → EReal) :
    (((cfg0.win 4).blk t).view.read (Elt Ideal) A : S256x256.Idx → EReal) = A := by
  obtain ⟨e0, e1⟩ := idx4 t
  funext i
  rw [View.read_apply]
  show A _ = A _
  refine congrArg A ?_
  funext a
  apply Fin.ext
  match a with
  | ⟨0, _⟩ => show win0_4.index t (0 : Fin 2) * 256 + 1 * (i 0).val = (i 0).val; rw [e0]; omega
  | ⟨1, _⟩ => show win0_4.index t (1 : Fin 2) * 256 + 1 * (i 1).val = (i 1).val; rw [e1]; omega

/-- and the two bias rows. -/
theorem blk3_read (t : Fin cfg0.N) (A : S1x256.Idx → EReal) :
    (((cfg0.win 3).blk t).view.read (Elt Ideal) A : S1x256.Idx → EReal) = A := by
  obtain ⟨e0, e1⟩ := idx3 t
  funext i
  rw [View.read_apply]
  show A _ = A _
  refine congrArg A ?_
  funext a
  apply Fin.ext
  match a with
  | ⟨0, _⟩ => show win0_3.index t (0 : Fin 2) * 1 + 1 * (i 0).val = (i 0).val; rw [e0]; omega
  | ⟨1, _⟩ => show win0_3.index t (1 : Fin 2) * 256 + 1 * (i 1).val = (i 1).val; rw [e1]; omega

theorem blk5_read (t : Fin cfg0.N) (A : S1x256.Idx → EReal) :
    (((cfg0.win 5).blk t).view.read (Elt Ideal) A : S1x256.Idx → EReal) = A := by
  obtain ⟨e0, e1⟩ := idx5 t
  funext i
  rw [View.read_apply]
  show A _ = A _
  refine congrArg A ?_
  funext a
  apply Fin.ext
  match a with
  | ⟨0, _⟩ => show win0_5.index t (0 : Fin 2) * 1 + 1 * (i 0).val = (i 0).val; rw [e0]; omega
  | ⟨1, _⟩ => show win0_5.index t (1 : Fin 2) * 256 + 1 * (i 1).val = (i 1).val; rw [e1]; omega

/-! ## An output block that is, entry by entry, a block of one whole-array function -/

/-- Contents X of a tiled output's staging buffer at point t that agree entry by entry with rows
    2048·t … 2048·t + 2047 of G are the block of G the write-back at t writes: the half-precision output, -/
theorem blk6_ext (t : Fin cfg0.N) (X : S2048x256.Idx → EReal) (G : S65536x256.Idx → EReal)
    (h : ∀ (y : Fin 2048) (j : Fin 256) (hy : 2048 * t.val + y.val < 65536),
      X (ix2 y j) = G (ix2 ⟨2048 * t.val + y.val, hy⟩ j)) :
    X = ((cfg0.win 6).blk t).view.read (Elt Ideal) G := by
  obtain ⟨e0, e1⟩ := idx6 t
  have ht : t.val < 32 := lt_of_lt_of_eq t.isLt N32
  funext i
  have h0 : (i 0).val < 2048 := idx2_lt0 i
  rw [View.read_apply]
  show X i = G _
  refine (congrArg X (eq_ix2 i)).trans ((h (i 0) (i 1) (by omega)).trans (congrArg G ?_))
  funext a
  apply Fin.ext
  match a with
  | ⟨0, _⟩ => show 2048 * t.val + (i 0).val = win0_6.index t (0 : Fin 2) * 2048 + 1 * (i 0).val; rw [e0]; omega
  | ⟨1, _⟩ => show (i 1).val = win0_6.index t (1 : Fin 2) * 256 + 1 * (i 1).val; rw [e1]; omega

/-- and the single-precision one. -/
theorem blk7_ext (t : Fin cfg0.N) (X : S2048x256.Idx → EReal) (G : S65536x256.Idx → EReal)
    (h : ∀ (y : Fin 2048) (j : Fin 256) (hy : 2048 * t.val + y.val < 65536),
      X (ix2 y j) = G (ix2 ⟨2048 * t.val + y.val, hy⟩ j)) :
    X = ((cfg0.win 7).blk t).view.read (Elt Ideal) G := by
  obtain ⟨e0, e1⟩ := idx7 t
  have ht : t.val < 32 := lt_of_lt_of_eq t.isLt N32
  funext i
  have h0 : (i 0).val < 2048 := idx2_lt0 i
  rw [View.read_apply]
  show X i = G _
  refine (congrArg X (eq_ix2 i)).trans ((h (i 0) (i 1) (by omega)).trans (congrArg G ?_))
  funext a
  apply Fin.ext
  match a with
  | ⟨0, _⟩ => show 2048 * t.val + (i 0).val = win0_7.index t (0 : Fin 2) * 2048 + 1 * (i 0).val; rw [e0]; omega
  | ⟨1, _⟩ => show (i 1).val = win0_7.index t (1 : Fin 2) * 256 + 1 * (i 1).val; rw [e1]; omega

/-- Contents X of an accumulator's staging buffer at point t that agree entry by entry with rows
    8·(t / 16) … 8·(t / 16) + 7 of G are the block of G the write-back at t writes: the column sums, -/
theorem blk8_ext (t : Fin cfg0.N) (X : S8x256.Idx → EReal) (G : S16x256.Idx → EReal)
    (h : ∀ (y : Fin 8) (j : Fin 256) (hy : 8 * (t.val / 16) + y.val < 16),
      X (ix2 y j) = G (ix2 ⟨8 * (t.val / 16) + y.val, hy⟩ j)) :
    X = ((cfg0.win 8).blk t).view.read (Elt Ideal) G := by
  obtain ⟨e0, e1⟩ := idx8 t
  have ht : t.val < 32 := lt_of_lt_of_eq t.isLt N32
  funext i
  have h0 : (i 0).val < 8 := idx2_lt0 i
  rw [View.read_apply]
  show X i = G _
  refine (congrArg X (eq_ix2 i)).trans ((h (i 0) (i 1) (by omega)).trans (congrArg G ?_))
  funext a
  apply Fin.ext
  match a with
  | ⟨0, _⟩ => show 8 * (t.val / 16) + (i 0).val = win0_8.index t (0 : Fin 2) * 8 + 1 * (i 0).val; rw [e0]; omega
  | ⟨1, _⟩ => show (i 1).val = win0_8.index t (1 : Fin 2) * 256 + 1 * (i 1).val; rw [e1]; omega

/-- and the column sums of squares. -/
theorem blk9_ext (t : Fin cfg0.N) (X : S8x256.Idx → EReal) (G : S16x256.Idx → EReal)
    (h : ∀ (y : Fin 8) (j : Fin 256) (hy : 8 * (t.val / 16) + y.val < 16),
      X (ix2 y j) = G (ix2 ⟨8 * (t.val / 16) + y.val, hy⟩ j)) :
    X = ((cfg0.win 9).blk t).view.read (Elt Ideal) G := by
  obtain ⟨e0, e1⟩ := idx9 t
  have ht : t.val < 32 := lt_of_lt_of_eq t.isLt N32
  funext i
  have h0 : (i 0).val < 8 := idx2_lt0 i
  rw [View.read_apply]
  show X i = G _
  refine (congrArg X (eq_ix2 i)).trans ((h (i 0) (i 1) (by omega)).trans (congrArg G ?_))
  funext a
  apply Fin.ext
  match a with
  | ⟨0, _⟩ => show 8 * (t.val / 16) + (i 0).val = win0_9.index t (0 : Fin 2) * 8 + 1 * (i 0).val; rw [e0]; omega
  | ⟨1, _⟩ => show (i 1).val = win0_9.index t (1 : Fin 2) * 256 + 1 * (i 1).val; rw [e1]; omega

/-! ## Which point's block holds a given row -/

/-- Row r of a tiled output is in the block of point r / 2048, which is written back (every point's is). -/
theorem cover6 (i : S65536x256.Idx) :
    ∃ t : Fin cfg0.N, (cfg0.win 6).flush t = true ∧ i ∈ ((cfg0.win 6).blk t).view.set := by
  have h0 : (i 0).val < 65536 := idx2_lt0 i
  have h1 : (i 1).val < 256 := idx2_lt1 i
  obtain ⟨t, ht⟩ : ∃ t : Fin cfg0.N, t.val = (i 0).val / 2048 := ⟨⟨(i 0).val / 2048, by rw [N32]; omega⟩, rfl⟩
  obtain ⟨e0, e1⟩ := idx6 t
  refine ⟨t, flush0_6 t, ?_⟩
  show i ∈ ((View.whole main_v14_0).slice (win0_6.rect t)).set
  rw [View.set_slice_whole, Rect.mem_set_unit]
  intro a
  match a with
  | ⟨0, _⟩ => show win0_6.index t (0 : Fin 2) * 2048 ≤ (i 0).val ∧ (i 0).val < win0_6.index t (0 : Fin 2) * 2048 + 2048
              rw [e0]; omega
  | ⟨1, _⟩ => show win0_6.index t (1 : Fin 2) * 256 ≤ (i 1).val ∧ (i 1).val < win0_6.index t (1 : Fin 2) * 256 + 256
              rw [e1]; omega

theorem cover7 (i : S65536x256.Idx) :
    ∃ t : Fin cfg0.N, (cfg0.win 7).flush t = true ∧ i ∈ ((cfg0.win 7).blk t).view.set := by
  have h0 : (i 0).val < 65536 := idx2_lt0 i
  have h1 : (i 1).val < 256 := idx2_lt1 i
  obtain ⟨t, ht⟩ : ∃ t : Fin cfg0.N, t.val = (i 0).val / 2048 := ⟨⟨(i 0).val / 2048, by rw [N32]; omega⟩, rfl⟩
  obtain ⟨e0, e1⟩ := idx7 t
  refine ⟨t, flush0_7 t, ?_⟩
  show i ∈ ((View.whole main_v14_1).slice (win0_7.rect t)).set
  rw [View.set_slice_whole, Rect.mem_set_unit]
  intro a
  match a with
  | ⟨0, _⟩ => show win0_7.index t (0 : Fin 2) * 2048 ≤ (i 0).val ∧ (i 0).val < win0_7.index t (0 : Fin 2) * 2048 + 2048
              rw [e0]; omega
  | ⟨1, _⟩ => show win0_7.index t (1 : Fin 2) * 256 ≤ (i 1).val ∧ (i 1).val < win0_7.index t (1 : Fin 2) * 256 + 256
              rw [e1]; omega

/-- Row r of an accumulator array is in the block of the last point of core r / 8, the one point of that core
    whose block is written back. -/
theorem cover8 (i : S16x256.Idx) :
    ∃ t : Fin cfg0.N, (cfg0.win 8).flush t = true ∧ i ∈ ((cfg0.win 8).blk t).view.set := by
  have h0 : (i 0).val < 16 := idx2_lt0 i
  have h1 : (i 1).val < 256 := idx2_lt1 i
  obtain ⟨t, ht⟩ : ∃ t : Fin cfg0.N, t.val = 16 * ((i 0).val / 8) + 15 :=
    ⟨⟨16 * ((i 0).val / 8) + 15, by rw [N32]; omega⟩, rfl⟩
  obtain ⟨e0, e1⟩ := idx8 t
  refine ⟨t, (flush0_8 t).mpr (by omega), ?_⟩
  show i ∈ ((View.whole main_v14_2).slice (win0_8.rect t)).set
  rw [View.set_slice_whole, Rect.mem_set_unit]
  intro a
  match a with
  | ⟨0, _⟩ => show win0_8.index t (0 : Fin 2) * 8 ≤ (i 0).val ∧ (i 0).val < win0_8.index t (0 : Fin 2) * 8 + 8
              rw [e0]; omega
  | ⟨1, _⟩ => show win0_8.index t (1 : Fin 2) * 256 ≤ (i 1).val ∧ (i 1).val < win0_8.index t (1 : Fin 2) * 256 + 256
              rw [e1]; omega

theorem cover9 (i : S16x256.Idx) :
    ∃ t : Fin cfg0.N, (cfg0.win 9).flush t = true ∧ i ∈ ((cfg0.win 9).blk t).view.set := by
  have h0 : (i 0).val < 16 := idx2_lt0 i
  have h1 : (i 1).val < 256 := idx2_lt1 i
  obtain ⟨t, ht⟩ : ∃ t : Fin cfg0.N, t.val = 16 * ((i 0).val / 8) + 15 :=
    ⟨⟨16 * ((i 0).val / 8) + 15, by rw [N32]; omega⟩, rfl⟩
  obtain ⟨e0, e1⟩ := idx9 t
  refine ⟨t, (flush0_9 t).mpr (by omega), ?_⟩
  show i ∈ ((View.whole main_v14_3).slice (win0_9.rect t)).set
  rw [View.set_slice_whole, Rect.mem_set_unit]
  intro a
  match a with
  | ⟨0, _⟩ => show win0_9.index t (0 : Fin 2) * 8 ≤ (i 0).val ∧ (i 0).val < win0_9.index t (0 : Fin 2) * 8 + 8
              rw [e0]; omega
  | ⟨1, _⟩ => show win0_9.index t (1 : Fin 2) * 256 ≤ (i 1).val ∧ (i 1).val < win0_9.index t (1 : Fin 2) * 256 + 256
              rw [e1]; omega

/-! ## The two cores' running sums together are the sum over all rows -/

/-- If B t is the sum of f over rows 2048·t … 2048·t + 2047 for each of the 32 points, then the first core's sixteen
    block sums (from zero) plus the second core's sixteen (from zero) are the sum of f over all 65536 rows. -/
theorem halves_sum (f : Fin 65536 → EReal) (B : ℕ → EReal)
    (hB : ∀ (t : ℕ) (ht : t < 32), B t = ∑ y : Fin 2048, f ⟨2048 * t + y.val, by omega⟩) :
    (0 + ∑ s ∈ Finset.range 16, B (16 * 0 + s)) + (0 + ∑ s ∈ Finset.range 16, B (16 * 1 + s))
      = ∑ r : Fin 65536, f r := by
  rw [zero_add, zero_add]
  simp only [Nat.mul_zero, Nat.zero_add, Nat.mul_one]
  rw [← Finset.sum_range_add B 16 16]
  exact Cert.Lib.sum_range_blocks_of_eq (nb := 32) (bs := 2048) (N := 65536) rfl f B (fun t ht => hB t ht)

end Cert.KernelIdeal.Reg0

end
-- ==== Proof.KReg0Cases.lean ====
/-
  What one run of kernel launch 0's body leaves in each output's staging buffer, as a term of the six input blocks
  (and, at a point that is not a core's first, of what the two accumulators held before). The half-precision output
  is the first affine map of the block (k0_pay7), the single-precision output the sum of the two affine maps
  (k0_pay6); each accumulator is its previous contents plus the block's column sums (k0_pay1 of k0_pay8) or
  column sums of squares (k0_pay2 of k0_pay9), the previous contents being the zero block (k0_pay3, k0_pay4) at a
  core's first point, where the body stores the zeros first and reads them back. The payload terms are kept folded.
-/
import proofs.«173010_j4303557230935_2_alg».proof.Proof.KernelIdealFrameP
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Reg0

open Cert.KernelIdeal Cert.KernelIdeal.Gen Cert.KernelIdeal.GenP

variable {F : FTy → Type} [FloatOps F]

/-- The zero offsets of a whole-buffer access. -/
theorem hz : (![0, 0] : Fin 2 → Nat) = fun _ => 0 := funext fun a => by fin_cases a <;> rfl

/-! ## A core's first point: the accumulators are zeroed first -/

theorem out_A_6 (c : Dev nD) (i : grid0.Coords) (a2 : Memref sig .tc .vmem S2048x256 .f32) (h2 : a2.IsWhole) (a3 : Memref sig .tc .vmem S2048x256 .f32) (h3 : a3.IsWhole) (a4 : Memref sig .tc .vmem S256x256 .f32) (h4 : a4.IsWhole) (a5 : Memref sig .tc .vmem S1x256 .f32) (h5 : a5.IsWhole) (a6 : Memref sig .tc .vmem S256x256 .f32) (h6 : a6.IsWhole) (a7 : Memref sig .tc .vmem S1x256 .f32) (h7 : a7.IsWhole) (a8 : Memref sig .tc .vmem S2048x256 .bf16) (h8 : a8.IsWhole) (a9 : Memref sig .tc .vmem S2048x256 .f32) (h9 : a9.IsWhole) (a10 : Memref sig .tc .vmem S8x256 .f32) (h10 : a10.IsWhole) (a11 : Memref sig .tc .vmem S8x256 .f32) (h11 : a11.IsWhole) (hc : cond0_0 i)
    (x0 : Vec F S2048x256 .f32) (x1 : Vec F S2048x256 .f32) (x2 : Vec F S256x256 .f32) (x3 : Vec F S1x256 .f32) (x4 : Vec F S256x256 .f32) (x5 : Vec F S1x256 .f32) :
    out0_A_6 c i a2 h2 a3 h3 a4 h4 a5 h5 a6 h6 a7 h7 a8 h8 a9 h9 a10 h10 a11 h11 hc x0 x1 x2 x3 x4 x5 = k0_pay7 x0 x2 x3 := by
  unfold out0_A_6
  rw [View.read_writes_eq_canon _ _ _ (cover0_A_6 c i a2 h2 a3 h3 a4 h4 a5 h5 a6 h6 a7 h7 a8 h8 a9 h9 a10 h10 a11 h11 hc x0 x1 x2 x3 x4 x5)]
  unfold kernelRun0_A
  dsimp only
  try sl_unfold_words
  rw [View.canon_unit_zero hz]
  simp only [View.readAt_eq_ld, h2.read_unread, h3.read_unread, h4.read_unread, h5.read_unread, h6.read_unread, h7.read_unread, h10.read_unread, h11.read_unread, View.ld_unit_zero (S := S2048x256) hz, View.ld_unit_zero (S := S256x256) hz, View.ld_unit_zero (S := S1x256) hz, View.ld_unit_zero (S := S8x256) hz]

theorem out_A_7 (c : Dev nD) (i : grid0.Coords) (a2 : Memref sig .tc .vmem S2048x256 .f32) (h2 : a2.IsWhole) (a3 : Memref sig .tc .vmem S2048x256 .f32) (h3 : a3.IsWhole) (a4 : Memref sig .tc .vmem S256x256 .f32) (h4 : a4.IsWhole) (a5 : Memref sig .tc .vmem S1x256 .f32) (h5 : a5.IsWhole) (a6 : Memref sig .tc .vmem S256x256 .f32) (h6 : a6.IsWhole) (a7 : Memref sig .tc .vmem S1x256 .f32) (h7 : a7.IsWhole) (a8 : Memref sig .tc .vmem S2048x256 .bf16) (h8 : a8.IsWhole) (a9 : Memref sig .tc .vmem S2048x256 .f32) (h9 : a9.IsWhole) (a10 : Memref sig .tc .vmem S8x256 .f32) (h10 : a10.IsWhole) (a11 : Memref sig .tc .vmem S8x256 .f32) (h11 : a11.IsWhole) (hc : cond0_0 i)
    (x0 : Vec F S2048x256 .f32) (x1 : Vec F S2048x256 .f32) (x2 : Vec F S256x256 .f32) (x3 : Vec F S1x256 .f32) (x4 : Vec F S256x256 .f32) (x5 : Vec F S1x256 .f32) :
    out0_A_7 c i a2 h2 a3 h3 a4 h4 a5 h5 a6 h6 a7 h7 a8 h8 a9 h9 a10 h10 a11 h11 hc x0 x1 x2 x3 x4 x5 = k0_pay6 x0 x2 x3 x1 x4 x5 := by
  unfold out0_A_7
  rw [View.read_writes_eq_canon _ _ _ (cover0_A_7 c i a2 h2 a3 h3 a4 h4 a5 h5 a6 h6 a7 h7 a8 h8 a9 h9 a10 h10 a11 h11 hc x0 x1 x2 x3 x4 x5)]
  unfold kernelRun0_A
  dsimp only
  try sl_unfold_words
  rw [View.canon_unit_zero hz]
  simp only [View.readAt_eq_ld, h2.read_unread, h3.read_unread, h4.read_unread, h5.read_unread, h6.read_unread, h7.read_unread, h10.read_unread, h11.read_unread, View.ld_unit_zero (S := S2048x256) hz, View.ld_unit_zero (S := S256x256) hz, View.ld_unit_zero (S := S1x256) hz, View.ld_unit_zero (S := S8x256) hz]

theorem out_A_8 (c : Dev nD) (i : grid0.Coords) (a2 : Memref sig .tc .vmem S2048x256 .f32) (h2 : a2.IsWhole) (a3 : Memref sig .tc .vmem S2048x256 .f32) (h3 : a3.IsWhole) (a4 : Memref sig .tc .vmem S256x256 .f32) (h4 : a4.IsWhole) (a5 : Memref sig .tc .vmem S1x256 .f32) (h5 : a5.IsWhole) (a6 : Memref sig .tc .vmem S256x256 .f32) (h6 : a6.IsWhole) (a7 : Memref sig .tc .vmem S1x256 .f32) (h7 : a7.IsWhole) (a8 : Memref sig .tc .vmem S2048x256 .bf16) (h8 : a8.IsWhole) (a9 : Memref sig .tc .vmem S2048x256 .f32) (h9 : a9.IsWhole) (a10 : Memref sig .tc .vmem S8x256 .f32) (h10 : a10.IsWhole) (a11 : Memref sig .tc .vmem S8x256 .f32) (h11 : a11.IsWhole) (hc : cond0_0 i)
    (x0 : Vec F S2048x256 .f32) (x1 : Vec F S2048x256 .f32) (x2 : Vec F S256x256 .f32) (x3 : Vec F S1x256 .f32) (x4 : Vec F S256x256 .f32) (x5 : Vec F S1x256 .f32) :
    out0_A_8 c i a2 h2 a3 h3 a4 h4 a5 h5 a6 h6 a7 h7 a8 h8 a9 h9 a10 h10 a11 h11 hc x0 x1 x2 x3 x4 x5 = k0_pay1 (k0_pay8 x0 x2 x3 x1 x4 x5) (k0_pay3 (F := F)) := by
  unfold out0_A_8
  rw [View.read_writes_eq_canon _ _ _ (cover0_A_8 c i a2 h2 a3 h3 a4 h4 a5 h5 a6 h6 a7 h7 a8 h8 a9 h9 a10 h10 a11 h11 hc x0 x1 x2 x3 x4 x5)]
  unfold kernelRun0_A
  dsimp only
  try sl_unfold_words
  rw [View.canon_cons_unit_zero (S := S8x256) hz, View.readCov_unit_zero (S := S8x256) _ hz]
  simp only [View.readAt_eq_ld, h2.read_unread, h3.read_unread, h4.read_unread, h5.read_unread, h6.read_unread, h7.read_unread, h10.read_unread, h11.read_unread, View.ld_unit_zero (S := S2048x256) hz, View.ld_unit_zero (S := S256x256) hz, View.ld_unit_zero (S := S1x256) hz, View.ld_unit_zero (S := S8x256) hz]

theorem out_A_9 (c : Dev nD) (i : grid0.Coords) (a2 : Memref sig .tc .vmem S2048x256 .f32) (h2 : a2.IsWhole) (a3 : Memref sig .tc .vmem S2048x256 .f32) (h3 : a3.IsWhole) (a4 : Memref sig .tc .vmem S256x256 .f32) (h4 : a4.IsWhole) (a5 : Memref sig .tc .vmem S1x256 .f32) (h5 : a5.IsWhole) (a6 : Memref sig .tc .vmem S256x256 .f32) (h6 : a6.IsWhole) (a7 : Memref sig .tc .vmem S1x256 .f32) (h7 : a7.IsWhole) (a8 : Memref sig .tc .vmem S2048x256 .bf16) (h8 : a8.IsWhole) (a9 : Memref sig .tc .vmem S2048x256 .f32) (h9 : a9.IsWhole) (a10 : Memref sig .tc .vmem S8x256 .f32) (h10 : a10.IsWhole) (a11 : Memref sig .tc .vmem S8x256 .f32) (h11 : a11.IsWhole) (hc : cond0_0 i)
    (x0 : Vec F S2048x256 .f32) (x1 : Vec F S2048x256 .f32) (x2 : Vec F S256x256 .f32) (x3 : Vec F S1x256 .f32) (x4 : Vec F S256x256 .f32) (x5 : Vec F S1x256 .f32) :
    out0_A_9 c i a2 h2 a3 h3 a4 h4 a5 h5 a6 h6 a7 h7 a8 h8 a9 h9 a10 h10 a11 h11 hc x0 x1 x2 x3 x4 x5 = k0_pay2 (k0_pay9 x0 x2 x3 x1 x4 x5) (k0_pay4 (F := F)) := by
  unfold out0_A_9
  rw [View.read_writes_eq_canon _ _ _ (cover0_A_9 c i a2 h2 a3 h3 a4 h4 a5 h5 a6 h6 a7 h7 a8 h8 a9 h9 a10 h10 a11 h11 hc x0 x1 x2 x3 x4 x5)]
  unfold kernelRun0_A
  dsimp only
  try sl_unfold_words
  rw [View.canon_cons_unit_zero (S := S8x256) hz, View.readCov_unit_zero (S := S8x256) _ hz]
  simp only [View.readAt_eq_ld, h2.read_unread, h3.read_unread, h4.read_unread, h5.read_unread, h6.read_unread, h7.read_unread, h10.read_unread, h11.read_unread, View.ld_unit_zero (S := S2048x256) hz, View.ld_unit_zero (S := S256x256) hz, View.ld_unit_zero (S := S1x256) hz, View.ld_unit_zero (S := S8x256) hz]

/-! ## Every other point: the accumulators hold what the point before left -/

theorem out_B_6 (c : Dev nD) (i : grid0.Coords) (a2 : Memref sig .tc .vmem S2048x256 .f32) (h2 : a2.IsWhole) (a3 : Memref sig .tc .vmem S2048x256 .f32) (h3 : a3.IsWhole) (a4 : Memref sig .tc .vmem S256x256 .f32) (h4 : a4.IsWhole) (a5 : Memref sig .tc .vmem S1x256 .f32) (h5 : a5.IsWhole) (a6 : Memref sig .tc .vmem S256x256 .f32) (h6 : a6.IsWhole) (a7 : Memref sig .tc .vmem S1x256 .f32) (h7 : a7.IsWhole) (a8 : Memref sig .tc .vmem S2048x256 .bf16) (h8 : a8.IsWhole) (a9 : Memref sig .tc .vmem S2048x256 .f32) (h9 : a9.IsWhole) (a10 : Memref sig .tc .vmem S8x256 .f32) (h10 : a10.IsWhole) (a11 : Memref sig .tc .vmem S8x256 .f32) (h11 : a11.IsWhole) (hc : ¬cond0_0 i)
    (x0 : Vec F S2048x256 .f32) (x1 : Vec F S2048x256 .f32) (x2 : Vec F S256x256 .f32) (x3 : Vec F S1x256 .f32) (x4 : Vec F S256x256 .f32) (x5 : Vec F S1x256 .f32) (xo8 : Vec F S8x256 .f32) (xo9 : Vec F S8x256 .f32) :
    out0_B_6 c i a2 h2 a3 h3 a4 h4 a5 h5 a6 h6 a7 h7 a8 h8 a9 h9 a10 h10 a11 h11 hc x0 x1 x2 x3 x4 x5 xo8 xo9 = k0_pay7 x0 x2 x3 := by
  unfold out0_B_6
  rw [View.read_writes_eq_canon _ _ _ (cover0_B_6 c i a2 h2 a3 h3 a4 h4 a5 h5 a6 h6 a7 h7 a8 h8 a9 h9 a10 h10 a11 h11 hc x0 x1 x2 x3 x4 x5 xo8 xo9)]
  unfold kernelRun0_B
  dsimp only
  try sl_unfold_words
  rw [View.canon_unit_zero hz]
  simp only [View.readAt_eq_ld, h2.read_unread, h3.read_unread, h4.read_unread, h5.read_unread, h6.read_unread, h7.read_unread, h10.read_unread, h11.read_unread, View.ld_unit_zero (S := S2048x256) hz, View.ld_unit_zero (S := S256x256) hz, View.ld_unit_zero (S := S1x256) hz, View.ld_unit_zero (S := S8x256) hz]

theorem out_B_7 (c : Dev nD) (i : grid0.Coords) (a2 : Memref sig .tc .vmem S2048x256 .f32) (h2 : a2.IsWhole) (a3 : Memref sig .tc .vmem S2048x256 .f32) (h3 : a3.IsWhole) (a4 : Memref sig .tc .vmem S256x256 .f32) (h4 : a4.IsWhole) (a5 : Memref sig .tc .vmem S1x256 .f32) (h5 : a5.IsWhole) (a6 : Memref sig .tc .vmem S256x256 .f32) (h6 : a6.IsWhole) (a7 : Memref sig .tc .vmem S1x256 .f32) (h7 : a7.IsWhole) (a8 : Memref sig .tc .vmem S2048x256 .bf16) (h8 : a8.IsWhole) (a9 : Memref sig .tc .vmem S2048x256 .f32) (h9 : a9.IsWhole) (a10 : Memref sig .tc .vmem S8x256 .f32) (h10 : a10.IsWhole) (a11 : Memref sig .tc .vmem S8x256 .f32) (h11 : a11.IsWhole) (hc : ¬cond0_0 i)
    (x0 : Vec F S2048x256 .f32) (x1 : Vec F S2048x256 .f32) (x2 : Vec F S256x256 .f32) (x3 : Vec F S1x256 .f32) (x4 : Vec F S256x256 .f32) (x5 : Vec F S1x256 .f32) (xo8 : Vec F S8x256 .f32) (xo9 : Vec F S8x256 .f32) :
    out0_B_7 c i a2 h2 a3 h3 a4 h4 a5 h5 a6 h6 a7 h7 a8 h8 a9 h9 a10 h10 a11 h11 hc x0 x1 x2 x3 x4 x5 xo8 xo9 = k0_pay6 x0 x2 x3 x1 x4 x5 := by
  unfold out0_B_7
  rw [View.read_writes_eq_canon _ _ _ (cover0_B_7 c i a2 h2 a3 h3 a4 h4 a5 h5 a6 h6 a7 h7 a8 h8 a9 h9 a10 h10 a11 h11 hc x0 x1 x2 x3 x4 x5 xo8 xo9)]
  unfold kernelRun0_B
  dsimp only
  try sl_unfold_words
  rw [View.canon_unit_zero hz]
  simp only [View.readAt_eq_ld, h2.read_unread, h3.read_unread, h4.read_unread, h5.read_unread, h6.read_unread, h7.read_unread, h10.read_unread, h11.read_unread, View.ld_unit_zero (S := S2048x256) hz, View.ld_unit_zero (S := S256x256) hz, View.ld_unit_zero (S := S1x256) hz, View.ld_unit_zero (S := S8x256) hz]

theorem out_B_8 (c : Dev nD) (i : grid0.Coords) (a2 : Memref sig .tc .vmem S2048x256 .f32) (h2 : a2.IsWhole) (a3 : Memref sig .tc .vmem S2048x256 .f32) (h3 : a3.IsWhole) (a4 : Memref sig .tc .vmem S256x256 .f32) (h4 : a4.IsWhole) (a5 : Memref sig .tc .vmem S1x256 .f32) (h5 : a5.IsWhole) (a6 : Memref sig .tc .vmem S256x256 .f32) (h6 : a6.IsWhole) (a7 : Memref sig .tc .vmem S1x256 .f32) (h7 : a7.IsWhole) (a8 : Memref sig .tc .vmem S2048x256 .bf16) (h8 : a8.IsWhole) (a9 : Memref sig .tc .vmem S2048x256 .f32) (h9 : a9.IsWhole) (a10 : Memref sig .tc .vmem S8x256 .f32) (h10 : a10.IsWhole) (a11 : Memref sig .tc .vmem S8x256 .f32) (h11 : a11.IsWhole) (hc : ¬cond0_0 i)
    (x0 : Vec F S2048x256 .f32) (x1 : Vec F S2048x256 .f32) (x2 : Vec F S256x256 .f32) (x3 : Vec F S1x256 .f32) (x4 : Vec F S256x256 .f32) (x5 : Vec F S1x256 .f32) (xo8 : Vec F S8x256 .f32) (xo9 : Vec F S8x256 .f32) :
    out0_B_8 c i a2 h2 a3 h3 a4 h4 a5 h5 a6 h6 a7 h7 a8 h8 a9 h9 a10 h10 a11 h11 hc x0 x1 x2 x3 x4 x5 xo8 xo9 = k0_pay1 (k0_pay8 x0 x2 x3 x1 x4 x5) xo8 := by
  unfold out0_B_8
  rw [View.read_writes_eq_canon _ _ _ (cover0_B_8 c i a2 h2 a3 h3 a4 h4 a5 h5 a6 h6 a7 h7 a8 h8 a9 h9 a10 h10 a11 h11 hc x0 x1 x2 x3 x4 x5 xo8 xo9)]
  unfold kernelRun0_B
  dsimp only
  try sl_unfold_words
  rw [View.canon_unit_zero hz]
  simp only [View.readAt_eq_ld, h2.read_unread, h3.read_unread, h4.read_unread, h5.read_unread, h6.read_unread, h7.read_unread, h10.read_unread, h11.read_unread, View.ld_unit_zero (S := S2048x256) hz, View.ld_unit_zero (S := S256x256) hz, View.ld_unit_zero (S := S1x256) hz, View.ld_unit_zero (S := S8x256) hz]

theorem out_B_9 (c : Dev nD) (i : grid0.Coords) (a2 : Memref sig .tc .vmem S2048x256 .f32) (h2 : a2.IsWhole) (a3 : Memref sig .tc .vmem S2048x256 .f32) (h3 : a3.IsWhole) (a4 : Memref sig .tc .vmem S256x256 .f32) (h4 : a4.IsWhole) (a5 : Memref sig .tc .vmem S1x256 .f32) (h5 : a5.IsWhole) (a6 : Memref sig .tc .vmem S256x256 .f32) (h6 : a6.IsWhole) (a7 : Memref sig .tc .vmem S1x256 .f32) (h7 : a7.IsWhole) (a8 : Memref sig .tc .vmem S2048x256 .bf16) (h8 : a8.IsWhole) (a9 : Memref sig .tc .vmem S2048x256 .f32) (h9 : a9.IsWhole) (a10 : Memref sig .tc .vmem S8x256 .f32) (h10 : a10.IsWhole) (a11 : Memref sig .tc .vmem S8x256 .f32) (h11 : a11.IsWhole) (hc : ¬cond0_0 i)
    (x0 : Vec F S2048x256 .f32) (x1 : Vec F S2048x256 .f32) (x2 : Vec F S256x256 .f32) (x3 : Vec F S1x256 .f32) (x4 : Vec F S256x256 .f32) (x5 : Vec F S1x256 .f32) (xo8 : Vec F S8x256 .f32) (xo9 : Vec F S8x256 .f32) :
    out0_B_9 c i a2 h2 a3 h3 a4 h4 a5 h5 a6 h6 a7 h7 a8 h8 a9 h9 a10 h10 a11 h11 hc x0 x1 x2 x3 x4 x5 xo8 xo9 = k0_pay2 (k0_pay9 x0 x2 x3 x1 x4 x5) xo9 := by
  unfold out0_B_9
  rw [View.read_writes_eq_canon _ _ _ (cover0_B_9 c i a2 h2 a3 h3 a4 h4 a5 h5 a6 h6 a7 h7 a8 h8 a9 h9 a10 h10 a11 h11 hc x0 x1 x2 x3 x4 x5 xo8 xo9)]
  unfold kernelRun0_B
  dsimp only
  try sl_unfold_words
  rw [View.canon_unit_zero hz]
  simp only [View.readAt_eq_ld, h2.read_unread, h3.read_unread, h4.read_unread, h5.read_unread, h6.read_unread, h7.read_unread, h10.read_unread, h11.read_unread, View.ld_unit_zero (S := S2048x256) hz, View.ld_unit_zero (S := S256x256) hz, View.ld_unit_zero (S := S1x256) hz, View.ld_unit_zero (S := S8x256) hz]
end Cert.KernelIdeal.Reg0

end
-- ==== Proof.KReg0.lean ====
/-
  What kernel launch 0 leaves in its four output arrays, as functions of the arrays it finds, on the extended
  reals. With X, P the two 65536-row inputs, Wx, Wh the two weight matrices and bx, bh the two bias rows, and
  Z1 = (X·Wx + bx) + (P·Wh + bh): the half-precision output ends holding X·Wx + bx, the single-precision output
  Z1, and the two accumulator arrays hold, in row 0 (the first core's) and row 8 (the second core's), the sums
  over that core's 32768 rows of each column of Z1, and of its squares; the two rows together give the sums
  over all 65536 rows.

  The road: the body's outputs at one grid point are payload terms of the point's input blocks (the case lemmas);
  an input block is 2048 consecutive rows of its array, a weight or bias block the whole array; so a tiled output's
  block at point t is rows 2048·t … of one whole-array function, and its blocks tile the array. An accumulator is
  reset at a core's first point and adds the point's column sums at each later one, so after the core's last point it
  holds zero plus the sixteen block sums; that block is the only one written back, to the core's eight rows.
-/
import proofs.«173010_j4303557230935_2_alg».proof.Proof.KernelIdealFrameP
import proofs.«173010_j4303557230935_2_alg».proof.Proof.Pay01
import proofs.«173010_j4303557230935_2_alg».proof.Proof.KDefs
import proofs.«173010_j4303557230935_2_alg».proof.Proof.LibBlockSum
import proofs.«173010_j4303557230935_2_alg».proof.Proof.KReg0Blocks
import proofs.«173010_j4303557230935_2_alg».proof.Proof.KReg0Cases
import Idealize.ShloMosaic.Lib.Pipeline.Value
import Idealize.ShloMosaic.Lib.Tactic

noncomputable section

open Idealize.ShloMosaic.Pipeline (Dat)

namespace Cert.KernelIdeal.Reg0

open Cert.KernelIdeal Cert.KernelIdeal.Gen Cert.KernelIdeal.GenP Cert.KernelIdeal.Pay Cert.Spec Idealize.ShloMosaic
  Idealize.ShloMosaic.ValueIdx Idealize.ShloMosaic.TcCoe

/-! ## The arithmetic of one block, on literal types -/

/-- An affine map of a block whose rows are rows 2048·n + y of an array, with the whole weight matrix and bias row,
    is that row of the affine map of the array. -/
theorem lin_rows (x : S2048x256.Idx → EReal) (xW : S256x256.Idx → EReal) (xb : S1x256.Idx → EReal)
    (A : S65536x256.Idx → EReal) (W : S256x256.Idx → EReal) (b : S1x256.Idx → EReal)
    (n : ℕ) (y : Fin 2048) (j : Fin 256) (h : 2048 * n + y.val < 65536)
    (e : ∀ q : Fin 256, x (ix2 y q) = A (ix2 ⟨2048 * n + y.val, h⟩ q)) (eW : xW = W) (eb : xb = b) :
    (∑ q : Fin 256, x (ix2 y q) * xW (ix2 q j)) + xb (ix2 (0 : Fin 1) j)
      = lin (toMat A) (toMat W) (toRow1 b) ⟨2048 * n + y.val, h⟩ j := by
  subst eW eb
  show _ = (∑ q : Fin 256, A (ix2 ⟨2048 * n + y.val, h⟩ q) * xW (ix2 q j)) + xb (ix2 (0 : Fin 1) j)
  rw [Finset.sum_congr rfl fun q _ => by rw [e q]]

/-- An accumulator's update at an entry: the old entry plus the column's new term, the same in each of the 8 rows. -/
theorem pay1_at (v : FVec Ideal S1x256 .f32) (acc : FVec Ideal S8x256 .f32) (i : S8x256.Idx) :
    k0_pay1 (F := Ideal) v acc i = acc i + v (ix2 (0 : Fin 1) (i 1)) :=
  (congrArg (k0_pay1 (F := Ideal) v acc) (eq_ix2 i)).trans
    ((k0_pay1_apply v acc (i 0) (i 1)).trans
      (congrArg (fun z => acc z + v (ix2 (0 : Fin 1) (i 1))) (eq_ix2 i).symm))

theorem pay2_at (v : FVec Ideal S1x256 .f32) (acc : FVec Ideal S8x256 .f32) (i : S8x256.Idx) :
    k0_pay2 (F := Ideal) v acc i = acc i + v (ix2 (0 : Fin 1) (i 1)) :=
  (congrArg (k0_pay2 (F := Ideal) v acc) (eq_ix2 i)).trans
    ((k0_pay2_apply v acc (i 0) (i 1)).trans
      (congrArg (fun z => acc z + v (ix2 (0 : Fin 1) (i 1))) (eq_ix2 i).symm))

/-- The reset blocks are zero. -/
theorem pay3_at (i : S8x256.Idx) : k0_pay3 (F := Ideal) i = 0 :=
  (congrArg (k0_pay3 (F := Ideal)) (eq_ix2 i)).trans (k0_pay3_apply (i 0) (i 1))

theorem pay4_at (i : S8x256.Idx) : k0_pay4 (F := Ideal) i = 0 :=
  (congrArg (k0_pay4 (F := Ideal)) (eq_ix2 i)).trans (k0_pay4_apply (i 0) (i 1))

variable (V : (c : Dev nD) → (b : Ref sig .tc) → Buf (Elt Ideal) ((c : Thread nD τ).loc b)) (c : Dev nD)

/-- The sum of the two affine maps: the first of the first input, the second of the second. -/
def Z1 : Mat 65536 256 := fun r j => lin (toMat (V c main_arg0)) (toMat (V c main_arg4)) (toRow1 (V c main_v0)) r j + lin (toMat (V c main_arg1)) (toMat (V c main_arg6)) (toRow1 (V c main_v1)) r j

/-- Row y of point t's block is a row of the array. -/
theorem rows_lt (t : Fin cfg0.N) (y : Fin 2048) : 2048 * t.val + y.val < 65536 := by
  have ht : t.val < 32 := lt_of_lt_of_eq t.isLt N32
  omega

/-! ## The input blocks at a point -/

theorem iblk_0 (t : Fin cfg0.N) (y : Fin 2048) (q : Fin 256) (h : 2048 * t.val + y.val < 65536) :
    (iblk0 V c 0 t : Vec Ideal S2048x256 .f32) (ix2 y q)
      = (V c main_arg0 : S65536x256.Idx → EReal) (ix2 ⟨2048 * t.val + y.val, h⟩ q) :=
  blk0_read t (V c main_arg0) y q h

theorem iblk_1 (t : Fin cfg0.N) (y : Fin 2048) (q : Fin 256) (h : 2048 * t.val + y.val < 65536) :
    (iblk0 V c 1 t : Vec Ideal S2048x256 .f32) (ix2 y q)
      = (V c main_arg1 : S65536x256.Idx → EReal) (ix2 ⟨2048 * t.val + y.val, h⟩ q) :=
  blk1_read t (V c main_arg1) y q h

theorem iblk_2 (t : Fin cfg0.N) : (iblk0 V c 2 t : Vec Ideal S256x256 .f32) = (V c main_arg4 : S256x256.Idx → EReal) :=
  blk2_read t (V c main_arg4)

theorem iblk_3 (t : Fin cfg0.N) : (iblk0 V c 3 t : Vec Ideal S1x256 .f32) = (V c main_v0 : S1x256.Idx → EReal) :=
  blk3_read t (V c main_v0)

theorem iblk_4 (t : Fin cfg0.N) : (iblk0 V c 4 t : Vec Ideal S256x256 .f32) = (V c main_arg6 : S256x256.Idx → EReal) :=
  blk4_read t (V c main_arg6)

theorem iblk_5 (t : Fin cfg0.N) : (iblk0 V c 5 t : Vec Ideal S1x256 .f32) = (V c main_v1 : S1x256.Idx → EReal) :=
  blk5_read t (V c main_v1)

/-! ## The payload terms of a point's blocks, as rows of the whole-array functions -/

/-- The first affine map on point t's rows. -/
theorem pay7_at (t : Fin cfg0.N) (y : Fin 2048) (j : Fin 256) (h : 2048 * t.val + y.val < 65536) :
    k0_pay7 (F := Ideal) (iblk0 V c 0 t) (iblk0 V c 2 t) (iblk0 V c 3 t) (ix2 y j) = lin (toMat (V c main_arg0)) (toMat (V c main_arg4)) (toRow1 (V c main_v0)) ⟨2048 * t.val + y.val, h⟩ j :=
  (k0_pay7_apply (iblk0 V c 0 t) (iblk0 V c 2 t) (iblk0 V c 3 t) y j).trans
    (lin_rows (iblk0 V c 0 t) (iblk0 V c 2 t) (iblk0 V c 3 t) (V c main_arg0) (V c main_arg4) (V c main_v0) t.val y j h
      (fun q => iblk_0 V c t y q h) (iblk_2 V c t) (iblk_3 V c t))

/-- The sum of the two affine maps on point t's rows. -/
theorem pay6_at (t : Fin cfg0.N) (y : Fin 2048) (j : Fin 256) (h : 2048 * t.val + y.val < 65536) :
    k0_pay6 (F := Ideal) (iblk0 V c 0 t) (iblk0 V c 2 t) (iblk0 V c 3 t) (iblk0 V c 1 t) (iblk0 V c 4 t) (iblk0 V c 5 t) (ix2 y j) = Z1 V c ⟨2048 * t.val + y.val, h⟩ j :=
  (k0_pay6_apply (iblk0 V c 0 t) (iblk0 V c 2 t) (iblk0 V c 3 t) (iblk0 V c 1 t) (iblk0 V c 4 t) (iblk0 V c 5 t) y j).trans
    (congrArg₂ (· + ·)
      (lin_rows (iblk0 V c 0 t) (iblk0 V c 2 t) (iblk0 V c 3 t) (V c main_arg0) (V c main_arg4) (V c main_v0) t.val y j h
        (fun q => iblk_0 V c t y q h) (iblk_2 V c t) (iblk_3 V c t))
      (lin_rows (iblk0 V c 1 t) (iblk0 V c 4 t) (iblk0 V c 5 t) (V c main_arg1) (V c main_arg6) (V c main_v1) t.val y j h
        (fun q => iblk_1 V c t y q h) (iblk_4 V c t) (iblk_5 V c t)))

/-- The column sums of Z1 over point t's rows, -/
theorem pay8_at (t : Fin cfg0.N) (j : Fin 256) :
    k0_pay8 (F := Ideal) (iblk0 V c 0 t) (iblk0 V c 2 t) (iblk0 V c 3 t) (iblk0 V c 1 t) (iblk0 V c 4 t) (iblk0 V c 5 t) (ix2 (0 : Fin 1) j)
      = ∑ y : Fin 2048, Z1 V c ⟨2048 * t.val + y.val, rows_lt t y⟩ j :=
  (k0_pay8_apply (iblk0 V c 0 t) (iblk0 V c 2 t) (iblk0 V c 3 t) (iblk0 V c 1 t) (iblk0 V c 4 t) (iblk0 V c 5 t) j).trans
    (Finset.sum_congr rfl fun y _ => pay6_at V c t y j (rows_lt t y))

/-- and of its squares. -/
theorem pay9_at (t : Fin cfg0.N) (j : Fin 256) :
    k0_pay9 (F := Ideal) (iblk0 V c 0 t) (iblk0 V c 2 t) (iblk0 V c 3 t) (iblk0 V c 1 t) (iblk0 V c 4 t) (iblk0 V c 5 t) (ix2 (0 : Fin 1) j)
      = ∑ y : Fin 2048, Z1 V c ⟨2048 * t.val + y.val, rows_lt t y⟩ j * Z1 V c ⟨2048 * t.val + y.val, rows_lt t y⟩ j :=
  (k0_pay9_apply (iblk0 V c 0 t) (iblk0 V c 2 t) (iblk0 V c 3 t) (iblk0 V c 1 t) (iblk0 V c 4 t) (iblk0 V c 5 t) j).trans
    (Finset.sum_congr rfl fun y _ => congrArg₂ (· * ·) (pay6_at V c t y j (rows_lt t y)) (pay6_at V c t y j (rows_lt t y)))

/-! ## The tiled outputs: what a point leaves depends on the point's blocks only -/

theorem outs6 (t : Fin cfg0.N) : (outsAt0 V c t.val t.isLt).1 = k0_pay7 (iblk0 V c 0 t) (iblk0 V c 2 t) (iblk0 V c 3 t) := by
  by_cases h0 : t.val % 16 = 0
  · rw [outsAt0_A V c t h0]
    dsimp only
    exact out_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk0 V c 0 t) (iblk0 V c 1 t) (iblk0 V c 2 t) (iblk0 V c 3 t) (iblk0 V c 4 t) (iblk0 V c 5 t)
  · rw [outsAt0_B V c t h0]
    dsimp only
    exact out_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun hcn => h0 ((hcond0_0 t).mp hcn)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.1 (outsAt0 V c (t.val - 1) (Nat.lt_of_le_of_lt (Nat.sub_le _ _) t.isLt)).2.2.2

theorem outs7 (t : Fin cfg0.N) : (outsAt0 V c t.val t.isLt).2.1 = k0_pay6 (iblk0 V c 0 t) (iblk0 V c 2 t) (iblk0 V c 3 t) (iblk0 V c 1 t) (iblk0 V c 4 t) (iblk0 V c 5 t) := by
  by_cases h0 : t.val % 16 = 0
  · rw [outsAt0_A V c t h0]
    dsimp only
    exact out_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (iblk0 V c 0 t) (iblk0 V c 1 t) (iblk0 V c 2 t) (iblk0 V c 3 t) (iblk0 V c 4 t) (iblk0 V c 5 t)
  · rw [outsAt0_B V c t h0]
    dsimp only
    exact out_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun hcn => h0 ((hcond0_0 t).mp hcn)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.2.1 (outsAt0 V c (t.val - 1) (Nat.lt_of_le_of_lt (Nat.sub_le _ _) t.isLt)).2.2.2

/-- What point t writes back of the half-precision output is block t of the first affine map, -/
theorem flushed6_eq (t : Fin cfg0.N) :
    (dat0 V c).flushed 6 t = ((cfg0.win 6).blk t).view.read (Elt Ideal) (ofMat (lin (toMat (V c main_arg0)) (toMat (V c main_arg4)) (toRow1 (V c main_v0)))) := by
  show (cfg0.win 6).cut (grid0.coords t) ((dat0 V c).after 6 t) = _
  rw [after0_6, outs6 V c t]
  exact blk6_ext t _ _ fun y j hy => pay7_at V c t y j hy

/-- and of the single-precision output block t of Z1. -/
theorem flushed7_eq (t : Fin cfg0.N) :
    (dat0 V c).flushed 7 t = ((cfg0.win 7).blk t).view.read (Elt Ideal) (ofMat (Z1 V c)) := by
  show (cfg0.win 7).cut (grid0.coords t) ((dat0 V c).after 7 t) = _
  rw [after0_7, outs7 V c t]
  exact blk7_ext t _ _ fun y j hy => pay6_at V c t y j hy

/-- The half-precision output array ends holding the first affine map. -/
theorem arr6 : ((dat0 V c).arrAt 6 cfg0.N : S65536x256.Idx → EReal) = ofMat (lin (toMat (V c main_arg0)) (toMat (V c main_arg4)) (toRow1 (V c main_v0))) :=
  (dat0 V c).arrAt_eq_of_cover 6 _ (fun t _ => flushed6_eq V c t) cover6

/-- The single-precision output array ends holding Z1. -/
theorem arr7 : ((dat0 V c).arrAt 7 cfg0.N : S65536x256.Idx → EReal) = ofMat (Z1 V c) :=
  (dat0 V c).arrAt_eq_of_cover 7 _ (fun t _ => flushed7_eq V c t) cover7

/-! ## The accumulators: a running sum within a core -/

/-- The column sums of point n's rows as the body computes them, and the column sums of squares. -/
def pay8N (n : ℕ) (h : n < cfg0.N) : FVec Ideal S1x256 .f32 := k0_pay8 (F := Ideal) (iblk0 V c 0 ⟨n, h⟩) (iblk0 V c 2 ⟨n, h⟩) (iblk0 V c 3 ⟨n, h⟩) (iblk0 V c 1 ⟨n, h⟩) (iblk0 V c 4 ⟨n, h⟩) (iblk0 V c 5 ⟨n, h⟩)
def pay9N (n : ℕ) (h : n < cfg0.N) : FVec Ideal S1x256 .f32 := k0_pay9 (F := Ideal) (iblk0 V c 0 ⟨n, h⟩) (iblk0 V c 2 ⟨n, h⟩) (iblk0 V c 3 ⟨n, h⟩) (iblk0 V c 1 ⟨n, h⟩) (iblk0 V c 4 ⟨n, h⟩) (iblk0 V c 5 ⟨n, h⟩)

/-- The same at a column, for every natural n: zero past the grid (never used there). -/
def colS (n : ℕ) (j : Fin 256) : EReal := if h : n < cfg0.N then pay8N V c n h (ix2 (0 : Fin 1) j) else 0
def colQ (n : ℕ) (j : Fin 256) : EReal := if h : n < cfg0.N then pay9N V c n h (ix2 (0 : Fin 1) j) else 0

theorem colS_pos (n : ℕ) (h : n < cfg0.N) (j : Fin 256) : colS V c n j = pay8N V c n h (ix2 (0 : Fin 1) j) := dif_pos h
theorem colQ_pos (n : ℕ) (h : n < cfg0.N) (j : Fin 256) : colQ V c n j = pay9N V c n h (ix2 (0 : Fin 1) j) := dif_pos h

/-- They are the sums of Z1, and of its squares, over the point's 2048 rows. -/
theorem colS_eq (n : ℕ) (hn : n < 32) (j : Fin 256) :
    colS V c n j = ∑ y : Fin 2048, Z1 V c ⟨2048 * n + y.val, by omega⟩ j := by
  have h : n < cfg0.N := by rw [N32]; exact hn
  rw [colS_pos V c n h j]
  exact pay8_at V c ⟨n, h⟩ j

theorem colQ_eq (n : ℕ) (hn : n < 32) (j : Fin 256) :
    colQ V c n j = ∑ y : Fin 2048, Z1 V c ⟨2048 * n + y.val, by omega⟩ j * Z1 V c ⟨2048 * n + y.val, by omega⟩ j := by
  have h : n < cfg0.N := by rw [N32]; exact hn
  rw [colQ_pos V c n h j]
  exact pay9_at V c ⟨n, h⟩ j

/-- The reset value and the step of each accumulator. -/
def a8 (n : ℕ) (h : n < cfg0.N) : Vec Ideal S8x256 .f32 := k0_pay1 (F := Ideal) (pay8N V c n h) (k0_pay3 (F := Ideal))
def g8 (n : ℕ) (h : n < cfg0.N) (acc : Vec Ideal S8x256 .f32) : Vec Ideal S8x256 .f32 := k0_pay1 (F := Ideal) (pay8N V c n h) acc
def a9 (n : ℕ) (h : n < cfg0.N) : Vec Ideal S8x256 .f32 := k0_pay2 (F := Ideal) (pay9N V c n h) (k0_pay4 (F := Ideal))
def g9 (n : ℕ) (h : n < cfg0.N) (acc : Vec Ideal S8x256 .f32) : Vec Ideal S8x256 .f32 := k0_pay2 (F := Ideal) (pay9N V c n h) acc

/-- The recursion's value depends on the point's number only, not on how the number is written. -/
theorem outsAt_congr {a b : ℕ} (e : a = b) (pa : a < cfg0.N) (pb : b < cfg0.N) : outsAt0 V c a pa = outsAt0 V c b pb := by
  subst e; rfl

/-- At a core's first point the accumulators are reset; -/
theorem acc8_reset (n : ℕ) (h : n < cfg0.N) (h0 : n % 16 = 0) : (outsAt0 V c n h).2.2.1 = a8 V c n h := by
  rw [outsAt0_A V c ⟨n, h⟩ h0]
  dsimp only
  exact out_A_8 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) (ms0_8 ⟨n, h⟩) (hs0_8 ⟨n, h⟩) (ms0_9 ⟨n, h⟩) (hs0_9 ⟨n, h⟩) ((hcond0_0 ⟨n, h⟩).mpr h0) (iblk0 V c 0 ⟨n, h⟩) (iblk0 V c 1 ⟨n, h⟩) (iblk0 V c 2 ⟨n, h⟩) (iblk0 V c 3 ⟨n, h⟩) (iblk0 V c 4 ⟨n, h⟩) (iblk0 V c 5 ⟨n, h⟩)

theorem acc9_reset (n : ℕ) (h : n < cfg0.N) (h0 : n % 16 = 0) : (outsAt0 V c n h).2.2.2 = a9 V c n h := by
  rw [outsAt0_A V c ⟨n, h⟩ h0]
  dsimp only
  exact out_A_9 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) (ms0_8 ⟨n, h⟩) (hs0_8 ⟨n, h⟩) (ms0_9 ⟨n, h⟩) (hs0_9 ⟨n, h⟩) ((hcond0_0 ⟨n, h⟩).mpr h0) (iblk0 V c 0 ⟨n, h⟩) (iblk0 V c 1 ⟨n, h⟩) (iblk0 V c 2 ⟨n, h⟩) (iblk0 V c 3 ⟨n, h⟩) (iblk0 V c 4 ⟨n, h⟩) (iblk0 V c 5 ⟨n, h⟩)

/-- at every other point they step from what the point before left. -/
theorem acc8_step (n : ℕ) (h : n + 1 < cfg0.N) (h0 : ¬(n + 1) % 16 = 0) :
    (outsAt0 V c (n + 1) h).2.2.1 = g8 V c (n + 1) h (outsAt0 V c n (Nat.lt_of_succ_lt h)).2.2.1 := by
  rw [outsAt0_B V c ⟨n + 1, h⟩ h0]
  dsimp only
  rw [outsAt_congr V c (Nat.add_sub_cancel (n := n) (m := 1)) _ (Nat.lt_of_succ_lt h)]
  exact out_B_8 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (fun hcn => h0 ((hcond0_0 ⟨n + 1, h⟩).mp hcn)) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (outsAt0 V c n (Nat.lt_of_succ_lt h)).2.2.1 (outsAt0 V c n (Nat.lt_of_succ_lt h)).2.2.2

theorem acc9_step (n : ℕ) (h : n + 1 < cfg0.N) (h0 : ¬(n + 1) % 16 = 0) :
    (outsAt0 V c (n + 1) h).2.2.2 = g9 V c (n + 1) h (outsAt0 V c n (Nat.lt_of_succ_lt h)).2.2.2 := by
  rw [outsAt0_B V c ⟨n + 1, h⟩ h0]
  dsimp only
  rw [outsAt_congr V c (Nat.add_sub_cancel (n := n) (m := 1)) _ (Nat.lt_of_succ_lt h)]
  exact out_B_9 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (fun hcn => h0 ((hcond0_0 ⟨n + 1, h⟩).mp hcn)) (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (outsAt0 V c n (Nat.lt_of_succ_lt h)).2.2.1 (outsAt0 V c n (Nat.lt_of_succ_lt h)).2.2.2

/-- So after point t an accumulator holds the fold over its core's points up to t, -/
theorem acc8_fold (t : ℕ) (ht : t < cfg0.N) (h' : 16 * (t / 16) + t % 16 < cfg0.N) :
    (outsAt0 V c t ht).2.2.1 = Pipeline.accAt (N := cfg0.N) (a8 V c) (g8 V c) (16 * (t / 16)) (t % 16) h' :=
  Pipeline.eq_accAt_of_mod (N := cfg0.N) (fun n h => (outsAt0 V c n h).2.2.1) 16 (a8 V c) (g8 V c)
    (acc8_reset V c) (acc8_step V c) (by decide) t ht h'

theorem acc9_fold (t : ℕ) (ht : t < cfg0.N) (h' : 16 * (t / 16) + t % 16 < cfg0.N) :
    (outsAt0 V c t ht).2.2.2 = Pipeline.accAt (N := cfg0.N) (a9 V c) (g9 V c) (16 * (t / 16)) (t % 16) h' :=
  Pipeline.eq_accAt_of_mod (N := cfg0.N) (fun n h => (outsAt0 V c n h).2.2.2) 16 (a9 V c) (g9 V c)
    (acc9_reset V c) (acc9_step V c) (by decide) t ht h'

/-- which at an entry is zero plus the points' column sums, the same in every row. -/
theorem acc8_val (q k : ℕ) (hk : k ≤ 15) (h : 16 * q + k < cfg0.N) (i : S8x256.Idx) :
    Pipeline.accAt (N := cfg0.N) (a8 V c) (g8 V c) (16 * q) k h i
      = 0 + ∑ s ∈ Finset.range (k + 1), colS V c (16 * q + s) (i 1) :=
  Pipeline.accAt_add_apply (N := cfg0.N) (a8 V c) (g8 V c) (fun _ => 0) (fun n i => colS V c n (i 1)) (16 * q) 15
    (fun hb i => by
      show a8 V c (16 * q) hb i = 0 + colS V c (16 * q) (i 1)
      rw [a8, pay1_at, pay3_at]
      exact congrArg (fun z => (0 : EReal) + z) (colS_pos V c (16 * q) hb (i 1)).symm)
    (fun n hn acc i _ _ => by
      show g8 V c n hn acc i = acc i + colS V c n (i 1)
      rw [g8, pay1_at]
      exact congrArg (fun z => acc i + z) (colS_pos V c n hn (i 1)).symm)
    k hk h i

theorem acc9_val (q k : ℕ) (hk : k ≤ 15) (h : 16 * q + k < cfg0.N) (i : S8x256.Idx) :
    Pipeline.accAt (N := cfg0.N) (a9 V c) (g9 V c) (16 * q) k h i
      = 0 + ∑ s ∈ Finset.range (k + 1), colQ V c (16 * q + s) (i 1) :=
  Pipeline.accAt_add_apply (N := cfg0.N) (a9 V c) (g9 V c) (fun _ => 0) (fun n i => colQ V c n (i 1)) (16 * q) 15
    (fun hb i => by
      show a9 V c (16 * q) hb i = 0 + colQ V c (16 * q) (i 1)
      rw [a9, pay2_at, pay4_at]
      exact congrArg (fun z => (0 : EReal) + z) (colQ_pos V c (16 * q) hb (i 1)).symm)
    (fun n hn acc i _ _ => by
      show g9 V c n hn acc i = acc i + colQ V c n (i 1)
      rw [g9, pay2_at]
      exact congrArg (fun z => acc i + z) (colQ_pos V c n hn (i 1)).symm)
    k hk h i

/-- What each accumulator array ends holding: in the eight rows of core r / 8, zero plus that core's sixteen
    block sums. -/
def G8 : S16x256.Idx → EReal := fun i => 0 + ∑ s ∈ Finset.range 16, colS V c (16 * ((i 0).val / 8) + s) (i 1)
def G9 : S16x256.Idx → EReal := fun i => 0 + ∑ s ∈ Finset.range 16, colQ V c (16 * ((i 0).val / 8) + s) (i 1)

theorem G8_apply (r : Fin 16) (j : Fin 256) :
    G8 V c (ix2 r j) = 0 + ∑ s ∈ Finset.range 16, colS V c (16 * (r.val / 8) + s) j := rfl
theorem G9_apply (r : Fin 16) (j : Fin 256) :
    G9 V c (ix2 r j) = 0 + ∑ s ∈ Finset.range 16, colQ V c (16 * (r.val / 8) + s) j := rfl

/-- The one write-back of a core, after its last point, writes its block of that. -/
theorem flushed8_eq (t : Fin cfg0.N) (hf : (cfg0.win 8).flush t = true) :
    (dat0 V c).flushed 8 t = ((cfg0.win 8).blk t).view.read (Elt Ideal) (G8 V c) := by
  have h15 : t.val % 16 = 15 := (flush0_8 t).mp hf
  have ht : t.val < 32 := lt_of_lt_of_eq t.isLt N32
  have h' : 16 * (t.val / 16) + t.val % 16 < cfg0.N :=
    lt_of_lt_of_eq (by omega : 16 * (t.val / 16) + t.val % 16 < 32) N32.symm
  show (cfg0.win 8).cut (grid0.coords t) ((dat0 V c).after 8 t) = _
  rw [after0_8, acc8_fold V c t.val t.isLt h']
  refine blk8_ext t (Pipeline.accAt (N := cfg0.N) (a8 V c) (g8 V c) (16 * (t.val / 16)) (t.val % 16) h') (G8 V c)
    fun y j hy => ?_
  rw [acc8_val V c (t.val / 16) (t.val % 16) (by omega) h' (ix2 y j), G8_apply]
  show 0 + ∑ s ∈ Finset.range (t.val % 16 + 1), colS V c (16 * (t.val / 16) + s) j
    = 0 + ∑ s ∈ Finset.range 16, colS V c (16 * ((8 * (t.val / 16) + y.val) / 8) + s) j
  rw [h15, show (8 * (t.val / 16) + y.val) / 8 = t.val / 16 from by omega]

theorem flushed9_eq (t : Fin cfg0.N) (hf : (cfg0.win 9).flush t = true) :
    (dat0 V c).flushed 9 t = ((cfg0.win 9).blk t).view.read (Elt Ideal) (G9 V c) := by
  have h15 : t.val % 16 = 15 := (flush0_9 t).mp hf
  have ht : t.val < 32 := lt_of_lt_of_eq t.isLt N32
  have h' : 16 * (t.val / 16) + t.val % 16 < cfg0.N :=
    lt_of_lt_of_eq (by omega : 16 * (t.val / 16) + t.val % 16 < 32) N32.symm
  show (cfg0.win 9).cut (grid0.coords t) ((dat0 V c).after 9 t) = _
  rw [after0_9, acc9_fold V c t.val t.isLt h']
  refine blk9_ext t (Pipeline.accAt (N := cfg0.N) (a9 V c) (g9 V c) (16 * (t.val / 16)) (t.val % 16) h') (G9 V c)
    fun y j hy => ?_
  rw [acc9_val V c (t.val / 16) (t.val % 16) (by omega) h' (ix2 y j), G9_apply]
  show 0 + ∑ s ∈ Finset.range (t.val % 16 + 1), colQ V c (16 * (t.val / 16) + s) j
    = 0 + ∑ s ∈ Finset.range 16, colQ V c (16 * ((8 * (t.val / 16) + y.val) / 8) + s) j
  rw [h15, show (8 * (t.val / 16) + y.val) / 8 = t.val / 16 from by omega]

/-- So the accumulator arrays end holding those. -/
theorem arr8_eq : (dat0 V c).arrAt 8 cfg0.N = G8 V c :=
  (dat0 V c).arrAt_eq_of_cover 8 (G8 V c) (flushed8_eq V c) cover8

theorem arr9_eq : (dat0 V c).arrAt 9 cfg0.N = G9 V c :=
  (dat0 V c).arrAt_eq_of_cover 9 (G9 V c) (flushed9_eq V c) cover9

/-- Rows 0 and 8 of the first accumulator array together are the column sums of Z1 over all rows, -/
theorem arr8 (j : Fin 256) :
    toMat (n := 16) (k := 256) ((dat0 V c).arrAt 8 cfg0.N) (0 : Fin 16) j
        + toMat (n := 16) (k := 256) ((dat0 V c).arrAt 8 cfg0.N) (8 : Fin 16) j
      = ∑ r : Fin 65536, Z1 V c r j := by
  rw [arr8_eq V c]
  show G8 V c (ix2 (0 : Fin 16) j) + G8 V c (ix2 (8 : Fin 16) j) = _
  rw [G8_apply V c 0 j, G8_apply V c 8 j]
  exact halves_sum (fun r => Z1 V c r j) (fun n => colS V c n j) fun n hn => colS_eq V c n hn j

/-- and of the second the column sums of its squares. -/
theorem arr9 (j : Fin 256) :
    toMat (n := 16) (k := 256) ((dat0 V c).arrAt 9 cfg0.N) (0 : Fin 16) j
        + toMat (n := 16) (k := 256) ((dat0 V c).arrAt 9 cfg0.N) (8 : Fin 16) j
      = ∑ r : Fin 65536, Z1 V c r j * Z1 V c r j := by
  rw [arr9_eq V c]
  show G9 V c (ix2 (0 : Fin 16) j) + G9 V c (ix2 (8 : Fin 16) j) = _
  rw [G9_apply V c 0 j, G9_apply V c 8 j]
  exact halves_sum (fun r => Z1 V c r j * Z1 V c r j) (fun n => colQ V c n j) fun n hn => colQ_eq V c n hn j

end Cert.KernelIdeal.Reg0

end
-- ==== Proof.KReg1Cases.lean ====
/-
  One grid point of the second stage, output by output: what the body leaves in each output block as a term of the
  blocks it loads.

  The body loads a tile of 2048 rows, the column means and variances, the scale and shift rows, the weight matrix and
  the bias row. It stores the normalised, scaled, shifted and rectified tile; the product of that tile with the weight
  matrix plus the bias row; and it adds the column sums of that second tile, and of its squares, into two eight-row
  accumulator blocks. At the first point of each core the accumulators are first set to zero and read back; at every
  other point they hold what the point before left.
-/
import proofs.«173010_j4303557230935_2_alg».proof.Proof.KernelIdealFrameP
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Reg1

open Cert.KernelIdeal Cert.KernelIdeal.Gen Cert.KernelIdeal.GenP

variable {F : FTy → Type} [FloatOps F]

/-- The zero offsets of a whole-block load or store. -/
theorem hz : (![0, 0] : Fin 2 → Nat) = fun _ => 0 := funext fun a => by fin_cases a <;> rfl

/-- At a core's first point the first output block is the rectified normalisation of the tile: the tile, the variance row, the mean row, the scale and the shift, in the order the body loads them. -/
theorem outA7 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S2048x256 .f32) (harg9 : arg9.IsWhole) (arg10 : Memref sig .tc .vmem S2048x256 .f32) (harg10 : arg10.IsWhole) (arg11 : Memref sig .tc .vmem S8x256 .f32) (harg11 : arg11.IsWhole) (arg12 : Memref sig .tc .vmem S8x256 .f32) (harg12 : arg12.IsWhole) (hc0 : cond1_0 i)
    (x0 : Vec F S2048x256 .f32) (x1 : Vec F S1x256 .f32) (x2 : Vec F S1x256 .f32) (x3 : Vec F S1x256 .f32) (x4 : Vec F S1x256 .f32) (x5 : Vec F S256x256 .f32) (x6 : Vec F S1x256 .f32) :
    out1_A_7 c i arg2 harg2 arg3 harg3 arg4 harg4 arg5 harg5 arg6 harg6 arg7 harg7 arg8 harg8 arg9 harg9 arg10 harg10 arg11 harg11 arg12 harg12 hc0 x0 x1 x2 x3 x4 x5 x6 = k1_pay6 x0 x2 x1 x3 x4 := by
  unfold out1_A_7
  rw [View.read_writes_eq_canon _ _ _ (cover1_A_7 c i arg2 harg2 arg3 harg3 arg4 harg4 arg5 harg5 arg6 harg6 arg7 harg7 arg8 harg8 arg9 harg9 arg10 harg10 arg11 harg11 arg12 harg12 hc0 x0 x1 x2 x3 x4 x5 x6)]
  unfold kernelRun1_A
  dsimp only
  try sl_unfold_words
  rw [View.canon_unit_zero hz]
  simp only [View.readAt_eq_ld, harg2.read_unread, harg3.read_unread, harg4.read_unread, harg5.read_unread, harg6.read_unread, harg7.read_unread, harg8.read_unread, View.ld_unit_zero (S := S2048x256) hz, View.ld_unit_zero (S := S1x256) hz, View.ld_unit_zero (S := S256x256) hz, View.ld_unit_zero (S := S8x256) hz]

/-- At a core's first point the second output block is the first block times the weight matrix, plus the bias row. -/
theorem outA8 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S2048x256 .f32) (harg9 : arg9.IsWhole) (arg10 : Memref sig .tc .vmem S2048x256 .f32) (harg10 : arg10.IsWhole) (arg11 : Memref sig .tc .vmem S8x256 .f32) (harg11 : arg11.IsWhole) (arg12 : Memref sig .tc .vmem S8x256 .f32) (harg12 : arg12.IsWhole) (hc0 : cond1_0 i)
    (x0 : Vec F S2048x256 .f32) (x1 : Vec F S1x256 .f32) (x2 : Vec F S1x256 .f32) (x3 : Vec F S1x256 .f32) (x4 : Vec F S1x256 .f32) (x5 : Vec F S256x256 .f32) (x6 : Vec F S1x256 .f32) :
    out1_A_8 c i arg2 harg2 arg3 harg3 arg4 harg4 arg5 harg5 arg6 harg6 arg7 harg7 arg8 harg8 arg9 harg9 arg10 harg10 arg11 harg11 arg12 harg12 hc0 x0 x1 x2 x3 x4 x5 x6 = k1_pay1 (k1_pay7 x0 x2 x1 x3 x4 x5) x6 := by
  unfold out1_A_8
  rw [View.read_writes_eq_canon _ _ _ (cover1_A_8 c i arg2 harg2 arg3 harg3 arg4 harg4 arg5 harg5 arg6 harg6 arg7 harg7 arg8 harg8 arg9 harg9 arg10 harg10 arg11 harg11 arg12 harg12 hc0 x0 x1 x2 x3 x4 x5 x6)]
  unfold kernelRun1_A
  dsimp only
  try sl_unfold_words
  rw [View.canon_unit_zero hz]
  simp only [View.readAt_eq_ld, harg2.read_unread, harg3.read_unread, harg4.read_unread, harg5.read_unread, harg6.read_unread, harg7.read_unread, harg8.read_unread, View.ld_unit_zero (S := S2048x256) hz, View.ld_unit_zero (S := S1x256) hz, View.ld_unit_zero (S := S256x256) hz, View.ld_unit_zero (S := S8x256) hz]

/-- At a core's first point the first accumulator block is the zero block plus the column sums of the second output block. -/
theorem outA9 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S2048x256 .f32) (harg9 : arg9.IsWhole) (arg10 : Memref sig .tc .vmem S2048x256 .f32) (harg10 : arg10.IsWhole) (arg11 : Memref sig .tc .vmem S8x256 .f32) (harg11 : arg11.IsWhole) (arg12 : Memref sig .tc .vmem S8x256 .f32) (harg12 : arg12.IsWhole) (hc0 : cond1_0 i)
    (x0 : Vec F S2048x256 .f32) (x1 : Vec F S1x256 .f32) (x2 : Vec F S1x256 .f32) (x3 : Vec F S1x256 .f32) (x4 : Vec F S1x256 .f32) (x5 : Vec F S256x256 .f32) (x6 : Vec F S1x256 .f32) :
    out1_A_9 c i arg2 harg2 arg3 harg3 arg4 harg4 arg5 harg5 arg6 harg6 arg7 harg7 arg8 harg8 arg9 harg9 arg10 harg10 arg11 harg11 arg12 harg12 hc0 x0 x1 x2 x3 x4 x5 x6 = k1_pay2 (k1_pay7 x0 x2 x1 x3 x4 x5) x6 (k1_pay4 (F := F)) := by
  unfold out1_A_9
  rw [View.read_writes_eq_canon _ _ _ (cover1_A_9 c i arg2 harg2 arg3 harg3 arg4 harg4 arg5 harg5 arg6 harg6 arg7 harg7 arg8 harg8 arg9 harg9 arg10 harg10 arg11 harg11 arg12 harg12 hc0 x0 x1 x2 x3 x4 x5 x6)]
  unfold kernelRun1_A
  dsimp only
  try sl_unfold_words
  rw [View.canon_cons_unit_zero (S := S8x256) hz, View.readCov_unit_zero (S := S8x256) _ hz]
  simp only [View.readAt_eq_ld, harg2.read_unread, harg3.read_unread, harg4.read_unread, harg5.read_unread, harg6.read_unread, harg7.read_unread, harg8.read_unread, View.ld_unit_zero (S := S2048x256) hz, View.ld_unit_zero (S := S1x256) hz, View.ld_unit_zero (S := S256x256) hz, View.ld_unit_zero (S := S8x256) hz]

/-- At a core's first point the second accumulator block is the zero block plus the column sums of squares of the second output block. -/
theorem outA10 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S2048x256 .f32) (harg9 : arg9.IsWhole) (arg10 : Memref sig .tc .vmem S2048x256 .f32) (harg10 : arg10.IsWhole) (arg11 : Memref sig .tc .vmem S8x256 .f32) (harg11 : arg11.IsWhole) (arg12 : Memref sig .tc .vmem S8x256 .f32) (harg12 : arg12.IsWhole) (hc0 : cond1_0 i)
    (x0 : Vec F S2048x256 .f32) (x1 : Vec F S1x256 .f32) (x2 : Vec F S1x256 .f32) (x3 : Vec F S1x256 .f32) (x4 : Vec F S1x256 .f32) (x5 : Vec F S256x256 .f32) (x6 : Vec F S1x256 .f32) :
    out1_A_10 c i arg2 harg2 arg3 harg3 arg4 harg4 arg5 harg5 arg6 harg6 arg7 harg7 arg8 harg8 arg9 harg9 arg10 harg10 arg11 harg11 arg12 harg12 hc0 x0 x1 x2 x3 x4 x5 x6 = k1_pay3 (k1_pay7 x0 x2 x1 x3 x4 x5) x6 (k1_pay5 (F := F)) := by
  unfold out1_A_10
  rw [View.read_writes_eq_canon _ _ _ (cover1_A_10 c i arg2 harg2 arg3 harg3 arg4 harg4 arg5 harg5 arg6 harg6 arg7 harg7 arg8 harg8 arg9 harg9 arg10 harg10 arg11 harg11 arg12 harg12 hc0 x0 x1 x2 x3 x4 x5 x6)]
  unfold kernelRun1_A
  dsimp only
  try sl_unfold_words
  rw [View.canon_cons_unit_zero (S := S8x256) hz, View.readCov_unit_zero (S := S8x256) _ hz]
  simp only [View.readAt_eq_ld, harg2.read_unread, harg3.read_unread, harg4.read_unread, harg5.read_unread, harg6.read_unread, harg7.read_unread, harg8.read_unread, View.ld_unit_zero (S := S2048x256) hz, View.ld_unit_zero (S := S1x256) hz, View.ld_unit_zero (S := S256x256) hz, View.ld_unit_zero (S := S8x256) hz]

/-- At any later point the first output block is the same term of the point's blocks. -/
theorem outB7 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S2048x256 .f32) (harg9 : arg9.IsWhole) (arg10 : Memref sig .tc .vmem S2048x256 .f32) (harg10 : arg10.IsWhole) (arg11 : Memref sig .tc .vmem S8x256 .f32) (harg11 : arg11.IsWhole) (arg12 : Memref sig .tc .vmem S8x256 .f32) (harg12 : arg12.IsWhole) (hc0 : ¬cond1_0 i)
    (x0 : Vec F S2048x256 .f32) (x1 : Vec F S1x256 .f32) (x2 : Vec F S1x256 .f32) (x3 : Vec F S1x256 .f32) (x4 : Vec F S1x256 .f32) (x5 : Vec F S256x256 .f32) (x6 : Vec F S1x256 .f32) (xo9 : Vec F S8x256 .f32) (xo10 : Vec F S8x256 .f32) :
    out1_B_7 c i arg2 harg2 arg3 harg3 arg4 harg4 arg5 harg5 arg6 harg6 arg7 harg7 arg8 harg8 arg9 harg9 arg10 harg10 arg11 harg11 arg12 harg12 hc0 x0 x1 x2 x3 x4 x5 x6 xo9 xo10 = k1_pay6 x0 x2 x1 x3 x4 := by
  unfold out1_B_7
  rw [View.read_writes_eq_canon _ _ _ (cover1_B_7 c i arg2 harg2 arg3 harg3 arg4 harg4 arg5 harg5 arg6 harg6 arg7 harg7 arg8 harg8 arg9 harg9 arg10 harg10 arg11 harg11 arg12 harg12 hc0 x0 x1 x2 x3 x4 x5 x6 xo9 xo10)]
  unfold kernelRun1_B
  dsimp only
  try sl_unfold_words
  rw [View.canon_unit_zero hz]
  simp only [View.readAt_eq_ld, harg2.read_unread, harg3.read_unread, harg4.read_unread, harg5.read_unread, harg6.read_unread, harg7.read_unread, harg8.read_unread, harg11.read_unread, harg12.read_unread, View.ld_unit_zero (S := S2048x256) hz, View.ld_unit_zero (S := S1x256) hz, View.ld_unit_zero (S := S256x256) hz, View.ld_unit_zero (S := S8x256) hz]

/-- At any later point the second output block is the same term of the point's blocks. -/
theorem outB8 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S2048x256 .f32) (harg9 : arg9.IsWhole) (arg10 : Memref sig .tc .vmem S2048x256 .f32) (harg10 : arg10.IsWhole) (arg11 : Memref sig .tc .vmem S8x256 .f32) (harg11 : arg11.IsWhole) (arg12 : Memref sig .tc .vmem S8x256 .f32) (harg12 : arg12.IsWhole) (hc0 : ¬cond1_0 i)
    (x0 : Vec F S2048x256 .f32) (x1 : Vec F S1x256 .f32) (x2 : Vec F S1x256 .f32) (x3 : Vec F S1x256 .f32) (x4 : Vec F S1x256 .f32) (x5 : Vec F S256x256 .f32) (x6 : Vec F S1x256 .f32) (xo9 : Vec F S8x256 .f32) (xo10 : Vec F S8x256 .f32) :
    out1_B_8 c i arg2 harg2 arg3 harg3 arg4 harg4 arg5 harg5 arg6 harg6 arg7 harg7 arg8 harg8 arg9 harg9 arg10 harg10 arg11 harg11 arg12 harg12 hc0 x0 x1 x2 x3 x4 x5 x6 xo9 xo10 = k1_pay1 (k1_pay7 x0 x2 x1 x3 x4 x5) x6 := by
  unfold out1_B_8
  rw [View.read_writes_eq_canon _ _ _ (cover1_B_8 c i arg2 harg2 arg3 harg3 arg4 harg4 arg5 harg5 arg6 harg6 arg7 harg7 arg8 harg8 arg9 harg9 arg10 harg10 arg11 harg11 arg12 harg12 hc0 x0 x1 x2 x3 x4 x5 x6 xo9 xo10)]
  unfold kernelRun1_B
  dsimp only
  try sl_unfold_words
  rw [View.canon_unit_zero hz]
  simp only [View.readAt_eq_ld, harg2.read_unread, harg3.read_unread, harg4.read_unread, harg5.read_unread, harg6.read_unread, harg7.read_unread, harg8.read_unread, harg11.read_unread, harg12.read_unread, View.ld_unit_zero (S := S2048x256) hz, View.ld_unit_zero (S := S1x256) hz, View.ld_unit_zero (S := S256x256) hz, View.ld_unit_zero (S := S8x256) hz]

/-- At any later point the first accumulator block is what it held plus the column sums of the second output block. -/
theorem outB9 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S2048x256 .f32) (harg9 : arg9.IsWhole) (arg10 : Memref sig .tc .vmem S2048x256 .f32) (harg10 : arg10.IsWhole) (arg11 : Memref sig .tc .vmem S8x256 .f32) (harg11 : arg11.IsWhole) (arg12 : Memref sig .tc .vmem S8x256 .f32) (harg12 : arg12.IsWhole) (hc0 : ¬cond1_0 i)
    (x0 : Vec F S2048x256 .f32) (x1 : Vec F S1x256 .f32) (x2 : Vec F S1x256 .f32) (x3 : Vec F S1x256 .f32) (x4 : Vec F S1x256 .f32) (x5 : Vec F S256x256 .f32) (x6 : Vec F S1x256 .f32) (xo9 : Vec F S8x256 .f32) (xo10 : Vec F S8x256 .f32) :
    out1_B_9 c i arg2 harg2 arg3 harg3 arg4 harg4 arg5 harg5 arg6 harg6 arg7 harg7 arg8 harg8 arg9 harg9 arg10 harg10 arg11 harg11 arg12 harg12 hc0 x0 x1 x2 x3 x4 x5 x6 xo9 xo10 = k1_pay2 (k1_pay7 x0 x2 x1 x3 x4 x5) x6 xo9 := by
  unfold out1_B_9
  rw [View.read_writes_eq_canon _ _ _ (cover1_B_9 c i arg2 harg2 arg3 harg3 arg4 harg4 arg5 harg5 arg6 harg6 arg7 harg7 arg8 harg8 arg9 harg9 arg10 harg10 arg11 harg11 arg12 harg12 hc0 x0 x1 x2 x3 x4 x5 x6 xo9 xo10)]
  unfold kernelRun1_B
  dsimp only
  try sl_unfold_words
  rw [View.canon_unit_zero hz]
  simp only [View.readAt_eq_ld, harg2.read_unread, harg3.read_unread, harg4.read_unread, harg5.read_unread, harg6.read_unread, harg7.read_unread, harg8.read_unread, harg11.read_unread, harg12.read_unread, View.ld_unit_zero (S := S2048x256) hz, View.ld_unit_zero (S := S1x256) hz, View.ld_unit_zero (S := S256x256) hz, View.ld_unit_zero (S := S8x256) hz]

/-- At any later point the second accumulator block is what it held plus the column sums of squares of the second output block. -/
theorem outB10 (c : Dev nD) (i : grid1.Coords) (arg2 : Memref sig .tc .vmem S2048x256 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S256x256 .f32) (harg7 : arg7.IsWhole) (arg8 : Memref sig .tc .vmem S1x256 .f32) (harg8 : arg8.IsWhole) (arg9 : Memref sig .tc .vmem S2048x256 .f32) (harg9 : arg9.IsWhole) (arg10 : Memref sig .tc .vmem S2048x256 .f32) (harg10 : arg10.IsWhole) (arg11 : Memref sig .tc .vmem S8x256 .f32) (harg11 : arg11.IsWhole) (arg12 : Memref sig .tc .vmem S8x256 .f32) (harg12 : arg12.IsWhole) (hc0 : ¬cond1_0 i)
    (x0 : Vec F S2048x256 .f32) (x1 : Vec F S1x256 .f32) (x2 : Vec F S1x256 .f32) (x3 : Vec F S1x256 .f32) (x4 : Vec F S1x256 .f32) (x5 : Vec F S256x256 .f32) (x6 : Vec F S1x256 .f32) (xo9 : Vec F S8x256 .f32) (xo10 : Vec F S8x256 .f32) :
    out1_B_10 c i arg2 harg2 arg3 harg3 arg4 harg4 arg5 harg5 arg6 harg6 arg7 harg7 arg8 harg8 arg9 harg9 arg10 harg10 arg11 harg11 arg12 harg12 hc0 x0 x1 x2 x3 x4 x5 x6 xo9 xo10 = k1_pay3 (k1_pay7 x0 x2 x1 x3 x4 x5) x6 xo10 := by
  unfold out1_B_10
  rw [View.read_writes_eq_canon _ _ _ (cover1_B_10 c i arg2 harg2 arg3 harg3 arg4 harg4 arg5 harg5 arg6 harg6 arg7 harg7 arg8 harg8 arg9 harg9 arg10 harg10 arg11 harg11 arg12 harg12 hc0 x0 x1 x2 x3 x4 x5 x6 xo9 xo10)]
  unfold kernelRun1_B
  dsimp only
  try sl_unfold_words
  rw [View.canon_unit_zero hz]
  simp only [View.readAt_eq_ld, harg2.read_unread, harg3.read_unread, harg4.read_unread, harg5.read_unread, harg6.read_unread, harg7.read_unread, harg8.read_unread, harg11.read_unread, harg12.read_unread, View.ld_unit_zero (S := S2048x256) hz, View.ld_unit_zero (S := S1x256) hz, View.ld_unit_zero (S := S256x256) hz, View.ld_unit_zero (S := S8x256) hz]

end Cert.KernelIdeal.Reg1

end
-- ==== Proof.KReg1Pt.lean ====
/-
  The arithmetic of one grid point of the second stage, entry by entry, against the specification.

  A tile is rows 2048·t … 2048·t + 2047 of a 65536-row array; the statistics, scale, shift and bias are one-row arrays
  and the weight matrix is read whole. If the loaded blocks are those rows and those whole arrays, then the first block
  the body stores is the same rows of the normalised, scaled, shifted and rectified array, the second block is the same
  rows of that array's affine image, and the column sums of the second block (and of its squares) are the sums over those
  2048 rows.
-/
import proofs.«173010_j4303557230935_2_alg».proof.Proof.Pay01
import proofs.«173010_j4303557230935_2_alg».proof.Proof.KDefs
import proofs.«173010_j4303557230935_2_alg».proof.Proof.LibBlockSum

noncomputable section

open scoped BigOperators

namespace Cert.KernelIdeal.Reg1

open Cert.KernelIdeal Cert.KernelIdeal.Gen Cert.Spec Idealize.ShloMosaic Idealize.ShloMosaic.ValueIdx

section Point

variable (x0 : FVec Ideal S2048x256 .f32) (x1 x2 x3 x4 x6 : FVec Ideal S1x256 .f32) (x5 : FVec Ideal S256x256 .f32)
variable (X : S65536x256.Idx → EReal) (mu va ga be bi : S1x256.Idx → EReal) (W : S256x256.Idx → EReal)
variable (t : ℕ)

/-- The first stored block, read at row y and column j, is the normalised and rectified array at row 2048·t + y. -/
theorem tileA
    (h0 : ∀ (y : Fin 2048) (j : Fin 256) (r : Fin 65536), r.val = 2048 * t + y.val → x0 (ix2 y j) = X (ix2 r j))
    (h1 : ∀ j : Fin 256, x1 (ix2 (0 : Fin 1) j) = mu (ix2 (0 : Fin 1) j))
    (h2 : ∀ j : Fin 256, x2 (ix2 (0 : Fin 1) j) = va (ix2 (0 : Fin 1) j))
    (h3 : ∀ j : Fin 256, x3 (ix2 (0 : Fin 1) j) = ga (ix2 (0 : Fin 1) j))
    (h4 : ∀ j : Fin 256, x4 (ix2 (0 : Fin 1) j) = be (ix2 (0 : Fin 1) j))
    (y : Fin 2048) (j : Fin 256) (r : Fin 65536) (hr : r.val = 2048 * t + y.val) :
    k1_pay6 (F := Ideal) x0 x2 x1 x3 x4 (ix2 y j)
      = normAct (toRow1 mu) (toRow1 va) (toRow1 ga) (toRow1 be) (toMat X) r j := by
  refine (Pay.k1_pay6_apply x0 x2 x1 x3 x4 y j).trans ?_
  rw [h0 y j r hr, h1 j, h2 j, h3 j, h4 j]
  rfl

/-- The second stored block, read at row y and column j, is the affine image of that array at row 2048·t + y. -/
theorem tileZ
    (h0 : ∀ (y : Fin 2048) (j : Fin 256) (r : Fin 65536), r.val = 2048 * t + y.val → x0 (ix2 y j) = X (ix2 r j))
    (h1 : ∀ j : Fin 256, x1 (ix2 (0 : Fin 1) j) = mu (ix2 (0 : Fin 1) j))
    (h2 : ∀ j : Fin 256, x2 (ix2 (0 : Fin 1) j) = va (ix2 (0 : Fin 1) j))
    (h3 : ∀ j : Fin 256, x3 (ix2 (0 : Fin 1) j) = ga (ix2 (0 : Fin 1) j))
    (h4 : ∀ j : Fin 256, x4 (ix2 (0 : Fin 1) j) = be (ix2 (0 : Fin 1) j))
    (h5 : ∀ q j : Fin 256, x5 (ix2 q j) = W (ix2 q j))
    (h6 : ∀ j : Fin 256, x6 (ix2 (0 : Fin 1) j) = bi (ix2 (0 : Fin 1) j))
    (y : Fin 2048) (j : Fin 256) (r : Fin 65536) (hr : r.val = 2048 * t + y.val) :
    k1_pay1 (F := Ideal) (k1_pay7 (F := Ideal) x0 x2 x1 x3 x4 x5) x6 (ix2 y j)
      = lin (normAct (toRow1 mu) (toRow1 va) (toRow1 ga) (toRow1 be) (toMat X)) (toMat W) (toRow1 bi) r j := by
  refine (Pay.k1_pay1_apply (k1_pay7 (F := Ideal) x0 x2 x1 x3 x4 x5) x6 y j).trans ?_
  refine congrArg₂ (· + ·) ?_ (h6 j)
  refine (Pay.k1_pay7_apply x0 x2 x1 x3 x4 x5 y j).trans ?_
  refine Finset.sum_congr rfl fun q _ => ?_
  exact congrArg₂ (· * ·) (tileA x0 x1 x2 x3 x4 X mu va ga be t h0 h1 h2 h3 h4 y q r hr) (h5 q j)

end Point

end Cert.KernelIdeal.Reg1

end
-- ==== Proof.KReg1.lean ====
/-
  What the second launch leaves in its four output arrays, as functions of the arrays it finds.

  The launch runs 32 grid points, 16 on each of two cores. Point t loads rows 2048·t … 2048·t + 2047 of the input
  array and the small operands whole. It writes the same rows of two output arrays: the input normalised by the given
  column means and variances, scaled, shifted and rectified; and that result times the weight matrix plus the bias row.
  Since every row belongs to exactly one point, the two arrays end as those functions of the whole input. The two
  accumulator arrays have sixteen rows, eight per core; a core's eight rows all hold the running column sums (and sums
  of squares) of the second output over the core's points so far, start from zero at the core's first point, and are
  written back after its last. Rows 0 and 8 therefore add up to the column sums over all 65536 rows.
-/
import proofs.«173010_j4303557230935_2_alg».proof.Proof.KernelIdealFrameP
import proofs.«173010_j4303557230935_2_alg».proof.Proof.KReg1Cases
import proofs.«173010_j4303557230935_2_alg».proof.Proof.KReg1Pt
import proofs.«173010_j4303557230935_2_alg».proof.Proof.Pay01
import proofs.«173010_j4303557230935_2_alg».proof.Proof.KDefs
import proofs.«173010_j4303557230935_2_alg».proof.Proof.LibBlockSum
import Idealize.ShloMosaic.Lib.Pipeline.Value
import Idealize.ShloMosaic.Lib.Tactic

noncomputable section

open scoped BigOperators

namespace Cert.KernelIdeal.Reg1

open Cert.KernelIdeal Cert.KernelIdeal.Gen Cert.KernelIdeal.GenP Cert.Spec Idealize.ShloMosaic Idealize.ShloMosaic.ValueIdx
open Idealize.ShloMosaic.TcCoe
open Idealize.ShloMosaic.Pipeline (Dat)

/-! ## Where each window's block sits at a point -/

/-- The tile windows' block index at point t is (t, 0): decided over the 32 points. -/
theorem idx0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem idx7 : ∀ t : Fin cfg1.N, win1_7.index t (0 : Fin 2) = t.val ∧ win1_7.index t (1 : Fin 2) = 0 :=
  (by decide +kernel : ∀ t : Fin grid1.N, win1_7.index t (0 : Fin 2) = t.val ∧ win1_7.index t (1 : Fin 2) = 0)
theorem idx8 : ∀ t : Fin cfg1.N, win1_8.index t (0 : Fin 2) = t.val ∧ win1_8.index t (1 : Fin 2) = 0 :=
  (by decide +kernel : ∀ t : Fin grid1.N, win1_8.index t (0 : Fin 2) = t.val ∧ win1_8.index t (1 : Fin 2) = 0)
/-- The accumulator windows' block index at point t is (t / 16, 0): the core. -/
theorem idx9 : ∀ t : Fin cfg1.N, win1_9.index t (0 : Fin 2) = t.val / 16 ∧ win1_9.index t (1 : Fin 2) = 0 :=
  (by decide +kernel : ∀ t : Fin grid1.N, win1_9.index t (0 : Fin 2) = t.val / 16 ∧ win1_9.index t (1 : Fin 2) = 0)
theorem idx10 : ∀ t : Fin cfg1.N, win1_10.index t (0 : Fin 2) = t.val / 16 ∧ win1_10.index t (1 : Fin 2) = 0 :=
  (by decide +kernel : ∀ t : Fin grid1.N, win1_10.index t (0 : Fin 2) = t.val / 16 ∧ win1_10.index t (1 : Fin 2) = 0)
/-- The whole-array windows' block index is (0, 0) at every point. -/
theorem idxc1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
theorem idxc2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
theorem idxc3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
theorem idxc4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)
theorem idxc5 : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)
theorem idxc6 : ∀ t : Fin cfg1.N, win1_6.index t (0 : Fin 2) = 0 ∧ win1_6.index t (1 : Fin 2) = 0 :=
  (by decide +kernel : ∀ t : Fin grid1.N, win1_6.index t (0 : Fin 2) = 0 ∧ win1_6.index t (1 : Fin 2) = 0)

variable (V : (c : Dev nD) → (b : Ref sig .tc) → Buf (Elt Ideal) ((c : Thread nD τ).loc b)) (c : Dev nD)

/-! ## The results, as matrices -/

/-- The first output: the input normalised by the given column means and variances, scaled, shifted, rectified. -/
def A1 : Mat 65536 256 :=
  normAct (toRow1 (V c main_v22 : S1x256.Idx → EReal)) (toRow1 (V c main_v28 : S1x256.Idx → EReal))
    (toRow1 (V c main_v7 : S1x256.Idx → EReal)) (toRow1 (V c main_v8 : S1x256.Idx → EReal))
    (toMat (V c main_v14_1 : S65536x256.Idx → EReal))

/-- The second output: the first times the weight matrix, plus the bias row. -/
def Z2 : Mat 65536 256 :=
  lin (A1 V c) (toMat (V c main_arg8 : S256x256.Idx → EReal)) (toRow1 (V c main_v2 : S1x256.Idx → EReal))

/-! ## Block reads -/

/-- The tile window's block at point t, read at row y and column j, is the array at row 2048·t + y. -/
theorem blk0 (t : Fin cfg1.N) (y : Fin 2048) (j : Fin 256) (r : Fin 65536) (hr : r.val = 2048 * t.val + y.val) :
    (iblk1 V c 0 t : FVec Ideal S2048x256 .f32) (ix2 y j) = (V c main_v14_1 : S65536x256.Idx → EReal) (ix2 r j) := by
  obtain ⟨e0, e1⟩ := idx0 t
  unfold iblk1
  rw [View.read_apply]
  show (V c main_v14_1 : S65536x256.Idx → EReal) _ = _
  refine congrArg (V c main_v14_1 : S65536x256.Idx → EReal) ?_
  funext a
  apply Fin.ext
  match a with
  | ⟨0, _⟩ => show win1_0.index t (0 : Fin 2) * 2048 + 1 * y.val = r.val; rw [e0, hr]; omega
  | ⟨1, _⟩ => show win1_0.index t (1 : Fin 2) * 256 + 1 * j.val = j.val; rw [e1]; omega

/-- Window 1's block is its whole array at every point. -/
theorem blkc1 (t : Fin cfg1.N) (z : Fin 1) (j : Fin 256) :
    (iblk1 V c 1 t : FVec Ideal S1x256 .f32) (ix2 z j) = (V c main_v22 : S1x256.Idx → EReal) (ix2 z j) := by
  obtain ⟨e0, e1⟩ := idxc1 t
  unfold iblk1
  rw [View.read_apply]
  show (V c main_v22 : S1x256.Idx → EReal) _ = _
  refine congrArg (V c main_v22 : S1x256.Idx → EReal) ?_
  funext a
  apply Fin.ext
  match a with
  | ⟨0, _⟩ => show win1_1.index t (0 : Fin 2) * 1 + 1 * z.val = z.val; rw [e0]; omega
  | ⟨1, _⟩ => show win1_1.index t (1 : Fin 2) * 256 + 1 * j.val = j.val; rw [e1]; omega

/-- Window 2's block is its whole array at every point. -/
theorem blkc2 (t : Fin cfg1.N) (z : Fin 1) (j : Fin 256) :
    (iblk1 V c 2 t : FVec Ideal S1x256 .f32) (ix2 z j) = (V c main_v28 : S1x256.Idx → EReal) (ix2 z j) := by
  obtain ⟨e0, e1⟩ := idxc2 t
  unfold iblk1
  rw [View.read_apply]
  show (V c main_v28 : S1x256.Idx → EReal) _ = _
  refine congrArg (V c main_v28 : S1x256.Idx → EReal) ?_
  funext a
  apply Fin.ext
  match a with
  | ⟨0, _⟩ => show win1_2.index t (0 : Fin 2) * 1 + 1 * z.val = z.val; rw [e0]; omega
  | ⟨1, _⟩ => show win1_2.index t (1 : Fin 2) * 256 + 1 * j.val = j.val; rw [e1]; omega

/-- Window 3's block is its whole array at every point. -/
theorem blkc3 (t : Fin cfg1.N) (z : Fin 1) (j : Fin 256) :
    (iblk1 V c 3 t : FVec Ideal S1x256 .f32) (ix2 z j) = (V c main_v7 : S1x256.Idx → EReal) (ix2 z j) := by
  obtain ⟨e0, e1⟩ := idxc3 t
  unfold iblk1
  rw [View.read_apply]
  show (V c main_v7 : S1x256.Idx → EReal) _ = _
  refine congrArg (V c main_v7 : S1x256.Idx → EReal) ?_
  funext a
  apply Fin.ext
  match a with
  | ⟨0, _⟩ => show win1_3.index t (0 : Fin 2) * 1 + 1 * z.val = z.val; rw [e0]; omega
  | ⟨1, _⟩ => show win1_3.index t (1 : Fin 2) * 256 + 1 * j.val = j.val; rw [e1]; omega

/-- Window 4's block is its whole array at every point. -/
theorem blkc4 (t : Fin cfg1.N) (z : Fin 1) (j : Fin 256) :
    (iblk1 V c 4 t : FVec Ideal S1x256 .f32) (ix2 z j) = (V c main_v8 : S1x256.Idx → EReal) (ix2 z j) := by
  obtain ⟨e0, e1⟩ := idxc4 t
  unfold iblk1
  rw [View.read_apply]
  show (V c main_v8 : S1x256.Idx → EReal) _ = _
  refine congrArg (V c main_v8 : S1x256.Idx → EReal) ?_
  funext a
  apply Fin.ext
  match a with
  | ⟨0, _⟩ => show win1_4.index t (0 : Fin 2) * 1 + 1 * z.val = z.val; rw [e0]; omega
  | ⟨1, _⟩ => show win1_4.index t (1 : Fin 2) * 256 + 1 * j.val = j.val; rw [e1]; omega

/-- Window 5's block is its whole array at every point. -/
theorem blkc5 (t : Fin cfg1.N) (z : Fin 256) (j : Fin 256) :
    (iblk1 V c 5 t : FVec Ideal S256x256 .f32) (ix2 z j) = (V c main_arg8 : S256x256.Idx → EReal) (ix2 z j) := by
  obtain ⟨e0, e1⟩ := idxc5 t
  unfold iblk1
  rw [View.read_apply]
  show (V c main_arg8 : S256x256.Idx → EReal) _ = _
  refine congrArg (V c main_arg8 : S256x256.Idx → EReal) ?_
  funext a
  apply Fin.ext
  match a with
  | ⟨0, _⟩ => show win1_5.index t (0 : Fin 2) * 256 + 1 * z.val = z.val; rw [e0]; omega
  | ⟨1, _⟩ => show win1_5.index t (1 : Fin 2) * 256 + 1 * j.val = j.val; rw [e1]; omega

/-- Window 6's block is its whole array at every point. -/
theorem blkc6 (t : Fin cfg1.N) (z : Fin 1) (j : Fin 256) :
    (iblk1 V c 6 t : FVec Ideal S1x256 .f32) (ix2 z j) = (V c main_v2 : S1x256.Idx → EReal) (ix2 z j) := by
  obtain ⟨e0, e1⟩ := idxc6 t
  unfold iblk1
  rw [View.read_apply]
  show (V c main_v2 : S1x256.Idx → EReal) _ = _
  refine congrArg (V c main_v2 : S1x256.Idx → EReal) ?_
  funext a
  apply Fin.ext
  match a with
  | ⟨0, _⟩ => show win1_6.index t (0 : Fin 2) * 1 + 1 * z.val = z.val; rw [e0]; omega
  | ⟨1, _⟩ => show win1_6.index t (1 : Fin 2) * 256 + 1 * j.val = j.val; rw [e1]; omega

/-! ## The two tiled outputs at a point -/

/-- After a core's first point the first output's block is the rectified normalisation of the point's tile. -/
theorem outs7_A (t : Fin cfg1.N) (h0 : t.val % 16 = 0) :
    (outsAt1 V c t.val t.isLt).1 = k1_pay6 (F := Ideal) (iblk1 V c 0 t) (iblk1 V c 2 t) (iblk1 V c 1 t) (iblk1 V c 3 t) (iblk1 V c 4 t) := by
  rw [outsAt1_A V c t h0]
  dsimp only
  exact outA7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) ((hcond1_0 t).mpr h0) (iblk1 V c 0 t) (iblk1 V c 1 t) (iblk1 V c 2 t) (iblk1 V c 3 t) (iblk1 V c 4 t) (iblk1 V c 5 t) (iblk1 V c 6 t)

/-- After any later point it is the same term of the point's blocks. -/
theorem outs7_B (t : Fin cfg1.N) (h0 : ¬t.val % 16 = 0) :
    (outsAt1 V c t.val t.isLt).1 = k1_pay6 (F := Ideal) (iblk1 V c 0 t) (iblk1 V c 2 t) (iblk1 V c 1 t) (iblk1 V c 3 t) (iblk1 V c 4 t) := by
  rw [outsAt1_B V c t h0]
  dsimp only
  exact outB7 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.1 (outsAt1 V c (t.val - 1) (Nat.lt_of_le_of_lt (Nat.sub_le _ _) t.isLt)).2.2.2

/-- After point t the first output's block is the rectified normalisation of the point's tile. -/
theorem outs7 (t : Fin cfg1.N) :
    (outsAt1 V c t.val t.isLt).1 = k1_pay6 (F := Ideal) (iblk1 V c 0 t) (iblk1 V c 2 t) (iblk1 V c 1 t) (iblk1 V c 3 t) (iblk1 V c 4 t) := by
  by_cases h0 : t.val % 16 = 0
  · exact outs7_A V c t h0
  · exact outs7_B V c t h0

/-- The product of point t's first block with the weight matrix, plus the bias row. -/
def Zt (t : Fin cfg1.N) : FVec Ideal S2048x256 .f32 :=
  k1_pay1 (F := Ideal) (k1_pay7 (F := Ideal) (iblk1 V c 0 t) (iblk1 V c 2 t) (iblk1 V c 1 t) (iblk1 V c 3 t) (iblk1 V c 4 t) (iblk1 V c 5 t)) (iblk1 V c 6 t)

/-- After a core's first point the second output's block is that tile times the weight matrix, plus the bias row. -/
theorem outs8_A (t : Fin cfg1.N) (h0 : t.val % 16 = 0) :
    (outsAt1 V c t.val t.isLt).2.1 = Zt V c t := by
  unfold Zt
  rw [outsAt1_A V c t h0]
  dsimp only
  exact outA8 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) ((hcond1_0 t).mpr h0) (iblk1 V c 0 t) (iblk1 V c 1 t) (iblk1 V c 2 t) (iblk1 V c 3 t) (iblk1 V c 4 t) (iblk1 V c 5 t) (iblk1 V c 6 t)

/-- After any later point it is the same term of the point's blocks. -/
theorem outs8_B (t : Fin cfg1.N) (h0 : ¬t.val % 16 = 0) :
    (outsAt1 V c t.val t.isLt).2.1 = Zt V c t := by
  unfold Zt
  rw [outsAt1_B V c t h0]
  dsimp only
  exact outB8 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.1 (outsAt1 V c (t.val - 1) (Nat.lt_of_le_of_lt (Nat.sub_le _ _) t.isLt)).2.2.2

/-- After point t the second output's block is that tile times the weight matrix, plus the bias row. -/
theorem outs8 (t : Fin cfg1.N) :
    (outsAt1 V c t.val t.isLt).2.1 = Zt V c t := by
  by_cases h0 : t.val % 16 = 0
  · exact outs8_A V c t h0
  · exact outs8_B V c t h0

/-- The first block at row y, column j is the first result at row 2048·t + y. -/
theorem tile7 (t : Fin cfg1.N) (y : Fin 2048) (j : Fin 256) (r : Fin 65536) (hr : r.val = 2048 * t.val + y.val) :
    (k1_pay6 (F := Ideal) (iblk1 V c 0 t) (iblk1 V c 2 t) (iblk1 V c 1 t) (iblk1 V c 3 t) (iblk1 V c 4 t)) (ix2 y j) = A1 V c r j :=
  tileA (iblk1 V c 0 t) (iblk1 V c 1 t) (iblk1 V c 2 t) (iblk1 V c 3 t) (iblk1 V c 4 t)
    (V c main_v14_1 : S65536x256.Idx → EReal) (V c main_v22 : S1x256.Idx → EReal) (V c main_v28 : S1x256.Idx → EReal)
    (V c main_v7 : S1x256.Idx → EReal) (V c main_v8 : S1x256.Idx → EReal) t.val
    (fun y j r hr => blk0 V c t y j r hr) (fun j => blkc1 V c t 0 j) (fun j => blkc2 V c t 0 j)
    (fun j => blkc3 V c t 0 j) (fun j => blkc4 V c t 0 j) y j r hr

/-- The second block at row y, column j is the second result at row 2048·t + y. -/
theorem tile8 (t : Fin cfg1.N) (y : Fin 2048) (j : Fin 256) (r : Fin 65536) (hr : r.val = 2048 * t.val + y.val) :
    Zt V c t (ix2 y j) = Z2 V c r j :=
  tileZ (iblk1 V c 0 t) (iblk1 V c 1 t) (iblk1 V c 2 t) (iblk1 V c 3 t) (iblk1 V c 4 t) (iblk1 V c 6 t) (iblk1 V c 5 t)
    (V c main_v14_1 : S65536x256.Idx → EReal) (V c main_v22 : S1x256.Idx → EReal) (V c main_v28 : S1x256.Idx → EReal)
    (V c main_v7 : S1x256.Idx → EReal) (V c main_v8 : S1x256.Idx → EReal) (V c main_v2 : S1x256.Idx → EReal)
    (V c main_arg8 : S256x256.Idx → EReal) t.val
    (fun y j r hr => blk0 V c t y j r hr) (fun j => blkc1 V c t 0 j) (fun j => blkc2 V c t 0 j)
    (fun j => blkc3 V c t 0 j) (fun j => blkc4 V c t 0 j) (fun q j => blkc5 V c t q j) (fun j => blkc6 V c t 0 j) y j r hr

/-! ## The accumulators: running column sums within a core -/

/-- The column sums of the second output's block at point n (zero past the grid). -/
def cs1 (n : ℕ) (j : Fin 256) : EReal :=
  if h : n < cfg1.N then ∑ y : Fin 2048, Zt V c ⟨n, h⟩ (ix2 y j) else 0

/-- The column sums of squares of the second output's block at point n (zero past the grid). -/
def cs2 (n : ℕ) (j : Fin 256) : EReal :=
  if h : n < cfg1.N then ∑ y : Fin 2048, Zt V c ⟨n, h⟩ (ix2 y j) * Zt V c ⟨n, h⟩ (ix2 y j) else 0

/-- Point t's column sums are the sums of the second result over rows 2048·t … 2048·t + 2047. -/
theorem cs1_eq (t : ℕ) (ht : t < 32) (j : Fin 256) :
    cs1 V c t j = ∑ y : Fin 2048, Z2 V c ⟨2048 * t + y.val, Cert.Lib.block_lt_of_eq (nb := 32) (bs := 2048) (N := 65536) rfl ⟨t, ht⟩ y⟩ j := by
  have hN : cfg1.N = 32 := N_1
  have ht' : t < cfg1.N := by rw [hN]; exact ht
  unfold cs1
  rw [dif_pos ht']
  exact Finset.sum_congr rfl fun y _ => tile8 V c ⟨t, ht'⟩ y j _ rfl

theorem cs2_eq (t : ℕ) (ht : t < 32) (j : Fin 256) :
    cs2 V c t j = ∑ y : Fin 2048, Z2 V c ⟨2048 * t + y.val, Cert.Lib.block_lt_of_eq (nb := 32) (bs := 2048) (N := 65536) rfl ⟨t, ht⟩ y⟩ j
        * Z2 V c ⟨2048 * t + y.val, Cert.Lib.block_lt_of_eq (nb := 32) (bs := 2048) (N := 65536) rfl ⟨t, ht⟩ y⟩ j := by
  have hN : cfg1.N = 32 := N_1
  have ht' : t < cfg1.N := by rw [hN]; exact ht
  unfold cs2
  rw [dif_pos ht']
  exact Finset.sum_congr rfl fun y _ => congrArg₂ (· * ·) (tile8 V c ⟨t, ht'⟩ y j _ rfl) (tile8 V c ⟨t, ht'⟩ y j _ rfl)

/-- At a core's first point every row of the first accumulator block holds zero plus the point's column sums. -/
theorem acc9_A (t : Fin cfg1.N) (h0 : t.val % 16 = 0) (i : Fin 8) (j : Fin 256) :
    (outsAt1 V c t.val t.isLt).2.2.1 (ix2 i j) = 0 + cs1 V c t.val j := by
  have e := (congrArg (fun p : Vec Ideal S2048x256 .f32 × Vec Ideal S2048x256 .f32 × Vec Ideal S8x256 .f32 × Vec Ideal S8x256 .f32 => p.2.2.1) (outsAt1_A V c t h0)).trans
      (outA9 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) ((hcond1_0 t).mpr h0) (iblk1 V c 0 t) (iblk1 V c 1 t) (iblk1 V c 2 t) (iblk1 V c 3 t) (iblk1 V c 4 t) (iblk1 V c 5 t) (iblk1 V c 6 t))
  refine (congrFun e (ix2 i j)).trans ?_
  refine (Pay.k1_pay2_apply _ _ _ i j).trans ?_
  refine congrArg₂ (· + ·) (Pay.k1_pay4_apply i j) ?_
  unfold cs1
  rw [dif_pos t.isLt]
  rfl

/-- At any later point every row holds what it held after the point before plus the point's column sums. -/
theorem acc9_B (t : Fin cfg1.N) (h0 : ¬t.val % 16 = 0) (i : Fin 8) (j : Fin 256) :
    (outsAt1 V c t.val t.isLt).2.2.1 (ix2 i j) = (outsAt1 V c (t.val - 1) (Nat.lt_of_le_of_lt (Nat.sub_le _ _) t.isLt)).2.2.1 (ix2 i j) + cs1 V c t.val j := by
  have e := (congrArg (fun p : Vec Ideal S2048x256 .f32 × Vec Ideal S2048x256 .f32 × Vec Ideal S8x256 .f32 × Vec Ideal S8x256 .f32 => p.2.2.1) (outsAt1_B V c t h0)).trans
      (outB9 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.1 (outsAt1 V c (t.val - 1) (Nat.lt_of_le_of_lt (Nat.sub_le _ _) t.isLt)).2.2.2)
  refine (congrFun e (ix2 i j)).trans ?_
  refine (Pay.k1_pay2_apply _ _ _ i j).trans ?_
  refine congrArg₂ (· + ·) rfl ?_
  unfold cs1
  rw [dif_pos t.isLt]
  rfl

theorem acc10_A (t : Fin cfg1.N) (h0 : t.val % 16 = 0) (i : Fin 8) (j : Fin 256) :
    (outsAt1 V c t.val t.isLt).2.2.2 (ix2 i j) = 0 + cs2 V c t.val j := by
  have e := (congrArg (fun p : Vec Ideal S2048x256 .f32 × Vec Ideal S2048x256 .f32 × Vec Ideal S8x256 .f32 × Vec Ideal S8x256 .f32 => p.2.2.2) (outsAt1_A V c t h0)).trans
      (outA10 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) ((hcond1_0 t).mpr h0) (iblk1 V c 0 t) (iblk1 V c 1 t) (iblk1 V c 2 t) (iblk1 V c 3 t) (iblk1 V c 4 t) (iblk1 V c 5 t) (iblk1 V c 6 t))
  refine (congrFun e (ix2 i j)).trans ?_
  refine (Pay.k1_pay3_apply _ _ _ i j).trans ?_
  refine congrArg₂ (· + ·) (Pay.k1_pay5_apply i j) ?_
  unfold cs2
  rw [dif_pos t.isLt]
  rfl

theorem acc10_B (t : Fin cfg1.N) (h0 : ¬t.val % 16 = 0) (i : Fin 8) (j : Fin 256) :
    (outsAt1 V c t.val t.isLt).2.2.2 (ix2 i j) = (outsAt1 V c (t.val - 1) (Nat.lt_of_le_of_lt (Nat.sub_le _ _) t.isLt)).2.2.2 (ix2 i j) + cs2 V c t.val j := by
  have e := (congrArg (fun p : Vec Ideal S2048x256 .f32 × Vec Ideal S2048x256 .f32 × Vec Ideal S8x256 .f32 × Vec Ideal S8x256 .f32 => p.2.2.2) (outsAt1_B V c t h0)).trans
      (outB10 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (fun h => h0 ((hcond1_0 t).mp h)) (iblk1 V c 0 t) (iblk1 V c 1 t) (iblk1 V c 2 t) (iblk1 V c 3 t) (iblk1 V c 4 t) (iblk1 V c 5 t) (iblk1 V c 6 t) (outsAt1 V c (t.val - 1) (Nat.lt_of_le_of_lt (Nat.sub_le _ _) t.isLt)).2.2.1 (outsAt1 V c (t.val - 1) (Nat.lt_of_le_of_lt (Nat.sub_le _ _) t.isLt)).2.2.2)
  refine (congrFun e (ix2 i j)).trans ?_
  refine (Pay.k1_pay3_apply _ _ _ i j).trans ?_
  refine congrArg₂ (· + ·) rfl ?_
  unfold cs2
  rw [dif_pos t.isLt]
  rfl

/-- After point n every row of the first accumulator block holds the column sums of the core's points so far:
    points 16·(n / 16) … n. By induction on the point. -/
theorem acc9 (i : Fin 8) (j : Fin 256) : ∀ (n : ℕ) (h : n < cfg1.N),
    (outsAt1 V c n h).2.2.1 (ix2 i j) = ∑ s ∈ Finset.range (n % 16 + 1), cs1 V c (16 * (n / 16) + s) j := by
  intro n
  induction n using Nat.strong_induction_on with
  | _ n ih =>
    intro h
    by_cases h0 : n % 16 = 0
    · have hn : 16 * (n / 16) = n := by omega
      rw [h0, zero_add, Finset.sum_range_one, add_zero, hn]
      exact (acc9_A V c ⟨n, h⟩ h0 i j).trans (zero_add _)
    · have h1 : (n - 1) % 16 + 1 = n % 16 := by omega
      have h2 : (n - 1) / 16 = n / 16 := by omega
      have h3 : 16 * (n / 16) + n % 16 = n := by omega
      have ih' := ih (n - 1) (by omega) (by omega)
      rw [h1, h2] at ih'
      rw [Finset.sum_range_succ, h3]
      exact (acc9_B V c ⟨n, h⟩ h0 i j).trans (congrArg (· + cs1 V c n j) ih')

theorem acc10 (i : Fin 8) (j : Fin 256) : ∀ (n : ℕ) (h : n < cfg1.N),
    (outsAt1 V c n h).2.2.2 (ix2 i j) = ∑ s ∈ Finset.range (n % 16 + 1), cs2 V c (16 * (n / 16) + s) j := by
  intro n
  induction n using Nat.strong_induction_on with
  | _ n ih =>
    intro h
    by_cases h0 : n % 16 = 0
    · have hn : 16 * (n / 16) = n := by omega
      rw [h0, zero_add, Finset.sum_range_one, add_zero, hn]
      exact (acc10_A V c ⟨n, h⟩ h0 i j).trans (zero_add _)
    · have h1 : (n - 1) % 16 + 1 = n % 16 := by omega
      have h2 : (n - 1) / 16 = n / 16 := by omega
      have h3 : 16 * (n / 16) + n % 16 = n := by omega
      have ih' := ih (n - 1) (by omega) (by omega)
      rw [h1, h2] at ih'
      rw [Finset.sum_range_succ, h3]
      exact (acc10_B V c ⟨n, h⟩ h0 i j).trans (congrArg (· + cs2 V c n j) ih')

/-! ## From blocks to arrays: the two tiled outputs -/

/-- What point t writes back to output 7 is rows 2048·t … 2048·t + 2047 of the result. -/
theorem flushed7 (t : Fin cfg1.N) :
    (dat1 V c).flushed 7 t = ((cfg1.win 7).blk t).view.read (Elt Ideal) (ofMat (A1 V c)) := by
  obtain ⟨e0, e1⟩ := idx7 t
  have hN : cfg1.N = 32 := N_1
  show (cfg1.win 7).cut (grid1.coords t) ((dat1 V c).after 7 t) = _
  rw [after1_7, outs7 V c t]
  funext y
  obtain ⟨p, q, rfl⟩ : ∃ (p : Fin 2048) (q : Fin 256), y = ix2 p q := ⟨y 0, y 1, eq_ix2 y⟩
  have ht : t.val < 32 := hN ▸ t.isLt
  have hr : 2048 * t.val + p.val < 65536 := by have := p.isLt; omega
  have hemb : (((cfg1.win 7).blk t).view.emb (ix2 p q) : S65536x256.Idx) = ix2 (⟨2048 * t.val + p.val, hr⟩ : Fin 65536) q := by
    funext a
    apply Fin.ext
    match a with
    | ⟨0, _⟩ => show win1_7.index t (0 : Fin 2) * 2048 + 1 * p.val = 2048 * t.val + p.val; rw [e0]; omega
    | ⟨1, _⟩ => show win1_7.index t (1 : Fin 2) * 256 + 1 * q.val = q.val; rw [e1]; omega
  rw [View.read_apply]
  show _ = ofMat (A1 V c) (((cfg1.win 7).blk t).view.emb (ix2 p q))
  rw [hemb]
  exact tile7 V c t p q ⟨2048 * t.val + p.val, hr⟩ rfl

/-- An index of output 7's array is in point t's block iff its row is among the point's 2048 rows. -/
theorem mem_blk7 (t : Fin cfg1.N) (i : S65536x256.Idx) :
    i ∈ ((cfg1.win 7).blk t).view.set ↔ ∀ a : Fin 2, win1_7.index t a * S2048x256.size a ≤ (i a).val ∧ (i a).val < win1_7.index t a * S2048x256.size a + S2048x256.size a := by
  show i ∈ ((View.whole main_v29_0).slice (win1_7.rect t)).set ↔ _
  rw [View.set_slice_whole, Rect.mem_set_unit]
  exact Iff.rfl

/-- Every row belongs to the point row / 2048, and every point writes its block back. -/
theorem cover7 (i : S65536x256.Idx) :
    ∃ t : Fin cfg1.N, (cfg1.win 7).flush t = true ∧ i ∈ ((cfg1.win 7).blk t).view.set := by
  have hi0 : (i 0).val < 65536 := (i 0).isLt
  have hi1 : (i 1).val < 256 := (i 1).isLt
  have hN : cfg1.N = 32 := N_1
  obtain ⟨t, ht⟩ : ∃ t : Fin cfg1.N, t.val = (i 0).val / 2048 := ⟨⟨(i 0).val / 2048, by rw [hN]; omega⟩, rfl⟩
  obtain ⟨e0, e1⟩ := idx7 t
  refine ⟨t, flush1_7 t, ?_⟩
  rw [mem_blk7]
  intro a
  match a with
  | ⟨0, _⟩ => show win1_7.index t (0 : Fin 2) * 2048 ≤ (i 0).val ∧ (i 0).val < win1_7.index t (0 : Fin 2) * 2048 + 2048; rw [e0]; omega
  | ⟨1, _⟩ => show win1_7.index t (1 : Fin 2) * 256 ≤ (i 1).val ∧ (i 1).val < win1_7.index t (1 : Fin 2) * 256 + 256; rw [e1]; omega

/-- What point t writes back to output 8 is rows 2048·t … 2048·t + 2047 of the result. -/
theorem flushed8 (t : Fin cfg1.N) :
    (dat1 V c).flushed 8 t = ((cfg1.win 8).blk t).view.read (Elt Ideal) (ofMat (Z2 V c)) := by
  obtain ⟨e0, e1⟩ := idx8 t
  have hN : cfg1.N = 32 := N_1
  show (cfg1.win 8).cut (grid1.coords t) ((dat1 V c).after 8 t) = _
  rw [after1_8, outs8 V c t]
  funext y
  obtain ⟨p, q, rfl⟩ : ∃ (p : Fin 2048) (q : Fin 256), y = ix2 p q := ⟨y 0, y 1, eq_ix2 y⟩
  have ht : t.val < 32 := hN ▸ t.isLt
  have hr : 2048 * t.val + p.val < 65536 := by have := p.isLt; omega
  have hemb : (((cfg1.win 8).blk t).view.emb (ix2 p q) : S65536x256.Idx) = ix2 (⟨2048 * t.val + p.val, hr⟩ : Fin 65536) q := by
    funext a
    apply Fin.ext
    match a with
    | ⟨0, _⟩ => show win1_8.index t (0 : Fin 2) * 2048 + 1 * p.val = 2048 * t.val + p.val; rw [e0]; omega
    | ⟨1, _⟩ => show win1_8.index t (1 : Fin 2) * 256 + 1 * q.val = q.val; rw [e1]; omega
  rw [View.read_apply]
  show _ = ofMat (Z2 V c) (((cfg1.win 8).blk t).view.emb (ix2 p q))
  rw [hemb]
  exact tile8 V c t p q ⟨2048 * t.val + p.val, hr⟩ rfl

/-- An index of output 8's array is in point t's block iff its row is among the point's 2048 rows. -/
theorem mem_blk8 (t : Fin cfg1.N) (i : S65536x256.Idx) :
    i ∈ ((cfg1.win 8).blk t).view.set ↔ ∀ a : Fin 2, win1_8.index t a * S2048x256.size a ≤ (i a).val ∧ (i a).val < win1_8.index t a * S2048x256.size a + S2048x256.size a := by
  show i ∈ ((View.whole main_v29_1).slice (win1_8.rect t)).set ↔ _
  rw [View.set_slice_whole, Rect.mem_set_unit]
  exact Iff.rfl

/-- Every row belongs to the point row / 2048, and every point writes its block back. -/
theorem cover8 (i : S65536x256.Idx) :
    ∃ t : Fin cfg1.N, (cfg1.win 8).flush t = true ∧ i ∈ ((cfg1.win 8).blk t).view.set := by
  have hi0 : (i 0).val < 65536 := (i 0).isLt
  have hi1 : (i 1).val < 256 := (i 1).isLt
  have hN : cfg1.N = 32 := N_1
  obtain ⟨t, ht⟩ : ∃ t : Fin cfg1.N, t.val = (i 0).val / 2048 := ⟨⟨(i 0).val / 2048, by rw [hN]; omega⟩, rfl⟩
  obtain ⟨e0, e1⟩ := idx8 t
  refine ⟨t, flush1_8 t, ?_⟩
  rw [mem_blk8]
  intro a
  match a with
  | ⟨0, _⟩ => show win1_8.index t (0 : Fin 2) * 2048 ≤ (i 0).val ∧ (i 0).val < win1_8.index t (0 : Fin 2) * 2048 + 2048; rw [e0]; omega
  | ⟨1, _⟩ => show win1_8.index t (1 : Fin 2) * 256 ≤ (i 1).val ∧ (i 1).val < win1_8.index t (1 : Fin 2) * 256 + 256; rw [e1]; omega

/-- The first output array after the launch is the normalised, scaled, shifted and rectified input. -/
theorem arr7 : ((dat1 V c).arrAt 7 cfg1.N : S65536x256.Idx → EReal) = ofMat (A1 V c) :=
  (dat1 V c).arrAt_eq_of_cover 7 (ofMat (A1 V c)) (fun t _ => flushed7 V c t) (cover7)

/-- The second output array after the launch is that result's affine image. -/
theorem arr8 : ((dat1 V c).arrAt 8 cfg1.N : S65536x256.Idx → EReal) = ofMat (Z2 V c) :=
  (dat1 V c).arrAt_eq_of_cover 8 (ofMat (Z2 V c)) (fun t _ => flushed8 V c t) (cover8)

/-! ## From blocks to arrays: the two accumulators -/

/-- What the first accumulator array ends holding: row i holds the column sums over the sixteen points of core i / 8. -/
def G9 : S16x256.Idx → EReal :=
  fun i => ∑ s ∈ Finset.range 16, cs1 V c (16 * ((i 0).val / 8) + s) (i 1)

/-- The one write-back of a core, after its last point, writes the core's eight rows of that array. -/
theorem flushed9 (t : Fin cfg1.N) (hf : (cfg1.win 9).flush t = true) :
    (dat1 V c).flushed 9 t = ((cfg1.win 9).blk t).view.read (Elt Ideal) (G9 V c) := by
  have h15 : t.val % 16 + 1 = 16 := by
    have := (flush1_9 t).mp hf
    omega
  obtain ⟨e0, e1⟩ := idx9 t
  have hN : cfg1.N = 32 := N_1
  have ht : t.val < 32 := hN ▸ t.isLt
  show (cfg1.win 9).cut (grid1.coords t) ((dat1 V c).after 9 t) = _
  rw [after1_9]
  funext y
  obtain ⟨p, q, rfl⟩ : ∃ (p : Fin 8) (q : Fin 256), y = ix2 p q := ⟨y 0, y 1, eq_ix2 y⟩
  have hr : 8 * (t.val / 16) + p.val < 16 := by have := p.isLt; omega
  have hemb : (((cfg1.win 9).blk t).view.emb (ix2 p q) : S16x256.Idx) = ix2 (⟨8 * (t.val / 16) + p.val, hr⟩ : Fin 16) q := by
    funext a
    apply Fin.ext
    match a with
    | ⟨0, _⟩ => show win1_9.index t (0 : Fin 2) * 8 + 1 * p.val = 8 * (t.val / 16) + p.val; rw [e0]; omega
    | ⟨1, _⟩ => show win1_9.index t (1 : Fin 2) * 256 + 1 * q.val = q.val; rw [e1]; omega
  rw [View.read_apply]
  show (outsAt1 V c t.val t.isLt).2.2.1 (ix2 p q) = G9 V c (((cfg1.win 9).blk t).view.emb (ix2 p q))
  rw [hemb, acc9 V c p q t.val t.isLt, h15]
  have hc : (8 * (t.val / 16) + p.val) / 8 = t.val / 16 := by have := p.isLt; omega
  show _ = ∑ s ∈ Finset.range 16, cs1 V c (16 * ((8 * (t.val / 16) + p.val) / 8) + s) q
  rw [hc]

/-- An index of the accumulator array is in point t's block iff its row is among the core's eight rows. -/
theorem mem_blk9 (t : Fin cfg1.N) (i : S16x256.Idx) :
    i ∈ ((cfg1.win 9).blk t).view.set ↔ ∀ a : Fin 2, win1_9.index t a * S8x256.size a ≤ (i a).val ∧ (i a).val < win1_9.index t a * S8x256.size a + S8x256.size a := by
  show i ∈ ((View.whole main_v29_2).slice (win1_9.rect t)).set ↔ _
  rw [View.set_slice_whole, Rect.mem_set_unit]
  exact Iff.rfl

/-- Row i belongs to core i / 8, whose last point 16·(i / 8) + 15 writes the block back. -/
theorem cover9 (i : S16x256.Idx) :
    ∃ t : Fin cfg1.N, (cfg1.win 9).flush t = true ∧ i ∈ ((cfg1.win 9).blk t).view.set := by
  have hi0 : (i 0).val < 16 := (i 0).isLt
  have hi1 : (i 1).val < 256 := (i 1).isLt
  have hN : cfg1.N = 32 := N_1
  obtain ⟨t, ht⟩ : ∃ t : Fin cfg1.N, t.val = 16 * ((i 0).val / 8) + 15 := ⟨⟨16 * ((i 0).val / 8) + 15, by rw [hN]; omega⟩, rfl⟩
  obtain ⟨e0, e1⟩ := idx9 t
  refine ⟨t, (flush1_9 t).mpr (by omega), ?_⟩
  rw [mem_blk9]
  intro a
  match a with
  | ⟨0, _⟩ => show win1_9.index t (0 : Fin 2) * 8 ≤ (i 0).val ∧ (i 0).val < win1_9.index t (0 : Fin 2) * 8 + 8; rw [e0]; omega
  | ⟨1, _⟩ => show win1_9.index t (1 : Fin 2) * 256 ≤ (i 1).val ∧ (i 1).val < win1_9.index t (1 : Fin 2) * 256 + 256; rw [e1]; omega

/-- The accumulator array after the launch. -/
theorem arr9G : ((dat1 V c).arrAt 9 cfg1.N : S16x256.Idx → EReal) = G9 V c :=
  (dat1 V c).arrAt_eq_of_cover 9 (G9 V c) (flushed9 V c) (cover9)

/-- What the second accumulator array ends holding: row i holds the column sums of squares over the sixteen points of core i / 8. -/
def G10 : S16x256.Idx → EReal :=
  fun i => ∑ s ∈ Finset.range 16, cs2 V c (16 * ((i 0).val / 8) + s) (i 1)

/-- The one write-back of a core, after its last point, writes the core's eight rows of that array. -/
theorem flushed10 (t : Fin cfg1.N) (hf : (cfg1.win 10).flush t = true) :
    (dat1 V c).flushed 10 t = ((cfg1.win 10).blk t).view.read (Elt Ideal) (G10 V c) := by
  have h15 : t.val % 16 + 1 = 16 := by
    have := (flush1_10 t).mp hf
    omega
  obtain ⟨e0, e1⟩ := idx10 t
  have hN : cfg1.N = 32 := N_1
  have ht : t.val < 32 := hN ▸ t.isLt
  show (cfg1.win 10).cut (grid1.coords t) ((dat1 V c).after 10 t) = _
  rw [after1_10]
  funext y
  obtain ⟨p, q, rfl⟩ : ∃ (p : Fin 8) (q : Fin 256), y = ix2 p q := ⟨y 0, y 1, eq_ix2 y⟩
  have hr : 8 * (t.val / 16) + p.val < 16 := by have := p.isLt; omega
  have hemb : (((cfg1.win 10).blk t).view.emb (ix2 p q) : S16x256.Idx) = ix2 (⟨8 * (t.val / 16) + p.val, hr⟩ : Fin 16) q := by
    funext a
    apply Fin.ext
    match a with
    | ⟨0, _⟩ => show win1_10.index t (0 : Fin 2) * 8 + 1 * p.val = 8 * (t.val / 16) + p.val; rw [e0]; omega
    | ⟨1, _⟩ => show win1_10.index t (1 : Fin 2) * 256 + 1 * q.val = q.val; rw [e1]; omega
  rw [View.read_apply]
  show (outsAt1 V c t.val t.isLt).2.2.2 (ix2 p q) = G10 V c (((cfg1.win 10).blk t).view.emb (ix2 p q))
  rw [hemb, acc10 V c p q t.val t.isLt, h15]
  have hc : (8 * (t.val / 16) + p.val) / 8 = t.val / 16 := by have := p.isLt; omega
  show _ = ∑ s ∈ Finset.range 16, cs2 V c (16 * ((8 * (t.val / 16) + p.val) / 8) + s) q
  rw [hc]

/-- An index of the accumulator array is in point t's block iff its row is among the core's eight rows. -/
theorem mem_blk10 (t : Fin cfg1.N) (i : S16x256.Idx) :
    i ∈ ((cfg1.win 10).blk t).view.set ↔ ∀ a : Fin 2, win1_10.index t a * S8x256.size a ≤ (i a).val ∧ (i a).val < win1_10.index t a * S8x256.size a + S8x256.size a := by
  show i ∈ ((View.whole main_v29_3).slice (win1_10.rect t)).set ↔ _
  rw [View.set_slice_whole, Rect.mem_set_unit]
  exact Iff.rfl

/-- Row i belongs to core i / 8, whose last point 16·(i / 8) + 15 writes the block back. -/
theorem cover10 (i : S16x256.Idx) :
    ∃ t : Fin cfg1.N, (cfg1.win 10).flush t = true ∧ i ∈ ((cfg1.win 10).blk t).view.set := by
  have hi0 : (i 0).val < 16 := (i 0).isLt
  have hi1 : (i 1).val < 256 := (i 1).isLt
  have hN : cfg1.N = 32 := N_1
  obtain ⟨t, ht⟩ : ∃ t : Fin cfg1.N, t.val = 16 * ((i 0).val / 8) + 15 := ⟨⟨16 * ((i 0).val / 8) + 15, by rw [hN]; omega⟩, rfl⟩
  obtain ⟨e0, e1⟩ := idx10 t
  refine ⟨t, (flush1_10 t).mpr (by omega), ?_⟩
  rw [mem_blk10]
  intro a
  match a with
  | ⟨0, _⟩ => show win1_10.index t (0 : Fin 2) * 8 ≤ (i 0).val ∧ (i 0).val < win1_10.index t (0 : Fin 2) * 8 + 8; rw [e0]; omega
  | ⟨1, _⟩ => show win1_10.index t (1 : Fin 2) * 256 ≤ (i 1).val ∧ (i 1).val < win1_10.index t (1 : Fin 2) * 256 + 256; rw [e1]; omega

/-- The accumulator array after the launch. -/
theorem arr10G : ((dat1 V c).arrAt 10 cfg1.N : S16x256.Idx → EReal) = G10 V c :=
  (dat1 V c).arrAt_eq_of_cover 10 (G10 V c) (flushed10 V c) (cover10)

/-- Rows 0 and 8 of that array, one per core, add up to the second result's column sums over all 65536 rows:
    sixteen blocks of 2048 rows per core, thirty-two in all. -/
theorem G9_rows (j : Fin 256) :
    G9 V c (ix2 (0 : Fin 16) j) + G9 V c (ix2 (8 : Fin 16) j) = ∑ r : Fin 65536, Z2 V c r j := by
  show (∑ s ∈ Finset.range 16, cs1 V c (16 * (0 / 8) + s) j) + (∑ s ∈ Finset.range 16, cs1 V c (16 * (8 / 8) + s) j) = _
  have e0 : ∀ s : ℕ, 16 * (0 / 8) + s = s := fun s => by omega
  have e1 : ∀ s : ℕ, 16 * (8 / 8) + s = 16 + s := fun s => by omega
  simp only [e0, e1]
  rw [← Finset.sum_range_add (fun s => cs1 V c s j) 16 16]
  exact Cert.Lib.sum_range_blocks_of_eq (nb := 32) (bs := 2048) (N := 65536) rfl (fun r => Z2 V c r j)
    (fun s => cs1 V c s j) (fun t ht => cs1_eq V c t ht j)

/-- Rows 0 and 8 of that array add up to the column sums of squares over all 65536 rows. -/
theorem G10_rows (j : Fin 256) :
    G10 V c (ix2 (0 : Fin 16) j) + G10 V c (ix2 (8 : Fin 16) j) = ∑ r : Fin 65536, Z2 V c r j * Z2 V c r j := by
  show (∑ s ∈ Finset.range 16, cs2 V c (16 * (0 / 8) + s) j) + (∑ s ∈ Finset.range 16, cs2 V c (16 * (8 / 8) + s) j) = _
  have e0 : ∀ s : ℕ, 16 * (0 / 8) + s = s := fun s => by omega
  have e1 : ∀ s : ℕ, 16 * (8 / 8) + s = 16 + s := fun s => by omega
  simp only [e0, e1]
  rw [← Finset.sum_range_add (fun s => cs2 V c s j) 16 16]
  exact Cert.Lib.sum_range_blocks_of_eq (nb := 32) (bs := 2048) (N := 65536) rfl (fun r => Z2 V c r j * Z2 V c r j)
    (fun s => cs2 V c s j) (fun t ht => cs2_eq V c t ht j)

/-- Rows 0 and 8 of the first accumulator array after the launch (the array read by row and column) add up to the
    second result's column sums over all 65536 rows. -/
theorem arr9 (j : Fin 256) :
    toMat (n := 16) (k := 256) ((dat1 V c).arrAt 9 cfg1.N) (0 : Fin 16) j
        + toMat (n := 16) (k := 256) ((dat1 V c).arrAt 9 cfg1.N) (8 : Fin 16) j
      = ∑ r : Fin 65536, Z2 V c r j := by
  rw [arr9G]
  exact G9_rows V c j

/-- Rows 0 and 8 of the second accumulator array after the launch add up to the column sums of squares. -/
theorem arr10 (j : Fin 256) :
    toMat (n := 16) (k := 256) ((dat1 V c).arrAt 10 cfg1.N) (0 : Fin 16) j
        + toMat (n := 16) (k := 256) ((dat1 V c).arrAt 10 cfg1.N) (8 : Fin 16) j
      = ∑ r : Fin 65536, Z2 V c r j * Z2 V c r j := by
  rw [arr10G]
  exact G10_rows V c j

end Cert.KernelIdeal.Reg1

end
-- ==== Proof.KReg2Cases.lean ====
/-
  What one run of the body of the third launch leaves in each output's staging buffer, as the payload terms of the
  blocks it reads. In both control cases the first tiled output holds the normalised and rectified block of the
  point's rows and the second the gated sum built on it; the two accumulators hold the column sums of that gated sum
  and of its squares, added to a zero block at the first point of a core and to the previous contents at the others.
  Stated for any float values and any whole staging memrefs.
-/
import proofs.«173010_j4303557230935_2_alg».proof.Proof.KernelIdealFrameP
import Idealize.ShloMosaic.Lib.Pipeline.Value
import Idealize.ShloMosaic.Lib.Tactic

noncomputable section

open Idealize.ShloMosaic Idealize.ShloMosaic.TcCoe Idealize.SL.Sem

namespace Cert.KernelIdeal.Reg2

open Cert.KernelIdeal Cert.KernelIdeal.Gen Cert.KernelIdeal.GenP

variable {F : FTy → Type} [FloatOps F]

/-- The zero offsets of a whole-buffer access, as the constant function. -/
theorem hz : (![0, 0] : Fin 2 → Nat) = fun _ => 0 := funext fun a => by fin_cases a <;> rfl

/-- At a core's first point the first tiled output holds the normalised, rectified block of the point's rows. -/
theorem out_A_16 (c : Dev nD) (i : grid2.Coords) (arg2 : Memref sig .tc .vmem S2048x256 .bf16) (harg2 : arg2.IsWhole) (arg3 : Memref sig .tc .vmem S2048x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S2048x256 .f32) (harg8 : arg8.IsWhole) (arg9 : Memref sig .tc .vmem S2048x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S256x256 .f32) (harg14 : arg14.IsWhole) (arg15 : Memref sig .tc .vmem S1x256 .f32) (harg15 : arg15.IsWhole) (arg16 : Memref sig .tc .vmem S256x256 .f32) (harg16 : arg16.IsWhole) (arg17 : Memref sig .tc .vmem S1x256 .f32) (harg17 : arg17.IsWhole) (arg18 : Memref sig .tc .vmem S2048x256 .f32) (harg18 : arg18.IsWhole) (arg19 : Memref sig .tc .vmem S2048x256 .f32) (harg19 : arg19.IsWhole) (arg20 : Memref sig .tc .vmem S8x256 .f32) (harg20 : arg20.IsWhole) (arg21 : Memref sig .tc .vmem S8x256 .f32) (harg21 : arg21.IsWhole) (hc0 : cond2_0 i)
    (x0 : Vec F S2048x256 .bf16) (x1 : Vec F S2048x256 .f32) (x2 : Vec F S1x256 .f32) (x3 : Vec F S1x256 .f32) (x4 : Vec F S1x256 .f32) (x5 : Vec F S1x256 .f32) (x6 : Vec F S2048x256 .f32) (x7 : Vec F S2048x256 .f32) (x8 : Vec F S256x256 .f32) (x9 : Vec F S1x256 .f32) (x10 : Vec F S256x256 .f32) (x11 : Vec F S1x256 .f32) (x12 : Vec F S256x256 .f32) (x13 : Vec F S1x256 .f32) (x14 : Vec F S256x256 .f32) (x15 : Vec F S1x256 .f32) :
    out2_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 = k2_pay5 x1 x3 x2 x4 x5 := by
  unfold out2_A_16
  rw [View.read_writes_eq_canon _ _ _ (cover2_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15)]
  unfold kernelRun2_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S2048x256) hz, View.ld_unit_zero (S := S1x256) hz, View.ld_unit_zero (S := S256x256) hz, View.ld_unit_zero (S := S8x256) hz]

/-- At a core's first point the second tiled output holds the gated sum of the point's rows. -/
theorem out_A_17 (c : Dev nD) (i : grid2.Coords) (arg2 : Memref sig .tc .vmem S2048x256 .bf16) (harg2 : arg2.IsWhole) (arg3 : Memref sig .tc .vmem S2048x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S2048x256 .f32) (harg8 : arg8.IsWhole) (arg9 : Memref sig .tc .vmem S2048x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S256x256 .f32) (harg14 : arg14.IsWhole) (arg15 : Memref sig .tc .vmem S1x256 .f32) (harg15 : arg15.IsWhole) (arg16 : Memref sig .tc .vmem S256x256 .f32) (harg16 : arg16.IsWhole) (arg17 : Memref sig .tc .vmem S1x256 .f32) (harg17 : arg17.IsWhole) (arg18 : Memref sig .tc .vmem S2048x256 .f32) (harg18 : arg18.IsWhole) (arg19 : Memref sig .tc .vmem S2048x256 .f32) (harg19 : arg19.IsWhole) (arg20 : Memref sig .tc .vmem S8x256 .f32) (harg20 : arg20.IsWhole) (arg21 : Memref sig .tc .vmem S8x256 .f32) (harg21 : arg21.IsWhole) (hc0 : cond2_0 i)
    (x0 : Vec F S2048x256 .bf16) (x1 : Vec F S2048x256 .f32) (x2 : Vec F S1x256 .f32) (x3 : Vec F S1x256 .f32) (x4 : Vec F S1x256 .f32) (x5 : Vec F S1x256 .f32) (x6 : Vec F S2048x256 .f32) (x7 : Vec F S2048x256 .f32) (x8 : Vec F S256x256 .f32) (x9 : Vec F S1x256 .f32) (x10 : Vec F S256x256 .f32) (x11 : Vec F S1x256 .f32) (x12 : Vec F S256x256 .f32) (x13 : Vec F S1x256 .f32) (x14 : Vec F S256x256 .f32) (x15 : Vec F S1x256 .f32) :
    out2_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 = k2_pay7 (k2_pay5 x1 x3 x2 x4 x5) (k2_pay6 x0) x6 x8 x9 x10 x11 x14 x15 x12 x13 x7 := by
  unfold out2_A_17
  rw [View.read_writes_eq_canon _ _ _ (cover2_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15)]
  unfold kernelRun2_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S2048x256) hz, View.ld_unit_zero (S := S1x256) hz, View.ld_unit_zero (S := S256x256) hz, View.ld_unit_zero (S := S8x256) hz]

/-- At a core's first point the first accumulator is zeroed and read back, and holds the zero block plus the column sums
    of the gated sum. -/
theorem out_A_18 (c : Dev nD) (i : grid2.Coords) (arg2 : Memref sig .tc .vmem S2048x256 .bf16) (harg2 : arg2.IsWhole) (arg3 : Memref sig .tc .vmem S2048x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S2048x256 .f32) (harg8 : arg8.IsWhole) (arg9 : Memref sig .tc .vmem S2048x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S256x256 .f32) (harg14 : arg14.IsWhole) (arg15 : Memref sig .tc .vmem S1x256 .f32) (harg15 : arg15.IsWhole) (arg16 : Memref sig .tc .vmem S256x256 .f32) (harg16 : arg16.IsWhole) (arg17 : Memref sig .tc .vmem S1x256 .f32) (harg17 : arg17.IsWhole) (arg18 : Memref sig .tc .vmem S2048x256 .f32) (harg18 : arg18.IsWhole) (arg19 : Memref sig .tc .vmem S2048x256 .f32) (harg19 : arg19.IsWhole) (arg20 : Memref sig .tc .vmem S8x256 .f32) (harg20 : arg20.IsWhole) (arg21 : Memref sig .tc .vmem S8x256 .f32) (harg21 : arg21.IsWhole) (hc0 : cond2_0 i)
    (x0 : Vec F S2048x256 .bf16) (x1 : Vec F S2048x256 .f32) (x2 : Vec F S1x256 .f32) (x3 : Vec F S1x256 .f32) (x4 : Vec F S1x256 .f32) (x5 : Vec F S1x256 .f32) (x6 : Vec F S2048x256 .f32) (x7 : Vec F S2048x256 .f32) (x8 : Vec F S256x256 .f32) (x9 : Vec F S1x256 .f32) (x10 : Vec F S256x256 .f32) (x11 : Vec F S1x256 .f32) (x12 : Vec F S256x256 .f32) (x13 : Vec F S1x256 .f32) (x14 : Vec F S256x256 .f32) (x15 : Vec F S1x256 .f32) :
    out2_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 = k2_pay1 (k2_pay7 (k2_pay5 x1 x3 x2 x4 x5) (k2_pay6 x0) x6 x8 x9 x10 x11 x14 x15 x12 x13 x7) (k2_pay3 (F := F)) := by
  unfold out2_A_18
  rw [View.read_writes_eq_canon _ _ _ (cover2_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15)]
  unfold kernelRun2_A
  dsimp only
  sl_unfold_words
  rw [View.canon_cons_unit_zero (S := S8x256) hz, View.readCov_unit_zero (S := S8x256) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S2048x256) hz, View.ld_unit_zero (S := S1x256) hz, View.ld_unit_zero (S := S256x256) hz, View.ld_unit_zero (S := S8x256) hz]

/-- At a core's first point the second accumulator is zeroed and read back, and holds the zero block plus the column sums
    of the squares. -/
theorem out_A_19 (c : Dev nD) (i : grid2.Coords) (arg2 : Memref sig .tc .vmem S2048x256 .bf16) (harg2 : arg2.IsWhole) (arg3 : Memref sig .tc .vmem S2048x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S2048x256 .f32) (harg8 : arg8.IsWhole) (arg9 : Memref sig .tc .vmem S2048x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S256x256 .f32) (harg14 : arg14.IsWhole) (arg15 : Memref sig .tc .vmem S1x256 .f32) (harg15 : arg15.IsWhole) (arg16 : Memref sig .tc .vmem S256x256 .f32) (harg16 : arg16.IsWhole) (arg17 : Memref sig .tc .vmem S1x256 .f32) (harg17 : arg17.IsWhole) (arg18 : Memref sig .tc .vmem S2048x256 .f32) (harg18 : arg18.IsWhole) (arg19 : Memref sig .tc .vmem S2048x256 .f32) (harg19 : arg19.IsWhole) (arg20 : Memref sig .tc .vmem S8x256 .f32) (harg20 : arg20.IsWhole) (arg21 : Memref sig .tc .vmem S8x256 .f32) (harg21 : arg21.IsWhole) (hc0 : cond2_0 i)
    (x0 : Vec F S2048x256 .bf16) (x1 : Vec F S2048x256 .f32) (x2 : Vec F S1x256 .f32) (x3 : Vec F S1x256 .f32) (x4 : Vec F S1x256 .f32) (x5 : Vec F S1x256 .f32) (x6 : Vec F S2048x256 .f32) (x7 : Vec F S2048x256 .f32) (x8 : Vec F S256x256 .f32) (x9 : Vec F S1x256 .f32) (x10 : Vec F S256x256 .f32) (x11 : Vec F S1x256 .f32) (x12 : Vec F S256x256 .f32) (x13 : Vec F S1x256 .f32) (x14 : Vec F S256x256 .f32) (x15 : Vec F S1x256 .f32) :
    out2_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 = k2_pay2 (k2_pay7 (k2_pay5 x1 x3 x2 x4 x5) (k2_pay6 x0) x6 x8 x9 x10 x11 x14 x15 x12 x13 x7) (k2_pay4 (F := F)) := by
  unfold out2_A_19
  rw [View.read_writes_eq_canon _ _ _ (cover2_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15)]
  unfold kernelRun2_A
  dsimp only
  sl_unfold_words
  rw [View.canon_cons_unit_zero (S := S8x256) hz, View.readCov_unit_zero (S := S8x256) _ hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, View.ld_unit_zero (S := S2048x256) hz, View.ld_unit_zero (S := S1x256) hz, View.ld_unit_zero (S := S256x256) hz, View.ld_unit_zero (S := S8x256) hz]

/-- At a later point the first tiled output holds the normalised, rectified block of the point's rows. -/
theorem out_B_16 (c : Dev nD) (i : grid2.Coords) (arg2 : Memref sig .tc .vmem S2048x256 .bf16) (harg2 : arg2.IsWhole) (arg3 : Memref sig .tc .vmem S2048x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S2048x256 .f32) (harg8 : arg8.IsWhole) (arg9 : Memref sig .tc .vmem S2048x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S256x256 .f32) (harg14 : arg14.IsWhole) (arg15 : Memref sig .tc .vmem S1x256 .f32) (harg15 : arg15.IsWhole) (arg16 : Memref sig .tc .vmem S256x256 .f32) (harg16 : arg16.IsWhole) (arg17 : Memref sig .tc .vmem S1x256 .f32) (harg17 : arg17.IsWhole) (arg18 : Memref sig .tc .vmem S2048x256 .f32) (harg18 : arg18.IsWhole) (arg19 : Memref sig .tc .vmem S2048x256 .f32) (harg19 : arg19.IsWhole) (arg20 : Memref sig .tc .vmem S8x256 .f32) (harg20 : arg20.IsWhole) (arg21 : Memref sig .tc .vmem S8x256 .f32) (harg21 : arg21.IsWhole) (hc0 : ¬cond2_0 i)
    (x0 : Vec F S2048x256 .bf16) (x1 : Vec F S2048x256 .f32) (x2 : Vec F S1x256 .f32) (x3 : Vec F S1x256 .f32) (x4 : Vec F S1x256 .f32) (x5 : Vec F S1x256 .f32) (x6 : Vec F S2048x256 .f32) (x7 : Vec F S2048x256 .f32) (x8 : Vec F S256x256 .f32) (x9 : Vec F S1x256 .f32) (x10 : Vec F S256x256 .f32) (x11 : Vec F S1x256 .f32) (x12 : Vec F S256x256 .f32) (x13 : Vec F S1x256 .f32) (x14 : Vec F S256x256 .f32) (x15 : Vec F S1x256 .f32) (xo18 : Vec F S8x256 .f32) (xo19 : Vec F S8x256 .f32) :
    out2_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xo18 xo19 = k2_pay5 x1 x3 x2 x4 x5 := by
  unfold out2_B_16
  rw [View.read_writes_eq_canon _ _ _ (cover2_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xo18 xo19)]
  unfold kernelRun2_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg20.read_unread, harg21.read_unread, View.ld_unit_zero (S := S2048x256) hz, View.ld_unit_zero (S := S1x256) hz, View.ld_unit_zero (S := S256x256) hz, View.ld_unit_zero (S := S8x256) hz]

/-- At a later point the second tiled output holds the gated sum of the point's rows. -/
theorem out_B_17 (c : Dev nD) (i : grid2.Coords) (arg2 : Memref sig .tc .vmem S2048x256 .bf16) (harg2 : arg2.IsWhole) (arg3 : Memref sig .tc .vmem S2048x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S2048x256 .f32) (harg8 : arg8.IsWhole) (arg9 : Memref sig .tc .vmem S2048x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S256x256 .f32) (harg14 : arg14.IsWhole) (arg15 : Memref sig .tc .vmem S1x256 .f32) (harg15 : arg15.IsWhole) (arg16 : Memref sig .tc .vmem S256x256 .f32) (harg16 : arg16.IsWhole) (arg17 : Memref sig .tc .vmem S1x256 .f32) (harg17 : arg17.IsWhole) (arg18 : Memref sig .tc .vmem S2048x256 .f32) (harg18 : arg18.IsWhole) (arg19 : Memref sig .tc .vmem S2048x256 .f32) (harg19 : arg19.IsWhole) (arg20 : Memref sig .tc .vmem S8x256 .f32) (harg20 : arg20.IsWhole) (arg21 : Memref sig .tc .vmem S8x256 .f32) (harg21 : arg21.IsWhole) (hc0 : ¬cond2_0 i)
    (x0 : Vec F S2048x256 .bf16) (x1 : Vec F S2048x256 .f32) (x2 : Vec F S1x256 .f32) (x3 : Vec F S1x256 .f32) (x4 : Vec F S1x256 .f32) (x5 : Vec F S1x256 .f32) (x6 : Vec F S2048x256 .f32) (x7 : Vec F S2048x256 .f32) (x8 : Vec F S256x256 .f32) (x9 : Vec F S1x256 .f32) (x10 : Vec F S256x256 .f32) (x11 : Vec F S1x256 .f32) (x12 : Vec F S256x256 .f32) (x13 : Vec F S1x256 .f32) (x14 : Vec F S256x256 .f32) (x15 : Vec F S1x256 .f32) (xo18 : Vec F S8x256 .f32) (xo19 : Vec F S8x256 .f32) :
    out2_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xo18 xo19 = k2_pay7 (k2_pay5 x1 x3 x2 x4 x5) (k2_pay6 x0) x6 x8 x9 x10 x11 x14 x15 x12 x13 x7 := by
  unfold out2_B_17
  rw [View.read_writes_eq_canon _ _ _ (cover2_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xo18 xo19)]
  unfold kernelRun2_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg20.read_unread, harg21.read_unread, View.ld_unit_zero (S := S2048x256) hz, View.ld_unit_zero (S := S1x256) hz, View.ld_unit_zero (S := S256x256) hz, View.ld_unit_zero (S := S8x256) hz]

/-- At a later point the first accumulator holds its previous contents plus the column sums of the gated sum. -/
theorem out_B_18 (c : Dev nD) (i : grid2.Coords) (arg2 : Memref sig .tc .vmem S2048x256 .bf16) (harg2 : arg2.IsWhole) (arg3 : Memref sig .tc .vmem S2048x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S2048x256 .f32) (harg8 : arg8.IsWhole) (arg9 : Memref sig .tc .vmem S2048x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S256x256 .f32) (harg14 : arg14.IsWhole) (arg15 : Memref sig .tc .vmem S1x256 .f32) (harg15 : arg15.IsWhole) (arg16 : Memref sig .tc .vmem S256x256 .f32) (harg16 : arg16.IsWhole) (arg17 : Memref sig .tc .vmem S1x256 .f32) (harg17 : arg17.IsWhole) (arg18 : Memref sig .tc .vmem S2048x256 .f32) (harg18 : arg18.IsWhole) (arg19 : Memref sig .tc .vmem S2048x256 .f32) (harg19 : arg19.IsWhole) (arg20 : Memref sig .tc .vmem S8x256 .f32) (harg20 : arg20.IsWhole) (arg21 : Memref sig .tc .vmem S8x256 .f32) (harg21 : arg21.IsWhole) (hc0 : ¬cond2_0 i)
    (x0 : Vec F S2048x256 .bf16) (x1 : Vec F S2048x256 .f32) (x2 : Vec F S1x256 .f32) (x3 : Vec F S1x256 .f32) (x4 : Vec F S1x256 .f32) (x5 : Vec F S1x256 .f32) (x6 : Vec F S2048x256 .f32) (x7 : Vec F S2048x256 .f32) (x8 : Vec F S256x256 .f32) (x9 : Vec F S1x256 .f32) (x10 : Vec F S256x256 .f32) (x11 : Vec F S1x256 .f32) (x12 : Vec F S256x256 .f32) (x13 : Vec F S1x256 .f32) (x14 : Vec F S256x256 .f32) (x15 : Vec F S1x256 .f32) (xo18 : Vec F S8x256 .f32) (xo19 : Vec F S8x256 .f32) :
    out2_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xo18 xo19 = k2_pay1 (k2_pay7 (k2_pay5 x1 x3 x2 x4 x5) (k2_pay6 x0) x6 x8 x9 x10 x11 x14 x15 x12 x13 x7) xo18 := by
  unfold out2_B_18
  rw [View.read_writes_eq_canon _ _ _ (cover2_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xo18 xo19)]
  unfold kernelRun2_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg20.read_unread, harg21.read_unread, View.ld_unit_zero (S := S2048x256) hz, View.ld_unit_zero (S := S1x256) hz, View.ld_unit_zero (S := S256x256) hz, View.ld_unit_zero (S := S8x256) hz]

/-- At a later point the second accumulator holds its previous contents plus the column sums of the squares. -/
theorem out_B_19 (c : Dev nD) (i : grid2.Coords) (arg2 : Memref sig .tc .vmem S2048x256 .bf16) (harg2 : arg2.IsWhole) (arg3 : Memref sig .tc .vmem S2048x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256 .f32) (harg6 : arg6.IsWhole) (arg7 : Memref sig .tc .vmem S1x256 .f32) (harg7 : arg7.IsWhole) (arg8 : Memref sig .tc .vmem S2048x256 .f32) (harg8 : arg8.IsWhole) (arg9 : Memref sig .tc .vmem S2048x256 .f32) (harg9 : arg9.IsWhole) (arg10 : Memref sig .tc .vmem S256x256 .f32) (harg10 : arg10.IsWhole) (arg11 : Memref sig .tc .vmem S1x256 .f32) (harg11 : arg11.IsWhole) (arg12 : Memref sig .tc .vmem S256x256 .f32) (harg12 : arg12.IsWhole) (arg13 : Memref sig .tc .vmem S1x256 .f32) (harg13 : arg13.IsWhole) (arg14 : Memref sig .tc .vmem S256x256 .f32) (harg14 : arg14.IsWhole) (arg15 : Memref sig .tc .vmem S1x256 .f32) (harg15 : arg15.IsWhole) (arg16 : Memref sig .tc .vmem S256x256 .f32) (harg16 : arg16.IsWhole) (arg17 : Memref sig .tc .vmem S1x256 .f32) (harg17 : arg17.IsWhole) (arg18 : Memref sig .tc .vmem S2048x256 .f32) (harg18 : arg18.IsWhole) (arg19 : Memref sig .tc .vmem S2048x256 .f32) (harg19 : arg19.IsWhole) (arg20 : Memref sig .tc .vmem S8x256 .f32) (harg20 : arg20.IsWhole) (arg21 : Memref sig .tc .vmem S8x256 .f32) (harg21 : arg21.IsWhole) (hc0 : ¬cond2_0 i)
    (x0 : Vec F S2048x256 .bf16) (x1 : Vec F S2048x256 .f32) (x2 : Vec F S1x256 .f32) (x3 : Vec F S1x256 .f32) (x4 : Vec F S1x256 .f32) (x5 : Vec F S1x256 .f32) (x6 : Vec F S2048x256 .f32) (x7 : Vec F S2048x256 .f32) (x8 : Vec F S256x256 .f32) (x9 : Vec F S1x256 .f32) (x10 : Vec F S256x256 .f32) (x11 : Vec F S1x256 .f32) (x12 : Vec F S256x256 .f32) (x13 : Vec F S1x256 .f32) (x14 : Vec F S256x256 .f32) (x15 : Vec F S1x256 .f32) (xo18 : Vec F S8x256 .f32) (xo19 : Vec F S8x256 .f32) :
    out2_B_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xo18 xo19 = k2_pay2 (k2_pay7 (k2_pay5 x1 x3 x2 x4 x5) (k2_pay6 x0) x6 x8 x9 x10 x11 x14 x15 x12 x13 x7) xo19 := by
  unfold out2_B_19
  rw [View.read_writes_eq_canon _ _ _ (cover2_B_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xo18 xo19)]
  unfold kernelRun2_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg20.read_unread, harg21.read_unread, View.ld_unit_zero (S := S2048x256) hz, View.ld_unit_zero (S := S1x256) hz, View.ld_unit_zero (S := S256x256) hz, View.ld_unit_zero (S := S8x256) hz]

end Cert.KernelIdeal.Reg2

end
-- ==== Proof.KReg2Blocks.lean ====
/-
  The windows of the third launch, read at an index. The grid has 2 · 16 = 32 points; point t works on rows
  2048·t … 2048·t + 2047 of every tiled [65536, 256] array, on the whole of every small operand, and on rows
  8·(t / 16) … 8·(t / 16) + 7 of the two [16, 256] accumulator arrays. A block read through its window is the array
  read at those rows; what a window writes back is the whole of its staging buffer; and the blocks written back
  cover their arrays: row r of a tiled output lies in the block of point r / 2048, row r of an accumulator in the block
  of the last point of core r / 8.
-/
import proofs.«173010_j4303557230935_2_alg».proof.Proof.Gen.KernelIdeal.Launch
import proofs.«173010_j4303557230935_2_alg».proof.Proof.Gen.KernelIdeal.Points
import Idealize.ShloMosaic.PureOps.Ideal
import Idealize.ShloMosaic.Lib.ValueIdx
import Idealize.ShloMosaic.Lib.Pipeline.Value
import Idealize.ShloMosaic.Lib.Tactic

noncomputable section

open Idealize.ShloMosaic Idealize.ShloMosaic.TcCoe Idealize.SL.Sem Idealize.ShloMosaic.ValueIdx

namespace Cert.KernelIdeal.Reg2

open Cert.KernelIdeal Cert.KernelIdeal.Gen

/-- The grid has 32 points. -/
theorem N32 : cfg2.N = 32 := N_2

/-- Row y of the block of point t, in a [65536, 256] array. -/
def rowOf (t : Fin cfg2.N) (y : Fin 2048) : Fin 65536 :=
  ⟨2048 * t.val + y.val, by have h := t.isLt; have hN : cfg2.N = 32 := N_2; omega⟩

theorem rowOf_val (t : Fin cfg2.N) (y : Fin 2048) : (rowOf t y).val = 2048 * t.val + y.val := rfl

/-- Row i of the accumulator block of point t, in a [16, 256] array: the block of the point's core. -/
def accRow (t : Fin cfg2.N) (i : Fin 8) : Fin 16 :=
  ⟨8 * (t.val / 16) + i.val, by have h := t.isLt; have hN : cfg2.N = 32 := N_2; omega⟩

theorem accRow_val (t : Fin cfg2.N) (i : Fin 8) : (accRow t i).val = 8 * (t.val / 16) + i.val := rfl

/-- Two functions of a rank-2 index agree once they agree at every pair of coordinates. -/
theorem funext_ix2 {n0 n1 : ℕ} {α : Type} (f g : (⟨2, ![n0, n1]⟩ : Shape).Idx → α)
    (h : ∀ (a : Fin n0) (b : Fin n1), f (ix2 a b) = g (ix2 a b)) : f = g :=
  funext fun i => (congrArg f (eq_ix2 i)).trans ((h (i 0) (i 1)).trans (congrArg g (eq_ix2 i)).symm)

/-! ## The index maps, decided over the grid -/

theorem idx0 : ∀ t : Fin cfg2.N, win2_0.index t (0 : Fin 2) = t.val ∧ win2_0.index t (1 : Fin 2) = 0 :=
  (by decide +kernel : ∀ t : Fin grid2.N, win2_0.index t (0 : Fin 2) = t.val ∧ win2_0.index t (1 : Fin 2) = 0)
theorem idx1 : ∀ t : Fin cfg2.N, win2_1.index t (0 : Fin 2) = t.val ∧ win2_1.index t (1 : Fin 2) = 0 :=
  (by decide +kernel : ∀ t : Fin grid2.N, win2_1.index t (0 : Fin 2) = t.val ∧ win2_1.index t (1 : Fin 2) = 0)
theorem idx6 : ∀ t : Fin cfg2.N, win2_6.index t (0 : Fin 2) = t.val ∧ win2_6.index t (1 : Fin 2) = 0 :=
  (by decide +kernel : ∀ t : Fin grid2.N, win2_6.index t (0 : Fin 2) = t.val ∧ win2_6.index t (1 : Fin 2) = 0)
theorem idx7 : ∀ t : Fin cfg2.N, win2_7.index t (0 : Fin 2) = t.val ∧ win2_7.index t (1 : Fin 2) = 0 :=
  (by decide +kernel : ∀ t : Fin grid2.N, win2_7.index t (0 : Fin 2) = t.val ∧ win2_7.index t (1 : Fin 2) = 0)
theorem idx16 : ∀ t : Fin cfg2.N, win2_16.index t (0 : Fin 2) = t.val ∧ win2_16.index t (1 : Fin 2) = 0 :=
  (by decide +kernel : ∀ t : Fin grid2.N, win2_16.index t (0 : Fin 2) = t.val ∧ win2_16.index t (1 : Fin 2) = 0)
theorem idx17 : ∀ t : Fin cfg2.N, win2_17.index t (0 : Fin 2) = t.val ∧ win2_17.index t (1 : Fin 2) = 0 :=
  (by decide +kernel : ∀ t : Fin grid2.N, win2_17.index t (0 : Fin 2) = t.val ∧ win2_17.index t (1 : Fin 2) = 0)
theorem idx2 : ∀ t : Fin cfg2.N, win2_2.index t (0 : Fin 2) = 0 ∧ win2_2.index t (1 : Fin 2) = 0 :=
  (by decide +kernel : ∀ t : Fin grid2.N, win2_2.index t (0 : Fin 2) = 0 ∧ win2_2.index t (1 : Fin 2) = 0)
theorem idx3 : ∀ t : Fin cfg2.N, win2_3.index t (0 : Fin 2) = 0 ∧ win2_3.index t (1 : Fin 2) = 0 :=
  (by decide +kernel : ∀ t : Fin grid2.N, win2_3.index t (0 : Fin 2) = 0 ∧ win2_3.index t (1 : Fin 2) = 0)
theorem idx4 : ∀ t : Fin cfg2.N, win2_4.index t (0 : Fin 2) = 0 ∧ win2_4.index t (1 : Fin 2) = 0 :=
  (by decide +kernel : ∀ t : Fin grid2.N, win2_4.index t (0 : Fin 2) = 0 ∧ win2_4.index t (1 : Fin 2) = 0)
theorem idx5 : ∀ t : Fin cfg2.N, win2_5.index t (0 : Fin 2) = 0 ∧ win2_5.index t (1 : Fin 2) = 0 :=
  (by decide +kernel : ∀ t : Fin grid2.N, win2_5.index t (0 : Fin 2) = 0 ∧ win2_5.index t (1 : Fin 2) = 0)
theorem idx8 : ∀ t : Fin cfg2.N, win2_8.index t (0 : Fin 2) = 0 ∧ win2_8.index t (1 : Fin 2) = 0 :=
  (by decide +kernel : ∀ t : Fin grid2.N, win2_8.index t (0 : Fin 2) = 0 ∧ win2_8.index t (1 : Fin 2) = 0)
theorem idx9 : ∀ t : Fin cfg2.N, win2_9.index t (0 : Fin 2) = 0 ∧ win2_9.index t (1 : Fin 2) = 0 :=
  (by decide +kernel : ∀ t : Fin grid2.N, win2_9.index t (0 : Fin 2) = 0 ∧ win2_9.index t (1 : Fin 2) = 0)
theorem idx10 : ∀ t : Fin cfg2.N, win2_10.index t (0 : Fin 2) = 0 ∧ win2_10.index t (1 : Fin 2) = 0 :=
  (by decide +kernel : ∀ t : Fin grid2.N, win2_10.index t (0 : Fin 2) = 0 ∧ win2_10.index t (1 : Fin 2) = 0)
theorem idx11 : ∀ t : Fin cfg2.N, win2_11.index t (0 : Fin 2) = 0 ∧ win2_11.index t (1 : Fin 2) = 0 :=
  (by decide +kernel : ∀ t : Fin grid2.N, win2_11.index t (0 : Fin 2) = 0 ∧ win2_11.index t (1 : Fin 2) = 0)
theorem idx12 : ∀ t : Fin cfg2.N, win2_12.index t (0 : Fin 2) = 0 ∧ win2_12.index t (1 : Fin 2) = 0 :=
  (by decide +kernel : ∀ t : Fin grid2.N, win2_12.index t (0 : Fin 2) = 0 ∧ win2_12.index t (1 : Fin 2) = 0)
theorem idx13 : ∀ t : Fin cfg2.N, win2_13.index t (0 : Fin 2) = 0 ∧ win2_13.index t (1 : Fin 2) = 0 :=
  (by decide +kernel : ∀ t : Fin grid2.N, win2_13.index t (0 : Fin 2) = 0 ∧ win2_13.index t (1 : Fin 2) = 0)
theorem idx14 : ∀ t : Fin cfg2.N, win2_14.index t (0 : Fin 2) = 0 ∧ win2_14.index t (1 : Fin 2) = 0 :=
  (by decide +kernel : ∀ t : Fin grid2.N, win2_14.index t (0 : Fin 2) = 0 ∧ win2_14.index t (1 : Fin 2) = 0)
theorem idx15 : ∀ t : Fin cfg2.N, win2_15.index t (0 : Fin 2) = 0 ∧ win2_15.index t (1 : Fin 2) = 0 :=
  (by decide +kernel : ∀ t : Fin grid2.N, win2_15.index t (0 : Fin 2) = 0 ∧ win2_15.index t (1 : Fin 2) = 0)
theorem idx18 : ∀ t : Fin cfg2.N, win2_18.index t (0 : Fin 2) = t.val / 16 ∧ win2_18.index t (1 : Fin 2) = 0 :=
  (by decide +kernel : ∀ t : Fin grid2.N, win2_18.index t (0 : Fin 2) = t.val / 16 ∧ win2_18.index t (1 : Fin 2) = 0)
theorem idx19 : ∀ t : Fin cfg2.N, win2_19.index t (0 : Fin 2) = t.val / 16 ∧ win2_19.index t (1 : Fin 2) = 0 :=
  (by decide +kernel : ∀ t : Fin grid2.N, win2_19.index t (0 : Fin 2) = t.val / 16 ∧ win2_19.index t (1 : Fin 2) = 0)

/-! ## A block read through its window is the array read at the block's rows -/

/-- Window 0: a tiled block. -/
theorem blk_read_0 (G : S65536x256.Idx → Elt Ideal .bf16) (t : Fin cfg2.N) (y : Fin 2048) (j : Fin 256) :
    (((cfg2.win 0).blk t).view.read (Elt Ideal) G : S2048x256.Idx → Elt Ideal .bf16) (ix2 y j) = G (ix2 (rowOf t y) j) := by
  obtain ⟨e0, e1⟩ := idx0 t
  rw [View.read_apply]
  show G _ = G _
  congr 1
  funext a
  apply Fin.ext
  match a with
  | ⟨0, _⟩ => show win2_0.index t (0 : Fin 2) * 2048 + 1 * y.val = 2048 * t.val + y.val; rw [e0]; omega
  | ⟨1, _⟩ => show win2_0.index t (1 : Fin 2) * 256 + 1 * j.val = j.val; rw [e1]; omega

/-- Window 1: a tiled block. -/
theorem blk_read_1 (G : S65536x256.Idx → EReal) (t : Fin cfg2.N) (y : Fin 2048) (j : Fin 256) :
    (((cfg2.win 1).blk t).view.read (Elt Ideal) G : S2048x256.Idx → EReal) (ix2 y j) = G (ix2 (rowOf t y) j) := by
  obtain ⟨e0, e1⟩ := idx1 t
  rw [View.read_apply]
  show G _ = G _
  congr 1
  funext a
  apply Fin.ext
  match a with
  | ⟨0, _⟩ => show win2_1.index t (0 : Fin 2) * 2048 + 1 * y.val = 2048 * t.val + y.val; rw [e0]; omega
  | ⟨1, _⟩ => show win2_1.index t (1 : Fin 2) * 256 + 1 * j.val = j.val; rw [e1]; omega

/-- Window 6: a tiled block. -/
theorem blk_read_6 (G : S65536x256.Idx → EReal) (t : Fin cfg2.N) (y : Fin 2048) (j : Fin 256) :
    (((cfg2.win 6).blk t).view.read (Elt Ideal) G : S2048x256.Idx → EReal) (ix2 y j) = G (ix2 (rowOf t y) j) := by
  obtain ⟨e0, e1⟩ := idx6 t
  rw [View.read_apply]
  show G _ = G _
  congr 1
  funext a
  apply Fin.ext
  match a with
  | ⟨0, _⟩ => show win2_6.index t (0 : Fin 2) * 2048 + 1 * y.val = 2048 * t.val + y.val; rw [e0]; omega
  | ⟨1, _⟩ => show win2_6.index t (1 : Fin 2) * 256 + 1 * j.val = j.val; rw [e1]; omega

/-- Window 7: a tiled block. -/
theorem blk_read_7 (G : S65536x256.Idx → EReal) (t : Fin cfg2.N) (y : Fin 2048) (j : Fin 256) :
    (((cfg2.win 7).blk t).view.read (Elt Ideal) G : S2048x256.Idx → EReal) (ix2 y j) = G (ix2 (rowOf t y) j) := by
  obtain ⟨e0, e1⟩ := idx7 t
  rw [View.read_apply]
  show G _ = G _
  congr 1
  funext a
  apply Fin.ext
  match a with
  | ⟨0, _⟩ => show win2_7.index t (0 : Fin 2) * 2048 + 1 * y.val = 2048 * t.val + y.val; rw [e0]; omega
  | ⟨1, _⟩ => show win2_7.index t (1 : Fin 2) * 256 + 1 * j.val = j.val; rw [e1]; omega

/-- Window 16: a tiled block. -/
theorem blk_read_16 (G : S65536x256.Idx → EReal) (t : Fin cfg2.N) (y : Fin 2048) (j : Fin 256) :
    (((cfg2.win 16).blk t).view.read (Elt Ideal) G : S2048x256.Idx → EReal) (ix2 y j) = G (ix2 (rowOf t y) j) := by
  obtain ⟨e0, e1⟩ := idx16 t
  rw [View.read_apply]
  show G _ = G _
  congr 1
  funext a
  apply Fin.ext
  match a with
  | ⟨0, _⟩ => show win2_16.index t (0 : Fin 2) * 2048 + 1 * y.val = 2048 * t.val + y.val; rw [e0]; omega
  | ⟨1, _⟩ => show win2_16.index t (1 : Fin 2) * 256 + 1 * j.val = j.val; rw [e1]; omega

/-- Window 17: a tiled block. -/
theorem blk_read_17 (G : S65536x256.Idx → EReal) (t : Fin cfg2.N) (y : Fin 2048) (j : Fin 256) :
    (((cfg2.win 17).blk t).view.read (Elt Ideal) G : S2048x256.Idx → EReal) (ix2 y j) = G (ix2 (rowOf t y) j) := by
  obtain ⟨e0, e1⟩ := idx17 t
  rw [View.read_apply]
  show G _ = G _
  congr 1
  funext a
  apply Fin.ext
  match a with
  | ⟨0, _⟩ => show win2_17.index t (0 : Fin 2) * 2048 + 1 * y.val = 2048 * t.val + y.val; rw [e0]; omega
  | ⟨1, _⟩ => show win2_17.index t (1 : Fin 2) * 256 + 1 * j.val = j.val; rw [e1]; omega

/-- Window 2: the whole operand at every point. -/
theorem blk_read_2 (G : S1x256.Idx → EReal) (t : Fin cfg2.N) :
    (((cfg2.win 2).blk t).view.read (Elt Ideal) G : S1x256.Idx → EReal) = G := by
  obtain ⟨e0, e1⟩ := idx2 t
  refine funext_ix2 (n0 := 1) (n1 := 256) _ _ (fun y j => ?_)
  rw [View.read_apply]
  show G _ = G _
  congr 1
  funext a
  apply Fin.ext
  match a with
  | ⟨0, _⟩ => show win2_2.index t (0 : Fin 2) * 1 + 1 * y.val = y.val; rw [e0]; omega
  | ⟨1, _⟩ => show win2_2.index t (1 : Fin 2) * 256 + 1 * j.val = j.val; rw [e1]; omega

/-- Window 3: the whole operand at every point. -/
theorem blk_read_3 (G : S1x256.Idx → EReal) (t : Fin cfg2.N) :
    (((cfg2.win 3).blk t).view.read (Elt Ideal) G : S1x256.Idx → EReal) = G := by
  obtain ⟨e0, e1⟩ := idx3 t
  refine funext_ix2 (n0 := 1) (n1 := 256) _ _ (fun y j => ?_)
  rw [View.read_apply]
  show G _ = G _
  congr 1
  funext a
  apply Fin.ext
  match a with
  | ⟨0, _⟩ => show win2_3.index t (0 : Fin 2) * 1 + 1 * y.val = y.val; rw [e0]; omega
  | ⟨1, _⟩ => show win2_3.index t (1 : Fin 2) * 256 + 1 * j.val = j.val; rw [e1]; omega

/-- Window 4: the whole operand at every point. -/
theorem blk_read_4 (G : S1x256.Idx → EReal) (t : Fin cfg2.N) :
    (((cfg2.win 4).blk t).view.read (Elt Ideal) G : S1x256.Idx → EReal) = G := by
  obtain ⟨e0, e1⟩ := idx4 t
  refine funext_ix2 (n0 := 1) (n1 := 256) _ _ (fun y j => ?_)
  rw [View.read_apply]
  show G _ = G _
  congr 1
  funext a
  apply Fin.ext
  match a with
  | ⟨0, _⟩ => show win2_4.index t (0 : Fin 2) * 1 + 1 * y.val = y.val; rw [e0]; omega
  | ⟨1, _⟩ => show win2_4.index t (1 : Fin 2) * 256 + 1 * j.val = j.val; rw [e1]; omega

/-- Window 5: the whole operand at every point. -/
theorem blk_read_5 (G : S1x256.Idx → EReal) (t : Fin cfg2.N) :
    (((cfg2.win 5).blk t).view.read (Elt Ideal) G : S1x256.Idx → EReal) = G := by
  obtain ⟨e0, e1⟩ := idx5 t
  refine funext_ix2 (n0 := 1) (n1 := 256) _ _ (fun y j => ?_)
  rw [View.read_apply]
  show G _ = G _
  congr 1
  funext a
  apply Fin.ext
  match a with
  | ⟨0, _⟩ => show win2_5.index t (0 : Fin 2) * 1 + 1 * y.val = y.val; rw [e0]; omega
  | ⟨1, _⟩ => show win2_5.index t (1 : Fin 2) * 256 + 1 * j.val = j.val; rw [e1]; omega

/-- Window 8: the whole operand at every point. -/
theorem blk_read_8 (G : S256x256.Idx → EReal) (t : Fin cfg2.N) :
    (((cfg2.win 8).blk t).view.read (Elt Ideal) G : S256x256.Idx → EReal) = G := by
  obtain ⟨e0, e1⟩ := idx8 t
  refine funext_ix2 (n0 := 256) (n1 := 256) _ _ (fun y j => ?_)
  rw [View.read_apply]
  show G _ = G _
  congr 1
  funext a
  apply Fin.ext
  match a with
  | ⟨0, _⟩ => show win2_8.index t (0 : Fin 2) * 256 + 1 * y.val = y.val; rw [e0]; omega
  | ⟨1, _⟩ => show win2_8.index t (1 : Fin 2) * 256 + 1 * j.val = j.val; rw [e1]; omega

/-- Window 9: the whole operand at every point. -/
theorem blk_read_9 (G : S1x256.Idx → EReal) (t : Fin cfg2.N) :
    (((cfg2.win 9).blk t).view.read (Elt Ideal) G : S1x256.Idx → EReal) = G := by
  obtain ⟨e0, e1⟩ := idx9 t
  refine funext_ix2 (n0 := 1) (n1 := 256) _ _ (fun y j => ?_)
  rw [View.read_apply]
  show G _ = G _
  congr 1
  funext a
  apply Fin.ext
  match a with
  | ⟨0, _⟩ => show win2_9.index t (0 : Fin 2) * 1 + 1 * y.val = y.val; rw [e0]; omega
  | ⟨1, _⟩ => show win2_9.index t (1 : Fin 2) * 256 + 1 * j.val = j.val; rw [e1]; omega

/-- Window 10: the whole operand at every point. -/
theorem blk_read_10 (G : S256x256.Idx → EReal) (t : Fin cfg2.N) :
    (((cfg2.win 10).blk t).view.read (Elt Ideal) G : S256x256.Idx → EReal) = G := by
  obtain ⟨e0, e1⟩ := idx10 t
  refine funext_ix2 (n0 := 256) (n1 := 256) _ _ (fun y j => ?_)
  rw [View.read_apply]
  show G _ = G _
  congr 1
  funext a
  apply Fin.ext
  match a with
  | ⟨0, _⟩ => show win2_10.index t (0 : Fin 2) * 256 + 1 * y.val = y.val; rw [e0]; omega
  | ⟨1, _⟩ => show win2_10.index t (1 : Fin 2) * 256 + 1 * j.val = j.val; rw [e1]; omega

/-- Window 11: the whole operand at every point. -/
theorem blk_read_11 (G : S1x256.Idx → EReal) (t : Fin cfg2.N) :
    (((cfg2.win 11).blk t).view.read (Elt Ideal) G : S1x256.Idx → EReal) = G := by
  obtain ⟨e0, e1⟩ := idx11 t
  refine funext_ix2 (n0 := 1) (n1 := 256) _ _ (fun y j => ?_)
  rw [View.read_apply]
  show G _ = G _
  congr 1
  funext a
  apply Fin.ext
  match a with
  | ⟨0, _⟩ => show win2_11.index t (0 : Fin 2) * 1 + 1 * y.val = y.val; rw [e0]; omega
  | ⟨1, _⟩ => show win2_11.index t (1 : Fin 2) * 256 + 1 * j.val = j.val; rw [e1]; omega

/-- Window 12: the whole operand at every point. -/
theorem blk_read_12 (G : S256x256.Idx → EReal) (t : Fin cfg2.N) :
    (((cfg2.win 12).blk t).view.read (Elt Ideal) G : S256x256.Idx → EReal) = G := by
  obtain ⟨e0, e1⟩ := idx12 t
  refine funext_ix2 (n0 := 256) (n1 := 256) _ _ (fun y j => ?_)
  rw [View.read_apply]
  show G _ = G _
  congr 1
  funext a
  apply Fin.ext
  match a with
  | ⟨0, _⟩ => show win2_12.index t (0 : Fin 2) * 256 + 1 * y.val = y.val; rw [e0]; omega
  | ⟨1, _⟩ => show win2_12.index t (1 : Fin 2) * 256 + 1 * j.val = j.val; rw [e1]; omega

/-- Window 13: the whole operand at every point. -/
theorem blk_read_13 (G : S1x256.Idx → EReal) (t : Fin cfg2.N) :
    (((cfg2.win 13).blk t).view.read (Elt Ideal) G : S1x256.Idx → EReal) = G := by
  obtain ⟨e0, e1⟩ := idx13 t
  refine funext_ix2 (n0 := 1) (n1 := 256) _ _ (fun y j => ?_)
  rw [View.read_apply]
  show G _ = G _
  congr 1
  funext a
  apply Fin.ext
  match a with
  | ⟨0, _⟩ => show win2_13.index t (0 : Fin 2) * 1 + 1 * y.val = y.val; rw [e0]; omega
  | ⟨1, _⟩ => show win2_13.index t (1 : Fin 2) * 256 + 1 * j.val = j.val; rw [e1]; omega

/-- Window 14: the whole operand at every point. -/
theorem blk_read_14 (G : S256x256.Idx → EReal) (t : Fin cfg2.N) :
    (((cfg2.win 14).blk t).view.read (Elt Ideal) G : S256x256.Idx → EReal) = G := by
  obtain ⟨e0, e1⟩ := idx14 t
  refine funext_ix2 (n0 := 256) (n1 := 256) _ _ (fun y j => ?_)
  rw [View.read_apply]
  show G _ = G _
  congr 1
  funext a
  apply Fin.ext
  match a with
  | ⟨0, _⟩ => show win2_14.index t (0 : Fin 2) * 256 + 1 * y.val = y.val; rw [e0]; omega
  | ⟨1, _⟩ => show win2_14.index t (1 : Fin 2) * 256 + 1 * j.val = j.val; rw [e1]; omega

/-- Window 15: the whole operand at every point. -/
theorem blk_read_15 (G : S1x256.Idx → EReal) (t : Fin cfg2.N) :
    (((cfg2.win 15).blk t).view.read (Elt Ideal) G : S1x256.Idx → EReal) = G := by
  obtain ⟨e0, e1⟩ := idx15 t
  refine funext_ix2 (n0 := 1) (n1 := 256) _ _ (fun y j => ?_)
  rw [View.read_apply]
  show G _ = G _
  congr 1
  funext a
  apply Fin.ext
  match a with
  | ⟨0, _⟩ => show win2_15.index t (0 : Fin 2) * 1 + 1 * y.val = y.val; rw [e0]; omega
  | ⟨1, _⟩ => show win2_15.index t (1 : Fin 2) * 256 + 1 * j.val = j.val; rw [e1]; omega

/-- Window 18: the accumulator block of the point's core. -/
theorem blk_read_18 (G : S16x256.Idx → EReal) (t : Fin cfg2.N) (i : Fin 8) (j : Fin 256) :
    (((cfg2.win 18).blk t).view.read (Elt Ideal) G : S8x256.Idx → EReal) (ix2 i j) = G (ix2 (accRow t i) j) := by
  obtain ⟨e0, e1⟩ := idx18 t
  rw [View.read_apply]
  show G _ = G _
  congr 1
  funext a
  apply Fin.ext
  match a with
  | ⟨0, _⟩ => show win2_18.index t (0 : Fin 2) * 8 + 1 * i.val = 8 * (t.val / 16) + i.val; rw [e0]; omega
  | ⟨1, _⟩ => show win2_18.index t (1 : Fin 2) * 256 + 1 * j.val = j.val; rw [e1]; omega

/-- Window 19: the accumulator block of the point's core. -/
theorem blk_read_19 (G : S16x256.Idx → EReal) (t : Fin cfg2.N) (i : Fin 8) (j : Fin 256) :
    (((cfg2.win 19).blk t).view.read (Elt Ideal) G : S8x256.Idx → EReal) (ix2 i j) = G (ix2 (accRow t i) j) := by
  obtain ⟨e0, e1⟩ := idx19 t
  rw [View.read_apply]
  show G _ = G _
  congr 1
  funext a
  apply Fin.ext
  match a with
  | ⟨0, _⟩ => show win2_19.index t (0 : Fin 2) * 8 + 1 * i.val = 8 * (t.val / 16) + i.val; rw [e0]; omega
  | ⟨1, _⟩ => show win2_19.index t (1 : Fin 2) * 256 + 1 * j.val = j.val; rw [e1]; omega

/-! ## What a write-back moves is the whole staging buffer (no block is cut at the array's end) -/

theorem cut_16 (t : Fin cfg2.N) (X : S2048x256.Idx → EReal) : (cfg2.win 16).cut (grid2.coords t) X = X := rfl
theorem cut_17 (t : Fin cfg2.N) (X : S2048x256.Idx → EReal) : (cfg2.win 17).cut (grid2.coords t) X = X := rfl
theorem cut_18 (t : Fin cfg2.N) (X : S8x256.Idx → EReal) : (cfg2.win 18).cut (grid2.coords t) X = X := rfl
theorem cut_19 (t : Fin cfg2.N) (X : S8x256.Idx → EReal) : (cfg2.win 19).cut (grid2.coords t) X = X := rfl

/-! ## The blocks written back cover their arrays -/

/-- Row r of tiled output 16 lies in the block of point r / 2048, which is written back. -/
theorem cover_16 (i : S65536x256.Idx) :
    ∃ t : Fin cfg2.N, (cfg2.win 16).flush t = true ∧ i ∈ ((cfg2.win 16).blk t).view.set := by
  have hN : cfg2.N = 32 := N_2
  have h0 : (i 0).val < 65536 := (i 0).isLt
  have h1 : (i 1).val < 256 := (i 1).isLt
  have ht : (i 0).val / 2048 < cfg2.N := by omega
  obtain ⟨e0, e1⟩ := idx16 ⟨(i 0).val / 2048, ht⟩
  refine ⟨⟨(i 0).val / 2048, ht⟩, flush2_16 _, ?_⟩
  show i ∈ ((View.whole main_v44_0).slice (win2_16.rect ⟨(i 0).val / 2048, ht⟩)).set
  rw [View.set_slice_whole, Rect.mem_set_unit]
  intro a
  match a with
  | ⟨0, _⟩ =>
    show win2_16.index ⟨(i 0).val / 2048, ht⟩ (0 : Fin 2) * 2048 ≤ (i 0).val
      ∧ (i 0).val < win2_16.index ⟨(i 0).val / 2048, ht⟩ (0 : Fin 2) * 2048 + 2048
    rw [e0]; show (i 0).val / 2048 * 2048 ≤ (i 0).val ∧ (i 0).val < (i 0).val / 2048 * 2048 + 2048; omega
  | ⟨1, _⟩ =>
    show win2_16.index ⟨(i 0).val / 2048, ht⟩ (1 : Fin 2) * 256 ≤ (i 1).val
      ∧ (i 1).val < win2_16.index ⟨(i 0).val / 2048, ht⟩ (1 : Fin 2) * 256 + 256
    rw [e1]; omega

/-- Row r of tiled output 17 lies in the block of point r / 2048, which is written back. -/
theorem cover_17 (i : S65536x256.Idx) :
    ∃ t : Fin cfg2.N, (cfg2.win 17).flush t = true ∧ i ∈ ((cfg2.win 17).blk t).view.set := by
  have hN : cfg2.N = 32 := N_2
  have h0 : (i 0).val < 65536 := (i 0).isLt
  have h1 : (i 1).val < 256 := (i 1).isLt
  have ht : (i 0).val / 2048 < cfg2.N := by omega
  obtain ⟨e0, e1⟩ := idx17 ⟨(i 0).val / 2048, ht⟩
  refine ⟨⟨(i 0).val / 2048, ht⟩, flush2_17 _, ?_⟩
  show i ∈ ((View.whole main_v44_1).slice (win2_17.rect ⟨(i 0).val / 2048, ht⟩)).set
  rw [View.set_slice_whole, Rect.mem_set_unit]
  intro a
  match a with
  | ⟨0, _⟩ =>
    show win2_17.index ⟨(i 0).val / 2048, ht⟩ (0 : Fin 2) * 2048 ≤ (i 0).val
      ∧ (i 0).val < win2_17.index ⟨(i 0).val / 2048, ht⟩ (0 : Fin 2) * 2048 + 2048
    rw [e0]; show (i 0).val / 2048 * 2048 ≤ (i 0).val ∧ (i 0).val < (i 0).val / 2048 * 2048 + 2048; omega
  | ⟨1, _⟩ =>
    show win2_17.index ⟨(i 0).val / 2048, ht⟩ (1 : Fin 2) * 256 ≤ (i 1).val
      ∧ (i 1).val < win2_17.index ⟨(i 0).val / 2048, ht⟩ (1 : Fin 2) * 256 + 256
    rw [e1]; omega

/-- Row r of accumulator 18 lies in the block of core r / 8, written back after that core's last point. -/
theorem cover_18 (i : S16x256.Idx) :
    ∃ t : Fin cfg2.N, (cfg2.win 18).flush t = true ∧ i ∈ ((cfg2.win 18).blk t).view.set := by
  have hN : cfg2.N = 32 := N_2
  have h0 : (i 0).val < 16 := (i 0).isLt
  have h1 : (i 1).val < 256 := (i 1).isLt
  have ht : 16 * ((i 0).val / 8) + 15 < cfg2.N := by omega
  obtain ⟨e0, e1⟩ := idx18 ⟨16 * ((i 0).val / 8) + 15, ht⟩
  refine ⟨⟨16 * ((i 0).val / 8) + 15, ht⟩, (flush2_18 _).mpr (by show (16 * ((i 0).val / 8) + 15) % 16 = 15; omega), ?_⟩
  show i ∈ ((View.whole main_v44_2).slice (win2_18.rect ⟨16 * ((i 0).val / 8) + 15, ht⟩)).set
  rw [View.set_slice_whole, Rect.mem_set_unit]
  intro a
  match a with
  | ⟨0, _⟩ =>
    show win2_18.index ⟨16 * ((i 0).val / 8) + 15, ht⟩ (0 : Fin 2) * 8 ≤ (i 0).val
      ∧ (i 0).val < win2_18.index ⟨16 * ((i 0).val / 8) + 15, ht⟩ (0 : Fin 2) * 8 + 8
    rw [e0]; show (16 * ((i 0).val / 8) + 15) / 16 * 8 ≤ (i 0).val ∧ (i 0).val < (16 * ((i 0).val / 8) + 15) / 16 * 8 + 8; omega
  | ⟨1, _⟩ =>
    show win2_18.index ⟨16 * ((i 0).val / 8) + 15, ht⟩ (1 : Fin 2) * 256 ≤ (i 1).val
      ∧ (i 1).val < win2_18.index ⟨16 * ((i 0).val / 8) + 15, ht⟩ (1 : Fin 2) * 256 + 256
    rw [e1]; omega

/-- Row r of accumulator 19 lies in the block of core r / 8, written back after that core's last point. -/
theorem cover_19 (i : S16x256.Idx) :
    ∃ t : Fin cfg2.N, (cfg2.win 19).flush t = true ∧ i ∈ ((cfg2.win 19).blk t).view.set := by
  have hN : cfg2.N = 32 := N_2
  have h0 : (i 0).val < 16 := (i 0).isLt
  have h1 : (i 1).val < 256 := (i 1).isLt
  have ht : 16 * ((i 0).val / 8) + 15 < cfg2.N := by omega
  obtain ⟨e0, e1⟩ := idx19 ⟨16 * ((i 0).val / 8) + 15, ht⟩
  refine ⟨⟨16 * ((i 0).val / 8) + 15, ht⟩, (flush2_19 _).mpr (by show (16 * ((i 0).val / 8) + 15) % 16 = 15; omega), ?_⟩
  show i ∈ ((View.whole main_v44_3).slice (win2_19.rect ⟨16 * ((i 0).val / 8) + 15, ht⟩)).set
  rw [View.set_slice_whole, Rect.mem_set_unit]
  intro a
  match a with
  | ⟨0, _⟩ =>
    show win2_19.index ⟨16 * ((i 0).val / 8) + 15, ht⟩ (0 : Fin 2) * 8 ≤ (i 0).val
      ∧ (i 0).val < win2_19.index ⟨16 * ((i 0).val / 8) + 15, ht⟩ (0 : Fin 2) * 8 + 8
    rw [e0]; show (16 * ((i 0).val / 8) + 15) / 16 * 8 ≤ (i 0).val ∧ (i 0).val < (16 * ((i 0).val / 8) + 15) / 16 * 8 + 8; omega
  | ⟨1, _⟩ =>
    show win2_19.index ⟨16 * ((i 0).val / 8) + 15, ht⟩ (1 : Fin 2) * 256 ≤ (i 1).val
      ∧ (i 1).val < win2_19.index ⟨16 * ((i 0).val / 8) + 15, ht⟩ (1 : Fin 2) * 256 + 256
    rw [e1]; omega

end Cert.KernelIdeal.Reg2

end
-- ==== Proof.Pay23.lean ====
/-
  The arithmetic of the third and fourth kernels (`cc2_stageC_kernel`, `cc3_stageD_kernel`), entry by entry, on the
  extended reals: each value a kernel body computes from the vectors it loads, read at one index `(y, j)`.

  A matrix product into the zero accumulator is the sum over the contracted coordinate of the products of the
  entries; a sum over the rows is the sum over the row coordinate; a row `[1, 256]` broadcast over the rows reads its
  one row, a column `[2048, 1]` broadcast over the columns reads its one column; a change of float format and a
  shape cast of a shape to itself are the identity; every other operation acts entry by entry.
-/
import proofs.«173010_j4303557230935_2_alg».proof.Proof.Gen.KernelIdeal.Skeleton
import proofs.«173010_j4303557230935_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen

namespace StageCD

/-! ## Layout operations at an index given by coordinates -/

/-- A column `[a, 1]` broadcast to `[a, b]` reads, at `(p, c)`, the operand's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the rows of a `[2048, 256]` array, read at column `j`: the sum over the row coordinate. -/
theorem colsum_apply (src : FVec Ideal S2048x256 .f32) (h : S2048x256.Reduces [0] S256) (hφ : FKind.Formats .f32)
    (hacc : (0x00000000#32 : BitVec 32) = 0x00000000#32) (j : Fin 256) :
    multiReduction (F := Ideal) .add [0] S256 src 0x00000000#32 h hφ hacc (ix1 j) = ∑ y : Fin 2048, src (ix2 y j) := by
  refine (Ideal.multiReduction_add_single src 0x00000000#32 h hφ hacc (ix1 j)).trans ?_
  refine Finset.sum_congr rfl fun y _ => congrArg src ?_
  funext a
  match a with
  | ⟨0, _⟩ => rfl
  | ⟨1, _⟩ => rfl

/-- The row of column sums, kept as a `[1, 256]` array and broadcast over eight rows, read at `(i, j)`. -/
theorem colsum_bcast8_apply (src : FVec Ideal S2048x256 .f32) (h : S2048x256.Reduces [0] S256) (hφ : FKind.Formats .f32)
    (hacc : (0x00000000#32 : BitVec 32) = 0x00000000#32) (hc : S256.ShapeCasts S1x256) (hc' : S1x256.ShapeCasts S1x256)
    (hb : S1x256.Broadcasts S8x256) (i : Fin 8) (j : Fin 256) :
    broadcastTo S8x256 (shapeCast S1x256 (shapeCast S1x256 (multiReduction (F := Ideal) .add [0] S256 src 0x00000000#32 h hφ hacc) hc) hc') hb (ix2 i j)
      = ∑ y : Fin 2048, src (ix2 y j) := by
  refine (broadcastTo_1b_ab_apply _ hb i j).trans ?_
  rw [shapeCast_self]
  refine (shapeCast_a_1a_apply _ hc (0 : Fin 1) j).trans ?_
  exact colsum_apply src h hφ hacc j

/-! ## A matrix product at an index -/

/-- A plain `[m, k] × [k, n]` matrix product (the left operand's axis 1 contracted with the right operand's axis 0)
    into the zero accumulator reads, at `(a, b)`, the sum over the contracted coordinate of the products of the
    entries. -/
theorem matmul_plain_zero_apply {m k n : ℕ} {φ₁ φ₂ : FTy}
    (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) none A B
        (constant (F := Ideal) ⟨2, ![m, n]⟩ .f32 0x00000000#32) (ix2 a b)
      = ∑ c : Fin k, A (ix2 a c) * B (ix2 c b) := by
  refine (Ideal.matmul_constant_zero_apply _ none A B (ix2 a b)).trans ?_
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The `[2048, 256] × [256, 256]` product of the kernels, at `(y, j)`. -/
theorem matmul256_apply {φ₁ φ₂ : FTy} (A : FVec Ideal S2048x256 φ₁) (B : FVec Ideal S256x256 φ₂) (y : Fin 2048) (j : Fin 256) :
    matmul dot_S2048x256_S256x256_S2048x256_1_0_0_1_n_n none A B (constant (F := Ideal) S2048x256 .f32 0x00000000#32) (ix2 y j)
      = ∑ q : Fin 256, A (ix2 y q) * B (ix2 q j) :=
  matmul_plain_zero_apply dot_S2048x256_S256x256_S2048x256_1_0_0_1_n_n_wf A B y j

/-- The `[2048, 256] × [256, 1]` product of the last kernel, at row `y`. -/
theorem matmul1_apply {φ₁ φ₂ : FTy} (A : FVec Ideal S2048x256 φ₁) (B : FVec Ideal S256x1 φ₂) (y : Fin 2048) (u : Fin 1) :
    matmul dot_S2048x256_S256x1_S2048x1_1_0_0_1_n_n none A B (constant (F := Ideal) S2048x1 .f32 0x00000000#32) (ix2 y u)
      = ∑ q : Fin 256, A (ix2 y q) * B (ix2 q u) :=
  matmul_plain_zero_apply dot_S2048x256_S256x1_S2048x1_1_0_0_1_n_n_wf A B y u

/-! ## Elementwise operations at an index -/

/-- The reciprocal square root of a vector, at an index. -/
theorem rsqrt_apply {s : Shape} {φ : FTy} (a : FVec Ideal s φ) (i : s.Idx) : rsqrt a i = Ideal.rsqrt (a i) := rfl
/-- The logistic function of a vector, at an index. -/
theorem logistic_apply {s : Shape} {φ : FTy} (a : FVec Ideal s φ) (i : s.Idx) : logistic a i = Ideal.logistic (a i) := rfl

end StageCD

open StageCD

/-! ## The third kernel, `cc2_stageC_kernel` -/

/-- The running column sums: the eight-row accumulator plus the block's column sums. -/
theorem k2_pay1_apply (v71 : FVec Ideal S2048x256 .f32) (v78 : FVec Ideal S8x256 .f32) (i : Fin 8) (j : Fin 256) :
    k2_pay1 (F := Ideal) v71 v78 (ix2 i j) = v78 (ix2 i j) + ∑ y : Fin 2048, v71 (ix2 y j) := by
  unfold k2_pay1
  refine (addf_apply _ _ _).trans ?_
  refine congrArg₂ (· + ·) ?_ ?_
  · rw [shapeCast_self]
  · exact colsum_bcast8_apply v71 _ _ _ _ _ _ i j

/-- The running column sums of squares. -/
theorem k2_pay2_apply (v71 : FVec Ideal S2048x256 .f32) (v84 : FVec Ideal S8x256 .f32) (i : Fin 8) (j : Fin 256) :
    k2_pay2 (F := Ideal) v71 v84 (ix2 i j) = v84 (ix2 i j) + ∑ y : Fin 2048, v71 (ix2 y j) * v71 (ix2 y j) := by
  unfold k2_pay2
  refine (addf_apply _ _ _).trans ?_
  refine congrArg₂ (· + ·) ?_ ?_
  · rw [shapeCast_self]
  · exact colsum_bcast8_apply (mulf v71 v71) _ _ _ _ _ _ i j

/-- The two accumulators start at zero. -/
theorem k2_pay3_apply (i : Fin 8) (j : Fin 256) : k2_pay3 (F := Ideal) (ix2 i j) = 0 :=
  Ideal.ofBits_zero_f32

theorem k2_pay4_apply (i : Fin 8) (j : Fin 256) : k2_pay4 (F := Ideal) (ix2 i j) = 0 :=
  Ideal.ofBits_zero_f32

/-- The second stage's activation: the column normalisation, scale and shift, then the leaky rectifier
    (`v5` the variance row, `v10` the mean row, `v16` the scale, `v20` the shift). -/
theorem k2_pay5_apply (v3 : FVec Ideal S2048x256 .f32) (v5 v10 v16 v20 : FVec Ideal S1x256 .f32) (y : Fin 2048) (j : Fin 256) :
    k2_pay5 (F := Ideal) v3 v5 v10 v16 v20 (ix2 y j)
      = Cert.Spec.leaky (((v3 (ix2 y j) - v10 (ix2 (0 : Fin 1) j)) * Ideal.rsqrt (v5 (ix2 (0 : Fin 1) j) + Cert.Spec.wEps))
          * v16 (ix2 (0 : Fin 1) j) + v20 (ix2 (0 : Fin 1) j)) := by
  unfold k2_pay5
  simp only [shapeCast_self, select_apply, cmpf_apply, mulf_apply, addf_apply, subf_apply, broadcast_apply,
    broadcastTo_1b_ab_apply, rsqrt_apply]
  rfl

/-- A shape cast of a shape to itself. -/
theorem k2_pay6_apply (v30 : FVec Ideal S2048x256 .bf16) : k2_pay6 (F := Ideal) v30 = v30 := by
  unfold k2_pay6
  exact shapeCast_self _ _

theorem k2_pay7_apply (v28 : FVec Ideal S2048x256 .f32) (v31 : FVec Ideal S2048x256 .bf16) (v32 : FVec Ideal S2048x256 .f32)
    (v33 : FVec Ideal S256x256 .f32) (v37 : FVec Ideal S1x256 .f32) (v42 : FVec Ideal S256x256 .f32) (v45 : FVec Ideal S1x256 .f32)
    (v50 : FVec Ideal S256x256 .f32) (v54 : FVec Ideal S1x256 .f32) (v58 : FVec Ideal S256x256 .f32) (v61 : FVec Ideal S1x256 .f32)
    (v65 : FVec Ideal S2048x256 .f32) (y : Fin 2048) (j : Fin 256) :
    k2_pay7 (F := Ideal) v28 v31 v32 v33 v37 v42 v45 v50 v54 v58 v61 v65 (ix2 y j)
      = ((Ideal.logistic ((∑ q : Fin 256, v32 (ix2 y q) * v33 (ix2 q j)) + v37 (ix2 (0 : Fin 1) j)) * v65 (ix2 y j)
          + (Ideal.logistic ((∑ q : Fin 256, v31 (ix2 y q) * v42 (ix2 q j)) + v45 (ix2 (0 : Fin 1) j)) * Cert.Spec.wTenth)
              * ((∑ q : Fin 256, v28 (ix2 y q) * v50 (ix2 q j)) + v54 (ix2 (0 : Fin 1) j)))
        + ((∑ q : Fin 256, v31 (ix2 y q) * v58 (ix2 q j)) + v61 (ix2 (0 : Fin 1) j))) := by
  unfold k2_pay7
  simp only [shapeCast_self, mulf_apply, addf_apply, broadcast_apply, broadcastTo_1b_ab_apply, logistic_apply,
    matmul256_apply, truncf_apply]
  rfl

/-! ## Kernel 3 -/

theorem k3_pay2_apply (v0 : FVec Ideal S2048x256 .f32) (v2 v7 v13 v17 : FVec Ideal S1x256 .f32) (y : Fin 2048) (j : Fin 256) :
    k3_pay2 (F := Ideal) v0 v2 v7 v13 v17 (ix2 y j)
      = Cert.Spec.leaky (((v0 (ix2 y j) - v7 (ix2 (0 : Fin 1) j)) * Ideal.rsqrt (v2 (ix2 (0 : Fin 1) j) + Cert.Spec.wEps))
          * v13 (ix2 (0 : Fin 1) j) + v17 (ix2 (0 : Fin 1) j)) := by
  unfold k3_pay2
  simp only [shapeCast_self, select_apply, cmpf_apply, mulf_apply, addf_apply, subf_apply, broadcast_apply,
    broadcastTo_1b_ab_apply, rsqrt_apply]
  rfl

theorem k3_pay3_apply (v0 : FVec Ideal S2048x256 .f32) (v2 v7 v13 v17 : FVec Ideal S1x256 .f32) (v27 : FVec Ideal S256x256 .f32)
    (v31 : FVec Ideal S1x256 .f32) (y : Fin 2048) (j : Fin 256) :
    k3_pay3 (F := Ideal) v0 v2 v7 v13 v17 v27 v31 (ix2 y j)
      = Ideal.logistic ((∑ q : Fin 256, k3_pay2 (F := Ideal) v0 v2 v7 v13 v17 (ix2 y q) * v27 (ix2 q j)) + v31 (ix2 (0 : Fin 1) j)) := by
  unfold k3_pay3
  simp only [shapeCast_self, addf_apply, broadcastTo_1b_ab_apply, logistic_apply, matmul256_apply, truncf_apply]

theorem k3_pay1_apply (v25 v35 : FVec Ideal S2048x256 .f32) (v36 v38 : FVec Ideal S2048x256 .f32) (v42 : FVec Ideal S256x1 .f32)
    (v46 : FVec Ideal S1x1 .f32) (y : Fin 2048) (j : Fin 256) :
    k3_pay1 (F := Ideal) v25 v35 v36 v38 v42 v46 (ix2 y j)
      = v35 (ix2 y j) * ((∑ q : Fin 256, ((v36 (ix2 y q) + v38 (ix2 y q)) + v25 (ix2 y q)) * v42 (ix2 q (0 : Fin 1)))
          + v46 (ix2 (0 : Fin 1) (0 : Fin 1))) := by
  unfold k3_pay1
  simp only [shapeCast_self, mulf_apply, addf_apply, broadcastTo_a1_ab_apply, broadcastTo_1b_ab_apply, matmul1_apply,
    truncf_apply]

end Cert.KernelIdeal.Pay
-- ==== Proof.KReg2.lean ====
/-
  What the third launch leaves in its four output arrays, as functions of the arrays it finds, on the extended
  reals. The two tiled outputs are the normalised and rectified second-stage activation a₂ and the gated sum z₃ built
  on it, row by row. The two accumulators are the column sums of z₃ and of its squares: each of the two cores adds
  the column sums of its sixteen blocks of 2048 rows into its own eight-row block of a [16, 256] array, every row
  of that block alike, so row 0 holds the sums over rows 0 … 32767, row 8 those over rows 32768 … 65535, and the two
  together the sums over all 65536 rows.
-/
import proofs.«173010_j4303557230935_2_alg».proof.Proof.KernelIdealFrameP
import proofs.«173010_j4303557230935_2_alg».proof.Proof.KReg2Cases
import proofs.«173010_j4303557230935_2_alg».proof.Proof.KReg2Blocks
import proofs.«173010_j4303557230935_2_alg».proof.Proof.Pay23
import proofs.«173010_j4303557230935_2_alg».proof.Proof.KDefs
import proofs.«173010_j4303557230935_2_alg».proof.Proof.LibBlockSum
import Idealize.ShloMosaic.Lib.Pipeline.Value
import Idealize.ShloMosaic.Lib.Tactic

noncomputable section

namespace Cert.KernelIdeal.Reg2

open Cert.KernelIdeal Cert.KernelIdeal.Gen Cert.KernelIdeal.GenP Cert.Spec Idealize.ShloMosaic Idealize.ShloMosaic.ValueIdx
open Idealize.ShloMosaic.Pipeline (Dat)
open Idealize.ShloMosaic.TcCoe

variable (V : (c : Dev nD) → (b : Ref sig .tc) → Buf (Elt Ideal) ((c : Thread nD τ).loc b)) (c : Dev nD)

/-- The second-stage activation: the first-stage output normalised column by column by the given means and variances,
    scaled, shifted and rectified. -/
noncomputable def A2 : Mat 65536 256 :=
  normAct (toRow1 (V c main_v37)) (toRow1 (V c main_v43)) (toRow1 (V c main_v9)) (toRow1 (V c main_v10)) (toMat (V c main_v29_1))

/-- The gated sum z₃ = σ(C·Wf + bf) ⊙ S + (σ(u·Wi + bi)·0.1) ⊙ (a₂·WLC + bLC) + (u·WC + bC). -/
noncomputable def Z3 : Mat 65536 256 := fun r j =>
  (sigm (lin (toMat (V c main_arg2)) (toMat (V c main_arg14)) (toRow1 (V c main_v4))) r j * toMat (V c main_arg3) r j
    + (sigm (lin (toMat (V c main_v14_0)) (toMat (V c main_arg16)) (toRow1 (V c main_v5))) r j * wTenth)
        * lin (A2 V c) (toMat (V c main_arg8)) (toRow1 (V c main_v2)) r j)
  + lin (toMat (V c main_v14_0)) (toMat (V c main_arg10)) (toRow1 (V c main_v3)) r j

/-! ## The input blocks of a point, read off the arrays -/

theorem iblk_0 (t : Fin cfg2.N) (y : Fin 2048) (j : Fin 256) :
    (iblk2 V c 0 t : Vec Ideal S2048x256 .bf16) (ix2 y j) = (V c main_v14_0 : S65536x256.Idx → Elt Ideal .bf16) (ix2 (rowOf t y) j) :=
  blk_read_0 (V c main_v14_0) t y j
theorem iblk_1 (t : Fin cfg2.N) (y : Fin 2048) (j : Fin 256) :
    (iblk2 V c 1 t : Vec Ideal S2048x256 .f32) (ix2 y j) = (V c main_v29_1 : S65536x256.Idx → EReal) (ix2 (rowOf t y) j) :=
  blk_read_1 (V c main_v29_1) t y j
theorem iblk_6 (t : Fin cfg2.N) (y : Fin 2048) (j : Fin 256) :
    (iblk2 V c 6 t : Vec Ideal S2048x256 .f32) (ix2 y j) = (V c main_arg2 : S65536x256.Idx → EReal) (ix2 (rowOf t y) j) :=
  blk_read_6 (V c main_arg2) t y j
theorem iblk_7 (t : Fin cfg2.N) (y : Fin 2048) (j : Fin 256) :
    (iblk2 V c 7 t : Vec Ideal S2048x256 .f32) (ix2 y j) = (V c main_arg3 : S65536x256.Idx → EReal) (ix2 (rowOf t y) j) :=
  blk_read_7 (V c main_arg3) t y j
theorem iblk_2 (t : Fin cfg2.N) : (iblk2 V c 2 t : Vec Ideal S1x256 .f32) = (V c main_v37 : S1x256.Idx → EReal) :=
  blk_read_2 (V c main_v37) t
theorem iblk_3 (t : Fin cfg2.N) : (iblk2 V c 3 t : Vec Ideal S1x256 .f32) = (V c main_v43 : S1x256.Idx → EReal) :=
  blk_read_3 (V c main_v43) t
theorem iblk_4 (t : Fin cfg2.N) : (iblk2 V c 4 t : Vec Ideal S1x256 .f32) = (V c main_v9 : S1x256.Idx → EReal) :=
  blk_read_4 (V c main_v9) t
theorem iblk_5 (t : Fin cfg2.N) : (iblk2 V c 5 t : Vec Ideal S1x256 .f32) = (V c main_v10 : S1x256.Idx → EReal) :=
  blk_read_5 (V c main_v10) t
theorem iblk_8 (t : Fin cfg2.N) : (iblk2 V c 8 t : Vec Ideal S256x256 .f32) = (V c main_arg14 : S256x256.Idx → EReal) :=
  blk_read_8 (V c main_arg14) t
theorem iblk_9 (t : Fin cfg2.N) : (iblk2 V c 9 t : Vec Ideal S1x256 .f32) = (V c main_v4 : S1x256.Idx → EReal) :=
  blk_read_9 (V c main_v4) t
theorem iblk_10 (t : Fin cfg2.N) : (iblk2 V c 10 t : Vec Ideal S256x256 .f32) = (V c main_arg16 : S256x256.Idx → EReal) :=
  blk_read_10 (V c main_arg16) t
theorem iblk_11 (t : Fin cfg2.N) : (iblk2 V c 11 t : Vec Ideal S1x256 .f32) = (V c main_v5 : S1x256.Idx → EReal) :=
  blk_read_11 (V c main_v5) t
theorem iblk_12 (t : Fin cfg2.N) : (iblk2 V c 12 t : Vec Ideal S256x256 .f32) = (V c main_arg10 : S256x256.Idx → EReal) :=
  blk_read_12 (V c main_arg10) t
theorem iblk_13 (t : Fin cfg2.N) : (iblk2 V c 13 t : Vec Ideal S1x256 .f32) = (V c main_v3 : S1x256.Idx → EReal) :=
  blk_read_13 (V c main_v3) t
theorem iblk_14 (t : Fin cfg2.N) : (iblk2 V c 14 t : Vec Ideal S256x256 .f32) = (V c main_arg8 : S256x256.Idx → EReal) :=
  blk_read_14 (V c main_arg8) t
theorem iblk_15 (t : Fin cfg2.N) : (iblk2 V c 15 t : Vec Ideal S1x256 .f32) = (V c main_v2 : S1x256.Idx → EReal) :=
  blk_read_15 (V c main_v2) t

/-! ## The two tiled payloads of a point are the point's rows of a₂ and z₃ -/

/-- The activation block of point t is rows 2048·t … of a₂. -/
theorem act_blk (t : Fin cfg2.N) (y : Fin 2048) (j : Fin 256) :
    (k2_pay5 (iblk2 V c 1 t) (iblk2 V c 3 t) (iblk2 V c 2 t) (iblk2 V c 4 t) (iblk2 V c 5 t) : FVec Ideal S2048x256 .f32) (ix2 y j) = A2 V c (rowOf t y) j := by
  refine (Pay.k2_pay5_apply (iblk2 V c 1 t) (iblk2 V c 3 t) (iblk2 V c 2 t) (iblk2 V c 4 t) (iblk2 V c 5 t) y j).trans ?_
  rw [iblk_1 V c t y j, iblk_2 V c t, iblk_3 V c t, iblk_4 V c t, iblk_5 V c t]
  rfl

/-- The gated sum's block at point t. -/
noncomputable def zb (t : Fin cfg2.N) : FVec Ideal S2048x256 .f32 :=
  k2_pay7 (k2_pay5 (iblk2 V c 1 t) (iblk2 V c 3 t) (iblk2 V c 2 t) (iblk2 V c 4 t) (iblk2 V c 5 t)) (k2_pay6 (iblk2 V c 0 t)) (iblk2 V c 6 t) (iblk2 V c 8 t) (iblk2 V c 9 t) (iblk2 V c 10 t) (iblk2 V c 11 t) (iblk2 V c 14 t) (iblk2 V c 15 t) (iblk2 V c 12 t) (iblk2 V c 13 t) (iblk2 V c 7 t)

/-- It is rows 2048·t … of z₃. -/
theorem zb_apply (t : Fin cfg2.N) (y : Fin 2048) (j : Fin 256) : zb V c t (ix2 y j) = Z3 V c (rowOf t y) j := by
  refine (Pay.k2_pay7_apply (k2_pay5 (iblk2 V c 1 t) (iblk2 V c 3 t) (iblk2 V c 2 t) (iblk2 V c 4 t) (iblk2 V c 5 t)) (k2_pay6 (iblk2 V c 0 t)) (iblk2 V c 6 t) (iblk2 V c 8 t) (iblk2 V c 9 t) (iblk2 V c 10 t) (iblk2 V c 11 t) (iblk2 V c 14 t) (iblk2 V c 15 t) (iblk2 V c 12 t) (iblk2 V c 13 t) (iblk2 V c 7 t) y j).trans ?_
  rw [Pay.k2_pay6_apply, iblk_8 V c t, iblk_9 V c t, iblk_10 V c t, iblk_11 V c t, iblk_12 V c t, iblk_13 V c t, iblk_14 V c t, iblk_15 V c t]
  simp only [act_blk V c t, iblk_0 V c t, iblk_6 V c t, iblk_7 V c t]
  rfl

/-! ## What the outputs' staging buffers hold after a point -/

theorem outs_16_A (t : Fin cfg2.N) (h0 : t.val % 16 = 0) :
    (outsAt2 V c t.val t.isLt).1 = k2_pay5 (iblk2 V c 1 t) (iblk2 V c 3 t) (iblk2 V c 2 t) (iblk2 V c 4 t) (iblk2 V c 5 t) := by
  rw [outsAt2_A V c t h0]
  dsimp only
  exact out_A_16 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (ms2_15 t) (hs2_15 t) (ms2_16 t) (hs2_16 t) (ms2_17 t) (hs2_17 t) (ms2_18 t) (hs2_18 t) (ms2_19 t) (hs2_19 t) ((hcond2_0 t).mpr h0) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t)

theorem outs_16_B (t : Fin cfg2.N) (h0 : ¬t.val % 16 = 0) :
    (outsAt2 V c t.val t.isLt).1 = k2_pay5 (iblk2 V c 1 t) (iblk2 V c 3 t) (iblk2 V c 2 t) (iblk2 V c 4 t) (iblk2 V c 5 t) := by
  rw [outsAt2_B V c t h0]
  dsimp only
  exact out_B_16 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (ms2_15 t) (hs2_15 t) (ms2_16 t) (hs2_16 t) (ms2_17 t) (hs2_17 t) (ms2_18 t) (hs2_18 t) (ms2_19 t) (hs2_19 t) (fun h => h0 ((hcond2_0 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (outsAt2 V c (t.val - 1) (Nat.lt_of_le_of_lt (Nat.sub_le _ _) t.isLt)).2.2.1 (outsAt2 V c (t.val - 1) (Nat.lt_of_le_of_lt (Nat.sub_le _ _) t.isLt)).2.2.2

/-- After every point the first tiled output's buffer holds the point's activation block. -/
theorem outs_16 (t : Fin cfg2.N) : (outsAt2 V c t.val t.isLt).1 = k2_pay5 (iblk2 V c 1 t) (iblk2 V c 3 t) (iblk2 V c 2 t) (iblk2 V c 4 t) (iblk2 V c 5 t) := by
  by_cases h0 : t.val % 16 = 0
  · exact outs_16_A V c t h0
  · exact outs_16_B V c t h0

theorem outs_17_A (t : Fin cfg2.N) (h0 : t.val % 16 = 0) :
    (outsAt2 V c t.val t.isLt).2.1 = zb V c t := by
  rw [outsAt2_A V c t h0]
  dsimp only
  exact out_A_17 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (ms2_15 t) (hs2_15 t) (ms2_16 t) (hs2_16 t) (ms2_17 t) (hs2_17 t) (ms2_18 t) (hs2_18 t) (ms2_19 t) (hs2_19 t) ((hcond2_0 t).mpr h0) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t)

theorem outs_17_B (t : Fin cfg2.N) (h0 : ¬t.val % 16 = 0) :
    (outsAt2 V c t.val t.isLt).2.1 = zb V c t := by
  rw [outsAt2_B V c t h0]
  dsimp only
  exact out_B_17 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (ms2_15 t) (hs2_15 t) (ms2_16 t) (hs2_16 t) (ms2_17 t) (hs2_17 t) (ms2_18 t) (hs2_18 t) (ms2_19 t) (hs2_19 t) (fun h => h0 ((hcond2_0 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (outsAt2 V c (t.val - 1) (Nat.lt_of_le_of_lt (Nat.sub_le _ _) t.isLt)).2.2.1 (outsAt2 V c (t.val - 1) (Nat.lt_of_le_of_lt (Nat.sub_le _ _) t.isLt)).2.2.2

/-- After every point the second tiled output's buffer holds the point's block of the gated sum. -/
theorem outs_17 (t : Fin cfg2.N) : (outsAt2 V c t.val t.isLt).2.1 = zb V c t := by
  by_cases h0 : t.val % 16 = 0
  · exact outs_17_A V c t h0
  · exact outs_17_B V c t h0

/-- At a core's first point the first accumulator's buffer holds the zero block plus the point's column sums. -/
theorem outs_18_A (t : Fin cfg2.N) (h0 : t.val % 16 = 0) :
    (outsAt2 V c t.val t.isLt).2.2.1 = k2_pay1 (zb V c t) (k2_pay3 (F := Ideal)) := by
  rw [outsAt2_A V c t h0]
  dsimp only
  exact out_A_18 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (ms2_15 t) (hs2_15 t) (ms2_16 t) (hs2_16 t) (ms2_17 t) (hs2_17 t) (ms2_18 t) (hs2_18 t) (ms2_19 t) (hs2_19 t) ((hcond2_0 t).mpr h0) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t)

/-- At a later point it holds what the point before left plus the point's column sums. -/
theorem outs_18_B (t : Fin cfg2.N) (h0 : ¬t.val % 16 = 0) :
    (outsAt2 V c t.val t.isLt).2.2.1 = k2_pay1 (zb V c t) (outsAt2 V c (t.val - 1) (Nat.lt_of_le_of_lt (Nat.sub_le _ _) t.isLt)).2.2.1 := by
  rw [outsAt2_B V c t h0]
  dsimp only
  exact out_B_18 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (ms2_15 t) (hs2_15 t) (ms2_16 t) (hs2_16 t) (ms2_17 t) (hs2_17 t) (ms2_18 t) (hs2_18 t) (ms2_19 t) (hs2_19 t) (fun h => h0 ((hcond2_0 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (outsAt2 V c (t.val - 1) (Nat.lt_of_le_of_lt (Nat.sub_le _ _) t.isLt)).2.2.1 (outsAt2 V c (t.val - 1) (Nat.lt_of_le_of_lt (Nat.sub_le _ _) t.isLt)).2.2.2

/-- The same for the second accumulator and the column sums of the squares. -/
theorem outs_19_A (t : Fin cfg2.N) (h0 : t.val % 16 = 0) :
    (outsAt2 V c t.val t.isLt).2.2.2 = k2_pay2 (zb V c t) (k2_pay4 (F := Ideal)) := by
  rw [outsAt2_A V c t h0]
  dsimp only
  exact out_A_19 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (ms2_15 t) (hs2_15 t) (ms2_16 t) (hs2_16 t) (ms2_17 t) (hs2_17 t) (ms2_18 t) (hs2_18 t) (ms2_19 t) (hs2_19 t) ((hcond2_0 t).mpr h0) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t)

theorem outs_19_B (t : Fin cfg2.N) (h0 : ¬t.val % 16 = 0) :
    (outsAt2 V c t.val t.isLt).2.2.2 = k2_pay2 (zb V c t) (outsAt2 V c (t.val - 1) (Nat.lt_of_le_of_lt (Nat.sub_le _ _) t.isLt)).2.2.2 := by
  rw [outsAt2_B V c t h0]
  dsimp only
  exact out_B_19 (F := Ideal) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (ms2_15 t) (hs2_15 t) (ms2_16 t) (hs2_16 t) (ms2_17 t) (hs2_17 t) (ms2_18 t) (hs2_18 t) (ms2_19 t) (hs2_19 t) (fun h => h0 ((hcond2_0 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (outsAt2 V c (t.val - 1) (Nat.lt_of_le_of_lt (Nat.sub_le _ _) t.isLt)).2.2.1 (outsAt2 V c (t.val - 1) (Nat.lt_of_le_of_lt (Nat.sub_le _ _) t.isLt)).2.2.2

/-! ## Running sums within a core -/

/-- The running sum of the addends M of a core's points up to point n: the points 16·(n / 16) … n. -/
noncomputable def run (M : ℕ → Fin 256 → EReal) (n : ℕ) (j : Fin 256) : EReal :=
  ∑ s ∈ Finset.range (n % 16 + 1), M (16 * (n / 16) + s) j

theorem run_first (M : ℕ → Fin 256 → EReal) (n : ℕ) (h0 : n % 16 = 0) (j : Fin 256) : run M n j = M n j := by
  unfold run
  rw [h0, Nat.zero_add, Finset.sum_range_one, Nat.add_zero]
  exact congrArg (fun k => M k j) (by omega)

theorem run_step (M : ℕ → Fin 256 → EReal) (n : ℕ) (h : ¬(n + 1) % 16 = 0) (j : Fin 256) :
    run M (n + 1) j = run M n j + M (n + 1) j := by
  unfold run
  have e1 : (n + 1) % 16 = n % 16 + 1 := by omega
  have e2 : (n + 1) / 16 = n / 16 := by omega
  rw [e1, e2, Finset.sum_range_succ _ (n % 16 + 1)]
  exact congrArg (fun k => ∑ s ∈ Finset.range (n % 16 + 1), M (16 * (n / 16) + s) j + M k j) (by omega)

/-- The two cores' final running sums together are the sum over all 32 points. -/
theorem run_total (M : ℕ → Fin 256 → EReal) (j : Fin 256) : run M 15 j + run M 31 j = ∑ s ∈ Finset.range 32, M s j := by
  show ∑ s ∈ Finset.range 16, M (0 + s) j + ∑ s ∈ Finset.range 16, M (16 + s) j = _
  rw [show (32 : ℕ) = 16 + 16 from rfl, Finset.sum_range_add]
  simp only [Nat.zero_add]

/-- The column sums of z₃ over the rows of point n. -/
noncomputable def colS (n : ℕ) (j : Fin 256) : EReal :=
  if h : n < cfg2.N then ∑ y : Fin 2048, Z3 V c (rowOf ⟨n, h⟩ y) j else 0

/-- The column sums of the squares of z₃ over the rows of point n. -/
noncomputable def colQ (n : ℕ) (j : Fin 256) : EReal :=
  if h : n < cfg2.N then ∑ y : Fin 2048, Z3 V c (rowOf ⟨n, h⟩ y) j * Z3 V c (rowOf ⟨n, h⟩ y) j else 0

theorem colS_zb (t : Fin cfg2.N) (j : Fin 256) : ∑ y : Fin 2048, zb V c t (ix2 y j) = colS V c t.val j := by
  unfold colS
  rw [dif_pos t.isLt]
  exact Finset.sum_congr rfl (fun y _ => zb_apply V c t y j)

theorem colQ_zb (t : Fin cfg2.N) (j : Fin 256) :
    ∑ y : Fin 2048, zb V c t (ix2 y j) * zb V c t (ix2 y j) = colQ V c t.val j := by
  unfold colQ
  rw [dif_pos t.isLt]
  exact Finset.sum_congr rfl (fun y _ => by rw [zb_apply V c t y j])

/-- Over the 32 points the column sums add up to the sums over all 65536 rows. -/
theorem sum_colS (j : Fin 256) : ∑ s ∈ Finset.range 32, colS V c s j = ∑ r : Fin 65536, Z3 V c r j :=
  Cert.Lib.sum_range_blocks_of_eq (nb := 32) (bs := 2048) (N := 65536) rfl (fun r => Z3 V c r j) (fun s => colS V c s j)
    (fun t ht => by
      have h : t < cfg2.N := by have hN : cfg2.N = 32 := N_2; omega
      show colS V c t j = _
      unfold colS
      rw [dif_pos h]
      rfl)

theorem sum_colQ (j : Fin 256) : ∑ s ∈ Finset.range 32, colQ V c s j = ∑ r : Fin 65536, Z3 V c r j * Z3 V c r j :=
  Cert.Lib.sum_range_blocks_of_eq (nb := 32) (bs := 2048) (N := 65536) rfl (fun r => Z3 V c r j * Z3 V c r j) (fun s => colQ V c s j)
    (fun t ht => by
      have h : t < cfg2.N := by have hN : cfg2.N = 32 := N_2; omega
      show colQ V c t j = _
      unfold colQ
      rw [dif_pos h]
      rfl)

/-- After point n every row of the first accumulator's block holds the running sum of the column sums of z₃ over the
    core's points so far: zero plus the first point's, then one more addend per point. -/
theorem acc_18 : ∀ (n : ℕ) (h : n < cfg2.N) (i : Fin 8) (j : Fin 256),
    ((outsAt2 V c n h).2.2.1 : S8x256.Idx → EReal) (ix2 i j) = run (colS V c) n j
  | 0, h, i, j => by
    refine (congrFun (outs_18_A V c ⟨0, h⟩ rfl) (ix2 i j)).trans ?_
    refine (Pay.k2_pay1_apply (zb V c ⟨0, h⟩) (k2_pay3 (F := Ideal)) i j).trans ?_
    rw [Pay.k2_pay3_apply, zero_add, colS_zb V c ⟨0, h⟩ j]
    exact (run_first (colS V c) 0 rfl j).symm
  | n + 1, h, i, j => by
    by_cases h0 : (n + 1) % 16 = 0
    · refine (congrFun (outs_18_A V c ⟨n + 1, h⟩ h0) (ix2 i j)).trans ?_
      refine (Pay.k2_pay1_apply (zb V c ⟨n + 1, h⟩) (k2_pay3 (F := Ideal)) i j).trans ?_
      rw [Pay.k2_pay3_apply, zero_add, colS_zb V c ⟨n + 1, h⟩ j]
      exact (run_first (colS V c) (n + 1) h0 j).symm
    · refine (congrFun (outs_18_B V c ⟨n + 1, h⟩ h0) (ix2 i j)).trans ?_
      refine (Pay.k2_pay1_apply (zb V c ⟨n + 1, h⟩) (outsAt2 V c n (Nat.lt_of_succ_lt h)).2.2.1 i j).trans ?_
      rw [acc_18 n (Nat.lt_of_succ_lt h) i j, colS_zb V c ⟨n + 1, h⟩ j]
      exact (run_step (colS V c) n h0 j).symm

/-- The same for the second accumulator and the squares. -/
theorem acc_19 : ∀ (n : ℕ) (h : n < cfg2.N) (i : Fin 8) (j : Fin 256),
    ((outsAt2 V c n h).2.2.2 : S8x256.Idx → EReal) (ix2 i j) = run (colQ V c) n j
  | 0, h, i, j => by
    refine (congrFun (outs_19_A V c ⟨0, h⟩ rfl) (ix2 i j)).trans ?_
    refine (Pay.k2_pay2_apply (zb V c ⟨0, h⟩) (k2_pay4 (F := Ideal)) i j).trans ?_
    rw [Pay.k2_pay4_apply, zero_add, colQ_zb V c ⟨0, h⟩ j]
    exact (run_first (colQ V c) 0 rfl j).symm
  | n + 1, h, i, j => by
    by_cases h0 : (n + 1) % 16 = 0
    · refine (congrFun (outs_19_A V c ⟨n + 1, h⟩ h0) (ix2 i j)).trans ?_
      refine (Pay.k2_pay2_apply (zb V c ⟨n + 1, h⟩) (k2_pay4 (F := Ideal)) i j).trans ?_
      rw [Pay.k2_pay4_apply, zero_add, colQ_zb V c ⟨n + 1, h⟩ j]
      exact (run_first (colQ V c) (n + 1) h0 j).symm
    · refine (congrFun (outs_19_B V c ⟨n + 1, h⟩ h0) (ix2 i j)).trans ?_
      refine (Pay.k2_pay2_apply (zb V c ⟨n + 1, h⟩) (outsAt2 V c n (Nat.lt_of_succ_lt h)).2.2.2 i j).trans ?_
      rw [acc_19 n (Nat.lt_of_succ_lt h) i j, colQ_zb V c ⟨n + 1, h⟩ j]
      exact (run_step (colQ V c) n h0 j).symm

/-! ## What each point writes back is its block of one whole-array function -/

theorem flushed_16 (t : Fin cfg2.N) :
    (dat2 V c).flushed 16 t = ((cfg2.win 16).blk t).view.read (Elt Ideal) (ofMat (A2 V c)) := by
  show (cfg2.win 16).cut (grid2.coords t) ((dat2 V c).after 16 t) = _
  rw [after2_16 V c t, outs_16 V c t]
  refine (cut_16 t _).trans ?_
  refine funext_ix2 (n0 := 2048) (n1 := 256) _ _ (fun y j => ?_)
  rw [blk_read_16 (ofMat (A2 V c)) t y j]
  exact act_blk V c t y j

theorem flushed_17 (t : Fin cfg2.N) :
    (dat2 V c).flushed 17 t = ((cfg2.win 17).blk t).view.read (Elt Ideal) (ofMat (Z3 V c)) := by
  show (cfg2.win 17).cut (grid2.coords t) ((dat2 V c).after 17 t) = _
  rw [after2_17 V c t, outs_17 V c t]
  refine (cut_17 t _).trans ?_
  refine funext_ix2 (n0 := 2048) (n1 := 256) _ _ (fun y j => ?_)
  rw [blk_read_17 (ofMat (Z3 V c)) t y j]
  exact zb_apply V c t y j

/-- The first accumulator array in the end: every row of core r / 8's block at that core's final running sum. -/
noncomputable def G18 : S16x256.Idx → EReal := ofMat (fun (r : Fin 16) (j : Fin 256) => run (colS V c) (16 * (r.val / 8) + 15) j)

/-- The second accumulator array in the end. -/
noncomputable def G19 : S16x256.Idx → EReal := ofMat (fun (r : Fin 16) (j : Fin 256) => run (colQ V c) (16 * (r.val / 8) + 15) j)

theorem flushed_18 (t : Fin cfg2.N) (hf : (cfg2.win 18).flush t = true) :
    (dat2 V c).flushed 18 t = ((cfg2.win 18).blk t).view.read (Elt Ideal) (G18 V c) := by
  have h15 : t.val % 16 = 15 := (flush2_18 t).mp hf
  show (cfg2.win 18).cut (grid2.coords t) ((dat2 V c).after 18 t) = _
  rw [after2_18 V c t]
  refine (cut_18 t _).trans ?_
  refine funext_ix2 (n0 := 8) (n1 := 256) _ _ (fun i j => ?_)
  rw [blk_read_18 (G18 V c) t i j, acc_18 V c t.val t.isLt i j]
  show run (colS V c) t.val j = run (colS V c) (16 * ((accRow t i).val / 8) + 15) j
  have hi := i.isLt
  exact congrArg (fun k => run (colS V c) k j) (by rw [accRow_val]; omega)

theorem flushed_19 (t : Fin cfg2.N) (hf : (cfg2.win 19).flush t = true) :
    (dat2 V c).flushed 19 t = ((cfg2.win 19).blk t).view.read (Elt Ideal) (G19 V c) := by
  have h15 : t.val % 16 = 15 := (flush2_19 t).mp hf
  show (cfg2.win 19).cut (grid2.coords t) ((dat2 V c).after 19 t) = _
  rw [after2_19 V c t]
  refine (cut_19 t _).trans ?_
  refine funext_ix2 (n0 := 8) (n1 := 256) _ _ (fun i j => ?_)
  rw [blk_read_19 (G19 V c) t i j, acc_19 V c t.val t.isLt i j]
  show run (colQ V c) t.val j = run (colQ V c) (16 * ((accRow t i).val / 8) + 15) j
  have hi := i.isLt
  exact congrArg (fun k => run (colQ V c) k j) (by rw [accRow_val]; omega)

/-! ## The four output arrays after the launch -/

/-- The first tiled output ends holding a₂. -/
theorem arr16 : ((dat2 V c).arrAt 16 cfg2.N : S65536x256.Idx → EReal) = ofMat (A2 V c) :=
  (dat2 V c).arrAt_eq_of_cover 16 (ofMat (A2 V c)) (fun t _ => flushed_16 V c t) (fun i => cover_16 i)

/-- The second tiled output ends holding z₃. -/
theorem arr17 : ((dat2 V c).arrAt 17 cfg2.N : S65536x256.Idx → EReal) = ofMat (Z3 V c) :=
  (dat2 V c).arrAt_eq_of_cover 17 (ofMat (Z3 V c)) (fun t _ => flushed_17 V c t) (fun i => cover_17 i)

theorem arr18_eq : ((dat2 V c).arrAt 18 cfg2.N : S16x256.Idx → EReal) = G18 V c :=
  (dat2 V c).arrAt_eq_of_cover 18 (G18 V c) (flushed_18 V c) (fun i => cover_18 i)

theorem arr19_eq : ((dat2 V c).arrAt 19 cfg2.N : S16x256.Idx → EReal) = G19 V c :=
  (dat2 V c).arrAt_eq_of_cover 19 (G19 V c) (flushed_19 V c) (fun i => cover_19 i)

theorem G18_apply (r : Fin 16) (j : Fin 256) : toMat (G18 V c) r j = run (colS V c) (16 * (r.val / 8) + 15) j := rfl

theorem G19_apply (r : Fin 16) (j : Fin 256) : toMat (G19 V c) r j = run (colQ V c) (16 * (r.val / 8) + 15) j := rfl

/-- Rows 0 and 8 of the first accumulator array (one row of each core's block) add up to the column sums of z₃ over
    all 65536 rows. -/
theorem arr18 (j : Fin 256) :
    toMat (n := 16) (k := 256) ((dat2 V c).arrAt 18 cfg2.N) (0 : Fin 16) j
        + toMat (n := 16) (k := 256) ((dat2 V c).arrAt 18 cfg2.N) (8 : Fin 16) j
      = ∑ r : Fin 65536, Z3 V c r j := by
  rw [arr18_eq V c, G18_apply, G18_apply,
    show 16 * ((0 : Fin 16).val / 8) + 15 = 15 from by decide, show 16 * ((8 : Fin 16).val / 8) + 15 = 31 from by decide,
    run_total, sum_colS]

/-- Rows 0 and 8 of the second accumulator array add up to the column sums of the squares of z₃ over all 65536 rows. -/
theorem arr19 (j : Fin 256) :
    toMat (n := 16) (k := 256) ((dat2 V c).arrAt 19 cfg2.N) (0 : Fin 16) j
        + toMat (n := 16) (k := 256) ((dat2 V c).arrAt 19 cfg2.N) (8 : Fin 16) j
      = ∑ r : Fin 65536, Z3 V c r j * Z3 V c r j := by
  rw [arr19_eq V c, G19_apply, G19_apply,
    show 16 * ((0 : Fin 16).val / 8) + 15 = 15 from by decide, show 16 * ((8 : Fin 16).val / 8) + 15 = 31 from by decide,
    run_total, sum_colQ]

end Cert.KernelIdeal.Reg2

end
-- ==== Proof.KReg3.lean ====
/-
  What the fourth kernel launch leaves in its two output arrays, as functions of the arrays it finds.

  The launch walks 32 grid points; point t works on rows 2048·t … 2048·t + 2047 of the batch. From the pre-activation
  block, the column means and variances, the scale and the shift it forms the normalised, rectified block a₃ and
  writes it to the first output; from a₃, the two earlier activations' blocks, the output gate's weights and the
  one-column projection it forms p = σ(a₃·Wo + bo) ⊙ ((a₁ + a₂ + a₃)·WP + bP) and writes it to the second. Every entry
  of either output depends on its own row of the tiled operands only, so each output array ends as ONE function of
  the arrays found: the blocks written at the 32 points are the 32 row blocks of that function, and they tile the array.
-/
import proofs.«173010_j4303557230935_2_alg».proof.Proof.KernelIdealFrameP
import proofs.«173010_j4303557230935_2_alg».proof.Proof.Pay23
import proofs.«173010_j4303557230935_2_alg».proof.Proof.KDefs
import proofs.«173010_j4303557230935_2_alg».proof.Proof.LibBlockSum
import Idealize.ShloMosaic.Lib.Pipeline.Value
import Idealize.ShloMosaic.Lib.Tactic

noncomputable section

open scoped BigOperators

namespace Cert.KernelIdeal.Reg3

open Cert.KernelIdeal Cert.KernelIdeal.Gen Cert.KernelIdeal.GenP Cert.Spec Idealize.ShloMosaic Idealize.ShloMosaic.TcCoe
open Idealize.ShloMosaic.ValueIdx
open Idealize.ShloMosaic.Pipeline (Dat)

/-! ## One grid point's arithmetic

The body's three payload terms read at an entry (y, j) of the point's block, when the tiled operands' blocks are
rows 2048·t … 2048·t + 2047 of matrices and the small operands are whole rows and matrices. -/

/-- The normalised, rectified block: entry (y, j) is entry (2048·t + y, j) of the normalised, rectified matrix. -/
theorem act_blk (x0 : Vec Ideal S2048x256 .f32) (x1 x2 x3 x4 : Vec Ideal S1x256 .f32)
    (mu v g be : Row 256) (Z : Mat 65536 256) (t : ℕ) (ht : t < 32)
    (h0 : ∀ (y : Fin 2048) (j : Fin 256), x0 (ix2 y j) = Z ⟨2048 * t + y.val, by omega⟩ j)
    (h1 : ∀ j : Fin 256, x1 (ix2 (0 : Fin 1) j) = mu j) (h2 : ∀ j : Fin 256, x2 (ix2 (0 : Fin 1) j) = v j)
    (h3 : ∀ j : Fin 256, x3 (ix2 (0 : Fin 1) j) = g j) (h4 : ∀ j : Fin 256, x4 (ix2 (0 : Fin 1) j) = be j)
    (y : Fin 2048) (j : Fin 256) :
    k3_pay2 (F := Ideal) x0 x2 x1 x3 x4 (ix2 y j) = normAct mu v g be Z ⟨2048 * t + y.val, by omega⟩ j := by
  rw [Pay.k3_pay2_apply, h0, h1, h2, h3, h4]
  rfl

/-- The gated projection's block: the logistic gate of the affine image of the activation's row, times the
    one-column affine image of the three summed rows. -/
theorem prod_blk (x0 x5 x6 : Vec Ideal S2048x256 .f32) (x1 x2 x3 x4 x8 : Vec Ideal S1x256 .f32)
    (x7 : Vec Ideal S256x256 .f32) (x9 : Vec Ideal S256x1 .f32) (x10 : Vec Ideal S1x1 .f32)
    (mu v g be bo : Row 256) (Z P Q : Mat 65536 256) (Wo : Mat 256 256) (WP : Mat 256 1) (bP : Row 1)
    (t : ℕ) (ht : t < 32)
    (h0 : ∀ (y : Fin 2048) (j : Fin 256), x0 (ix2 y j) = Z ⟨2048 * t + y.val, by omega⟩ j)
    (h1 : ∀ j : Fin 256, x1 (ix2 (0 : Fin 1) j) = mu j) (h2 : ∀ j : Fin 256, x2 (ix2 (0 : Fin 1) j) = v j)
    (h3 : ∀ j : Fin 256, x3 (ix2 (0 : Fin 1) j) = g j) (h4 : ∀ j : Fin 256, x4 (ix2 (0 : Fin 1) j) = be j)
    (h5 : ∀ (y : Fin 2048) (j : Fin 256), x5 (ix2 y j) = P ⟨2048 * t + y.val, by omega⟩ j)
    (h6 : ∀ (y : Fin 2048) (j : Fin 256), x6 (ix2 y j) = Q ⟨2048 * t + y.val, by omega⟩ j)
    (h7 : ∀ (q j : Fin 256), x7 (ix2 q j) = Wo q j) (h8 : ∀ j : Fin 256, x8 (ix2 (0 : Fin 1) j) = bo j)
    (h9 : ∀ q : Fin 256, x9 (ix2 q (0 : Fin 1)) = WP q 0) (h10 : x10 (ix2 (0 : Fin 1) (0 : Fin 1)) = bP 0)
    (y : Fin 2048) (j : Fin 256) :
    k3_pay1 (F := Ideal) (k3_pay2 (F := Ideal) x0 x2 x1 x3 x4) (k3_pay3 (F := Ideal) x0 x2 x1 x3 x4 x7 x8) x5 x6 x9 x10 (ix2 y j)
      = sigm (lin (normAct mu v g be Z) Wo bo) ⟨2048 * t + y.val, by omega⟩ j
        * lin (fun r' q => (P r' q + Q r' q) + normAct mu v g be Z r' q) WP bP ⟨2048 * t + y.val, by omega⟩ 0 := by
  rw [Pay.k3_pay1_apply, Pay.k3_pay3_apply, h10]
  simp only [act_blk x0 x1 x2 x3 x4 mu v g be Z t ht h0 h1 h2 h3 h4, h5, h6, h7, h8, h9]
  rfl

/-! ## The grid's arithmetic -/

theorem hz : (![0, 0] : Fin 2 → Nat) = fun _ => 0 := funext fun a => by fin_cases a <;> rfl

/-- A grid point's number is below 32. -/
theorem pt_lt (t : Fin cfg3.N) : t.val < 32 := lt_of_lt_of_eq t.isLt N_3

/-- Row y of block t is a row of the batch. -/
theorem row_lt {t : ℕ} (ht : t < 32) (y : Fin 2048) : 2048 * t + y.val < 65536 := by omega

/-- The block index of every window at point t, decided over the grid: a tiled window's is (t, 0), a whole-array
    window's is (0, 0). -/
theorem idx3 : ∀ t : Fin cfg3.N,
    (win3_0.index t (0 : Fin 2) = t.val ∧ win3_0.index t (1 : Fin 2) = 0)
    ∧ (win3_5.index t (0 : Fin 2) = t.val ∧ win3_5.index t (1 : Fin 2) = 0)
    ∧ (win3_6.index t (0 : Fin 2) = t.val ∧ win3_6.index t (1 : Fin 2) = 0)
    ∧ (win3_11.index t (0 : Fin 2) = t.val ∧ win3_11.index t (1 : Fin 2) = 0)
    ∧ (win3_12.index t (0 : Fin 2) = t.val ∧ win3_12.index t (1 : Fin 2) = 0)
    ∧ (win3_1.index t (0 : Fin 2) = 0 ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_7.index t (0 : Fin 2) = 0 ∧ win3_7.index t (1 : Fin 2) = 0)
    ∧ (win3_8.index t (0 : Fin 2) = 0 ∧ win3_8.index t (1 : Fin 2) = 0)
    ∧ (win3_9.index t (0 : Fin 2) = 0 ∧ win3_9.index t (1 : Fin 2) = 0)
    ∧ (win3_10.index t (0 : Fin 2) = 0 ∧ win3_10.index t (1 : Fin 2) = 0) :=
  (by decide +kernel : ∀ t : Fin grid3.N, _)

/-- Two functions of a [2048,256] block's index agree once they agree at every (y, j). -/
theorem ext_blk {α : Type} (X Y : S2048x256.Idx → α) (h : ∀ (y : Fin 2048) (j : Fin 256), X (ix2 y j) = Y (ix2 y j)) :
    X = Y :=
  funext fun i => by rw [eq_ix2 i]; exact h _ _

variable (V : (c : Dev nD) → (b : Ref sig .tc) → Buf (Elt Ideal) ((c : Thread nD τ).loc b)) (c : Dev nD)

/-! ## The input windows' blocks, read off the arrays -/

/-- The pre-activation's block at point t is its rows 2048·t … 2048·t + 2047. -/
theorem iblk0_apply (t : Fin cfg3.N) (y : Fin 2048) (j : Fin 256) :
    (iblk3 V c 0 t : Vec Ideal S2048x256 .f32) (ix2 y j)
      = toMat (V c main_v44_1) ⟨2048 * t.val + y.val, row_lt (pt_lt t) y⟩ j := by
  have hi := (idx3 t).1
  unfold iblk3
  rw [View.read_apply]
  show V c main_v44_1 _ = V c main_v44_1 _
  congr 1
  funext a
  apply Fin.ext
  match a with
  | ⟨0, _⟩ => show win3_0.index t (0 : Fin 2) * 2048 + 1 * y.val = 2048 * t.val + y.val; rw [hi.1]; omega
  | ⟨1, _⟩ => show win3_0.index t (1 : Fin 2) * 256 + 1 * j.val = j.val; rw [hi.2]; omega

/-- The second activation's block at point t is its rows 2048·t … 2048·t + 2047. -/
theorem iblk5_apply (t : Fin cfg3.N) (y : Fin 2048) (j : Fin 256) :
    (iblk3 V c 5 t : Vec Ideal S2048x256 .f32) (ix2 y j)
      = toMat (V c main_v29_0) ⟨2048 * t.val + y.val, row_lt (pt_lt t) y⟩ j := by
  have hi := (idx3 t).2.1
  unfold iblk3
  rw [View.read_apply]
  show V c main_v29_0 _ = V c main_v29_0 _
  congr 1
  funext a
  apply Fin.ext
  match a with
  | ⟨0, _⟩ => show win3_5.index t (0 : Fin 2) * 2048 + 1 * y.val = 2048 * t.val + y.val; rw [hi.1]; omega
  | ⟨1, _⟩ => show win3_5.index t (1 : Fin 2) * 256 + 1 * j.val = j.val; rw [hi.2]; omega

/-- The first activation's block at point t is its rows 2048·t … 2048·t + 2047. -/
theorem iblk6_apply (t : Fin cfg3.N) (y : Fin 2048) (j : Fin 256) :
    (iblk3 V c 6 t : Vec Ideal S2048x256 .f32) (ix2 y j)
      = toMat (V c main_v44_0) ⟨2048 * t.val + y.val, row_lt (pt_lt t) y⟩ j := by
  have hi := (idx3 t).2.2.1
  unfold iblk3
  rw [View.read_apply]
  show V c main_v44_0 _ = V c main_v44_0 _
  congr 1
  funext a
  apply Fin.ext
  match a with
  | ⟨0, _⟩ => show win3_6.index t (0 : Fin 2) * 2048 + 1 * y.val = 2048 * t.val + y.val; rw [hi.1]; omega
  | ⟨1, _⟩ => show win3_6.index t (1 : Fin 2) * 256 + 1 * j.val = j.val; rw [hi.2]; omega

/-- The column means: the window's one block is the whole array, at every point. -/
theorem iblk1_apply (t : Fin cfg3.N) (u : Fin 1) (j : Fin 256) :
    (iblk3 V c 1 t : Vec Ideal S1x256 .f32) (ix2 u j) = (V c main_v52 : S1x256.Idx → EReal) (ix2 u j) := by
  have hi := (idx3 t).2.2.2.2.2.1
  unfold iblk3
  rw [View.read_apply]
  show V c main_v52 _ = V c main_v52 _
  congr 1
  funext a
  apply Fin.ext
  match a with
  | ⟨0, _⟩ => show win3_1.index t (0 : Fin 2) * 1 + 1 * u.val = u.val; rw [hi.1]; omega
  | ⟨1, _⟩ => show win3_1.index t (1 : Fin 2) * 256 + 1 * j.val = j.val; rw [hi.2]; omega

/-- The column variances: the window's one block is the whole array, at every point. -/
theorem iblk2_apply (t : Fin cfg3.N) (u : Fin 1) (j : Fin 256) :
    (iblk3 V c 2 t : Vec Ideal S1x256 .f32) (ix2 u j) = (V c main_v58 : S1x256.Idx → EReal) (ix2 u j) := by
  have hi := (idx3 t).2.2.2.2.2.2.1
  unfold iblk3
  rw [View.read_apply]
  show V c main_v58 _ = V c main_v58 _
  congr 1
  funext a
  apply Fin.ext
  match a with
  | ⟨0, _⟩ => show win3_2.index t (0 : Fin 2) * 1 + 1 * u.val = u.val; rw [hi.1]; omega
  | ⟨1, _⟩ => show win3_2.index t (1 : Fin 2) * 256 + 1 * j.val = j.val; rw [hi.2]; omega

/-- The scale row: the window's one block is the whole array, at every point. -/
theorem iblk3_apply (t : Fin cfg3.N) (u : Fin 1) (j : Fin 256) :
    (iblk3 V c 3 t : Vec Ideal S1x256 .f32) (ix2 u j) = (V c main_v11 : S1x256.Idx → EReal) (ix2 u j) := by
  have hi := (idx3 t).2.2.2.2.2.2.2.1
  unfold iblk3
  rw [View.read_apply]
  show V c main_v11 _ = V c main_v11 _
  congr 1
  funext a
  apply Fin.ext
  match a with
  | ⟨0, _⟩ => show win3_3.index t (0 : Fin 2) * 1 + 1 * u.val = u.val; rw [hi.1]; omega
  | ⟨1, _⟩ => show win3_3.index t (1 : Fin 2) * 256 + 1 * j.val = j.val; rw [hi.2]; omega

/-- The shift row: the window's one block is the whole array, at every point. -/
theorem iblk4_apply (t : Fin cfg3.N) (u : Fin 1) (j : Fin 256) :
    (iblk3 V c 4 t : Vec Ideal S1x256 .f32) (ix2 u j) = (V c main_v12 : S1x256.Idx → EReal) (ix2 u j) := by
  have hi := (idx3 t).2.2.2.2.2.2.2.2.1
  unfold iblk3
  rw [View.read_apply]
  show V c main_v12 _ = V c main_v12 _
  congr 1
  funext a
  apply Fin.ext
  match a with
  | ⟨0, _⟩ => show win3_4.index t (0 : Fin 2) * 1 + 1 * u.val = u.val; rw [hi.1]; omega
  | ⟨1, _⟩ => show win3_4.index t (1 : Fin 2) * 256 + 1 * j.val = j.val; rw [hi.2]; omega

/-- The output gate's weights: the window's one block is the whole array, at every point. -/
theorem iblk7_apply (t : Fin cfg3.N) (u : Fin 256) (j : Fin 256) :
    (iblk3 V c 7 t : Vec Ideal S256x256 .f32) (ix2 u j) = (V c main_arg18 : S256x256.Idx → EReal) (ix2 u j) := by
  have hi := (idx3 t).2.2.2.2.2.2.2.2.2.1
  unfold iblk3
  rw [View.read_apply]
  show V c main_arg18 _ = V c main_arg18 _
  congr 1
  funext a
  apply Fin.ext
  match a with
  | ⟨0, _⟩ => show win3_7.index t (0 : Fin 2) * 256 + 1 * u.val = u.val; rw [hi.1]; omega
  | ⟨1, _⟩ => show win3_7.index t (1 : Fin 2) * 256 + 1 * j.val = j.val; rw [hi.2]; omega

/-- The output gate's bias row: the window's one block is the whole array, at every point. -/
theorem iblk8_apply (t : Fin cfg3.N) (u : Fin 1) (j : Fin 256) :
    (iblk3 V c 8 t : Vec Ideal S1x256 .f32) (ix2 u j) = (V c main_v6 : S1x256.Idx → EReal) (ix2 u j) := by
  have hi := (idx3 t).2.2.2.2.2.2.2.2.2.2.1
  unfold iblk3
  rw [View.read_apply]
  show V c main_v6 _ = V c main_v6 _
  congr 1
  funext a
  apply Fin.ext
  match a with
  | ⟨0, _⟩ => show win3_8.index t (0 : Fin 2) * 1 + 1 * u.val = u.val; rw [hi.1]; omega
  | ⟨1, _⟩ => show win3_8.index t (1 : Fin 2) * 256 + 1 * j.val = j.val; rw [hi.2]; omega

/-- The projection's column: the window's one block is the whole array, at every point. -/
theorem iblk9_apply (t : Fin cfg3.N) (u : Fin 256) (j : Fin 1) :
    (iblk3 V c 9 t : Vec Ideal S256x1 .f32) (ix2 u j) = (V c main_arg12 : S256x1.Idx → EReal) (ix2 u j) := by
  have hi := (idx3 t).2.2.2.2.2.2.2.2.2.2.2.1
  unfold iblk3
  rw [View.read_apply]
  show V c main_arg12 _ = V c main_arg12 _
  congr 1
  funext a
  apply Fin.ext
  match a with
  | ⟨0, _⟩ => show win3_9.index t (0 : Fin 2) * 256 + 1 * u.val = u.val; rw [hi.1]; omega
  | ⟨1, _⟩ => show win3_9.index t (1 : Fin 2) * 1 + 1 * j.val = j.val; rw [hi.2]; omega

/-- The projection's bias: the window's one block is the whole array, at every point. -/
theorem iblk10_apply (t : Fin cfg3.N) (u : Fin 1) (j : Fin 1) :
    (iblk3 V c 10 t : Vec Ideal S1x1 .f32) (ix2 u j) = (V c main_v13 : S1x1.Idx → EReal) (ix2 u j) := by
  have hi := (idx3 t).2.2.2.2.2.2.2.2.2.2.2.2
  unfold iblk3
  rw [View.read_apply]
  show V c main_v13 _ = V c main_v13 _
  congr 1
  funext a
  apply Fin.ext
  match a with
  | ⟨0, _⟩ => show win3_10.index t (0 : Fin 2) * 1 + 1 * u.val = u.val; rw [hi.1]; omega
  | ⟨1, _⟩ => show win3_10.index t (1 : Fin 2) * 1 + 1 * j.val = j.val; rw [hi.2]; omega

/-! ## The two results as whole-array functions -/

/-- The third activation: the pre-activation normalised by the column statistics found, scaled, shifted, rectified. -/
def A3 : Mat 65536 256 :=
  normAct (toRow1 (V c main_v52)) (toRow1 (V c main_v58)) (toRow1 (V c main_v11)) (toRow1 (V c main_v12))
    (toMat (V c main_v44_1))

/-- The gated projection: the logistic gate of the third activation's affine image, times the one-column affine
    image of the three activations' sum, the same factor along each row. -/
def Pp : Mat 65536 256 := fun r j =>
  sigm (lin (A3 V c) (toMat (V c main_arg18)) (toRow1 (V c main_v6))) r j
    * lin (fun r' q => (toMat (V c main_v29_0) r' q + toMat (V c main_v44_0) r' q) + A3 V c r' q)
        (toMat (V c main_arg12)) (toRow1 (V c main_v13)) r 0

/-! ## What each point writes back -/

/-- Where entry (y, j) of an output's block at point t sits in the output array: row 2048·t + y, column j. -/
theorem emb11 (t : Fin cfg3.N) (y : Fin 2048) (j : Fin 256) :
    (((cfg3.win 11).blk t).view.emb (ix2 y j) : S65536x256.Idx) = ix2 ⟨2048 * t.val + y.val, row_lt (pt_lt t) y⟩ j := by
  have hi := (idx3 t).2.2.2.1
  funext a
  apply Fin.ext
  match a with
  | ⟨0, _⟩ => show win3_11.index t (0 : Fin 2) * 2048 + 1 * y.val = 2048 * t.val + y.val; rw [hi.1]; omega
  | ⟨1, _⟩ => show win3_11.index t (1 : Fin 2) * 256 + 1 * j.val = j.val; rw [hi.2]; omega

theorem emb12 (t : Fin cfg3.N) (y : Fin 2048) (j : Fin 256) :
    (((cfg3.win 12).blk t).view.emb (ix2 y j) : S65536x256.Idx) = ix2 ⟨2048 * t.val + y.val, row_lt (pt_lt t) y⟩ j := by
  have hi := (idx3 t).2.2.2.2.1
  funext a
  apply Fin.ext
  match a with
  | ⟨0, _⟩ => show win3_12.index t (0 : Fin 2) * 2048 + 1 * y.val = 2048 * t.val + y.val; rw [hi.1]; omega
  | ⟨1, _⟩ => show win3_12.index t (1 : Fin 2) * 256 + 1 * j.val = j.val; rw [hi.2]; omega

/-- Point t writes back row block t of the third activation. -/
theorem flushed11 (t : Fin cfg3.N) :
    (dat3 V c).flushed 11 t = ((cfg3.win 11).blk t).view.read (Elt Ideal) (ofMat (A3 V c)) := by
  show (cfg3.win 11).cut (grid3.coords t) ((dat3 V c).after 11 t) = _
  rw [after3_11]
  unfold out3_11
  rw [View.canon_unit_zero hz]
  simp only [View.ld_unit_zero (S := S2048x256) hz, View.ld_unit_zero (S := S1x256) hz]
  refine ext_blk _ _ fun y j => ?_
  show k3_pay2 (F := Ideal) (iblk3 V c 0 t) (iblk3 V c 2 t) (iblk3 V c 1 t) (iblk3 V c 3 t) (iblk3 V c 4 t) (ix2 y j)
    = ofMat (A3 V c) (((cfg3.win 11).blk t).view.emb (ix2 y j))
  rw [emb11 t y j]
  exact act_blk (iblk3 V c 0 t) (iblk3 V c 1 t) (iblk3 V c 2 t) (iblk3 V c 3 t) (iblk3 V c 4 t)
    (toRow1 (V c main_v52)) (toRow1 (V c main_v58)) (toRow1 (V c main_v11)) (toRow1 (V c main_v12))
    (toMat (V c main_v44_1)) t.val (pt_lt t)
    (iblk0_apply V c t) (iblk1_apply V c t 0) (iblk2_apply V c t 0) (iblk3_apply V c t 0) (iblk4_apply V c t 0) y j

/-- Point t writes back row block t of the gated projection. -/
theorem flushed12 (t : Fin cfg3.N) :
    (dat3 V c).flushed 12 t = ((cfg3.win 12).blk t).view.read (Elt Ideal) (ofMat (Pp V c)) := by
  show (cfg3.win 12).cut (grid3.coords t) ((dat3 V c).after 12 t) = _
  rw [after3_12]
  unfold out3_12
  rw [View.canon_unit_zero hz]
  simp only [View.ld_unit_zero (S := S2048x256) hz, View.ld_unit_zero (S := S1x256) hz,
    View.ld_unit_zero (S := S256x256) hz, View.ld_unit_zero (S := S256x1) hz, View.ld_unit_zero (S := S1x1) hz]
  refine ext_blk _ _ fun y j => ?_
  show k3_pay1 (F := Ideal)
      (k3_pay2 (F := Ideal) (iblk3 V c 0 t) (iblk3 V c 2 t) (iblk3 V c 1 t) (iblk3 V c 3 t) (iblk3 V c 4 t))
      (k3_pay3 (F := Ideal) (iblk3 V c 0 t) (iblk3 V c 2 t) (iblk3 V c 1 t) (iblk3 V c 3 t) (iblk3 V c 4 t)
        (iblk3 V c 7 t) (iblk3 V c 8 t))
      (iblk3 V c 5 t) (iblk3 V c 6 t) (iblk3 V c 9 t) (iblk3 V c 10 t) (ix2 y j)
    = ofMat (Pp V c) (((cfg3.win 12).blk t).view.emb (ix2 y j))
  rw [emb12 t y j]
  exact prod_blk (iblk3 V c 0 t) (iblk3 V c 5 t) (iblk3 V c 6 t) (iblk3 V c 1 t) (iblk3 V c 2 t) (iblk3 V c 3 t)
    (iblk3 V c 4 t) (iblk3 V c 8 t) (iblk3 V c 7 t) (iblk3 V c 9 t) (iblk3 V c 10 t)
    (toRow1 (V c main_v52)) (toRow1 (V c main_v58)) (toRow1 (V c main_v11)) (toRow1 (V c main_v12))
    (toRow1 (V c main_v6)) (toMat (V c main_v44_1)) (toMat (V c main_v29_0)) (toMat (V c main_v44_0))
    (toMat (V c main_arg18)) (toMat (V c main_arg12)) (toRow1 (V c main_v13)) t.val (pt_lt t)
    (iblk0_apply V c t) (iblk1_apply V c t 0) (iblk2_apply V c t 0) (iblk3_apply V c t 0) (iblk4_apply V c t 0)
    (iblk5_apply V c t) (iblk6_apply V c t) (iblk7_apply V c t) (iblk8_apply V c t 0)
    (fun q => iblk9_apply V c t q 0) (iblk10_apply V c t 0 0) y j

/-! ## The blocks tile the arrays -/

/-- An index of the first output array is in point t's block iff each coordinate is in the block's range. -/
theorem mem_blk11 (t : Fin cfg3.N) (i : S65536x256.Idx) :
    i ∈ ((cfg3.win 11).blk t).view.set ↔ ∀ a : Fin 2, win3_11.index t a * S2048x256.size a ≤ (i a).val
      ∧ (i a).val < win3_11.index t a * S2048x256.size a + S2048x256.size a := by
  show i ∈ ((View.whole main_v59_0).slice (win3_11.rect t)).set ↔ _
  rw [View.set_slice_whole, Rect.mem_set_unit]
  exact Iff.rfl

theorem mem_blk12 (t : Fin cfg3.N) (i : S65536x256.Idx) :
    i ∈ ((cfg3.win 12).blk t).view.set ↔ ∀ a : Fin 2, win3_12.index t a * S2048x256.size a ≤ (i a).val
      ∧ (i a).val < win3_12.index t a * S2048x256.size a + S2048x256.size a := by
  show i ∈ ((View.whole main_v59_1).slice (win3_12.rect t)).set ↔ _
  rw [View.set_slice_whole, Rect.mem_set_unit]
  exact Iff.rfl

/-- Row r of the batch is in the block of point r / 2048. -/
theorem cover11 (i : S65536x256.Idx) :
    ∃ t : Fin cfg3.N, (cfg3.win 11).flush t = true ∧ i ∈ ((cfg3.win 11).blk t).view.set := by
  have hi0 : (i 0).val < 65536 := (i 0).isLt
  have hi1 : (i 1).val < 256 := (i 1).isLt
  obtain ⟨t, ht⟩ : ∃ t : Fin cfg3.N, t.val = (i 0).val / 2048 :=
    ⟨⟨(i 0).val / 2048, by rw [show cfg3.N = 32 from N_3]; omega⟩, rfl⟩
  refine ⟨t, flush3_11 t, ?_⟩
  rw [mem_blk11]
  have hi := (idx3 t).2.2.2.1
  intro a
  match a with
  | ⟨0, _⟩ =>
    show win3_11.index t (0 : Fin 2) * 2048 ≤ (i 0).val ∧ (i 0).val < win3_11.index t (0 : Fin 2) * 2048 + 2048
    rw [hi.1, ht]; omega
  | ⟨1, _⟩ =>
    show win3_11.index t (1 : Fin 2) * 256 ≤ (i 1).val ∧ (i 1).val < win3_11.index t (1 : Fin 2) * 256 + 256
    rw [hi.2]; omega

theorem cover12 (i : S65536x256.Idx) :
    ∃ t : Fin cfg3.N, (cfg3.win 12).flush t = true ∧ i ∈ ((cfg3.win 12).blk t).view.set := by
  have hi0 : (i 0).val < 65536 := (i 0).isLt
  have hi1 : (i 1).val < 256 := (i 1).isLt
  obtain ⟨t, ht⟩ : ∃ t : Fin cfg3.N, t.val = (i 0).val / 2048 :=
    ⟨⟨(i 0).val / 2048, by rw [show cfg3.N = 32 from N_3]; omega⟩, rfl⟩
  refine ⟨t, flush3_12 t, ?_⟩
  rw [mem_blk12]
  have hi := (idx3 t).2.2.2.2.1
  intro a
  match a with
  | ⟨0, _⟩ =>
    show win3_12.index t (0 : Fin 2) * 2048 ≤ (i 0).val ∧ (i 0).val < win3_12.index t (0 : Fin 2) * 2048 + 2048
    rw [hi.1, ht]; omega
  | ⟨1, _⟩ =>
    show win3_12.index t (1 : Fin 2) * 256 ≤ (i 1).val ∧ (i 1).val < win3_12.index t (1 : Fin 2) * 256 + 256
    rw [hi.2]; omega

/-! ## The arrays after the launch -/

/-- The first output array ends holding the third activation. -/
theorem arr11 : (dat3 V c).arrAt 11 cfg3.N = ofMat (A3 V c) :=
  (dat3 V c).arrAt_eq_of_cover 11 (ofMat (A3 V c)) (fun t _ => flushed11 V c t) (cover11)

/-- The second output array ends holding the gated projection. -/
theorem arr12 : (dat3 V c).arrAt 12 cfg3.N = ofMat (Pp V c) :=
  (dat3 V c).arrAt_eq_of_cover 12 (ofMat (Pp V c)) (fun t _ => flushed12 V c t) (cover12)

end Cert.KernelIdeal.Reg3

end
-- ==== Proof.KFinal.lean ====
/-
  The region facts, from the four launches' value modules.
-/
import proofs.«173010_j4303557230935_2_alg».proof.Proof.KValue
import proofs.«173010_j4303557230935_2_alg».proof.Proof.KReg0
import proofs.«173010_j4303557230935_2_alg».proof.Proof.KReg1
import proofs.«173010_j4303557230935_2_alg».proof.Proof.KReg2
import proofs.«173010_j4303557230935_2_alg».proof.Proof.KReg3

noncomputable section

namespace Cert.KernelIdeal.KVal

open Cert.KernelIdeal Cert.KernelIdeal.Gen Cert.KernelIdeal.GenP Cert.Spec Idealize.ShloMosaic.TcCoe

/-- What each launch leaves in its output arrays, for any entry contents: the four value modules' theorems. -/
theorem regFacts : RegFacts where
  r0_6 := fun V c => Reg0.arr6 V c
  r0_7 := fun V c => Reg0.arr7 V c
  r0_8 := fun V c j => Reg0.arr8 V c j
  r0_9 := fun V c j => Reg0.arr9 V c j
  r1_7 := fun V c => Reg1.arr7 V c
  r1_8 := fun V c => Reg1.arr8 V c
  r1_9 := fun V c j => Reg1.arr9 V c j
  r1_10 := fun V c j => Reg1.arr10 V c j
  r2_16 := fun V c => Reg2.arr16 V c
  r2_17 := fun V c => Reg2.arr17 V c
  r2_18 := fun V c j => Reg2.arr18 V c j
  r2_19 := fun V c j => Reg2.arr19 V c j
  r3_11 := fun V c => Reg3.arr11 V c
  r3_12 := fun V c => Reg3.arr12 V c

end Cert.KernelIdeal.KVal

end
-- ==== Proof.RefTerms.lean ====
/-
  The reference program's stages as named compositions of its host operations, in the order and grouping the
  program applies them. Each definition is one stage of the computation: a row vector broadcast over the batch,
  an affine map of the rows, a column mean, a column variance (with the guard on the divisor that the variance
  routine carries), the normalise-scale-shift-rectify step, the logistic function, and the three stages and the
  final product built from them. Two facts are proved about these terms elsewhere: the program's run leaves each
  result buffer at its term of the argument buffers, and each term, on the extended reals, is the corresponding
  function of the specification.
-/
import proofs.«173010_j4303557230935_2_alg».proof.ReferenceIdeal

noncomputable section

namespace Cert.ReferenceIdeal.Terms

open Idealize.ShloMosaic Cert.ReferenceIdeal

variable {F : FTy → Type} [FloatOps F] [Facts]

open Facts₀ Facts

/-- A row of 256 entries repeated down the 65536 rows. -/
def rowB (b : FVec F S256 .f32) : FVec F S65536x256 .f32 :=
  broadcastInDim S65536x256 ![0, 1] bcast_S1x256_S65536x256_0_1 (broadcastInDim S1x256 ![1] bcast_S256_S1x256_1 b)

/-- One float word in every entry of a 65536 × 256 array. -/
def splat (w : BitVec 32) : FVec F S65536x256 .f32 :=
  broadcastInDim S65536x256 ![] bcast_S_S65536x256 (constant S_ .f32 w)

/-- One float word in every entry of a row of 256. -/
def splatRow (w : BitVec 32) : FVec F S256 .f32 :=
  broadcastInDim S256 ![] bcast_S_S256 (constant S_ .f32 w)

/-- The product of a 65536 × 256 array with a 256 × 256 matrix. -/
def mmH (X : FVec F S65536x256 .f32) (W : FVec F S256x256 .f32) : FVec F S65536x256 .f32 :=
  Host.dotGeneral dot_S65536x256_S256x256_S65536x256_1_0_0_1_n_n none X W

/-- The affine map of the rows: the product plus the bias row. -/
def linH (X : FVec F S65536x256 .f32) (W : FVec F S256x256 .f32) (b : FVec F S256 .f32) : FVec F S65536x256 .f32 :=
  addf (mmH X W) (rowB b)

/-- The column sums, from zero. -/
def sumH (Z : FVec F S65536x256 .f32) : FVec F S256 .f32 :=
  Host.reduceAdd Z (constant S_ .f32 0x00000000#32) reducesTo_S65536x256_S256_d0 h_S_

/-- The column means: the column sums divided by 65536. -/
def meanH (Z : FVec F S65536x256 .f32) : FVec F S256 .f32 :=
  Host.divf (sumH Z) (splatRow 0x47800000#32)

/-- The column variance as the variance routine computes it, with `d` the correction it subtracts from the
    divisor: the mean of the squared deviations from the column mean (recomputed inside), the sum divided by
    65536 − d where that is positive, and a fallback word elsewhere. -/
def varH (Z : FVec F S65536x256 .f32) (d : IVec S_ 32) : FVec F S256 .f32 :=
  let v3 : FVec F S1x256 .f32 := Host.divf (broadcastInDim S1x256 ![1] bcast_S256_S1x256_1 (sumH Z))
    (broadcastInDim S1x256 ![] bcast_S_S1x256 (constant S_ .f32 0x47800000#32))
  let v5 : FVec F S65536x256 .f32 := subf Z (broadcastInDim S65536x256 ![0, 1] bcast_S1x256_S65536x256_0_1 v3)
  let v8 : FVec F S_ .f32 := subf (constant S_ .f32 0x47800000#32) (sitofp .f32 d)
  let v11 : FVec F S256 .f32 := Host.divf
    (Host.reduceAdd (mulf v5 v5) (constant S_ .f32 0x00000000#32) reducesTo_S65536x256_S256_d0 h_S_)
    (broadcastInDim S256 ![] bcast_S_S256 v8)
  select (broadcastInDim S256 ![] bcast_S_S256 (cmpf .ogt v8 (constant S_ .f32 0x00000000#32))) v11
    (broadcastInDim S256 ![] bcast_S_S256 (id (constant S_ .f32 0x7FC00000#32)))

/-- Normalise every column by the given statistics, scale by `g`, shift by `be`, then the leaky rectifier. -/
def normActH (Z : FVec F S65536x256 .f32) (mu v g be : FVec F S256 .f32) : FVec F S65536x256 .f32 :=
  let y : FVec F S65536x256 .f32 :=
    addf (mulf (mulf (subf Z (rowB mu)) (rowB (Host.rsqrt (addf v (splatRow 0x3727C5AC#32))))) (rowB g)) (rowB be)
  select (cmpf .ogt y (splat 0x00000000#32)) y (mulf (splat 0x3DCCCCCD#32) y)

/-- The logistic function as negate, exponential, add one, divide one by it. -/
def sigmH (Z : FVec F S65536x256 .f32) : FVec F S65536x256 .f32 :=
  Host.divf (splat 0x3F800000#32) (addf (splat 0x3F800000#32) (Host.exp (Host.negf Z)))

/-! ## The program's values, stage by stage, from the twenty-six argument arrays -/

section Stages

variable (X P C S : FVec F S65536x256 .f32) (Wx : FVec F S256x256 .f32) (bx : FVec F S256 .f32)
  (Wh : FVec F S256x256 .f32) (bh : FVec F S256 .f32) (WLC : FVec F S256x256 .f32) (bLC : FVec F S256 .f32)
  (WC : FVec F S256x256 .f32) (bC : FVec F S256 .f32) (WP : FVec F S256x1 .f32) (bP : FVec F S1 .f32)
  (Wf : FVec F S256x256 .f32) (bf : FVec F S256 .f32) (Wi : FVec F S256x256 .f32) (bi : FVec F S256 .f32)
  (Wo : FVec F S256x256 .f32) (bo : FVec F S256 .f32) (g1 be1 g2 be2 g3 be3 : FVec F S256 .f32)

/-- The correction the program passes to the variance routine: the integer zero. -/
def d0 : IVec S_ 32 := constantI S_ 32 0#32

def tU : FVec F S65536x256 .f32 := linH X Wx bx
def tZ1 : FVec F S65536x256 .f32 := addf (addf (tU X Wx bx) (mmH P Wh)) (rowB bh)
def tA1 : FVec F S65536x256 .f32 :=
  normActH (tZ1 X P Wx bx Wh bh) (meanH (tZ1 X P Wx bx Wh bh)) (varH (tZ1 X P Wx bx Wh bh) d0) g1 be1
def tZ2 : FVec F S65536x256 .f32 := linH (tA1 X P Wx bx Wh bh g1 be1) WLC bLC
def tA2 : FVec F S65536x256 .f32 :=
  normActH (tZ2 X P Wx bx Wh bh WLC bLC g1 be1) (meanH (tZ2 X P Wx bx Wh bh WLC bLC g1 be1))
    (varH (tZ2 X P Wx bx Wh bh WLC bLC g1 be1) d0) g2 be2
def tZ3 : FVec F S65536x256 .f32 :=
  addf (addf (addf (mulf (sigmH (linH C Wf bf)) S)
      (mulf (mulf (sigmH (linH (tU X Wx bx) Wi bi)) (splat 0x3DCCCCCD#32))
        (linH (tA2 X P Wx bx Wh bh WLC bLC g1 be1 g2 be2) WLC bLC)))
    (mmH (tU X Wx bx) WC)) (rowB bC)
def tA3 : FVec F S65536x256 .f32 :=
  normActH (tZ3 X P C S Wx bx Wh bh WLC bLC WC bC Wf bf Wi bi g1 be1 g2 be2)
    (meanH (tZ3 X P C S Wx bx Wh bh WLC bLC WC bC Wf bf Wi bi g1 be1 g2 be2))
    (varH (tZ3 X P C S Wx bx Wh bh WLC bLC WC bC Wf bf Wi bi g1 be1 g2 be2) d0) g3 be3
def tP : FVec F S65536x256 .f32 :=
  mulf (sigmH (linH (tA3 X P C S Wx bx Wh bh WLC bLC WC bC Wf bf Wi bi g1 be1 g2 be2 g3 be3) Wo bo))
    (broadcastInDim S65536x256 ![0, 1] bcast_S65536x1_S65536x256_0_1
      (addf (Host.dotGeneral dot_S65536x256_S256x1_S65536x1_1_0_0_1_n_n none
          (addf (addf (tA1 X P Wx bx Wh bh g1 be1)
              (tA3 X P C S Wx bx Wh bh WLC bLC WC bC Wf bf Wi bi g1 be1 g2 be2 g3 be3))
            (tA2 X P Wx bx Wh bh WLC bLC g1 be1 g2 be2)) WP)
        (broadcastInDim S65536x1 ![0, 1] bcast_S1x1_S65536x1_0_1 (broadcastInDim S1x1 ![1] bcast_S1_S1x1_1 bP))))

end Stages

end Cert.ReferenceIdeal.Terms

end
-- ==== Proof.RefRunOps.lean ====
/-
  The reference program as a straight line of host operations, and its run.

  The program calls three outlined functions: the column variance (which itself calls a selection routine) and an
  elementwise selection. A call executes the callee's body on the operands, each value of the body in a buffer of
  its own named by the call's record; so the program is the list of its own operations with each call replaced,
  in place, by the callee's operations over that call's record. The list is given in nine consecutive segments,
  cut where a stage of the computation ends (and where the printed program is cut), so that what a stage leaves
  in its result buffer can be computed from what the segment reads, without opening the other segments.

  Proved here: the program equals the straight line of the concatenated segments; every operation touches only
  device buffers and determines its results; hence every fair execution terminates with each buffer at the fold
  of the operations over the launch contents. Also: the fold over a concatenation is the composition of the folds,
  and for each segment the list of buffers it writes, so that any other buffer is unchanged across it.
-/
import proofs.«173010_j4303557230935_2_alg».proof.ReferenceIdeal
import Idealize.ShloMosaic.Lib.StableHlo.Run

noncomputable section

namespace Cert.ReferenceIdeal.Run

open Cert.ReferenceIdeal Idealize.ShloMosaic Idealize.ShloMosaic.TcCoe Idealize.SL.Sem Idealize.ShloMosaic.StableHlo

variable {F : FTy → Type} [FloatOps F] [Facts]

open Facts₀ Facts

/-! ## The operations, by segment -/

/-- The first affine stage: the product of the input with its weights plus the bias row (%3), the product of the previous state with its weights added, then the second bias row: %0 … %8. -/
abbrev s0 : List (HloOp τ sig (Elt F)) :=
  [ StableHlo.binary main_arg0 main_arg4 main_v0 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    StableHlo.unary main_arg5 main_v1 (broadcastInDim S1x256 ![1] bcast_S256_S1x256_1 : (⟨S256, .f32⟩ : BufTy).Contents (Elt F) → (⟨S1x256, .f32⟩ : BufTy).Contents (Elt F)),
    StableHlo.unary main_v1 main_v2 (broadcastInDim S65536x256 ![0, 1] bcast_S1x256_S65536x256_0_1 : (⟨S1x256, .f32⟩ : BufTy).Contents (Elt F) → (⟨S65536x256, .f32⟩ : BufTy).Contents (Elt F)),
    StableHlo.binary main_v0 main_v2 main_v3 (addf : (⟨S65536x256, .f32⟩ : BufTy).Contents (Elt F) → (⟨S65536x256, .f32⟩ : BufTy).Contents (Elt F) → (⟨S65536x256, .f32⟩ : BufTy).Contents (Elt F)),
    StableHlo.binary main_arg1 main_arg6 main_v4 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    StableHlo.binary main_v3 main_v4 main_v5 (addf : (⟨S65536x256, .f32⟩ : BufTy).Contents (Elt F) → (⟨S65536x256, .f32⟩ : BufTy).Contents (Elt F) → (⟨S65536x256, .f32⟩ : BufTy).Contents (Elt F)),
    StableHlo.unary main_arg7 main_v6 (broadcastInDim S1x256 ![1] bcast_S256_S1x256_1 : (⟨S256, .f32⟩ : BufTy).Contents (Elt F) → (⟨S1x256, .f32⟩ : BufTy).Contents (Elt F)),
    StableHlo.unary main_v6 main_v7 (broadcastInDim S65536x256 ![0, 1] bcast_S1x256_S65536x256_0_1 : (⟨S1x256, .f32⟩ : BufTy).Contents (Elt F) → (⟨S65536x256, .f32⟩ : BufTy).Contents (Elt F)),
    StableHlo.binary main_v5 main_v7 main_v8 (addf : (⟨S65536x256, .f32⟩ : BufTy).Contents (Elt F) → (⟨S65536x256, .f32⟩ : BufTy).Contents (Elt F) → (⟨S65536x256, .f32⟩ : BufTy).Contents (Elt F)) ]

/-- The first normalisation: the column means of %8, the column variance of %8 by the variance routine (its own operations and the selection routine's, over that call's buffers), then subtract, scale by the reciprocal root, scale, shift and rectify: up to %32. -/
abbrev s1 : List (HloOp τ sig (Elt F)) :=
  [ StableHlo.nullary main_cst (constant S_ .f32 0x00000000#32),
    StableHlo.binary main_v8 main_cst main_v9 ((fun x v => Host.reduceAdd x v reducesTo_S65536x256_S256_d0 h_S_) : (⟨S65536x256, .f32⟩ : BufTy).Contents (Elt F) → (⟨S_, .f32⟩ : BufTy).Contents (Elt F) → (⟨S256, .f32⟩ : BufTy).Contents (Elt F)),
    StableHlo.nullary main_cst_0 (constant S_ .f32 0x47800000#32),
    StableHlo.unary main_cst_0 main_v10 (broadcastInDim S256 ![] bcast_S_S256 : (⟨S_, .f32⟩ : BufTy).Contents (Elt F) → (⟨S256, .f32⟩ : BufTy).Contents (Elt F)),
    StableHlo.binary main_v9 main_v10 main_v11 (Host.divf : (⟨S256, .f32⟩ : BufTy).Contents (Elt F) → (⟨S256, .f32⟩ : BufTy).Contents (Elt F) → (⟨S256, .f32⟩ : BufTy).Contents (Elt F)),
    StableHlo.nullary main_c (constantI S_ 32 0#32),
    StableHlo.TRef.nullary main_call0.cst (constant S_ .f32 0x00000000#32),
    StableHlo.TRef.binary (TRef.of main_v8 : TRef sig ⟨S65536x256, .f32⟩) main_call0.cst main_call0.v0 (fun x v => Host.reduceAdd x v reducesTo_S65536x256_S256_d0 h_S_),
    StableHlo.TRef.unary main_call0.v0 main_call0.v1 (broadcastInDim S1x256 ![1] bcast_S256_S1x256_1),
    StableHlo.TRef.nullary main_call0.cst_0 (constant S_ .f32 0x47800000#32),
    StableHlo.TRef.unary main_call0.cst_0 main_call0.v2 (broadcastInDim S1x256 ![] bcast_S_S1x256),
    StableHlo.TRef.binary main_call0.v1 main_call0.v2 main_call0.v3 Host.divf,
    StableHlo.TRef.unary main_call0.v3 main_call0.v4 (broadcastInDim S65536x256 ![0, 1] bcast_S1x256_S65536x256_0_1),
    StableHlo.TRef.binary (TRef.of main_v8 : TRef sig ⟨S65536x256, .f32⟩) main_call0.v4 main_call0.v5 subf,
    StableHlo.TRef.binary main_call0.v5 main_call0.v5 main_call0.v6 mulf,
    StableHlo.TRef.unary (TRef.of main_c : TRef sig ⟨S_, .i32⟩) main_call0.v7 (sitofp .f32),
    StableHlo.TRef.nullary main_call0.cst_1 (constant S_ .f32 0x47800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S65536x256_S256_d0 h_S_),
    StableHlo.TRef.unary main_call0.v8 main_call0.v10 (broadcastInDim S256 ![] bcast_S_S256),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S256 ![] bcast_S_S256),
    StableHlo.TRef.ternary main_call0.v12 main_call0.v11 main_call0.call0.v1 main_call0.call0.v2 (fun p a b => select (broadcastInDim S256 ![] bcast_S_S256 p) a b),
    StableHlo.unary main_v11 main_v13 (broadcastInDim S1x256 ![1] bcast_S256_S1x256_1 : (⟨S256, .f32⟩ : BufTy).Contents (Elt F) → (⟨S1x256, .f32⟩ : BufTy).Contents (Elt F)),
    StableHlo.unary main_v13 main_v14 (broadcastInDim S65536x256 ![0, 1] bcast_S1x256_S65536x256_0_1 : (⟨S1x256, .f32⟩ : BufTy).Contents (Elt F) → (⟨S65536x256, .f32⟩ : BufTy).Contents (Elt F)),
    StableHlo.binary main_v8 main_v14 main_v15 (subf : (⟨S65536x256, .f32⟩ : BufTy).Contents (Elt F) → (⟨S65536x256, .f32⟩ : BufTy).Contents (Elt F) → (⟨S65536x256, .f32⟩ : BufTy).Contents (Elt F)),
    StableHlo.nullary main_cst_1 (constant S_ .f32 0x3727C5AC#32),
    StableHlo.unary main_cst_1 main_v16 (broadcastInDim S256 ![] bcast_S_S256 : (⟨S_, .f32⟩ : BufTy).Contents (Elt F) → (⟨S256, .f32⟩ : BufTy).Contents (Elt F)),
    StableHlo.binary main_v12 main_v16 main_v17 (addf : (⟨S256, .f32⟩ : BufTy).Contents (Elt F) → (⟨S256, .f32⟩ : BufTy).Contents (Elt F) → (⟨S256, .f32⟩ : BufTy).Contents (Elt F)),
    StableHlo.unary main_v17 main_v18 (Host.rsqrt : (⟨S256, .f32⟩ : BufTy).Contents (Elt F) → (⟨S256, .f32⟩ : BufTy).Contents (Elt F)),
    StableHlo.unary main_v18 main_v19 (broadcastInDim S1x256 ![1] bcast_S256_S1x256_1 : (⟨S256, .f32⟩ : BufTy).Contents (Elt F) → (⟨S1x256, .f32⟩ : BufTy).Contents (Elt F)),
    StableHlo.unary main_v19 main_v20 (broadcastInDim S65536x256 ![0, 1] bcast_S1x256_S65536x256_0_1 : (⟨S1x256, .f32⟩ : BufTy).Contents (Elt F) → (⟨S65536x256, .f32⟩ : BufTy).Contents (Elt F)),
    StableHlo.binary main_v15 main_v20 main_v21 (mulf : (⟨S65536x256, .f32⟩ : BufTy).Contents (Elt F) → (⟨S65536x256, .f32⟩ : BufTy).Contents (Elt F) → (⟨S65536x256, .f32⟩ : BufTy).Contents (Elt F)),
    StableHlo.unary main_arg20 main_v22 (broadcastInDim S1x256 ![1] bcast_S256_S1x256_1 : (⟨S256, .f32⟩ : BufTy).Contents (Elt F) → (⟨S1x256, .f32⟩ : BufTy).Contents (Elt F)),
    StableHlo.unary main_v22 main_v23 (broadcastInDim S65536x256 ![0, 1] bcast_S1x256_S65536x256_0_1 : (⟨S1x256, .f32⟩ : BufTy).Contents (Elt F) → (⟨S65536x256, .f32⟩ : BufTy).Contents (Elt F)),
    StableHlo.binary main_v21 main_v23 main_v24 (mulf : (⟨S65536x256, .f32⟩ : BufTy).Contents (Elt F) → (⟨S65536x256, .f32⟩ : BufTy).Contents (Elt F) → (⟨S65536x256, .f32⟩ : BufTy).Contents (Elt F)),
    StableHlo.unary main_arg21 main_v25 (broadcastInDim S1x256 ![1] bcast_S256_S1x256_1 : (⟨S256, .f32⟩ : BufTy).Contents (Elt F) → (⟨S1x256, .f32⟩ : BufTy).Contents (Elt F)),
    StableHlo.unary main_v25 main_v26 (broadcastInDim S65536x256 ![0, 1] bcast_S1x256_S65536x256_0_1 : (⟨S1x256, .f32⟩ : BufTy).Contents (Elt F) → (⟨S65536x256, .f32⟩ : BufTy).Contents (Elt F)),
    StableHlo.binary main_v24 main_v26 main_v27 (addf : (⟨S65536x256, .f32⟩ : BufTy).Contents (Elt F) → (⟨S65536x256, .f32⟩ : BufTy).Contents (Elt F) → (⟨S65536x256, .f32⟩ : BufTy).Contents (Elt F)),
    StableHlo.nullary main_cst_2 (constant S_ .f32 0x00000000#32),
    StableHlo.unary main_cst_2 main_v28 (broadcastInDim S65536x256 ![] bcast_S_S65536x256 : (⟨S_, .f32⟩ : BufTy).Contents (Elt F) → (⟨S65536x256, .f32⟩ : BufTy).Contents (Elt F)),
    StableHlo.binary main_v27 main_v28 main_v29 (cmpf .ogt : (⟨S65536x256, .f32⟩ : BufTy).Contents (Elt F) → (⟨S65536x256, .f32⟩ : BufTy).Contents (Elt F) → (⟨S65536x256, .i1⟩ : BufTy).Contents (Elt F)),
    StableHlo.nullary main_cst_3 (constant S_ .f32 0x3DCCCCCD#32),
    StableHlo.unary main_cst_3 main_v30 (broadcastInDim S65536x256 ![] bcast_S_S65536x256 : (⟨S_, .f32⟩ : BufTy).Contents (Elt F) → (⟨S65536x256, .f32⟩ : BufTy).Contents (Elt F)),
    StableHlo.binary main_v30 main_v27 main_v31 (mulf : (⟨S65536x256, .f32⟩ : BufTy).Contents (Elt F) → (⟨S65536x256, .f32⟩ : BufTy).Contents (Elt F) → (⟨S65536x256, .f32⟩ : BufTy).Contents (Elt F)),
    StableHlo.TRef.ternary (TRef.of main_v29 : TRef sig ⟨S65536x256, .i1⟩) (TRef.of main_v27 : TRef sig ⟨S65536x256, .f32⟩) (TRef.of main_v31 : TRef sig ⟨S65536x256, .f32⟩) main_call1.v0 select ]

/-- The second affine stage, of %32: %33 … %36. -/
abbrev s2 : List (HloOp τ sig (Elt F)) :=
  [ StableHlo.binary main_v32 main_arg8 main_v33 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    StableHlo.unary main_arg9 main_v34 (broadcastInDim S1x256 ![1] bcast_S256_S1x256_1 : (⟨S256, .f32⟩ : BufTy).Contents (Elt F) → (⟨S1x256, .f32⟩ : BufTy).Contents (Elt F)),
    StableHlo.unary main_v34 main_v35 (broadcastInDim S65536x256 ![0, 1] bcast_S1x256_S65536x256_0_1 : (⟨S1x256, .f32⟩ : BufTy).Contents (Elt F) → (⟨S65536x256, .f32⟩ : BufTy).Contents (Elt F)),
    StableHlo.binary main_v33 main_v35 main_v36 (addf : (⟨S65536x256, .f32⟩ : BufTy).Contents (Elt F) → (⟨S65536x256, .f32⟩ : BufTy).Contents (Elt F) → (⟨S65536x256, .f32⟩ : BufTy).Contents (Elt F)) ]

/-- The second normalisation, first part: the column means and variance of %36, the deviation and the reciprocal root: up to %49. -/
abbrev s3a : List (HloOp τ sig (Elt F)) :=
  [ StableHlo.nullary main_cst_4 (constant S_ .f32 0x00000000#32),
    StableHlo.binary main_v36 main_cst_4 main_v37 ((fun x v => Host.reduceAdd x v reducesTo_S65536x256_S256_d0 h_S_) : (⟨S65536x256, .f32⟩ : BufTy).Contents (Elt F) → (⟨S_, .f32⟩ : BufTy).Contents (Elt F) → (⟨S256, .f32⟩ : BufTy).Contents (Elt F)),
    StableHlo.nullary main_cst_5 (constant S_ .f32 0x47800000#32),
    StableHlo.unary main_cst_5 main_v38 (broadcastInDim S256 ![] bcast_S_S256 : (⟨S_, .f32⟩ : BufTy).Contents (Elt F) → (⟨S256, .f32⟩ : BufTy).Contents (Elt F)),
    StableHlo.binary main_v37 main_v38 main_v39 (Host.divf : (⟨S256, .f32⟩ : BufTy).Contents (Elt F) → (⟨S256, .f32⟩ : BufTy).Contents (Elt F) → (⟨S256, .f32⟩ : BufTy).Contents (Elt F)),
    StableHlo.nullary main_c_6 (constantI S_ 32 0#32),
    StableHlo.TRef.nullary main_call2.cst (constant S_ .f32 0x00000000#32),
    StableHlo.TRef.binary (TRef.of main_v36 : TRef sig ⟨S65536x256, .f32⟩) main_call2.cst main_call2.v0 (fun x v => Host.reduceAdd x v reducesTo_S65536x256_S256_d0 h_S_),
    StableHlo.TRef.unary main_call2.v0 main_call2.v1 (broadcastInDim S1x256 ![1] bcast_S256_S1x256_1),
    StableHlo.TRef.nullary main_call2.cst_0 (constant S_ .f32 0x47800000#32),
    StableHlo.TRef.unary main_call2.cst_0 main_call2.v2 (broadcastInDim S1x256 ![] bcast_S_S1x256),
    StableHlo.TRef.binary main_call2.v1 main_call2.v2 main_call2.v3 Host.divf,
    StableHlo.TRef.unary main_call2.v3 main_call2.v4 (broadcastInDim S65536x256 ![0, 1] bcast_S1x256_S65536x256_0_1),
    StableHlo.TRef.binary (TRef.of main_v36 : TRef sig ⟨S65536x256, .f32⟩) main_call2.v4 main_call2.v5 subf,
    StableHlo.TRef.binary main_call2.v5 main_call2.v5 main_call2.v6 mulf,
    StableHlo.TRef.unary (TRef.of main_c_6 : TRef sig ⟨S_, .i32⟩) main_call2.v7 (sitofp .f32),
    StableHlo.TRef.nullary main_call2.cst_1 (constant S_ .f32 0x47800000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S65536x256_S256_d0 h_S_),
    StableHlo.TRef.unary main_call2.v8 main_call2.v10 (broadcastInDim S256 ![] bcast_S_S256),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S256 ![] bcast_S_S256),
    StableHlo.TRef.ternary main_call2.v12 main_call2.v11 main_call2.call0.v1 main_call2.call0.v2 (fun p a b => select (broadcastInDim S256 ![] bcast_S_S256 p) a b),
    StableHlo.unary main_v39 main_v41 (broadcastInDim S1x256 ![1] bcast_S256_S1x256_1 : (⟨S256, .f32⟩ : BufTy).Contents (Elt F) → (⟨S1x256, .f32⟩ : BufTy).Contents (Elt F)),
    StableHlo.unary main_v41 main_v42 (broadcastInDim S65536x256 ![0, 1] bcast_S1x256_S65536x256_0_1 : (⟨S1x256, .f32⟩ : BufTy).Contents (Elt F) → (⟨S65536x256, .f32⟩ : BufTy).Contents (Elt F)),
    StableHlo.binary main_v36 main_v42 main_v43 (subf : (⟨S65536x256, .f32⟩ : BufTy).Contents (Elt F) → (⟨S65536x256, .f32⟩ : BufTy).Contents (Elt F) → (⟨S65536x256, .f32⟩ : BufTy).Contents (Elt F)),
    StableHlo.nullary main_cst_7 (constant S_ .f32 0x3727C5AC#32),
    StableHlo.unary main_cst_7 main_v44 (broadcastInDim S256 ![] bcast_S_S256 : (⟨S_, .f32⟩ : BufTy).Contents (Elt F) → (⟨S256, .f32⟩ : BufTy).Contents (Elt F)),
    StableHlo.binary main_v40 main_v44 main_v45 (addf : (⟨S256, .f32⟩ : BufTy).Contents (Elt F) → (⟨S256, .f32⟩ : BufTy).Contents (Elt F) → (⟨S256, .f32⟩ : BufTy).Contents (Elt F)),
    StableHlo.unary main_v45 main_v46 (Host.rsqrt : (⟨S256, .f32⟩ : BufTy).Contents (Elt F) → (⟨S256, .f32⟩ : BufTy).Contents (Elt F)),
    StableHlo.unary main_v46 main_v47 (broadcastInDim S1x256 ![1] bcast_S256_S1x256_1 : (⟨S256, .f32⟩ : BufTy).Contents (Elt F) → (⟨S1x256, .f32⟩ : BufTy).Contents (Elt F)),
    StableHlo.unary main_v47 main_v48 (broadcastInDim S65536x256 ![0, 1] bcast_S1x256_S65536x256_0_1 : (⟨S1x256, .f32⟩ : BufTy).Contents (Elt F) → (⟨S65536x256, .f32⟩ : BufTy).Contents (Elt F)),
    StableHlo.binary main_v43 main_v48 main_v49 (mulf : (⟨S65536x256, .f32⟩ : BufTy).Contents (Elt F) → (⟨S65536x256, .f32⟩ : BufTy).Contents (Elt F) → (⟨S65536x256, .f32⟩ : BufTy).Contents (Elt F)) ]

/-- The second normalisation, second part: scale, shift and rectify: %50 … %60. -/
abbrev s3b : List (HloOp τ sig (Elt F)) :=
  [ StableHlo.unary main_arg22 main_v50 (broadcastInDim S1x256 ![1] bcast_S256_S1x256_1 : (⟨S256, .f32⟩ : BufTy).Contents (Elt F) → (⟨S1x256, .f32⟩ : BufTy).Contents (Elt F)),
    StableHlo.unary main_v50 main_v51 (broadcastInDim S65536x256 ![0, 1] bcast_S1x256_S65536x256_0_1 : (⟨S1x256, .f32⟩ : BufTy).Contents (Elt F) → (⟨S65536x256, .f32⟩ : BufTy).Contents (Elt F)),
    StableHlo.binary main_v49 main_v51 main_v52 (mulf : (⟨S65536x256, .f32⟩ : BufTy).Contents (Elt F) → (⟨S65536x256, .f32⟩ : BufTy).Contents (Elt F) → (⟨S65536x256, .f32⟩ : BufTy).Contents (Elt F)),
    StableHlo.unary main_arg23 main_v53 (broadcastInDim S1x256 ![1] bcast_S256_S1x256_1 : (⟨S256, .f32⟩ : BufTy).Contents (Elt F) → (⟨S1x256, .f32⟩ : BufTy).Contents (Elt F)),
    StableHlo.unary main_v53 main_v54 (broadcastInDim S65536x256 ![0, 1] bcast_S1x256_S65536x256_0_1 : (⟨S1x256, .f32⟩ : BufTy).Contents (Elt F) → (⟨S65536x256, .f32⟩ : BufTy).Contents (Elt F)),
    StableHlo.binary main_v52 main_v54 main_v55 (addf : (⟨S65536x256, .f32⟩ : BufTy).Contents (Elt F) → (⟨S65536x256, .f32⟩ : BufTy).Contents (Elt F) → (⟨S65536x256, .f32⟩ : BufTy).Contents (Elt F)),
    StableHlo.nullary main_cst_8 (constant S_ .f32 0x00000000#32),
    StableHlo.unary main_cst_8 main_v56 (broadcastInDim S65536x256 ![] bcast_S_S65536x256 : (⟨S_, .f32⟩ : BufTy).Contents (Elt F) → (⟨S65536x256, .f32⟩ : BufTy).Contents (Elt F)),
    StableHlo.binary main_v55 main_v56 main_v57 (cmpf .ogt : (⟨S65536x256, .f32⟩ : BufTy).Contents (Elt F) → (⟨S65536x256, .f32⟩ : BufTy).Contents (Elt F) → (⟨S65536x256, .i1⟩ : BufTy).Contents (Elt F)),
    StableHlo.nullary main_cst_9 (constant S_ .f32 0x3DCCCCCD#32),
    StableHlo.unary main_cst_9 main_v58 (broadcastInDim S65536x256 ![] bcast_S_S65536x256 : (⟨S_, .f32⟩ : BufTy).Contents (Elt F) → (⟨S65536x256, .f32⟩ : BufTy).Contents (Elt F)),
    StableHlo.binary main_v58 main_v55 main_v59 (mulf : (⟨S65536x256, .f32⟩ : BufTy).Contents (Elt F) → (⟨S65536x256, .f32⟩ : BufTy).Contents (Elt F) → (⟨S65536x256, .f32⟩ : BufTy).Contents (Elt F)),
    StableHlo.TRef.ternary (TRef.of main_v57 : TRef sig ⟨S65536x256, .i1⟩) (TRef.of main_v55 : TRef sig ⟨S65536x256, .f32⟩) (TRef.of main_v59 : TRef sig ⟨S65536x256, .f32⟩) main_call3.v0 select ]

/-- The third stage before normalisation: the two gates, the gated sum and the two added terms: %61 … %94. -/
abbrev s4 : List (HloOp τ sig (Elt F)) :=
  [ StableHlo.binary main_arg2 main_arg14 main_v61 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    StableHlo.unary main_arg15 main_v62 (broadcastInDim S1x256 ![1] bcast_S256_S1x256_1 : (⟨S256, .f32⟩ : BufTy).Contents (Elt F) → (⟨S1x256, .f32⟩ : BufTy).Contents (Elt F)),
    StableHlo.unary main_v62 main_v63 (broadcastInDim S65536x256 ![0, 1] bcast_S1x256_S65536x256_0_1 : (⟨S1x256, .f32⟩ : BufTy).Contents (Elt F) → (⟨S65536x256, .f32⟩ : BufTy).Contents (Elt F)),
    StableHlo.binary main_v61 main_v63 main_v64 (addf : (⟨S65536x256, .f32⟩ : BufTy).Contents (Elt F) → (⟨S65536x256, .f32⟩ : BufTy).Contents (Elt F) → (⟨S65536x256, .f32⟩ : BufTy).Contents (Elt F)),
    StableHlo.unary main_v64 main_v65 (Host.negf : (⟨S65536x256, .f32⟩ : BufTy).Contents (Elt F) → (⟨S65536x256, .f32⟩ : BufTy).Contents (Elt F)),
    StableHlo.unary main_v65 main_v66 (Host.exp : (⟨S65536x256, .f32⟩ : BufTy).Contents (Elt F) → (⟨S65536x256, .f32⟩ : BufTy).Contents (Elt F)),
    StableHlo.nullary main_cst_10 (constant S_ .f32 0x3F800000#32),
    StableHlo.unary main_cst_10 main_v67 (broadcastInDim S65536x256 ![] bcast_S_S65536x256 : (⟨S_, .f32⟩ : BufTy).Contents (Elt F) → (⟨S65536x256, .f32⟩ : BufTy).Contents (Elt F)),
    StableHlo.binary main_v67 main_v66 main_v68 (addf : (⟨S65536x256, .f32⟩ : BufTy).Contents (Elt F) → (⟨S65536x256, .f32⟩ : BufTy).Contents (Elt F) → (⟨S65536x256, .f32⟩ : BufTy).Contents (Elt F)),
    StableHlo.nullary main_cst_11 (constant S_ .f32 0x3F800000#32),
    StableHlo.unary main_cst_11 main_v69 (broadcastInDim S65536x256 ![] bcast_S_S65536x256 : (⟨S_, .f32⟩ : BufTy).Contents (Elt F) → (⟨S65536x256, .f32⟩ : BufTy).Contents (Elt F)),
    StableHlo.binary main_v69 main_v68 main_v70 (Host.divf : (⟨S65536x256, .f32⟩ : BufTy).Contents (Elt F) → (⟨S65536x256, .f32⟩ : BufTy).Contents (Elt F) → (⟨S65536x256, .f32⟩ : BufTy).Contents (Elt F)),
    StableHlo.binary main_v3 main_arg16 main_v71 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    StableHlo.unary main_arg17 main_v72 (broadcastInDim S1x256 ![1] bcast_S256_S1x256_1 : (⟨S256, .f32⟩ : BufTy).Contents (Elt F) → (⟨S1x256, .f32⟩ : BufTy).Contents (Elt F)),
    StableHlo.unary main_v72 main_v73 (broadcastInDim S65536x256 ![0, 1] bcast_S1x256_S65536x256_0_1 : (⟨S1x256, .f32⟩ : BufTy).Contents (Elt F) → (⟨S65536x256, .f32⟩ : BufTy).Contents (Elt F)),
    StableHlo.binary main_v71 main_v73 main_v74 (addf : (⟨S65536x256, .f32⟩ : BufTy).Contents (Elt F) → (⟨S65536x256, .f32⟩ : BufTy).Contents (Elt F) → (⟨S65536x256, .f32⟩ : BufTy).Contents (Elt F)),
    StableHlo.unary main_v74 main_v75 (Host.negf : (⟨S65536x256, .f32⟩ : BufTy).Contents (Elt F) → (⟨S65536x256, .f32⟩ : BufTy).Contents (Elt F)),
    StableHlo.unary main_v75 main_v76 (Host.exp : (⟨S65536x256, .f32⟩ : BufTy).Contents (Elt F) → (⟨S65536x256, .f32⟩ : BufTy).Contents (Elt F)),
    StableHlo.nullary main_cst_12 (constant S_ .f32 0x3F800000#32),
    StableHlo.unary main_cst_12 main_v77 (broadcastInDim S65536x256 ![] bcast_S_S65536x256 : (⟨S_, .f32⟩ : BufTy).Contents (Elt F) → (⟨S65536x256, .f32⟩ : BufTy).Contents (Elt F)),
    StableHlo.binary main_v77 main_v76 main_v78 (addf : (⟨S65536x256, .f32⟩ : BufTy).Contents (Elt F) → (⟨S65536x256, .f32⟩ : BufTy).Contents (Elt F) → (⟨S65536x256, .f32⟩ : BufTy).Contents (Elt F)),
    StableHlo.nullary main_cst_13 (constant S_ .f32 0x3F800000#32),
    StableHlo.unary main_cst_13 main_v79 (broadcastInDim S65536x256 ![] bcast_S_S65536x256 : (⟨S_, .f32⟩ : BufTy).Contents (Elt F) → (⟨S65536x256, .f32⟩ : BufTy).Contents (Elt F)),
    StableHlo.binary main_v79 main_v78 main_v80 (Host.divf : (⟨S65536x256, .f32⟩ : BufTy).Contents (Elt F) → (⟨S65536x256, .f32⟩ : BufTy).Contents (Elt F) → (⟨S65536x256, .f32⟩ : BufTy).Contents (Elt F)),
    StableHlo.binary main_v70 main_arg3 main_v81 (mulf : (⟨S65536x256, .f32⟩ : BufTy).Contents (Elt F) → (⟨S65536x256, .f32⟩ : BufTy).Contents (Elt F) → (⟨S65536x256, .f32⟩ : BufTy).Contents (Elt F)),
    StableHlo.nullary main_cst_14 (constant S_ .f32 0x3DCCCCCD#32),
    StableHlo.unary main_cst_14 main_v82 (broadcastInDim S65536x256 ![] bcast_S_S65536x256 : (⟨S_, .f32⟩ : BufTy).Contents (Elt F) → (⟨S65536x256, .f32⟩ : BufTy).Contents (Elt F)),
    StableHlo.binary main_v80 main_v82 main_v83 (mulf : (⟨S65536x256, .f32⟩ : BufTy).Contents (Elt F) → (⟨S65536x256, .f32⟩ : BufTy).Contents (Elt F) → (⟨S65536x256, .f32⟩ : BufTy).Contents (Elt F)),
    StableHlo.binary main_v60 main_arg8 main_v84 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    StableHlo.unary main_arg9 main_v85 (broadcastInDim S1x256 ![1] bcast_S256_S1x256_1 : (⟨S256, .f32⟩ : BufTy).Contents (Elt F) → (⟨S1x256, .f32⟩ : BufTy).Contents (Elt F)),
    StableHlo.unary main_v85 main_v86 (broadcastInDim S65536x256 ![0, 1] bcast_S1x256_S65536x256_0_1 : (⟨S1x256, .f32⟩ : BufTy).Contents (Elt F) → (⟨S65536x256, .f32⟩ : BufTy).Contents (Elt F)),
    StableHlo.binary main_v84 main_v86 main_v87 (addf : (⟨S65536x256, .f32⟩ : BufTy).Contents (Elt F) → (⟨S65536x256, .f32⟩ : BufTy).Contents (Elt F) → (⟨S65536x256, .f32⟩ : BufTy).Contents (Elt F)),
    StableHlo.binary main_v83 main_v87 main_v88 (mulf : (⟨S65536x256, .f32⟩ : BufTy).Contents (Elt F) → (⟨S65536x256, .f32⟩ : BufTy).Contents (Elt F) → (⟨S65536x256, .f32⟩ : BufTy).Contents (Elt F)),
    StableHlo.binary main_v81 main_v88 main_v89 (addf : (⟨S65536x256, .f32⟩ : BufTy).Contents (Elt F) → (⟨S65536x256, .f32⟩ : BufTy).Contents (Elt F) → (⟨S65536x256, .f32⟩ : BufTy).Contents (Elt F)),
    StableHlo.binary main_v3 main_arg10 main_v90 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    StableHlo.binary main_v89 main_v90 main_v91 (addf : (⟨S65536x256, .f32⟩ : BufTy).Contents (Elt F) → (⟨S65536x256, .f32⟩ : BufTy).Contents (Elt F) → (⟨S65536x256, .f32⟩ : BufTy).Contents (Elt F)),
    StableHlo.unary main_arg11 main_v92 (broadcastInDim S1x256 ![1] bcast_S256_S1x256_1 : (⟨S256, .f32⟩ : BufTy).Contents (Elt F) → (⟨S1x256, .f32⟩ : BufTy).Contents (Elt F)),
    StableHlo.unary main_v92 main_v93 (broadcastInDim S65536x256 ![0, 1] bcast_S1x256_S65536x256_0_1 : (⟨S1x256, .f32⟩ : BufTy).Contents (Elt F) → (⟨S65536x256, .f32⟩ : BufTy).Contents (Elt F)),
    StableHlo.binary main_v91 main_v93 main_v94 (addf : (⟨S65536x256, .f32⟩ : BufTy).Contents (Elt F) → (⟨S65536x256, .f32⟩ : BufTy).Contents (Elt F) → (⟨S65536x256, .f32⟩ : BufTy).Contents (Elt F)) ]

/-- The third normalisation, first part: the column means and variance of %94: up to %99. -/
abbrev s5a : List (HloOp τ sig (Elt F)) :=
  [ StableHlo.nullary main_cst_15 (constant S_ .f32 0x00000000#32),
    StableHlo.binary main_v94 main_cst_15 main_v95 ((fun x v => Host.reduceAdd x v reducesTo_S65536x256_S256_d0 h_S_) : (⟨S65536x256, .f32⟩ : BufTy).Contents (Elt F) → (⟨S_, .f32⟩ : BufTy).Contents (Elt F) → (⟨S256, .f32⟩ : BufTy).Contents (Elt F)),
    StableHlo.nullary main_cst_16 (constant S_ .f32 0x47800000#32),
    StableHlo.unary main_cst_16 main_v96 (broadcastInDim S256 ![] bcast_S_S256 : (⟨S_, .f32⟩ : BufTy).Contents (Elt F) → (⟨S256, .f32⟩ : BufTy).Contents (Elt F)),
    StableHlo.binary main_v95 main_v96 main_v97 (Host.divf : (⟨S256, .f32⟩ : BufTy).Contents (Elt F) → (⟨S256, .f32⟩ : BufTy).Contents (Elt F) → (⟨S256, .f32⟩ : BufTy).Contents (Elt F)),
    StableHlo.nullary main_c_17 (constantI S_ 32 0#32),
    StableHlo.TRef.nullary main_call4.cst (constant S_ .f32 0x00000000#32),
    StableHlo.TRef.binary (TRef.of main_v94 : TRef sig ⟨S65536x256, .f32⟩) main_call4.cst main_call4.v0 (fun x v => Host.reduceAdd x v reducesTo_S65536x256_S256_d0 h_S_),
    StableHlo.TRef.unary main_call4.v0 main_call4.v1 (broadcastInDim S1x256 ![1] bcast_S256_S1x256_1),
    StableHlo.TRef.nullary main_call4.cst_0 (constant S_ .f32 0x47800000#32),
    StableHlo.TRef.unary main_call4.cst_0 main_call4.v2 (broadcastInDim S1x256 ![] bcast_S_S1x256),
    StableHlo.TRef.binary main_call4.v1 main_call4.v2 main_call4.v3 Host.divf,
    StableHlo.TRef.unary main_call4.v3 main_call4.v4 (broadcastInDim S65536x256 ![0, 1] bcast_S1x256_S65536x256_0_1),
    StableHlo.TRef.binary (TRef.of main_v94 : TRef sig ⟨S65536x256, .f32⟩) main_call4.v4 main_call4.v5 subf,
    StableHlo.TRef.binary main_call4.v5 main_call4.v5 main_call4.v6 mulf,
    StableHlo.TRef.unary (TRef.of main_c_17 : TRef sig ⟨S_, .i32⟩) main_call4.v7 (sitofp .f32),
    StableHlo.TRef.nullary main_call4.cst_1 (constant S_ .f32 0x47800000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S65536x256_S256_d0 h_S_),
    StableHlo.TRef.unary main_call4.v8 main_call4.v10 (broadcastInDim S256 ![] bcast_S_S256),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S256 ![] bcast_S_S256),
    StableHlo.TRef.ternary main_call4.v12 main_call4.v11 main_call4.call0.v1 main_call4.call0.v2 (fun p a b => select (broadcastInDim S256 ![] bcast_S_S256 p) a b),
    StableHlo.unary main_v97 main_v99 (broadcastInDim S1x256 ![1] bcast_S256_S1x256_1 : (⟨S256, .f32⟩ : BufTy).Contents (Elt F) → (⟨S1x256, .f32⟩ : BufTy).Contents (Elt F)) ]

/-- The third normalisation, second part: the deviation, the reciprocal root, scale, shift and rectify: %100 … %118. -/
abbrev s5b : List (HloOp τ sig (Elt F)) :=
  [ StableHlo.unary main_v99 main_v100 (broadcastInDim S65536x256 ![0, 1] bcast_S1x256_S65536x256_0_1 : (⟨S1x256, .f32⟩ : BufTy).Contents (Elt F) → (⟨S65536x256, .f32⟩ : BufTy).Contents (Elt F)),
    StableHlo.binary main_v94 main_v100 main_v101 (subf : (⟨S65536x256, .f32⟩ : BufTy).Contents (Elt F) → (⟨S65536x256, .f32⟩ : BufTy).Contents (Elt F) → (⟨S65536x256, .f32⟩ : BufTy).Contents (Elt F)),
    StableHlo.nullary main_cst_18 (constant S_ .f32 0x3727C5AC#32),
    StableHlo.unary main_cst_18 main_v102 (broadcastInDim S256 ![] bcast_S_S256 : (⟨S_, .f32⟩ : BufTy).Contents (Elt F) → (⟨S256, .f32⟩ : BufTy).Contents (Elt F)),
    StableHlo.binary main_v98 main_v102 main_v103 (addf : (⟨S256, .f32⟩ : BufTy).Contents (Elt F) → (⟨S256, .f32⟩ : BufTy).Contents (Elt F) → (⟨S256, .f32⟩ : BufTy).Contents (Elt F)),
    StableHlo.unary main_v103 main_v104 (Host.rsqrt : (⟨S256, .f32⟩ : BufTy).Contents (Elt F) → (⟨S256, .f32⟩ : BufTy).Contents (Elt F)),
    StableHlo.unary main_v104 main_v105 (broadcastInDim S1x256 ![1] bcast_S256_S1x256_1 : (⟨S256, .f32⟩ : BufTy).Contents (Elt F) → (⟨S1x256, .f32⟩ : BufTy).Contents (Elt F)),
    StableHlo.unary main_v105 main_v106 (broadcastInDim S65536x256 ![0, 1] bcast_S1x256_S65536x256_0_1 : (⟨S1x256, .f32⟩ : BufTy).Contents (Elt F) → (⟨S65536x256, .f32⟩ : BufTy).Contents (Elt F)),
    StableHlo.binary main_v101 main_v106 main_v107 (mulf : (⟨S65536x256, .f32⟩ : BufTy).Contents (Elt F) → (⟨S65536x256, .f32⟩ : BufTy).Contents (Elt F) → (⟨S65536x256, .f32⟩ : BufTy).Contents (Elt F)),
    StableHlo.unary main_arg24 main_v108 (broadcastInDim S1x256 ![1] bcast_S256_S1x256_1 : (⟨S256, .f32⟩ : BufTy).Contents (Elt F) → (⟨S1x256, .f32⟩ : BufTy).Contents (Elt F)),
    StableHlo.unary main_v108 main_v109 (broadcastInDim S65536x256 ![0, 1] bcast_S1x256_S65536x256_0_1 : (⟨S1x256, .f32⟩ : BufTy).Contents (Elt F) → (⟨S65536x256, .f32⟩ : BufTy).Contents (Elt F)),
    StableHlo.binary main_v107 main_v109 main_v110 (mulf : (⟨S65536x256, .f32⟩ : BufTy).Contents (Elt F) → (⟨S65536x256, .f32⟩ : BufTy).Contents (Elt F) → (⟨S65536x256, .f32⟩ : BufTy).Contents (Elt F)),
    StableHlo.unary main_arg25 main_v111 (broadcastInDim S1x256 ![1] bcast_S256_S1x256_1 : (⟨S256, .f32⟩ : BufTy).Contents (Elt F) → (⟨S1x256, .f32⟩ : BufTy).Contents (Elt F)),
    StableHlo.unary main_v111 main_v112 (broadcastInDim S65536x256 ![0, 1] bcast_S1x256_S65536x256_0_1 : (⟨S1x256, .f32⟩ : BufTy).Contents (Elt F) → (⟨S65536x256, .f32⟩ : BufTy).Contents (Elt F)),
    StableHlo.binary main_v110 main_v112 main_v113 (addf : (⟨S65536x256, .f32⟩ : BufTy).Contents (Elt F) → (⟨S65536x256, .f32⟩ : BufTy).Contents (Elt F) → (⟨S65536x256, .f32⟩ : BufTy).Contents (Elt F)),
    StableHlo.nullary main_cst_19 (constant S_ .f32 0x00000000#32),
    StableHlo.unary main_cst_19 main_v114 (broadcastInDim S65536x256 ![] bcast_S_S65536x256 : (⟨S_, .f32⟩ : BufTy).Contents (Elt F) → (⟨S65536x256, .f32⟩ : BufTy).Contents (Elt F)),
    StableHlo.binary main_v113 main_v114 main_v115 (cmpf .ogt : (⟨S65536x256, .f32⟩ : BufTy).Contents (Elt F) → (⟨S65536x256, .f32⟩ : BufTy).Contents (Elt F) → (⟨S65536x256, .i1⟩ : BufTy).Contents (Elt F)),
    StableHlo.nullary main_cst_20 (constant S_ .f32 0x3DCCCCCD#32),
    StableHlo.unary main_cst_20 main_v116 (broadcastInDim S65536x256 ![] bcast_S_S65536x256 : (⟨S_, .f32⟩ : BufTy).Contents (Elt F) → (⟨S65536x256, .f32⟩ : BufTy).Contents (Elt F)),
    StableHlo.binary main_v116 main_v113 main_v117 (mulf : (⟨S65536x256, .f32⟩ : BufTy).Contents (Elt F) → (⟨S65536x256, .f32⟩ : BufTy).Contents (Elt F) → (⟨S65536x256, .f32⟩ : BufTy).Contents (Elt F)),
    StableHlo.TRef.ternary (TRef.of main_v115 : TRef sig ⟨S65536x256, .i1⟩) (TRef.of main_v113 : TRef sig ⟨S65536x256, .f32⟩) (TRef.of main_v117 : TRef sig ⟨S65536x256, .f32⟩) main_call5.v0 select ]

/-- The output gate and the final product: %119 … %136. -/
abbrev s6 : List (HloOp τ sig (Elt F)) :=
  [ StableHlo.binary main_v118 main_arg18 main_v119 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    StableHlo.unary main_arg19 main_v120 (broadcastInDim S1x256 ![1] bcast_S256_S1x256_1 : (⟨S256, .f32⟩ : BufTy).Contents (Elt F) → (⟨S1x256, .f32⟩ : BufTy).Contents (Elt F)),
    StableHlo.unary main_v120 main_v121 (broadcastInDim S65536x256 ![0, 1] bcast_S1x256_S65536x256_0_1 : (⟨S1x256, .f32⟩ : BufTy).Contents (Elt F) → (⟨S65536x256, .f32⟩ : BufTy).Contents (Elt F)),
    StableHlo.binary main_v119 main_v121 main_v122 (addf : (⟨S65536x256, .f32⟩ : BufTy).Contents (Elt F) → (⟨S65536x256, .f32⟩ : BufTy).Contents (Elt F) → (⟨S65536x256, .f32⟩ : BufTy).Contents (Elt F)),
    StableHlo.unary main_v122 main_v123 (Host.negf : (⟨S65536x256, .f32⟩ : BufTy).Contents (Elt F) → (⟨S65536x256, .f32⟩ : BufTy).Contents (Elt F)),
    StableHlo.unary main_v123 main_v124 (Host.exp : (⟨S65536x256, .f32⟩ : BufTy).Contents (Elt F) → (⟨S65536x256, .f32⟩ : BufTy).Contents (Elt F)),
    StableHlo.nullary main_cst_21 (constant S_ .f32 0x3F800000#32),
    StableHlo.unary main_cst_21 main_v125 (broadcastInDim S65536x256 ![] bcast_S_S65536x256 : (⟨S_, .f32⟩ : BufTy).Contents (Elt F) → (⟨S65536x256, .f32⟩ : BufTy).Contents (Elt F)),
    StableHlo.binary main_v125 main_v124 main_v126 (addf : (⟨S65536x256, .f32⟩ : BufTy).Contents (Elt F) → (⟨S65536x256, .f32⟩ : BufTy).Contents (Elt F) → (⟨S65536x256, .f32⟩ : BufTy).Contents (Elt F)),
    StableHlo.nullary main_cst_22 (constant S_ .f32 0x3F800000#32),
    StableHlo.unary main_cst_22 main_v127 (broadcastInDim S65536x256 ![] bcast_S_S65536x256 : (⟨S_, .f32⟩ : BufTy).Contents (Elt F) → (⟨S65536x256, .f32⟩ : BufTy).Contents (Elt F)),
    StableHlo.binary main_v127 main_v126 main_v128 (Host.divf : (⟨S65536x256, .f32⟩ : BufTy).Contents (Elt F) → (⟨S65536x256, .f32⟩ : BufTy).Contents (Elt F) → (⟨S65536x256, .f32⟩ : BufTy).Contents (Elt F)),
    StableHlo.binary main_v32 main_v118 main_v129 (addf : (⟨S65536x256, .f32⟩ : BufTy).Contents (Elt F) → (⟨S65536x256, .f32⟩ : BufTy).Contents (Elt F) → (⟨S65536x256, .f32⟩ : BufTy).Contents (Elt F)),
    StableHlo.binary main_v129 main_v60 main_v130 (addf : (⟨S65536x256, .f32⟩ : BufTy).Contents (Elt F) → (⟨S65536x256, .f32⟩ : BufTy).Contents (Elt F) → (⟨S65536x256, .f32⟩ : BufTy).Contents (Elt F)),
    StableHlo.binary main_v130 main_arg12 main_v131 ((fun l r => Host.dotGeneral dot_S65536x256_S256x1_S65536x1_1_0_0_1_n_n none l r) : (⟨S65536x256, .f32⟩ : BufTy).Contents (Elt F) → (⟨S256x1, .f32⟩ : BufTy).Contents (Elt F) → (⟨S65536x1, .f32⟩ : BufTy).Contents (Elt F)),
    StableHlo.unary main_arg13 main_v132 (broadcastInDim S1x1 ![1] bcast_S1_S1x1_1 : (⟨S1, .f32⟩ : BufTy).Contents (Elt F) → (⟨S1x1, .f32⟩ : BufTy).Contents (Elt F)),
    StableHlo.unary main_v132 main_v133 (broadcastInDim S65536x1 ![0, 1] bcast_S1x1_S65536x1_0_1 : (⟨S1x1, .f32⟩ : BufTy).Contents (Elt F) → (⟨S65536x1, .f32⟩ : BufTy).Contents (Elt F)),
    StableHlo.binary main_v131 main_v133 main_v134 (addf : (⟨S65536x1, .f32⟩ : BufTy).Contents (Elt F) → (⟨S65536x1, .f32⟩ : BufTy).Contents (Elt F) → (⟨S65536x1, .f32⟩ : BufTy).Contents (Elt F)),
    StableHlo.unary main_v134 main_v135 (broadcastInDim S65536x256 ![0, 1] bcast_S65536x1_S65536x256_0_1 : (⟨S65536x1, .f32⟩ : BufTy).Contents (Elt F) → (⟨S65536x256, .f32⟩ : BufTy).Contents (Elt F)),
    StableHlo.binary main_v128 main_v135 main_v136 (mulf : (⟨S65536x256, .f32⟩ : BufTy).Contents (Elt F) → (⟨S65536x256, .f32⟩ : BufTy).Contents (Elt F) → (⟨S65536x256, .f32⟩ : BufTy).Contents (Elt F)) ]

/-- The three printed parts of the program, as concatenations of the segments. -/
abbrev ops0 : List (HloOp τ sig (Elt F)) := s0 ++ (s1 ++ (s2 ++ s3a))
abbrev ops1 : List (HloOp τ sig (Elt F)) := s3b ++ (s4 ++ s5a)
abbrev ops2 : List (HloOp τ sig (Elt F)) := s5b ++ s6
/-- The whole program's operations, in order. -/
abbrev ops : List (HloOp τ sig (Elt F)) := ops0 ++ (ops1 ++ ops2)

/-! ## The program is that straight line

Sequencing in the free monad grafts the continuation onto the leaves, by computation; so each part, with the
outlined functions' bodies unfolded at their calls and the records at their fields, is the chain of steps of its
list by unfolding alone. -/

set_option maxRecDepth 8192 in
theorem main_part0_eq (c : Dev nD) : main_part0 (F := F) c = seq ops0 := rfl
set_option maxRecDepth 8192 in
theorem main_part1_eq (c : Dev nD) : main_part1 (F := F) c = seq ops1 := rfl
set_option maxRecDepth 8192 in
theorem main_part2_eq (c : Dev nD) : main_part2 (F := F) c = seq ops2 := rfl

theorem main_eq (c : Dev nD) : main (F := F) c = seq ops :=
  calc main (F := F) c
      = (main_part0 (F := F) c >>= fun _ => main_part1 (F := F) c >>= fun _ => main_part2 (F := F) c) := rfl
    _ = (seq ops0 >>= fun _ => seq ops1 >>= fun _ => seq ops2) := by
        rw [main_part0_eq, main_part1_eq, main_part2_eq]
    _ = seq ops := by rw [seq_append ops0, seq_append ops1]

/-! ## The side conditions of the run -/

theorem scopedRefs_eq : (Finset.univ.filter fun b : Ref sig .tc => b.isScoped) = ∅ := by decide
theorem scopedSems_eq : (Finset.univ.filter fun sm : SemLoc sig => sm.isScoped .tc) = ∅ := by decide

theorem s0_sub : (s0 : List (HloOp τ sig (Elt F))).Forall fun op => op.bufs ⊆ tcRefs τ sig :=
  ⟨binary_bufs_sub .., unary_bufs_sub .., unary_bufs_sub .., binary_bufs_sub .., binary_bufs_sub .., binary_bufs_sub ..,
    unary_bufs_sub .., unary_bufs_sub .., binary_bufs_sub ..⟩
theorem s0_fresh : (s0 : List (HloOp τ sig (Elt F))).Forall fun op => op.fresh = ∅ :=
  ⟨rfl, rfl, rfl, rfl, rfl, rfl, rfl, rfl, rfl⟩

theorem s1_sub : (s1 : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub ..⟩
theorem s1_fresh : (s1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl⟩

theorem s2_sub : (s2 : List (HloOp τ sig (Elt F))).Forall fun op => op.bufs ⊆ tcRefs τ sig :=
  ⟨binary_bufs_sub .., unary_bufs_sub .., unary_bufs_sub .., binary_bufs_sub ..⟩
theorem s2_fresh : (s2 : List (HloOp τ sig (Elt F))).Forall fun op => op.fresh = ∅ :=
  ⟨rfl, rfl, rfl, rfl⟩

theorem s3a_sub : (s3a : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub ..⟩
theorem s3a_fresh : (s3a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl⟩

theorem s3b_sub : (s3b : List (HloOp τ sig (Elt F))).Forall fun op => op.bufs ⊆ tcRefs τ sig :=
  ⟨unary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub ..⟩
theorem s3b_fresh : (s3b : List (HloOp τ sig (Elt F))).Forall fun op => op.fresh = ∅ :=
  ⟨rfl, rfl, rfl, rfl, rfl, rfl, rfl, rfl, rfl, rfl, rfl, rfl, rfl⟩

theorem s4_sub : (s4 : List (HloOp τ sig (Elt F))).Forall fun op => op.bufs ⊆ tcRefs τ sig :=
  ⟨binary_bufs_sub .., unary_bufs_sub .., unary_bufs_sub .., binary_bufs_sub .., unary_bufs_sub .., unary_bufs_sub ..,
    nullary_bufs_sub .., unary_bufs_sub .., binary_bufs_sub .., nullary_bufs_sub .., unary_bufs_sub .., binary_bufs_sub ..,
    binary_bufs_sub .., unary_bufs_sub .., unary_bufs_sub .., binary_bufs_sub .., unary_bufs_sub .., unary_bufs_sub ..,
    nullary_bufs_sub .., unary_bufs_sub .., binary_bufs_sub .., nullary_bufs_sub .., unary_bufs_sub .., binary_bufs_sub ..,
    binary_bufs_sub .., nullary_bufs_sub .., unary_bufs_sub .., binary_bufs_sub .., binary_bufs_sub .., unary_bufs_sub ..,
    unary_bufs_sub .., binary_bufs_sub .., binary_bufs_sub .., binary_bufs_sub .., binary_bufs_sub .., binary_bufs_sub ..,
    unary_bufs_sub .., unary_bufs_sub .., binary_bufs_sub ..⟩
theorem s4_fresh : (s4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl⟩

theorem s5a_sub : (s5a : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub ..⟩
theorem s5a_fresh : (s5a : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩

theorem s5b_sub : (s5b : List (HloOp τ sig (Elt F))).Forall fun op => op.bufs ⊆ tcRefs τ sig :=
  ⟨unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub ..⟩
theorem s5b_fresh : (s5b : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

theorem s6_sub : (s6 : List (HloOp τ sig (Elt F))).Forall fun op => op.bufs ⊆ tcRefs τ sig :=
  ⟨binary_bufs_sub .., unary_bufs_sub .., unary_bufs_sub .., binary_bufs_sub .., unary_bufs_sub .., unary_bufs_sub ..,
    nullary_bufs_sub .., unary_bufs_sub .., binary_bufs_sub .., nullary_bufs_sub .., unary_bufs_sub .., binary_bufs_sub ..,
    binary_bufs_sub .., binary_bufs_sub .., binary_bufs_sub .., unary_bufs_sub .., unary_bufs_sub .., binary_bufs_sub ..,
    unary_bufs_sub .., binary_bufs_sub ..⟩
theorem s6_fresh : (s6 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩

theorem ops_sub : (ops : List (HloOp τ sig (Elt F))).Forall fun op => op.bufs ⊆ tcRefs τ sig :=
  List.forall_append.mpr ⟨List.forall_append.mpr ⟨s0_sub, List.forall_append.mpr ⟨s1_sub, List.forall_append.mpr ⟨s2_sub, s3a_sub⟩⟩⟩,
    List.forall_append.mpr ⟨List.forall_append.mpr ⟨s3b_sub, List.forall_append.mpr ⟨s4_sub, s5a_sub⟩⟩,
      List.forall_append.mpr ⟨s5b_sub, s6_sub⟩⟩⟩

theorem ops_fresh : (ops : List (HloOp τ sig (Elt F))).Forall fun op => op.fresh = ∅ :=
  List.forall_append.mpr ⟨List.forall_append.mpr ⟨s0_fresh, List.forall_append.mpr ⟨s1_fresh, List.forall_append.mpr ⟨s2_fresh, s3a_fresh⟩⟩⟩,
    List.forall_append.mpr ⟨List.forall_append.mpr ⟨s3b_fresh, List.forall_append.mpr ⟨s4_fresh, s5a_fresh⟩⟩,
      List.forall_append.mpr ⟨s5b_fresh, s6_fresh⟩⟩⟩

/-- At the compiled mesh, for any float values, from any memory with zero counters: every weakly fair execution of the
    program on the TensorCores terminates, and every final state has each TensorCore buffer at the operations' fold over
    the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

/-! ## The fold over a concatenation -/

theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

theorem after_ops (V : Valuation τ sig (Elt F)) :
    after ops V = after s6 (after s5b (after s5a (after s4 (after s3b (after s3a (after s2 (after s1 (after s0 V)))))))) := by
  simp only [ops, ops0, ops1, ops2, after_append]

/-! ## What each segment writes

Every value of the program has a buffer of its own, so each buffer is written by one operation; a segment's list of
written buffers tells which buffers it leaves alone: a buffer outside the list keeps its contents across the segment. -/

/-- A single written buffer lies in the set of a list that has it. -/
theorem writes_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The buffers segment s0 writes, in order. -/
abbrev w0 : List (Ref sig .tc) :=
  [main_v0, main_v1, main_v2, main_v3, main_v4, main_v5, main_v6, main_v7,
   main_v8]
theorem s0_writes : (s0 : List (HloOp τ sig (Elt F))).Forall fun op => op.writes ⊆ (w0.map (Proc.devRef (τ := τ) .tc)).toFinset :=
  ⟨writes_sub_of_mem (y := main_v0) (by decide), writes_sub_of_mem (y := main_v1) (by decide), writes_sub_of_mem (y := main_v2) (by decide),
    writes_sub_of_mem (y := main_v3) (by decide), writes_sub_of_mem (y := main_v4) (by decide), writes_sub_of_mem (y := main_v5) (by decide),
    writes_sub_of_mem (y := main_v6) (by decide), writes_sub_of_mem (y := main_v7) (by decide), writes_sub_of_mem (y := main_v8) (by decide)⟩

/-- The buffers segment s1 writes, in order. -/
abbrev w1 : List (Ref sig .tc) :=
  [main_cst, main_v9, main_cst_0, main_v10, main_v11, main_c, main_call0_cst, main_call0_v0,
   main_call0_v1, main_call0_cst_0, main_call0_v2, main_call0_v3, main_call0_v4, main_call0_v5, main_call0_v6, main_call0_v7,
   main_call0_cst_1, main_call0_v8, main_call0_cst_2, main_call0_v9, main_call0_v10, main_call0_v11, main_call0_cst_3, main_call0_v12,
   main_call0_cst_4, main_call0_call0_v0, main_call0_call0_v1, main_v12, main_v13, main_v14, main_v15, main_cst_1,
   main_v16, main_v17, main_v18, main_v19, main_v20, main_v21, main_v22, main_v23,
   main_v24, main_v25, main_v26, main_v27, main_cst_2, main_v28, main_v29, main_cst_3,
   main_v30, main_v31, main_v32]
theorem s1_writes : (s1 : List (HloOp τ sig (Elt F))).Forall fun op => op.writes ⊆ (w1.map (Proc.devRef (τ := τ) .tc)).toFinset :=
  ⟨writes_sub_of_mem (y := main_cst) (by decide), writes_sub_of_mem (y := main_v9) (by decide), writes_sub_of_mem (y := main_cst_0) (by decide),
    writes_sub_of_mem (y := main_v10) (by decide), writes_sub_of_mem (y := main_v11) (by decide), writes_sub_of_mem (y := main_c) (by decide),
    writes_sub_of_mem (y := main_call0_cst) (by decide), writes_sub_of_mem (y := main_call0_v0) (by decide), writes_sub_of_mem (y := main_call0_v1) (by decide),
    writes_sub_of_mem (y := main_call0_cst_0) (by decide), writes_sub_of_mem (y := main_call0_v2) (by decide), writes_sub_of_mem (y := main_call0_v3) (by decide),
    writes_sub_of_mem (y := main_call0_v4) (by decide), writes_sub_of_mem (y := main_call0_v5) (by decide), writes_sub_of_mem (y := main_call0_v6) (by decide),
    writes_sub_of_mem (y := main_call0_v7) (by decide), writes_sub_of_mem (y := main_call0_cst_1) (by decide), writes_sub_of_mem (y := main_call0_v8) (by decide),
    writes_sub_of_mem (y := main_call0_cst_2) (by decide), writes_sub_of_mem (y := main_call0_v9) (by decide), writes_sub_of_mem (y := main_call0_v10) (by decide),
    writes_sub_of_mem (y := main_call0_v11) (by decide), writes_sub_of_mem (y := main_call0_cst_3) (by decide), writes_sub_of_mem (y := main_call0_v12) (by decide),
    writes_sub_of_mem (y := main_call0_cst_4) (by decide), writes_sub_of_mem (y := main_call0_call0_v0) (by decide), writes_sub_of_mem (y := main_call0_call0_v1) (by decide),
    writes_sub_of_mem (y := main_v12) (by decide), writes_sub_of_mem (y := main_v13) (by decide), writes_sub_of_mem (y := main_v14) (by decide),
    writes_sub_of_mem (y := main_v15) (by decide), writes_sub_of_mem (y := main_cst_1) (by decide), writes_sub_of_mem (y := main_v16) (by decide),
    writes_sub_of_mem (y := main_v17) (by decide), writes_sub_of_mem (y := main_v18) (by decide), writes_sub_of_mem (y := main_v19) (by decide),
    writes_sub_of_mem (y := main_v20) (by decide), writes_sub_of_mem (y := main_v21) (by decide), writes_sub_of_mem (y := main_v22) (by decide),
    writes_sub_of_mem (y := main_v23) (by decide), writes_sub_of_mem (y := main_v24) (by decide), writes_sub_of_mem (y := main_v25) (by decide),
    writes_sub_of_mem (y := main_v26) (by decide), writes_sub_of_mem (y := main_v27) (by decide), writes_sub_of_mem (y := main_cst_2) (by decide),
    writes_sub_of_mem (y := main_v28) (by decide), writes_sub_of_mem (y := main_v29) (by decide), writes_sub_of_mem (y := main_cst_3) (by decide),
    writes_sub_of_mem (y := main_v30) (by decide), writes_sub_of_mem (y := main_v31) (by decide), writes_sub_of_mem (y := main_v32) (by decide)⟩

/-- The buffers segment s2 writes, in order. -/
abbrev w2 : List (Ref sig .tc) :=
  [main_v33, main_v34, main_v35, main_v36]
theorem s2_writes : (s2 : List (HloOp τ sig (Elt F))).Forall fun op => op.writes ⊆ (w2.map (Proc.devRef (τ := τ) .tc)).toFinset :=
  ⟨writes_sub_of_mem (y := main_v33) (by decide), writes_sub_of_mem (y := main_v34) (by decide), writes_sub_of_mem (y := main_v35) (by decide),
    writes_sub_of_mem (y := main_v36) (by decide)⟩

/-- The buffers segment s3a writes, in order. -/
abbrev w3a : List (Ref sig .tc) :=
  [main_cst_4, main_v37, main_cst_5, main_v38, main_v39, main_c_6, main_call2_cst, main_call2_v0,
   main_call2_v1, main_call2_cst_0, main_call2_v2, main_call2_v3, main_call2_v4, main_call2_v5, main_call2_v6, main_call2_v7,
   main_call2_cst_1, main_call2_v8, main_call2_cst_2, main_call2_v9, main_call2_v10, main_call2_v11, main_call2_cst_3, main_call2_v12,
   main_call2_cst_4, main_call2_call0_v0, main_call2_call0_v1, main_v40, main_v41, main_v42, main_v43, main_cst_7,
   main_v44, main_v45, main_v46, main_v47, main_v48, main_v49]
theorem s3a_writes : (s3a : List (HloOp τ sig (Elt F))).Forall fun op => op.writes ⊆ (w3a.map (Proc.devRef (τ := τ) .tc)).toFinset :=
  ⟨writes_sub_of_mem (y := main_cst_4) (by decide), writes_sub_of_mem (y := main_v37) (by decide), writes_sub_of_mem (y := main_cst_5) (by decide),
    writes_sub_of_mem (y := main_v38) (by decide), writes_sub_of_mem (y := main_v39) (by decide), writes_sub_of_mem (y := main_c_6) (by decide),
    writes_sub_of_mem (y := main_call2_cst) (by decide), writes_sub_of_mem (y := main_call2_v0) (by decide), writes_sub_of_mem (y := main_call2_v1) (by decide),
    writes_sub_of_mem (y := main_call2_cst_0) (by decide), writes_sub_of_mem (y := main_call2_v2) (by decide), writes_sub_of_mem (y := main_call2_v3) (by decide),
    writes_sub_of_mem (y := main_call2_v4) (by decide), writes_sub_of_mem (y := main_call2_v5) (by decide), writes_sub_of_mem (y := main_call2_v6) (by decide),
    writes_sub_of_mem (y := main_call2_v7) (by decide), writes_sub_of_mem (y := main_call2_cst_1) (by decide), writes_sub_of_mem (y := main_call2_v8) (by decide),
    writes_sub_of_mem (y := main_call2_cst_2) (by decide), writes_sub_of_mem (y := main_call2_v9) (by decide), writes_sub_of_mem (y := main_call2_v10) (by decide),
    writes_sub_of_mem (y := main_call2_v11) (by decide), writes_sub_of_mem (y := main_call2_cst_3) (by decide), writes_sub_of_mem (y := main_call2_v12) (by decide),
    writes_sub_of_mem (y := main_call2_cst_4) (by decide), writes_sub_of_mem (y := main_call2_call0_v0) (by decide), writes_sub_of_mem (y := main_call2_call0_v1) (by decide),
    writes_sub_of_mem (y := main_v40) (by decide), writes_sub_of_mem (y := main_v41) (by decide), writes_sub_of_mem (y := main_v42) (by decide),
    writes_sub_of_mem (y := main_v43) (by decide), writes_sub_of_mem (y := main_cst_7) (by decide), writes_sub_of_mem (y := main_v44) (by decide),
    writes_sub_of_mem (y := main_v45) (by decide), writes_sub_of_mem (y := main_v46) (by decide), writes_sub_of_mem (y := main_v47) (by decide),
    writes_sub_of_mem (y := main_v48) (by decide), writes_sub_of_mem (y := main_v49) (by decide)⟩

/-- The buffers segment s3b writes, in order. -/
abbrev w3b : List (Ref sig .tc) :=
  [main_v50, main_v51, main_v52, main_v53, main_v54, main_v55, main_cst_8, main_v56,
   main_v57, main_cst_9, main_v58, main_v59, main_v60]
theorem s3b_writes : (s3b : List (HloOp τ sig (Elt F))).Forall fun op => op.writes ⊆ (w3b.map (Proc.devRef (τ := τ) .tc)).toFinset :=
  ⟨writes_sub_of_mem (y := main_v50) (by decide), writes_sub_of_mem (y := main_v51) (by decide), writes_sub_of_mem (y := main_v52) (by decide),
    writes_sub_of_mem (y := main_v53) (by decide), writes_sub_of_mem (y := main_v54) (by decide), writes_sub_of_mem (y := main_v55) (by decide),
    writes_sub_of_mem (y := main_cst_8) (by decide), writes_sub_of_mem (y := main_v56) (by decide), writes_sub_of_mem (y := main_v57) (by decide),
    writes_sub_of_mem (y := main_cst_9) (by decide), writes_sub_of_mem (y := main_v58) (by decide), writes_sub_of_mem (y := main_v59) (by decide),
    writes_sub_of_mem (y := main_v60) (by decide)⟩

/-- The buffers segment s4 writes, in order. -/
abbrev w4 : List (Ref sig .tc) :=
  [main_v61, main_v62, main_v63, main_v64, main_v65, main_v66, main_cst_10, main_v67,
   main_v68, main_cst_11, main_v69, main_v70, main_v71, main_v72, main_v73, main_v74,
   main_v75, main_v76, main_cst_12, main_v77, main_v78, main_cst_13, main_v79, main_v80,
   main_v81, main_cst_14, main_v82, main_v83, main_v84, main_v85, main_v86, main_v87,
   main_v88, main_v89, main_v90, main_v91, main_v92, main_v93, main_v94]
theorem s4_writes : (s4 : List (HloOp τ sig (Elt F))).Forall fun op => op.writes ⊆ (w4.map (Proc.devRef (τ := τ) .tc)).toFinset :=
  ⟨writes_sub_of_mem (y := main_v61) (by decide), writes_sub_of_mem (y := main_v62) (by decide), writes_sub_of_mem (y := main_v63) (by decide),
    writes_sub_of_mem (y := main_v64) (by decide), writes_sub_of_mem (y := main_v65) (by decide), writes_sub_of_mem (y := main_v66) (by decide),
    writes_sub_of_mem (y := main_cst_10) (by decide), writes_sub_of_mem (y := main_v67) (by decide), writes_sub_of_mem (y := main_v68) (by decide),
    writes_sub_of_mem (y := main_cst_11) (by decide), writes_sub_of_mem (y := main_v69) (by decide), writes_sub_of_mem (y := main_v70) (by decide),
    writes_sub_of_mem (y := main_v71) (by decide), writes_sub_of_mem (y := main_v72) (by decide), writes_sub_of_mem (y := main_v73) (by decide),
    writes_sub_of_mem (y := main_v74) (by decide), writes_sub_of_mem (y := main_v75) (by decide), writes_sub_of_mem (y := main_v76) (by decide),
    writes_sub_of_mem (y := main_cst_12) (by decide), writes_sub_of_mem (y := main_v77) (by decide), writes_sub_of_mem (y := main_v78) (by decide),
    writes_sub_of_mem (y := main_cst_13) (by decide), writes_sub_of_mem (y := main_v79) (by decide), writes_sub_of_mem (y := main_v80) (by decide),
    writes_sub_of_mem (y := main_v81) (by decide), writes_sub_of_mem (y := main_cst_14) (by decide), writes_sub_of_mem (y := main_v82) (by decide),
    writes_sub_of_mem (y := main_v83) (by decide), writes_sub_of_mem (y := main_v84) (by decide), writes_sub_of_mem (y := main_v85) (by decide),
    writes_sub_of_mem (y := main_v86) (by decide), writes_sub_of_mem (y := main_v87) (by decide), writes_sub_of_mem (y := main_v88) (by decide),
    writes_sub_of_mem (y := main_v89) (by decide), writes_sub_of_mem (y := main_v90) (by decide), writes_sub_of_mem (y := main_v91) (by decide),
    writes_sub_of_mem (y := main_v92) (by decide), writes_sub_of_mem (y := main_v93) (by decide), writes_sub_of_mem (y := main_v94) (by decide)⟩

/-- The buffers segment s5a writes, in order. -/
abbrev w5a : List (Ref sig .tc) :=
  [main_cst_15, main_v95, main_cst_16, main_v96, main_v97, main_c_17, main_call4_cst, main_call4_v0,
   main_call4_v1, main_call4_cst_0, main_call4_v2, main_call4_v3, main_call4_v4, main_call4_v5, main_call4_v6, main_call4_v7,
   main_call4_cst_1, main_call4_v8, main_call4_cst_2, main_call4_v9, main_call4_v10, main_call4_v11, main_call4_cst_3, main_call4_v12,
   main_call4_cst_4, main_call4_call0_v0, main_call4_call0_v1, main_v98, main_v99]
theorem s5a_writes : (s5a : List (HloOp τ sig (Elt F))).Forall fun op => op.writes ⊆ (w5a.map (Proc.devRef (τ := τ) .tc)).toFinset :=
  ⟨writes_sub_of_mem (y := main_cst_15) (by decide), writes_sub_of_mem (y := main_v95) (by decide), writes_sub_of_mem (y := main_cst_16) (by decide),
    writes_sub_of_mem (y := main_v96) (by decide), writes_sub_of_mem (y := main_v97) (by decide), writes_sub_of_mem (y := main_c_17) (by decide),
    writes_sub_of_mem (y := main_call4_cst) (by decide), writes_sub_of_mem (y := main_call4_v0) (by decide), writes_sub_of_mem (y := main_call4_v1) (by decide),
    writes_sub_of_mem (y := main_call4_cst_0) (by decide), writes_sub_of_mem (y := main_call4_v2) (by decide), writes_sub_of_mem (y := main_call4_v3) (by decide),
    writes_sub_of_mem (y := main_call4_v4) (by decide), writes_sub_of_mem (y := main_call4_v5) (by decide), writes_sub_of_mem (y := main_call4_v6) (by decide),
    writes_sub_of_mem (y := main_call4_v7) (by decide), writes_sub_of_mem (y := main_call4_cst_1) (by decide), writes_sub_of_mem (y := main_call4_v8) (by decide),
    writes_sub_of_mem (y := main_call4_cst_2) (by decide), writes_sub_of_mem (y := main_call4_v9) (by decide), writes_sub_of_mem (y := main_call4_v10) (by decide),
    writes_sub_of_mem (y := main_call4_v11) (by decide), writes_sub_of_mem (y := main_call4_cst_3) (by decide), writes_sub_of_mem (y := main_call4_v12) (by decide),
    writes_sub_of_mem (y := main_call4_cst_4) (by decide), writes_sub_of_mem (y := main_call4_call0_v0) (by decide), writes_sub_of_mem (y := main_call4_call0_v1) (by decide),
    writes_sub_of_mem (y := main_v98) (by decide), writes_sub_of_mem (y := main_v99) (by decide)⟩

/-- The buffers segment s5b writes, in order. -/
abbrev w5b : List (Ref sig .tc) :=
  [main_v100, main_v101, main_cst_18, main_v102, main_v103, main_v104, main_v105, main_v106,
   main_v107, main_v108, main_v109, main_v110, main_v111, main_v112, main_v113, main_cst_19,
   main_v114, main_v115, main_cst_20, main_v116, main_v117, main_v118]
theorem s5b_writes : (s5b : List (HloOp τ sig (Elt F))).Forall fun op => op.writes ⊆ (w5b.map (Proc.devRef (τ := τ) .tc)).toFinset :=
  ⟨writes_sub_of_mem (y := main_v100) (by decide), writes_sub_of_mem (y := main_v101) (by decide), writes_sub_of_mem (y := main_cst_18) (by decide),
    writes_sub_of_mem (y := main_v102) (by decide), writes_sub_of_mem (y := main_v103) (by decide), writes_sub_of_mem (y := main_v104) (by decide),
    writes_sub_of_mem (y := main_v105) (by decide), writes_sub_of_mem (y := main_v106) (by decide), writes_sub_of_mem (y := main_v107) (by decide),
    writes_sub_of_mem (y := main_v108) (by decide), writes_sub_of_mem (y := main_v109) (by decide), writes_sub_of_mem (y := main_v110) (by decide),
    writes_sub_of_mem (y := main_v111) (by decide), writes_sub_of_mem (y := main_v112) (by decide), writes_sub_of_mem (y := main_v113) (by decide),
    writes_sub_of_mem (y := main_cst_19) (by decide), writes_sub_of_mem (y := main_v114) (by decide), writes_sub_of_mem (y := main_v115) (by decide),
    writes_sub_of_mem (y := main_cst_20) (by decide), writes_sub_of_mem (y := main_v116) (by decide), writes_sub_of_mem (y := main_v117) (by decide),
    writes_sub_of_mem (y := main_v118) (by decide)⟩

/-- The buffers segment s6 writes, in order. -/
abbrev w6 : List (Ref sig .tc) :=
  [main_v119, main_v120, main_v121, main_v122, main_v123, main_v124, main_cst_21, main_v125,
   main_v126, main_cst_22, main_v127, main_v128, main_v129, main_v130, main_v131, main_v132,
   main_v133, main_v134, main_v135, main_v136]
theorem s6_writes : (s6 : List (HloOp τ sig (Elt F))).Forall fun op => op.writes ⊆ (w6.map (Proc.devRef (τ := τ) .tc)).toFinset :=
  ⟨writes_sub_of_mem (y := main_v119) (by decide), writes_sub_of_mem (y := main_v120) (by decide), writes_sub_of_mem (y := main_v121) (by decide),
    writes_sub_of_mem (y := main_v122) (by decide), writes_sub_of_mem (y := main_v123) (by decide), writes_sub_of_mem (y := main_v124) (by decide),
    writes_sub_of_mem (y := main_cst_21) (by decide), writes_sub_of_mem (y := main_v125) (by decide), writes_sub_of_mem (y := main_v126) (by decide),
    writes_sub_of_mem (y := main_cst_22) (by decide), writes_sub_of_mem (y := main_v127) (by decide), writes_sub_of_mem (y := main_v128) (by decide),
    writes_sub_of_mem (y := main_v129) (by decide), writes_sub_of_mem (y := main_v130) (by decide), writes_sub_of_mem (y := main_v131) (by decide),
    writes_sub_of_mem (y := main_v132) (by decide), writes_sub_of_mem (y := main_v133) (by decide), writes_sub_of_mem (y := main_v134) (by decide),
    writes_sub_of_mem (y := main_v135) (by decide), writes_sub_of_mem (y := main_v136) (by decide)⟩

/-- The twenty-six argument buffers. -/
abbrev argRefs : List (Ref sig .tc) :=
  [main_arg0, main_arg1, main_arg2, main_arg3, main_arg4, main_arg5, main_arg6, main_arg7, main_arg8,
   main_arg9, main_arg10, main_arg11, main_arg12, main_arg13, main_arg14, main_arg15, main_arg16, main_arg17,
   main_arg18, main_arg19, main_arg20, main_arg21, main_arg22, main_arg23, main_arg24, main_arg25]

theorem args_not_w0 : ∀ r ∈ argRefs, r ∉ w0 := by decide
theorem args_not_w1 : ∀ r ∈ argRefs, r ∉ w1 := by decide
theorem args_not_w2 : ∀ r ∈ argRefs, r ∉ w2 := by decide
theorem args_not_w3a : ∀ r ∈ argRefs, r ∉ w3a := by decide
theorem args_not_w3b : ∀ r ∈ argRefs, r ∉ w3b := by decide
theorem args_not_w4 : ∀ r ∈ argRefs, r ∉ w4 := by decide
theorem args_not_w5a : ∀ r ∈ argRefs, r ∉ w5a := by decide
theorem args_not_w5b : ∀ r ∈ argRefs, r ∉ w5b := by decide
theorem args_not_w6 : ∀ r ∈ argRefs, r ∉ w6 := by decide

end Cert.ReferenceIdeal.Run

end
-- ==== Proof.RefRun.lean ====
/-
  The reference program's run, read back at its five results.

  For each segment of the program's operations, what its result buffer holds afterwards as a term of what the segment
  reads; then the chain of the segments from the launch contents: each of the five results is its stage term of the
  twenty-six arguments, and the arguments are unchanged. The stage terms contain their operands several times (the
  variance recomputes the mean, the normalisation uses the pre-normalisation array three times), so every stage is
  handled at contents named by a variable, and the earlier stages' terms are substituted as wholes.
-/
import proofs.«173010_j4303557230935_2_alg».proof.ReferenceIdeal
import proofs.«173010_j4303557230935_2_alg».proof.Proof.RefTerms
import proofs.«173010_j4303557230935_2_alg».proof.Proof.RefRunOps
import Idealize.ShloMosaic.Lib.StableHlo.Run

noncomputable section

namespace Cert.ReferenceIdeal.Run

open Cert.ReferenceIdeal Idealize.ShloMosaic Idealize.ShloMosaic.TcCoe Idealize.SL.Sem Idealize.ShloMosaic.StableHlo

variable {F : FTy → Type} [FloatOps F] [Facts]

open Facts₀ Facts

/-! ## What each stage leaves, from any contents

For any contents W before a segment, the segment's result buffer afterwards holds the stage's term of W at the
buffers the segment reads: the fold is unrolled, each operation's result is read at its own buffer and passed over
at the others, and what is left is the stage's term with its definitions unfolded. -/

theorem seg0_v3 (W : Valuation τ sig (Elt F)) :
    after s0 W (main_v3 : DevRef τ sig) = Terms.tU (W (main_arg0 : DevRef τ sig)) (W (main_arg4 : DevRef τ sig)) (W (main_arg5 : DevRef τ sig)) := by
  after_results_simp
  rfl

theorem seg0_v8 (W : Valuation τ sig (Elt F)) :
    after s0 W (main_v8 : DevRef τ sig)
      = Terms.tZ1 (W (main_arg0 : DevRef τ sig)) (W (main_arg1 : DevRef τ sig)) (W (main_arg4 : DevRef τ sig)) (W (main_arg5 : DevRef τ sig)) (W (main_arg6 : DevRef τ sig)) (W (main_arg7 : DevRef τ sig)) := by
  after_results_simp
  rfl

set_option maxRecDepth 8192 in
theorem seg1_v32 (W : Valuation τ sig (Elt F)) :
    after s1 W (main_v32 : DevRef τ sig)
      = Terms.normActH (W (main_v8 : DevRef τ sig)) (Terms.meanH (W (main_v8 : DevRef τ sig))) (Terms.varH (W (main_v8 : DevRef τ sig)) Terms.d0) (W (main_arg20 : DevRef τ sig)) (W (main_arg21 : DevRef τ sig)) := by
  after_results_simp
  rfl

theorem seg2_v36 (W : Valuation τ sig (Elt F)) :
    after s2 W (main_v36 : DevRef τ sig) = Terms.linH (W (main_v32 : DevRef τ sig)) (W (main_arg8 : DevRef τ sig)) (W (main_arg9 : DevRef τ sig)) := by
  after_results_simp
  rfl

set_option maxRecDepth 8192 in
theorem seg3_v60 (W : Valuation τ sig (Elt F)) :
    after s3b (after s3a W) (main_v60 : DevRef τ sig)
      = Terms.normActH (W (main_v36 : DevRef τ sig)) (Terms.meanH (W (main_v36 : DevRef τ sig))) (Terms.varH (W (main_v36 : DevRef τ sig)) Terms.d0) (W (main_arg22 : DevRef τ sig)) (W (main_arg23 : DevRef τ sig)) := by
  rw [← after_append]
  simp only [s3a, s3b, List.cons_append, List.nil_append]
  after_results_simp
  rfl

set_option maxRecDepth 8192 in
theorem seg4_v94 (W : Valuation τ sig (Elt F)) :
    after s4 W (main_v94 : DevRef τ sig)
      = addf (addf (addf (mulf (Terms.sigmH (Terms.linH (W (main_arg2 : DevRef τ sig)) (W (main_arg14 : DevRef τ sig)) (W (main_arg15 : DevRef τ sig)))) (W (main_arg3 : DevRef τ sig)))
            (mulf (mulf (Terms.sigmH (Terms.linH (W (main_v3 : DevRef τ sig)) (W (main_arg16 : DevRef τ sig)) (W (main_arg17 : DevRef τ sig)))) (Terms.splat 0x3DCCCCCD#32))
              (Terms.linH (W (main_v60 : DevRef τ sig)) (W (main_arg8 : DevRef τ sig)) (W (main_arg9 : DevRef τ sig)))))
          (Terms.mmH (W (main_v3 : DevRef τ sig)) (W (main_arg10 : DevRef τ sig)))) (Terms.rowB (W (main_arg11 : DevRef τ sig))) := by
  after_results_simp
  rfl

set_option maxRecDepth 8192 in
theorem seg5_v118 (W : Valuation τ sig (Elt F)) :
    after s5b (after s5a W) (main_v118 : DevRef τ sig)
      = Terms.normActH (W (main_v94 : DevRef τ sig)) (Terms.meanH (W (main_v94 : DevRef τ sig))) (Terms.varH (W (main_v94 : DevRef τ sig)) Terms.d0) (W (main_arg24 : DevRef τ sig)) (W (main_arg25 : DevRef τ sig)) := by
  rw [← after_append]
  simp only [s5a, s5b, List.cons_append, List.nil_append]
  after_results_simp
  rfl

set_option maxRecDepth 8192 in
theorem seg6_v136 (W : Valuation τ sig (Elt F)) :
    after s6 W (main_v136 : DevRef τ sig)
      = mulf (Terms.sigmH (Terms.linH (W (main_v118 : DevRef τ sig)) (W (main_arg18 : DevRef τ sig)) (W (main_arg19 : DevRef τ sig))))
          (broadcastInDim S65536x256 ![0, 1] bcast_S65536x1_S65536x256_0_1
            (addf (Host.dotGeneral dot_S65536x256_S256x1_S65536x1_1_0_0_1_n_n none
                (addf (addf (W (main_v32 : DevRef τ sig)) (W (main_v118 : DevRef τ sig))) (W (main_v60 : DevRef τ sig))) (W (main_arg12 : DevRef τ sig)))
              (broadcastInDim S65536x1 ![0, 1] bcast_S1x1_S65536x1_0_1 (broadcastInDim S1x1 ![1] bcast_S1_S1x1_1 (W (main_arg13 : DevRef τ sig)))))) := by
  after_results_simp
  rfl

/-! ## The values at the end of the program

The stages are chained: after each segment the contents are named afresh, keeping of them only what later segments
read — the argument buffers, unchanged since no segment writes one, and the stage results so far, each at its term of
the arguments. A stage's term is by definition the stage's operations applied to the earlier stages' terms, so each
step is the segment's lemma with the known contents substituted. -/

theorem vals (V : Valuation τ sig (Elt F)) :
    after ops V (main_v32 : DevRef τ sig) = (Terms.tA1 (V (main_arg0 : DevRef τ sig)) (V (main_arg1 : DevRef τ sig)) (V (main_arg4 : DevRef τ sig)) (V (main_arg5 : DevRef τ sig)) (V (main_arg6 : DevRef τ sig)) (V (main_arg7 : DevRef τ sig)) (V (main_arg20 : DevRef τ sig)) (V (main_arg21 : DevRef τ sig)))
    ∧ after ops V (main_v60 : DevRef τ sig) = (Terms.tA2 (V (main_arg0 : DevRef τ sig)) (V (main_arg1 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg20 : DevRef τ sig)) (V (main_arg21 : DevRef τ sig)) (V (main_arg22 : DevRef τ sig)) (V (main_arg23 : DevRef τ sig)))
    ∧ after ops V (main_v118 : DevRef τ sig) = (Terms.tA3 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg14 : DevRef τ sig)) (V (main_arg15 : DevRef τ sig)) (V (main_arg16 : DevRef τ sig)) (V (main_arg17 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig)))
    ∧ after ops V (main_v136 : DevRef τ sig) = (Terms.tP (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig)))
    ∧ after ops V (main_v94 : DevRef τ sig) = (Terms.tZ3 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg14 : DevRef τ sig)) (V (main_arg15 : DevRef τ sig)) (V (main_arg16 : DevRef τ sig)) (V (main_arg17 : DevRef τ sig)) (V (main_arg20 : DevRef τ sig)) (V (main_arg21 : DevRef τ sig)) (V (main_arg22 : DevRef τ sig)) (V (main_arg23 : DevRef τ sig)))
    ∧ ∀ r ∈ argRefs, after ops V (Proc.devRef (τ := τ) .tc r) = V (Proc.devRef (τ := τ) .tc r) := by
  rw [after_ops]
  -- the first affine stage
  have a0 : ∀ r ∈ argRefs, after s0 V (Proc.devRef (τ := τ) .tc r) = V (Proc.devRef (τ := τ) .tc r) :=
    fun r hr => after_of_writes_sub s0 V s0_writes (args_not_w0 r hr)
  have h3 : after s0 V (main_v3 : DevRef τ sig) = (Terms.tU (V (main_arg0 : DevRef τ sig)) (V (main_arg4 : DevRef τ sig)) (V (main_arg5 : DevRef τ sig))) := seg0_v3 V
  have h8 : after s0 V (main_v8 : DevRef τ sig) = (Terms.tZ1 (V (main_arg0 : DevRef τ sig)) (V (main_arg1 : DevRef τ sig)) (V (main_arg4 : DevRef τ sig)) (V (main_arg5 : DevRef τ sig)) (V (main_arg6 : DevRef τ sig)) (V (main_arg7 : DevRef τ sig))) := seg0_v8 V
  generalize after s0 V = V1 at a0 h3 h8 ⊢
  -- the first normalisation
  have a1 : ∀ r ∈ argRefs, after s1 V1 (Proc.devRef (τ := τ) .tc r) = V (Proc.devRef (τ := τ) .tc r) :=
    fun r hr => (after_of_writes_sub s1 V1 s1_writes (args_not_w1 r hr)).trans (a0 r hr)
  have k3 : after s1 V1 (main_v3 : DevRef τ sig) = (Terms.tU (V (main_arg0 : DevRef τ sig)) (V (main_arg4 : DevRef τ sig)) (V (main_arg5 : DevRef τ sig))) := (after_of_writes_sub (r := main_v3) s1 V1 s1_writes (by decide)).trans h3
  have k32 : after s1 V1 (main_v32 : DevRef τ sig) = (Terms.tA1 (V (main_arg0 : DevRef τ sig)) (V (main_arg1 : DevRef τ sig)) (V (main_arg4 : DevRef τ sig)) (V (main_arg5 : DevRef τ sig)) (V (main_arg6 : DevRef τ sig)) (V (main_arg7 : DevRef τ sig)) (V (main_arg20 : DevRef τ sig)) (V (main_arg21 : DevRef τ sig))) := by
    have h := seg1_v32 V1
    rw [h8, a0 main_arg20 (by decide), a0 main_arg21 (by decide)] at h
    exact h
  clear a0 h3 h8
  generalize after s1 V1 = V2 at a1 k3 k32 ⊢
  -- the second affine stage
  have a2 : ∀ r ∈ argRefs, after s2 V2 (Proc.devRef (τ := τ) .tc r) = V (Proc.devRef (τ := τ) .tc r) :=
    fun r hr => (after_of_writes_sub s2 V2 s2_writes (args_not_w2 r hr)).trans (a1 r hr)
  have l3 : after s2 V2 (main_v3 : DevRef τ sig) = (Terms.tU (V (main_arg0 : DevRef τ sig)) (V (main_arg4 : DevRef τ sig)) (V (main_arg5 : DevRef τ sig))) := (after_of_writes_sub (r := main_v3) s2 V2 s2_writes (by decide)).trans k3
  have l32 : after s2 V2 (main_v32 : DevRef τ sig) = (Terms.tA1 (V (main_arg0 : DevRef τ sig)) (V (main_arg1 : DevRef τ sig)) (V (main_arg4 : DevRef τ sig)) (V (main_arg5 : DevRef τ sig)) (V (main_arg6 : DevRef τ sig)) (V (main_arg7 : DevRef τ sig)) (V (main_arg20 : DevRef τ sig)) (V (main_arg21 : DevRef τ sig))) := (after_of_writes_sub (r := main_v32) s2 V2 s2_writes (by decide)).trans k32
  have l36 : after s2 V2 (main_v36 : DevRef τ sig) = (Terms.tZ2 (V (main_arg0 : DevRef τ sig)) (V (main_arg1 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg20 : DevRef τ sig)) (V (main_arg21 : DevRef τ sig))) := by
    have h := seg2_v36 V2
    rw [k32, a1 main_arg8 (by decide), a1 main_arg9 (by decide)] at h
    exact h
  clear a1 k3 k32
  generalize after s2 V2 = V3 at a2 l3 l32 l36 ⊢
  -- the second normalisation
  have a3 : ∀ r ∈ argRefs, after s3b (after s3a V3) (Proc.devRef (τ := τ) .tc r) = V (Proc.devRef (τ := τ) .tc r) :=
    fun r hr => (after_of_writes_sub s3b (after s3a V3) s3b_writes (args_not_w3b r hr)).trans
      ((after_of_writes_sub s3a V3 s3a_writes (args_not_w3a r hr)).trans (a2 r hr))
  have m3 : after s3b (after s3a V3) (main_v3 : DevRef τ sig) = (Terms.tU (V (main_arg0 : DevRef τ sig)) (V (main_arg4 : DevRef τ sig)) (V (main_arg5 : DevRef τ sig))) := (after_of_writes_sub (r := main_v3) s3b (after s3a V3) s3b_writes (by decide)).trans ((after_of_writes_sub (r := main_v3) s3a V3 s3a_writes (by decide)).trans l3)
  have m32 : after s3b (after s3a V3) (main_v32 : DevRef τ sig) = (Terms.tA1 (V (main_arg0 : DevRef τ sig)) (V (main_arg1 : DevRef τ sig)) (V (main_arg4 : DevRef τ sig)) (V (main_arg5 : DevRef τ sig)) (V (main_arg6 : DevRef τ sig)) (V (main_arg7 : DevRef τ sig)) (V (main_arg20 : DevRef τ sig)) (V (main_arg21 : DevRef τ sig))) := (after_of_writes_sub (r := main_v32) s3b (after s3a V3) s3b_writes (by decide)).trans ((after_of_writes_sub (r := main_v32) s3a V3 s3a_writes (by decide)).trans l32)
  have m60 : after s3b (after s3a V3) (main_v60 : DevRef τ sig) = (Terms.tA2 (V (main_arg0 : DevRef τ sig)) (V (main_arg1 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg20 : DevRef τ sig)) (V (main_arg21 : DevRef τ sig)) (V (main_arg22 : DevRef τ sig)) (V (main_arg23 : DevRef τ sig))) := by
    have h := seg3_v60 V3
    rw [l36, a2 main_arg22 (by decide), a2 main_arg23 (by decide)] at h
    exact h
  clear a2 l3 l32 l36
  generalize after s3b (after s3a V3) = V5 at a3 m3 m32 m60 ⊢
  -- the third stage before normalisation
  have a4 : ∀ r ∈ argRefs, after s4 V5 (Proc.devRef (τ := τ) .tc r) = V (Proc.devRef (τ := τ) .tc r) :=
    fun r hr => (after_of_writes_sub s4 V5 s4_writes (args_not_w4 r hr)).trans (a3 r hr)
  have n32 : after s4 V5 (main_v32 : DevRef τ sig) = (Terms.tA1 (V (main_arg0 : DevRef τ sig)) (V (main_arg1 : DevRef τ sig)) (V (main_arg4 : DevRef τ sig)) (V (main_arg5 : DevRef τ sig)) (V (main_arg6 : DevRef τ sig)) (V (main_arg7 : DevRef τ sig)) (V (main_arg20 : DevRef τ sig)) (V (main_arg21 : DevRef τ sig))) := (after_of_writes_sub (r := main_v32) s4 V5 s4_writes (by decide)).trans m32
  have n60 : after s4 V5 (main_v60 : DevRef τ sig) = (Terms.tA2 (V (main_arg0 : DevRef τ sig)) (V (main_arg1 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg20 : DevRef τ sig)) (V (main_arg21 : DevRef τ sig)) (V (main_arg22 : DevRef τ sig)) (V (main_arg23 : DevRef τ sig))) := (after_of_writes_sub (r := main_v60) s4 V5 s4_writes (by decide)).trans m60
  have n94 : after s4 V5 (main_v94 : DevRef τ sig) = (Terms.tZ3 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg14 : DevRef τ sig)) (V (main_arg15 : DevRef τ sig)) (V (main_arg16 : DevRef τ sig)) (V (main_arg17 : DevRef τ sig)) (V (main_arg20 : DevRef τ sig)) (V (main_arg21 : DevRef τ sig)) (V (main_arg22 : DevRef τ sig)) (V (main_arg23 : DevRef τ sig))) := by
    have h := seg4_v94 V5
    rw [m3, m60, a3 main_arg2 (by decide), a3 main_arg14 (by decide), a3 main_arg15 (by decide), a3 main_arg3 (by decide), a3 main_arg16 (by decide), a3 main_arg17 (by decide), a3 main_arg8 (by decide), a3 main_arg9 (by decide), a3 main_arg10 (by decide), a3 main_arg11 (by decide)] at h
    exact h
  clear a3 m3 m32 m60
  generalize after s4 V5 = V6 at a4 n32 n60 n94 ⊢
  -- the third normalisation
  have a5 : ∀ r ∈ argRefs, after s5b (after s5a V6) (Proc.devRef (τ := τ) .tc r) = V (Proc.devRef (τ := τ) .tc r) :=
    fun r hr => (after_of_writes_sub s5b (after s5a V6) s5b_writes (args_not_w5b r hr)).trans
      ((after_of_writes_sub s5a V6 s5a_writes (args_not_w5a r hr)).trans (a4 r hr))
  have p32 : after s5b (after s5a V6) (main_v32 : DevRef τ sig) = (Terms.tA1 (V (main_arg0 : DevRef τ sig)) (V (main_arg1 : DevRef τ sig)) (V (main_arg4 : DevRef τ sig)) (V (main_arg5 : DevRef τ sig)) (V (main_arg6 : DevRef τ sig)) (V (main_arg7 : DevRef τ sig)) (V (main_arg20 : DevRef τ sig)) (V (main_arg21 : DevRef τ sig))) := (after_of_writes_sub (r := main_v32) s5b (after s5a V6) s5b_writes (by decide)).trans ((after_of_writes_sub (r := main_v32) s5a V6 s5a_writes (by decide)).trans n32)
  have p60 : after s5b (after s5a V6) (main_v60 : DevRef τ sig) = (Terms.tA2 (V (main_arg0 : DevRef τ sig)) (V (main_arg1 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg20 : DevRef τ sig)) (V (main_arg21 : DevRef τ sig)) (V (main_arg22 : DevRef τ sig)) (V (main_arg23 : DevRef τ sig))) := (after_of_writes_sub (r := main_v60) s5b (after s5a V6) s5b_writes (by decide)).trans ((after_of_writes_sub (r := main_v60) s5a V6 s5a_writes (by decide)).trans n60)
  have p94 : after s5b (after s5a V6) (main_v94 : DevRef τ sig) = (Terms.tZ3 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg14 : DevRef τ sig)) (V (main_arg15 : DevRef τ sig)) (V (main_arg16 : DevRef τ sig)) (V (main_arg17 : DevRef τ sig)) (V (main_arg20 : DevRef τ sig)) (V (main_arg21 : DevRef τ sig)) (V (main_arg22 : DevRef τ sig)) (V (main_arg23 : DevRef τ sig))) := (after_of_writes_sub (r := main_v94) s5b (after s5a V6) s5b_writes (by decide)).trans ((after_of_writes_sub (r := main_v94) s5a V6 s5a_writes (by decide)).trans n94)
  have p118 : after s5b (after s5a V6) (main_v118 : DevRef τ sig) = (Terms.tA3 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg14 : DevRef τ sig)) (V (main_arg15 : DevRef τ sig)) (V (main_arg16 : DevRef τ sig)) (V (main_arg17 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig))) := by
    have h := seg5_v118 V6
    rw [n94, a4 main_arg24 (by decide), a4 main_arg25 (by decide)] at h
    exact h
  clear a4 n32 n60 n94
  generalize after s5b (after s5a V6) = V8 at a5 p32 p60 p94 p118 ⊢
  -- the output gate and the final product
  have a6 : ∀ r ∈ argRefs, after s6 V8 (Proc.devRef (τ := τ) .tc r) = V (Proc.devRef (τ := τ) .tc r) :=
    fun r hr => (after_of_writes_sub s6 V8 s6_writes (args_not_w6 r hr)).trans (a5 r hr)
  have q32 : after s6 V8 (main_v32 : DevRef τ sig) = (Terms.tA1 (V (main_arg0 : DevRef τ sig)) (V (main_arg1 : DevRef τ sig)) (V (main_arg4 : DevRef τ sig)) (V (main_arg5 : DevRef τ sig)) (V (main_arg6 : DevRef τ sig)) (V (main_arg7 : DevRef τ sig)) (V (main_arg20 : DevRef τ sig)) (V (main_arg21 : DevRef τ sig))) := (after_of_writes_sub (r := main_v32) s6 V8 s6_writes (by decide)).trans p32
  have q60 : after s6 V8 (main_v60 : DevRef τ sig) = (Terms.tA2 (V (main_arg0 : DevRef τ sig)) (V (main_arg1 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg20 : DevRef τ sig)) (V (main_arg21 : DevRef τ sig)) (V (main_arg22 : DevRef τ sig)) (V (main_arg23 : DevRef τ sig))) := (after_of_writes_sub (r := main_v60) s6 V8 s6_writes (by decide)).trans p60
  have q94 : after s6 V8 (main_v94 : DevRef τ sig) = (Terms.tZ3 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg14 : DevRef τ sig)) (V (main_arg15 : DevRef τ sig)) (V (main_arg16 : DevRef τ sig)) (V (main_arg17 : DevRef τ sig)) (V (main_arg20 : DevRef τ sig)) (V (main_arg21 : DevRef τ sig)) (V (main_arg22 : DevRef τ sig)) (V (main_arg23 : DevRef τ sig))) := (after_of_writes_sub (r := main_v94) s6 V8 s6_writes (by decide)).trans p94
  have q118 : after s6 V8 (main_v118 : DevRef τ sig) = (Terms.tA3 (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg14 : DevRef τ sig)) (V (main_arg15 : DevRef τ sig)) (V (main_arg16 : DevRef τ sig)) (V (main_arg17 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig))) := (after_of_writes_sub (r := main_v118) s6 V8 s6_writes (by decide)).trans p118
  have q136 : after s6 V8 (main_v136 : DevRef τ sig) = (Terms.tP (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig))) := by
    have h := seg6_v136 V8
    rw [p118, p32, p60, a5 main_arg18 (by decide), a5 main_arg19 (by decide), a5 main_arg12 (by decide), a5 main_arg13 (by decide)] at h
    exact h
  exact ⟨q32, q60, q118, q136, q94, a6⟩

/-- At the compiled mesh, for any float values, from any memory with zero counters: every weakly fair execution of the
    program terminates with the five results at their stage terms of the arguments' launch contents, and the twenty-six
    arguments unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v32) = Terms.tA1 (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg20)) (m ((c.tc : Thread nD τ).loc main_arg21))
      ∧ r.2.mem ((c.tc : Thread nD τ).loc main_v60) = Terms.tA2 (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg20)) (m ((c.tc : Thread nD τ).loc main_arg21)) (m ((c.tc : Thread nD τ).loc main_arg22)) (m ((c.tc : Thread nD τ).loc main_arg23))
      ∧ r.2.mem ((c.tc : Thread nD τ).loc main_v118) = Terms.tA3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
      ∧ r.2.mem ((c.tc : Thread nD τ).loc main_v136) = Terms.tP (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
      ∧ r.2.mem ((c.tc : Thread nD τ).loc main_v94) = Terms.tZ3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg20)) (m ((c.tc : Thread nD τ).loc main_arg21)) (m ((c.tc : Thread nD τ).loc main_arg22)) (m ((c.tc : Thread nD τ).loc main_arg23))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun _ h c => by
      obtain ⟨h32, h60, h118, h136, h94, ha⟩ := vals (F := F) (launchContents m c)
      exact ⟨(h c main_v32).trans h32, (h c main_v60).trans h60, (h c main_v118).trans h118, (h c main_v136).trans h136,
        (h c main_v94).trans h94,
        (h c main_arg0).trans (ha main_arg0 (by decide)),
        (h c main_arg1).trans (ha main_arg1 (by decide)),
        (h c main_arg2).trans (ha main_arg2 (by decide)),
        (h c main_arg3).trans (ha main_arg3 (by decide)),
        (h c main_arg4).trans (ha main_arg4 (by decide)),
        (h c main_arg5).trans (ha main_arg5 (by decide)),
        (h c main_arg6).trans (ha main_arg6 (by decide)),
        (h c main_arg7).trans (ha main_arg7 (by decide)),
        (h c main_arg8).trans (ha main_arg8 (by decide)),
        (h c main_arg9).trans (ha main_arg9 (by decide)),
        (h c main_arg10).trans (ha main_arg10 (by decide)),
        (h c main_arg11).trans (ha main_arg11 (by decide)),
        (h c main_arg12).trans (ha main_arg12 (by decide)),
        (h c main_arg13).trans (ha main_arg13 (by decide)),
        (h c main_arg14).trans (ha main_arg14 (by decide)),
        (h c main_arg15).trans (ha main_arg15 (by decide)),
        (h c main_arg16).trans (ha main_arg16 (by decide)),
        (h c main_arg17).trans (ha main_arg17 (by decide)),
        (h c main_arg18).trans (ha main_arg18 (by decide)),
        (h c main_arg19).trans (ha main_arg19 (by decide)),
        (h c main_arg20).trans (ha main_arg20 (by decide)),
        (h c main_arg21).trans (ha main_arg21 (by decide)),
        (h c main_arg22).trans (ha main_arg22 (by decide)),
        (h c main_arg23).trans (ha main_arg23 (by decide)),
        (h c main_arg24).trans (ha main_arg24 (by decide)),
        (h c main_arg25).trans (ha main_arg25 (by decide))⟩)
    (run_main m ρ)

end Cert.ReferenceIdeal.Run

end
-- ==== Proof.RefVal.lean ====
/-
  The reference program's stage terms, read on the extended reals, are the functions of the specification.

  On the extended reals every float is an extended real and every operation the exact one, so each host operation
  read at an index is a formula in the entries of its operands: a broadcast reads the entry it repeats, a constant
  reads its word's value, a product of matrices reads the sum over the contracted coordinate, a column sum reads
  the initial value plus the sum down the batch. From these the building blocks of the program — the affine map
  of the rows, the column mean, the column variance, the normalise-scale-shift-rectify step, the logistic function
  — are, as whole arrays, the specification's functions of the same arrays read as matrices and rows; and the
  stages, which compose the building blocks in the specification's own order and grouping, are the specification's
  stages of the twenty-six argument arrays.

  No hypothesis on the data is needed. The only evaluation of literals is inside the variance routine, whose
  divisor is the batch-size word minus the conversion of the integer zero: that is the batch size, 65536, which is
  positive, so the routine's guard holds and it returns the quotient. The zero word is 0 and the one word is 1.
-/
import proofs.«173010_j4303557230935_2_alg».proof.ReferenceIdeal
import proofs.«173010_j4303557230935_2_alg».proof.Proof.RefTerms
import proofs.«173010_j4303557230935_2_alg».proof.Proof.Spec
import Idealize.ShloMosaic.PureOps.Ideal.Laws
import Idealize.ShloMosaic.Lib.ValueIdx
import Idealize.ShloMosaic.Lib.Pipeline.Value
import Idealize.ShloMosaic.Lib.IdealHost
import Idealize.ShloMosaic.Lib.KernelVsHost
import Idealize.ShloMosaic.Lib.StackMember

noncomputable section

namespace Cert.ReferenceIdeal.RefVal

open Idealize.ShloMosaic Idealize.ShloMosaic.ValueIdx Cert.Spec Cert.ReferenceIdeal

/-- The twenty-six argument arrays as the specification's matrices and rows. -/
def argsOf (X P C S : FVec Ideal S65536x256 .f32) (Wx : FVec Ideal S256x256 .f32) (bx : FVec Ideal S256 .f32)
    (Wh : FVec Ideal S256x256 .f32) (bh : FVec Ideal S256 .f32) (WLC : FVec Ideal S256x256 .f32) (bLC : FVec Ideal S256 .f32)
    (WC : FVec Ideal S256x256 .f32) (bC : FVec Ideal S256 .f32) (WP : FVec Ideal S256x1 .f32) (bP : FVec Ideal S1 .f32)
    (Wf : FVec Ideal S256x256 .f32) (bf : FVec Ideal S256 .f32) (Wi : FVec Ideal S256x256 .f32) (bi : FVec Ideal S256 .f32)
    (Wo : FVec Ideal S256x256 .f32) (bo : FVec Ideal S256 .f32) (g1 be1 g2 be2 g3 be3 : FVec Ideal S256 .f32) :
    Cert.Spec.Args 65536 256 where
  X := toMat X
  P := toMat P
  C := toMat C
  S := toMat S
  Wx := toMat Wx
  bx := toRow bx
  Wh := toMat Wh
  bh := toRow bh
  WLC := toMat WLC
  bLC := toRow bLC
  WC := toMat WC
  bC := toRow bC
  WP := toMat WP
  bP := toRow bP
  Wf := toMat Wf
  bf := toRow bf
  Wi := toMat Wi
  bi := toRow bi
  Wo := toMat Wo
  bo := toRow bo
  g1 := toRow g1
  be1 := toRow be1
  g2 := toRow g2
  be2 := toRow be2
  g3 := toRow g3
  be3 := toRow be3

variable [Facts]

open Facts₀ Facts

/-! ## Broadcasts and constants read at an index -/

/-- A row repeated down the batch reads, at row `r` and column `j`, the row's entry `j`. -/
theorem rowB_apply (b : FVec Ideal S256 .f32) (r : Fin 65536) (j : Fin 256) :
    Terms.rowB b (ix2 r j) = b (ix1 j) := by
  unfold Terms.rowB
  refine (broadcastInDim_oneRow_apply bcast_S1x256_S65536x256_0_1 _ r j).trans ?_
  refine broadcastInDim_apply ![1] bcast_S256_S1x256_1 b (ix2 (0 : Fin 1) j) (ix1 j) fun a => ?_
  match a with
  | ⟨0, _⟩ => rfl

/-- A word in every entry of the large array reads that word's value. -/
theorem splat_apply (w : BitVec 32) (i : S65536x256.Idx) :
    Terms.splat (F := Ideal) w i = Ideal.ofBits .f32 w := by
  unfold Terms.splat
  exact broadcastInDim_scalar_apply bcast_S_S65536x256 _ i

/-- A word in every entry of a row reads that word's value. -/
theorem splatRow_apply (w : BitVec 32) (i : S256.Idx) :
    Terms.splatRow (F := Ideal) w i = Ideal.ofBits .f32 w := by
  unfold Terms.splatRow
  exact broadcastInDim_scalar_apply bcast_S_S256 _ i

/-! ## The product and the column sums -/

/-- The product at row `r` and column `j` is the sum over the contracted coordinate. -/
theorem mmH_apply (X : FVec Ideal S65536x256 .f32) (W : FVec Ideal S256x256 .f32) (r : Fin 65536) (j : Fin 256) :
    Terms.mmH X W (ix2 r j) = ∑ q : Fin 256, X (ix2 r q) * W (ix2 q j) :=
  StackMember.dotGeneral_plain_apply none X W r j

/-- The column sum at column `j`: the initial word's value plus the sum down the batch. -/
theorem sumH_apply (Z : FVec Ideal S65536x256 .f32) (j : Fin 256) :
    Terms.sumH Z (ix1 j) = Ideal.ofBits .f32 0x00000000#32 + ∑ r : Fin 65536, Z (ix2 r j) := by
  have h' : S65536x256.ReducesTo [0] S256 := reducesTo_S65536x256_S256_d0
  have h : S65536x256.Reduces [0] S256 := ⟨h'.1, Nat.one_pos, h'.2⟩
  show Ideal.hostReduceAdd h' Z (Ideal.ofBits .f32 0x00000000#32) (ix1 j) = _
  rw [Ideal.hostReduceAdd_single h' h]
  refine congrArg (_ + ·) (Finset.sum_congr rfl fun k _ => ?_)
  refine congrArg Z (funext fun a => Fin.ext ?_)
  match a with
  | ⟨0, _⟩ => rfl
  | ⟨1, _⟩ => rfl

/-! ## The words the programs spell, evaluated -/

/-- The batch-size word is the real number 65536. -/
theorem wN_eq : wN = ((65536 : ℝ) : EReal) := by
  unfold wN
  simp [Ideal.ofBits, Ideal.ieee, -EReal.coe_mul]; norm_num

/-- The batch size is positive: the guard on the variance's divisor holds. -/
theorem guard_wN : Ideal.cmp .ogt wN (Ideal.ofBits .f32 0x00000000#32) = 1#1 := by
  rw [Ideal.ofBits_zero_f32, wN_eq]
  have h : (0 : EReal) < ((65536 : ℝ) : EReal) := by exact_mod_cast (by norm_num : (0 : ℝ) < 65536)
  simp [Ideal.cmp, h]

/-! ## The column mean and the column variance -/

/-- The column means are the specification's. -/
theorem meanH_eq (Z : FVec Ideal S65536x256 .f32) : Terms.meanH Z = ofRow (mean (toMat Z)) := by
  refine eq_ofRow _ _ fun j => ?_
  show Ideal.div (Terms.sumH Z (ix1 j)) (Terms.splatRow (F := Ideal) 0x47800000#32 (ix1 j)) = _
  rw [sumH_apply, splatRow_apply, Ideal.ofBits_zero_f32, zero_add]
  rfl

/-- The deviations from the column mean, as the variance routine forms them: the mean is recomputed from the
    column sums, laid out as one row and repeated down the batch. -/
def devH (Z : FVec Ideal S65536x256 .f32) : FVec Ideal S65536x256 .f32 :=
  subf Z (broadcastInDim S65536x256 ![0, 1] bcast_S1x256_S65536x256_0_1
    (Host.divf (broadcastInDim S1x256 ![1] bcast_S256_S1x256_1 (Terms.sumH Z))
      (broadcastInDim S1x256 ![] bcast_S_S1x256 (constant S_ .f32 0x47800000#32))))

/-- The variance routine's divisor: the batch size minus the correction, here the integer zero. -/
def divisorH : FVec Ideal S_ .f32 := subf (constant S_ .f32 0x47800000#32) (sitofp .f32 Terms.d0)

/-- The variance routine in terms of its deviations and its divisor. -/
theorem varH_unfold (Z : FVec Ideal S65536x256 .f32) :
    Terms.varH Z Terms.d0
      = select (broadcastInDim S256 ![] bcast_S_S256 (cmpf .ogt divisorH (constant S_ .f32 0x00000000#32)))
          (Host.divf (Terms.sumH (mulf (devH Z) (devH Z))) (broadcastInDim S256 ![] bcast_S_S256 divisorH))
          (broadcastInDim S256 ![] bcast_S_S256 (id (constant S_ .f32 0x7FC00000#32))) := rfl

/-- A deviation is the entry minus the specification's column mean. -/
theorem devH_apply (Z : FVec Ideal S65536x256 .f32) (r : Fin 65536) (j : Fin 256) :
    devH Z (ix2 r j) = toMat Z r j - mean (toMat Z) j := by
  unfold devH
  show Z (ix2 r j) - _ = _
  refine congrArg (Z (ix2 r j) - ·) ?_
  refine (broadcastInDim_oneRow_apply bcast_S1x256_S65536x256_0_1 _ r j).trans ?_
  show Ideal.div (broadcastInDim S1x256 ![1] bcast_S256_S1x256_1 (Terms.sumH Z) (ix2 (0 : Fin 1) j))
      (broadcastInDim S1x256 ![] bcast_S_S1x256 (constant (F := Ideal) S_ .f32 0x47800000#32) (ix2 (0 : Fin 1) j)) = _
  rw [broadcastInDim_scalar_apply bcast_S_S1x256,
    broadcastInDim_apply ![1] bcast_S256_S1x256_1 (Terms.sumH Z) (ix2 (0 : Fin 1) j) (ix1 j)
      (fun a => match a with | ⟨0, _⟩ => rfl),
    sumH_apply, Ideal.ofBits_zero_f32, zero_add]
  rfl

/-- The divisor is the batch size: the correction is the integer zero, whose conversion is zero. -/
theorem divisorH_apply : divisorH ix0 = wN := by
  show Ideal.ofBits .f32 0x47800000#32 - (((0#32 : BitVec 32).toInt : ℝ) : EReal) = wN
  unfold wN
  simp

/-- The column variance is the specification's mean of the squared deviations. -/
theorem varH_eq (Z : FVec Ideal S65536x256 .f32) : Terms.varH Z Terms.d0 = ofRow (varCentered (toMat Z)) := by
  refine eq_ofRow _ _ fun j => ?_
  rw [varH_unfold]
  show Scalar.select
      (broadcastInDim S256 ![] bcast_S_S256 (cmpf .ogt divisorH (constant (F := Ideal) S_ .f32 0x00000000#32)) (ix1 j))
      (Ideal.div (Terms.sumH (mulf (devH Z) (devH Z)) (ix1 j)) (broadcastInDim S256 ![] bcast_S_S256 divisorH (ix1 j)))
      (broadcastInDim S256 ![] bcast_S_S256 (id (constant (F := Ideal) S_ .f32 0x7FC00000#32)) (ix1 j)) = _
  rw [broadcastInDim_scalar_apply bcast_S_S256 (cmpf .ogt divisorH (constant (F := Ideal) S_ .f32 0x00000000#32)),
    broadcastInDim_scalar_apply bcast_S_S256 divisorH]
  show Scalar.select (Ideal.cmp .ogt (divisorH ix0) (Ideal.ofBits .f32 0x00000000#32))
      (Ideal.div (Terms.sumH (mulf (devH Z) (devH Z)) (ix1 j)) (divisorH ix0)) _ = _
  rw [divisorH_apply, guard_wN, select_one, sumH_apply, Ideal.ofBits_zero_f32, zero_add]
  show Ideal.div (∑ r : Fin 65536, devH Z (ix2 r j) * devH Z (ix2 r j)) wN
      = Ideal.div (∑ r : Fin 65536, (toMat Z r j - mean (toMat Z) j) * (toMat Z r j - mean (toMat Z) j)) wN
  refine congrArg (Ideal.div · wN) (Finset.sum_congr rfl fun r _ => ?_)
  rw [devH_apply]

/-! ## The affine map, the normalisation step and the logistic function -/

/-- The product is the specification's matrix product. -/
theorem mmH_eq (X : FVec Ideal S65536x256 .f32) (W : FVec Ideal S256x256 .f32) :
    Terms.mmH X W = ofMat (mm (toMat X) (toMat W)) :=
  eq_ofMat _ _ fun r j => mmH_apply X W r j

/-- The affine map of the rows is the specification's. -/
theorem linH_eq (X : FVec Ideal S65536x256 .f32) (W : FVec Ideal S256x256 .f32) (b : FVec Ideal S256 .f32) :
    Terms.linH X W b = ofMat (lin (toMat X) (toMat W) (toRow b)) := by
  refine eq_ofMat _ _ fun r j => ?_
  show Terms.mmH X W (ix2 r j) + Terms.rowB b (ix2 r j) = _
  rw [mmH_apply, rowB_apply]
  rfl

/-- The normalised, scaled and shifted entry, before the rectifier. -/
def normH (Z : FVec Ideal S65536x256 .f32) (mu v g be : FVec Ideal S256 .f32) : FVec Ideal S65536x256 .f32 :=
  addf (mulf (mulf (subf Z (Terms.rowB mu)) (Terms.rowB (Host.rsqrt (addf v (Terms.splatRow 0x3727C5AC#32)))))
    (Terms.rowB g)) (Terms.rowB be)

/-- The normalisation step is the rectifier's select over that entry. -/
theorem normActH_unfold (Z : FVec Ideal S65536x256 .f32) (mu v g be : FVec Ideal S256 .f32) :
    Terms.normActH Z mu v g be
      = select (cmpf .ogt (normH Z mu v g be) (Terms.splat 0x00000000#32)) (normH Z mu v g be)
          (mulf (Terms.splat 0x3DCCCCCD#32) (normH Z mu v g be)) := rfl

/-- That entry, read at row `r` and column `j`. -/
theorem normH_apply (Z : FVec Ideal S65536x256 .f32) (mu v g be : FVec Ideal S256 .f32) (r : Fin 65536) (j : Fin 256) :
    normH Z mu v g be (ix2 r j)
      = ((Z (ix2 r j) - mu (ix1 j)) * Ideal.rsqrt (v (ix1 j) + wEps)) * g (ix1 j) + be (ix1 j) := by
  unfold normH
  show ((Z (ix2 r j) - Terms.rowB mu (ix2 r j))
      * Terms.rowB (Host.rsqrt (addf v (Terms.splatRow 0x3727C5AC#32))) (ix2 r j)) * Terms.rowB g (ix2 r j)
      + Terms.rowB be (ix2 r j) = _
  rw [rowB_apply, rowB_apply, rowB_apply, rowB_apply]
  show ((Z (ix2 r j) - mu (ix1 j)) * Ideal.rsqrt (v (ix1 j) + Terms.splatRow (F := Ideal) 0x3727C5AC#32 (ix1 j)))
      * g (ix1 j) + be (ix1 j) = _
  rw [splatRow_apply]
  rfl

/-- The normalisation step is the specification's. -/
theorem normActH_eq (Z : FVec Ideal S65536x256 .f32) (mu v g be : FVec Ideal S256 .f32) :
    Terms.normActH Z mu v g be = ofMat (normAct (toRow mu) (toRow v) (toRow g) (toRow be) (toMat Z)) := by
  refine eq_ofMat _ _ fun r j => ?_
  rw [normActH_unfold]
  show Scalar.select (Ideal.cmp .ogt (normH Z mu v g be (ix2 r j)) (Terms.splat (F := Ideal) 0x00000000#32 (ix2 r j)))
      (normH Z mu v g be (ix2 r j)) (Terms.splat (F := Ideal) 0x3DCCCCCD#32 (ix2 r j) * normH Z mu v g be (ix2 r j)) = _
  rw [splat_apply, splat_apply, normH_apply]
  rfl

/-- The logistic function, spelt as negate, exponential, add one, divide one by it, is the specification's. -/
theorem sigmH_eq (Z : FVec Ideal S65536x256 .f32) : Terms.sigmH Z = ofMat (sigm (toMat Z)) := by
  refine eq_ofMat _ _ fun r j => ?_
  show Ideal.div (Terms.splat (F := Ideal) 0x3F800000#32 (ix2 r j))
      (Terms.splat (F := Ideal) 0x3F800000#32 (ix2 r j) + Ideal.exp (-(Z (ix2 r j)))) = _
  rw [splat_apply, Ideal.ofBits_one_f32]
  rfl

/-- One whole normalisation stage: the statistics are taken of the array being normalised. -/
theorem stageH_eq (Z : FVec Ideal S65536x256 .f32) (M : Mat 65536 256) (hZ : Z = ofMat M) (g be : FVec Ideal S256 .f32) :
    Terms.normActH Z (Terms.meanH Z) (Terms.varH Z Terms.d0) g be
      = ofMat (normAct (mean M) (varCentered M) (toRow g) (toRow be) M) := by
  subst hZ
  rw [meanH_eq, varH_eq, normActH_eq, toMat_ofMat, toRow_ofRow, toRow_ofRow]

/-! ## The head: the three activations summed, times one column, plus its bias, repeated along every row -/

/-- The head's column, read at any entry of row `r`. -/
theorem headH_apply (A1 A3 A2 : FVec Ideal S65536x256 .f32) (WP : FVec Ideal S256x1 .f32) (bP : FVec Ideal S1 .f32)
    (r : Fin 65536) (j : Fin 256) :
    broadcastInDim S65536x256 ![0, 1] bcast_S65536x1_S65536x256_0_1
        (addf (Host.dotGeneral dot_S65536x256_S256x1_S65536x1_1_0_0_1_n_n none (addf (addf A1 A3) A2) WP)
          (broadcastInDim S65536x1 ![0, 1] bcast_S1x1_S65536x1_0_1 (broadcastInDim S1x1 ![1] bcast_S1_S1x1_1 bP)))
        (ix2 r j)
      = lin (fun r' q => (toMat A1 r' q + toMat A3 r' q) + toMat A2 r' q) (toMat WP) (toRow bP) r 0 := by
  refine (broadcastInDim_apply ![0, 1] bcast_S65536x1_S65536x256_0_1 _ (ix2 r j) (ix2 r (0 : Fin 1))
    (fun a => match a with | ⟨0, _⟩ => rfl | ⟨1, _⟩ => rfl)).trans ?_
  show Host.dotGeneral dot_S65536x256_S256x1_S65536x1_1_0_0_1_n_n none (addf (addf A1 A3) A2) WP (ix2 r (0 : Fin 1))
      + broadcastInDim S65536x1 ![0, 1] bcast_S1x1_S65536x1_0_1 (broadcastInDim S1x1 ![1] bcast_S1_S1x1_1 bP) (ix2 r (0 : Fin 1)) = _
  rw [show Host.dotGeneral dot_S65536x256_S256x1_S65536x1_1_0_0_1_n_n none (addf (addf A1 A3) A2) WP (ix2 r (0 : Fin 1))
        = ∑ q : Fin 256, (addf (addf A1 A3) A2) (ix2 r q) * WP (ix2 q (0 : Fin 1)) from
      StackMember.dotGeneral_plain_apply none (addf (addf A1 A3) A2) WP r (0 : Fin 1),
    broadcastInDim_oneRow_apply bcast_S1x1_S65536x1_0_1 _ r (0 : Fin 1),
    broadcastInDim_apply ![1] bcast_S1_S1x1_1 bP (ix2 (0 : Fin 1) (0 : Fin 1)) (ix1 (0 : Fin 1))
      (fun a => match a with | ⟨0, _⟩ => rfl)]
  rfl

/-! ## The stages -/

section Stages

variable (X P C S : FVec Ideal S65536x256 .f32) (Wx : FVec Ideal S256x256 .f32) (bx : FVec Ideal S256 .f32)
    (Wh : FVec Ideal S256x256 .f32) (bh : FVec Ideal S256 .f32) (WLC : FVec Ideal S256x256 .f32) (bLC : FVec Ideal S256 .f32)
    (WC : FVec Ideal S256x256 .f32) (bC : FVec Ideal S256 .f32) (WP : FVec Ideal S256x1 .f32) (bP : FVec Ideal S1 .f32)
    (Wf : FVec Ideal S256x256 .f32) (bf : FVec Ideal S256 .f32) (Wi : FVec Ideal S256x256 .f32) (bi : FVec Ideal S256 .f32)
    (Wo : FVec Ideal S256x256 .f32) (bo : FVec Ideal S256 .f32) (g1 be1 g2 be2 g3 be3 : FVec Ideal S256 .f32)

/-- The first affine map is the specification's `u`. -/
theorem tU_eq : Terms.tU X Wx bx = ofMat (uOf (argsOf X P C S Wx bx Wh bh WLC bLC WC bC WP bP Wf bf Wi bi Wo bo g1 be1 g2 be2 g3 be3)) :=
  linH_eq X Wx bx

/-- The first pre-activation: the two products and the two biases, summed left to right. -/
theorem tZ1_eq : Terms.tZ1 X P Wx bx Wh bh = ofMat (R.z1 (argsOf X P C S Wx bx Wh bh WLC bLC WC bC WP bP Wf bf Wi bi Wo bo g1 be1 g2 be2 g3 be3)) := by
  refine eq_ofMat _ _ fun r j => ?_
  show (Terms.tU X Wx bx (ix2 r j) + Terms.mmH P Wh (ix2 r j)) + Terms.rowB bh (ix2 r j) = _
  rw [tU_eq X P C S Wx bx Wh bh WLC bLC WC bC WP bP Wf bf Wi bi Wo bo g1 be1 g2 be2 g3 be3, mmH_apply, rowB_apply]
  rfl

/-- The first activation. -/
theorem tA1_eq : Terms.tA1 X P Wx bx Wh bh g1 be1 = ofMat (R.a1 (argsOf X P C S Wx bx Wh bh WLC bLC WC bC WP bP Wf bf Wi bi Wo bo g1 be1 g2 be2 g3 be3)) :=
  stageH_eq _ _ (tZ1_eq X P C S Wx bx Wh bh WLC bLC WC bC WP bP Wf bf Wi bi Wo bo g1 be1 g2 be2 g3 be3) g1 be1

/-- The second pre-activation. -/
theorem tZ2_eq : Terms.tZ2 X P Wx bx Wh bh WLC bLC g1 be1 = ofMat (R.z2 (argsOf X P C S Wx bx Wh bh WLC bLC WC bC WP bP Wf bf Wi bi Wo bo g1 be1 g2 be2 g3 be3)) := by
  show Terms.linH (Terms.tA1 X P Wx bx Wh bh g1 be1) WLC bLC = _
  rw [tA1_eq X P C S Wx bx Wh bh WLC bLC WC bC WP bP Wf bf Wi bi Wo bo g1 be1 g2 be2 g3 be3, linH_eq, toMat_ofMat]
  rfl

/-- The second activation. -/
theorem tA2_eq : Terms.tA2 X P Wx bx Wh bh WLC bLC g1 be1 g2 be2 = ofMat (R.a2 (argsOf X P C S Wx bx Wh bh WLC bLC WC bC WP bP Wf bf Wi bi Wo bo g1 be1 g2 be2 g3 be3)) :=
  stageH_eq _ _ (tZ2_eq X P C S Wx bx Wh bh WLC bLC WC bC WP bP Wf bf Wi bi Wo bo g1 be1 g2 be2 g3 be3) g2 be2

/-- The third pre-activation: the gated cell, the gated candidate and the affine map of `u`, summed left to right. -/
theorem tZ3_eq : Terms.tZ3 X P C S Wx bx Wh bh WLC bLC WC bC Wf bf Wi bi g1 be1 g2 be2 = ofMat (R.z3 (argsOf X P C S Wx bx Wh bh WLC bLC WC bC WP bP Wf bf Wi bi Wo bo g1 be1 g2 be2 g3 be3)) := by
  refine eq_ofMat _ _ fun r j => ?_
  show ((Terms.sigmH (Terms.linH C Wf bf) (ix2 r j) * S (ix2 r j)
        + (Terms.sigmH (Terms.linH (Terms.tU X Wx bx) Wi bi) (ix2 r j) * Terms.splat (F := Ideal) 0x3DCCCCCD#32 (ix2 r j))
          * Terms.linH (Terms.tA2 X P Wx bx Wh bh WLC bLC g1 be1 g2 be2) WLC bLC (ix2 r j))
      + Terms.mmH (Terms.tU X Wx bx) WC (ix2 r j)) + Terms.rowB bC (ix2 r j) = _
  rw [tA2_eq X P C S Wx bx Wh bh WLC bLC WC bC WP bP Wf bf Wi bi Wo bo g1 be1 g2 be2 g3 be3, tU_eq X P C S Wx bx Wh bh WLC bLC WC bC WP bP Wf bf Wi bi Wo bo g1 be1 g2 be2 g3 be3, splat_apply, rowB_apply, mmH_eq,
    linH_eq C, linH_eq (ofMat (uOf (argsOf X P C S Wx bx Wh bh WLC bLC WC bC WP bP Wf bf Wi bi Wo bo g1 be1 g2 be2 g3 be3))), linH_eq (ofMat (R.a2 (argsOf X P C S Wx bx Wh bh WLC bLC WC bC WP bP Wf bf Wi bi Wo bo g1 be1 g2 be2 g3 be3))), sigmH_eq, sigmH_eq]
  rfl

/-- The third activation. -/
theorem tA3_eq : Terms.tA3 X P C S Wx bx Wh bh WLC bLC WC bC Wf bf Wi bi g1 be1 g2 be2 g3 be3 = ofMat (R.a3 (argsOf X P C S Wx bx Wh bh WLC bLC WC bC WP bP Wf bf Wi bi Wo bo g1 be1 g2 be2 g3 be3)) :=
  stageH_eq _ _ (tZ3_eq X P C S Wx bx Wh bh WLC bLC WC bC WP bP Wf bf Wi bi Wo bo g1 be1 g2 be2 g3 be3) g3 be3

/-- The result: the output gate times the head. -/
theorem tP_eq : Terms.tP X P C S Wx bx Wh bh WLC bLC WC bC WP bP Wf bf Wi bi Wo bo g1 be1 g2 be2 g3 be3 = ofMat (R.p (argsOf X P C S Wx bx Wh bh WLC bLC WC bC WP bP Wf bf Wi bi Wo bo g1 be1 g2 be2 g3 be3)) := by
  refine eq_ofMat _ _ fun r j => ?_
  show Terms.sigmH (Terms.linH (Terms.tA3 X P C S Wx bx Wh bh WLC bLC WC bC Wf bf Wi bi g1 be1 g2 be2 g3 be3) Wo bo) (ix2 r j)
      * broadcastInDim S65536x256 ![0, 1] bcast_S65536x1_S65536x256_0_1
          (addf (Host.dotGeneral dot_S65536x256_S256x1_S65536x1_1_0_0_1_n_n none
              (addf (addf (Terms.tA1 X P Wx bx Wh bh g1 be1) (Terms.tA3 X P C S Wx bx Wh bh WLC bLC WC bC Wf bf Wi bi g1 be1 g2 be2 g3 be3)) (Terms.tA2 X P Wx bx Wh bh WLC bLC g1 be1 g2 be2)) WP)
            (broadcastInDim S65536x1 ![0, 1] bcast_S1x1_S65536x1_0_1 (broadcastInDim S1x1 ![1] bcast_S1_S1x1_1 bP)))
          (ix2 r j) = _
  rw [headH_apply, tA1_eq X P C S Wx bx Wh bh WLC bLC WC bC WP bP Wf bf Wi bi Wo bo g1 be1 g2 be2 g3 be3, tA2_eq X P C S Wx bx Wh bh WLC bLC WC bC WP bP Wf bf Wi bi Wo bo g1 be1 g2 be2 g3 be3, tA3_eq X P C S Wx bx Wh bh WLC bLC WC bC WP bP Wf bf Wi bi Wo bo g1 be1 g2 be2 g3 be3, linH_eq, sigmH_eq]
  rfl

end Stages

end Cert.ReferenceIdeal.RefVal

end
-- ==== Proof.LibStats.lean ====
/- Finite calculus on the extended reals. An extended real is called real when it is the image of a real number.
   Sums, differences, products, maxima, finite sums, quotients by a nonzero real and reciprocal square roots of
   positive reals stay real, so that identities of real algebra (which fail at the infinities: distributivity,
   cancellation) can be carried to the extended reals for real-valued data. The main such identity here is the
   one behind batch statistics: the mean of the squared deviations from the mean is the mean of the squares
   minus the square of the mean. Also: 1600000 terms summed as 200 consecutive blocks of 8000. -/
import Mathlib.Data.EReal.Inv
import Mathlib.Algebra.BigOperators.Fin
import Mathlib.Tactic.Ring
import Mathlib.Tactic.FieldSimp
import Mathlib.Tactic.Positivity
import Mathlib.Tactic.NormNum
import Idealize.ShloMosaic.PureOps.Ideal
import proofs.«173010_j4303557230935_2_alg».proof.Proof.LibBlockSum

namespace Cert.Lib

open Idealize.ShloMosaic

/-- An extended real that is (the image of) a real number: neither infinity. -/
def IsReal (x : EReal) : Prop := ∃ r : ℝ, x = (r : EReal)

/-- The image of a real number is real. -/
theorem isReal_coe (r : ℝ) : IsReal (r : EReal) := ⟨r, rfl⟩

/-- Zero is real. -/
theorem isReal_zero : IsReal (0 : EReal) := ⟨0, rfl⟩

/-- One is real. -/
theorem isReal_one : IsReal (1 : EReal) := ⟨1, rfl⟩

/-- A real extended real is not the upper infinity. -/
theorem IsReal.ne_top {x : EReal} (h : IsReal x) : x ≠ ⊤ := by
  obtain ⟨r, rfl⟩ := h; exact EReal.coe_ne_top r

/-- A real extended real is not the lower infinity. -/
theorem IsReal.ne_bot {x : EReal} (h : IsReal x) : x ≠ ⊥ := by
  obtain ⟨r, rfl⟩ := h; exact EReal.coe_ne_bot r

/-- An extended real that is neither infinity is real. -/
theorem isReal_of_ne {x : EReal} (ht : x ≠ ⊤) (hb : x ≠ ⊥) : IsReal x := by
  induction x using EReal.rec with
  | bot => exact absurd rfl hb
  | coe r => exact ⟨r, rfl⟩
  | top => exact absurd rfl ht

/-- Being real is being neither infinity. -/
theorem isReal_iff {x : EReal} : IsReal x ↔ x ≠ ⊤ ∧ x ≠ ⊥ :=
  ⟨fun h => ⟨h.ne_top, h.ne_bot⟩, fun h => isReal_of_ne h.1 h.2⟩

/-- The sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The negative of a real is real. -/
theorem IsReal.neg {x : EReal} (hx : IsReal x) : IsReal (-x) := by
  obtain ⟨a, rfl⟩ := hx; exact ⟨-a, (EReal.coe_neg a).symm⟩

/-- The difference of two reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The maximum of two images of reals is the image of the maximum. -/
theorem coe_max (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- The minimum of two images of reals is the image of the minimum. -/
theorem coe_min (a b : ℝ) : min (a : EReal) (b : EReal) = ((min a b : ℝ) : EReal) := by
  rcases le_total a b with h | h
  · rw [min_eq_left h, min_eq_left (EReal.coe_le_coe_iff.mpr h)]
  · rw [min_eq_right h, min_eq_right (EReal.coe_le_coe_iff.mpr h)]

/-- The maximum of two reals is real. -/
theorem IsReal.max {x y : EReal} (hx : IsReal x) (hy : IsReal y) : IsReal (max x y) := by
  obtain ⟨a, rfl⟩ := hx; obtain ⟨b, rfl⟩ := hy; exact ⟨_, coe_max a b⟩

/-- The minimum of two reals is real. -/
theorem IsReal.min {x y : EReal} (hx : IsReal x) (hy : IsReal y) : IsReal (min x y) := by
  obtain ⟨a, rfl⟩ := hx; obtain ⟨b, rfl⟩ := hy; exact ⟨_, coe_min a b⟩

/-- The image of a finite sum of reals is the sum of the images. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of reals is real. -/
theorem isReal_sum {ι : Type*} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih (fun i hi => h i (Finset.mem_insert_of_mem hi)))

/-- A sum of reals over a whole finite type is real. -/
theorem isReal_sum_univ {ι : Type*} [Fintype ι] (f : ι → EReal) (h : ∀ i, IsReal (f i)) :
    IsReal (∑ i, f i) :=
  isReal_sum Finset.univ f (fun i _ => h i)

/-- A family of reals is the image of a family of real numbers. -/
theorem exists_real_family {ι : Type*} (z : ι → EReal) (h : ∀ i, IsReal (z i)) :
    ∃ a : ι → ℝ, z = fun i => (a i : EReal) := by
  choose a ha using h
  exact ⟨a, funext ha⟩

/-- The quotient of the image of a real by a nonzero real number is the image of the product with the reciprocal. -/
theorem div_coe_coe (a : ℝ) {N : ℝ} (hN : N ≠ 0) :
    Ideal.div (a : EReal) (N : EReal) = ((a * (1 / N) : ℝ) : EReal) := by
  rw [Ideal.div_coe hN, EReal.coe_mul]

/-- The quotient of a real by a nonzero real number is real. -/
theorem IsReal.div {x : EReal} (hx : IsReal x) {N : ℝ} (hN : N ≠ 0) : IsReal (Ideal.div x (N : EReal)) := by
  obtain ⟨a, rfl⟩ := hx; exact ⟨_, div_coe_coe a hN⟩

/-- The reciprocal square root of a positive real number is the image of the reciprocal of its square root. -/
theorem rsqrt_coe_of_pos {r : ℝ} (h : 0 < r) : Ideal.rsqrt (r : EReal) = (((Real.sqrt r)⁻¹ : ℝ) : EReal) := by
  rw [Ideal.rsqrt_coe, if_neg (not_lt.mpr h.le), if_neg h.ne']

/-- The reciprocal square root of a positive real number is real. -/
theorem isReal_rsqrt_coe {r : ℝ} (h : 0 < r) : IsReal (Ideal.rsqrt (r : EReal)) :=
  ⟨_, rsqrt_coe_of_pos h⟩

/-- The reciprocal square root of a positive real is real. -/
theorem IsReal.rsqrt {x : EReal} (hx : IsReal x) (h : 0 < x) : IsReal (Ideal.rsqrt x) := by
  obtain ⟨a, rfl⟩ := hx; exact isReal_rsqrt_coe (EReal.coe_pos.mp h)

/-- A nonnegative real number plus a positive one, taken in the extended reals, has a real reciprocal square root. -/
theorem isReal_rsqrt_add {v e : ℝ} (hv : 0 ≤ v) (he : 0 < e) : IsReal (Ideal.rsqrt ((v : EReal) + (e : EReal))) := by
  rw [← EReal.coe_add]; exact isReal_rsqrt_coe (add_pos_of_nonneg_of_pos hv he)

/-- Adding to zero changes nothing (a reduction's initial value 0 in front of its sum). -/
theorem zero_add_ereal (x : EReal) : (0 : EReal) + x = x := zero_add x

/-! ### The mean of squared deviations -/

/-- Over the real numbers, with N the number of terms and mu = (∑ a) / N: the sum of the squared deviations from mu
    is the sum of the squares minus N mu², so their means differ by mu². Division is written as the product with the
    reciprocal. -/
theorem variance_real {n : ℕ} (hn : n ≠ 0) (a : Fin n → ℝ) (N : ℝ) (hN : N = n) :
    (∑ i, (a i - (∑ j, a j) * (1 / N)) * (a i - (∑ j, a j) * (1 / N))) * (1 / N)
      = (∑ i, a i * a i) * (1 / N) - ((∑ j, a j) * (1 / N)) * ((∑ j, a j) * (1 / N)) := by
  have hN0 : N ≠ 0 := by rw [hN]; exact_mod_cast hn
  set S := ∑ j, a j with hS
  have h1 : ∑ i, (a i - S * (1 / N)) * (a i - S * (1 / N))
      = (∑ i, a i * a i) - 2 * (S * (1 / N)) * S + N * ((S * (1 / N)) * (S * (1 / N))) := by
    have : ∀ i, (a i - S * (1 / N)) * (a i - S * (1 / N))
        = a i * a i - 2 * (S * (1 / N)) * a i + (S * (1 / N)) * (S * (1 / N)) := fun i => by ring
    rw [Finset.sum_congr rfl (fun i _ => this i), Finset.sum_add_distrib, Finset.sum_sub_distrib,
      ← Finset.mul_sum, Finset.sum_const, Finset.card_univ, Fintype.card_fin, nsmul_eq_mul, ← hN]
  rw [h1]
  field_simp
  ring

/-- Over the real numbers the mean of the squared deviations is not negative. -/
theorem variance_real_nonneg {n : ℕ} (a : Fin n → ℝ) (mu N : ℝ) (hN : 0 ≤ N) :
    0 ≤ (∑ i, (a i - mu) * (a i - mu)) * (1 / N) :=
  mul_nonneg (Finset.sum_nonneg (fun i _ => mul_self_nonneg _)) (one_div_nonneg.mpr hN)

/-- The identity behind batch statistics, on the extended reals for real-valued data: with N the number n ≠ 0 of terms
    and mu = (∑ z) / N, the mean of the squared deviations from mu is the mean of the squares minus mu², and this
    common value is the image of a real number that is not negative. -/
theorem variance_identity_val {n : ℕ} (hn : n ≠ 0) (z : Fin n → EReal) (hz : ∀ i, IsReal (z i)) (N : ℝ) (hN : N = n) :
    ∃ v : ℝ, 0 ≤ v ∧
      Ideal.div (∑ i, (z i - Ideal.div (∑ j, z j) (N : EReal)) * (z i - Ideal.div (∑ j, z j) (N : EReal))) (N : EReal)
        = (v : EReal) ∧
      Ideal.div (∑ i, z i * z i) (N : EReal)
          - Ideal.div (∑ j, z j) (N : EReal) * Ideal.div (∑ j, z j) (N : EReal) = (v : EReal) := by
  have hN0 : N ≠ 0 := by rw [hN]; exact_mod_cast hn
  have hNn : 0 ≤ N := by rw [hN]; exact Nat.cast_nonneg n
  obtain ⟨a, rfl⟩ := exists_real_family z hz
  have hmu : Ideal.div (∑ j, (a j : EReal)) (N : EReal) = (((∑ j, a j) * (1 / N) : ℝ) : EReal) := by
    rw [← coe_finset_sum, div_coe_coe _ hN0]
  have hD : ∀ mu : ℝ, ∑ i, ((a i : EReal) - (mu : EReal)) * ((a i : EReal) - (mu : EReal))
      = ((∑ i, (a i - mu) * (a i - mu) : ℝ) : EReal) := fun mu => by
    rw [coe_finset_sum]
    exact Finset.sum_congr rfl (fun i _ => by rw [EReal.coe_mul, EReal.coe_sub])
  have hQ : ∑ i, (a i : EReal) * (a i : EReal) = ((∑ i, a i * a i : ℝ) : EReal) := by
    rw [coe_finset_sum]
    exact Finset.sum_congr rfl (fun i _ => by rw [EReal.coe_mul])
  refine ⟨(∑ i, (a i - (∑ j, a j) * (1 / N)) * (a i - (∑ j, a j) * (1 / N))) * (1 / N),
    variance_real_nonneg a _ N hNn, ?_, ?_⟩
  · rw [hmu, hD, div_coe_coe _ hN0]
  · rw [hmu, hQ, div_coe_coe _ hN0, ← EReal.coe_mul, ← EReal.coe_sub, variance_real hn a N hN]

/-- The mean of the squared deviations from the mean is the mean of the squares minus the square of the mean
    (extended reals, real-valued data, N the number n ≠ 0 of terms). -/
theorem variance_identity {n : ℕ} (hn : n ≠ 0) (z : Fin n → EReal) (hz : ∀ i, IsReal (z i)) (N : ℝ) (hN : N = n) :
    Ideal.div (∑ i, (z i - Ideal.div (∑ j, z j) (N : EReal)) * (z i - Ideal.div (∑ j, z j) (N : EReal))) (N : EReal)
      = Ideal.div (∑ i, z i * z i) (N : EReal)
          - Ideal.div (∑ j, z j) (N : EReal) * Ideal.div (∑ j, z j) (N : EReal) := by
  obtain ⟨v, _, h1, h2⟩ := variance_identity_val hn z hz N hN
  rw [h1, h2]

/-- The same with the three sums, the mean and the sum of squared deviations named by equations, so that each may be
    given in whatever arrangement it was computed. -/
theorem variance_identity_of_eq {n : ℕ} (hn : n ≠ 0) (z : Fin n → EReal) (hz : ∀ i, IsReal (z i)) (N : ℝ) (hN : N = n)
    {S Q D mu : EReal} (hS : S = ∑ i, z i) (hQ : Q = ∑ i, z i * z i) (hmu : mu = Ideal.div S (N : EReal))
    (hD : D = ∑ i, (z i - mu) * (z i - mu)) :
    Ideal.div D (N : EReal) = Ideal.div Q (N : EReal) - mu * mu := by
  subst hS hQ hmu hD
  exact variance_identity hn z hz N hN

/-- The same with each sum preceded by a reduction's initial value 0. -/
theorem variance_identity_zero_add {n : ℕ} (hn : n ≠ 0) (z : Fin n → EReal) (hz : ∀ i, IsReal (z i)) (N : ℝ)
    (hN : N = n) :
    Ideal.div (0 + ∑ i, (z i - Ideal.div (0 + ∑ j, z j) (N : EReal)) * (z i - Ideal.div (0 + ∑ j, z j) (N : EReal)))
        (N : EReal)
      = Ideal.div (0 + ∑ i, z i * z i) (N : EReal)
          - Ideal.div (0 + ∑ j, z j) (N : EReal) * Ideal.div (0 + ∑ j, z j) (N : EReal) := by
  simp only [zero_add]
  exact variance_identity hn z hz N hN

/-- The mean of real-valued data is real. -/
theorem isReal_mean {n : ℕ} (z : Fin n → EReal) (hz : ∀ i, IsReal (z i)) {N : ℝ} (hN : N ≠ 0) :
    IsReal (Ideal.div (∑ j, z j) (N : EReal)) :=
  (isReal_sum_univ z hz).div hN

/-- The mean of the squared deviations of real-valued data from their mean is the image of a real number that is not
    negative. -/
theorem variance_nonneg_real {n : ℕ} (hn : n ≠ 0) (z : Fin n → EReal) (hz : ∀ i, IsReal (z i)) (N : ℝ) (hN : N = n) :
    ∃ v : ℝ, 0 ≤ v ∧
      Ideal.div (∑ i, (z i - Ideal.div (∑ j, z j) (N : EReal)) * (z i - Ideal.div (∑ j, z j) (N : EReal))) (N : EReal)
        = (v : EReal) := by
  obtain ⟨v, hv, h1, _⟩ := variance_identity_val hn z hz N hN
  exact ⟨v, hv, h1⟩

/-- The mean of the squares minus the square of the mean, for real-valued data, is the image of a real number that is
    not negative. -/
theorem variance_nonneg_real' {n : ℕ} (hn : n ≠ 0) (z : Fin n → EReal) (hz : ∀ i, IsReal (z i)) (N : ℝ) (hN : N = n) :
    ∃ v : ℝ, 0 ≤ v ∧
      Ideal.div (∑ i, z i * z i) (N : EReal)
          - Ideal.div (∑ j, z j) (N : EReal) * Ideal.div (∑ j, z j) (N : EReal) = (v : EReal) := by
  obtain ⟨v, hv, _, h2⟩ := variance_identity_val hn z hz N hN
  exact ⟨v, hv, h2⟩

/-- Either form of the variance of real-valued data, plus a positive real number, has a real reciprocal square root. -/
theorem isReal_rsqrt_variance_add {n : ℕ} (hn : n ≠ 0) (z : Fin n → EReal) (hz : ∀ i, IsReal (z i)) (N : ℝ) (hN : N = n)
    {e : ℝ} (he : 0 < e) :
    IsReal (Ideal.rsqrt (Ideal.div (∑ i, z i * z i) (N : EReal)
          - Ideal.div (∑ j, z j) (N : EReal) * Ideal.div (∑ j, z j) (N : EReal) + (e : EReal))) := by
  obtain ⟨v, hv, h⟩ := variance_nonneg_real' hn z hz N hN
  rw [h]; exact isReal_rsqrt_add hv he

/-! ### The programs' two float literals, and the spellings of a literal -/

/-- The single-precision pattern 0x49C35000 is the real number 1600000 = (2²³ + 4411392) · 2⁻³. -/
theorem ofBits_1600000 : Ideal.ofBits .f32 0x49C35000#32 = ((1600000 : ℝ) : EReal) := by
  simp [Ideal.ofBits, Ideal.ieee, -EReal.coe_mul]; norm_num

/-- The single-precision pattern 0x3727C5AC (the float nearest to 10⁻⁵) is a positive real number,
    10995116 · 2⁻⁴⁰. -/
theorem ofBits_eps : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-- 1600000 is the number of terms of a sum over Fin 1600000. -/
theorem cast_1600000 : (1600000 : ℝ) = ((1600000 : ℕ) : ℝ) := by norm_num

/-- A scalar literal, on the extended reals, is what its pattern denotes. -/
theorem scalar_ofBits_ideal (φ : FTy) (w : BitVec φ.bits) : Scalar.ofBits (F := Ideal) φ w = Ideal.ofBits φ w := rfl

/-- A scalar literal spread over a shape is, at every index, what its pattern denotes. -/
theorem broadcast_scalar_ofBits (S : Shape) (φ : FTy) (w : BitVec φ.bits) (i : S.Idx) :
    broadcast S (Scalar.ofBits (F := Ideal) φ w) i = Ideal.ofBits φ w := rfl

/-- A constant array is, at every index, what its pattern denotes. -/
theorem constant_ideal_apply (S : Shape) (φ : FTy) (w : BitVec φ.bits) (i : S.Idx) :
    constant (F := Ideal) S φ w i = Ideal.ofBits φ w := rfl

/-! ### 1600000 terms as 200 blocks of 8000 -/

/-- Place y of block t, for 200 blocks of 8000, lies below 1600000. -/
theorem block_lt_1600000 (t : Fin 200) (y : Fin 8000) : 8000 * t.val + y.val < 1600000 := by omega

/-- 1600000 terms are 200 consecutive blocks of 8000. -/
theorem sum_blocks_1600000 {M : Type*} [AddCommMonoid M] (f : Fin 1600000 → M) :
    ∑ t : Fin 200, ∑ y : Fin 8000, f ⟨8000 * t.val + y.val, by omega⟩ = ∑ r : Fin 1600000, f r :=
  sum_blocks_of_eq (nb := 200) (bs := 8000) (N := 1600000) rfl f

/-- 1600000 terms from a range of 200 block sums. -/
theorem sum_range_blocks_1600000 {M : Type*} [AddCommMonoid M] (f : Fin 1600000 → M) (B : ℕ → M)
    (hB : ∀ (t : ℕ) (ht : t < 200), B t = ∑ y : Fin 8000, f ⟨8000 * t + y.val, by omega⟩) :
    ∑ s ∈ Finset.range 200, B s = ∑ r : Fin 1600000, f r :=
  sum_range_blocks_of_eq (nb := 200) (bs := 8000) (N := 1600000) rfl f B hB

/-- 1600000 terms from 200 block sums indexed by Fin 200. -/
theorem sum_fin_blocks_1600000 {M : Type*} [AddCommMonoid M] (f : Fin 1600000 → M) (B : Fin 200 → M)
    (hB : ∀ t : Fin 200, B t = ∑ y : Fin 8000, f ⟨8000 * t.val + y.val, by omega⟩) :
    ∑ t : Fin 200, B t = ∑ r : Fin 1600000, f r := by
  rw [← sum_blocks_1600000 f]
  exact Finset.sum_congr rfl (fun t _ => hB t)

end Cert.Lib
-- ==== Proof.SpecLaws.lean ====
/-
  The two forms of the computation agree on real-valued arguments.

  Addition and multiplication on the extended reals are commutative and associative, so regrouping a sum of three
  or four terms changes nothing, with no finiteness needed. The only other difference is the column variance: the
  mean of the squares minus the square of the mean, clamped below at zero, against the mean of the squared
  deviations. For a column of real numbers these are equal (the variance identity of real algebra, and the clamp
  is the identity because the mean of squared deviations is not negative). So realness is carried through the
  stages: affine maps of real matrices are real; the column mean is real; the variance plus the positive offset ε
  is a positive real, so its reciprocal square root is real; the rectifier and the logistic function send reals to
  reals.
-/
import proofs.«173010_j4303557230935_2_alg».proof.Proof.Spec
import proofs.«173010_j4303557230935_2_alg».proof.Proof.LibStats

namespace Cert.Spec

open Idealize.ShloMosaic Cert.Lib

/-! ### The four float words -/

/-- The batch-size word 0x47800000 is 2²³ · 2⁻⁷ = 2¹⁶ = 65536. -/
theorem wN_eq : wN = ((65536 : ℝ) : EReal) := by
  unfold wN
  simp [Ideal.ofBits, Ideal.ieee, -EReal.coe_mul]; norm_num

/-- The zero word is 0. -/
theorem wZero_eq : wZero = 0 := by
  unfold wZero
  simp [Ideal.ofBits, Ideal.ieee]

/-- The variance offset is a positive real number. -/
theorem wEps_pos : ∃ e : ℝ, 0 < e ∧ wEps = (e : EReal) := ofBits_eps

/-- The slope word 0x3DCCCCCD is the real number 13421773 · 2⁻²⁷. -/
theorem isReal_wTenth : IsReal wTenth := by
  refine ⟨(13421773 : ℝ) * (2 : ℝ) ^ (-27 : ℤ), ?_⟩
  unfold wTenth
  simp [Ideal.ofBits, Ideal.ieee, -EReal.coe_mul]

/-- 65536 is the number of terms of a sum over Fin 65536. -/
theorem cast_65536 : (65536 : ℝ) = ((65536 : ℕ) : ℝ) := by norm_num

/-! ### Realness through the building blocks -/

section Blocks
variable {n k p : ℕ}

/-- A product of real matrices is real. -/
theorem isReal_mm {X : Mat n k} {W : Mat k p} (hX : ∀ r q, IsReal (X r q)) (hW : ∀ q j, IsReal (W q j)) :
    ∀ r j, IsReal (mm X W r j) :=
  fun r j => isReal_sum_univ _ (fun q => (hX r q).mul (hW q j))

/-- An affine map with real coefficients sends a real matrix to a real matrix. -/
theorem isReal_lin {X : Mat n k} {W : Mat k p} {b : Row p} (hX : ∀ r q, IsReal (X r q))
    (hW : ∀ q j, IsReal (W q j)) (hb : ∀ j, IsReal (b j)) : ∀ r j, IsReal (lin X W b r j) :=
  fun r j => (isReal_mm hX hW r j).add (hb j)

/-- The rectifier sends a real to a real: it is the argument itself or the slope times the argument. -/
theorem isReal_leaky {x : EReal} (hx : IsReal x) : IsReal (leaky x) := by
  unfold leaky Scalar.select
  split
  · exact hx
  · exact isReal_wTenth.mul hx

/-- Normalising and rectifying a real matrix with real statistics gives a real matrix, once the reciprocal square
    root that enters is real. -/
theorem isReal_normAct {mu v g be : Row p} {Z : Mat n p} (hZ : ∀ r j, IsReal (Z r j)) (hmu : ∀ j, IsReal (mu j))
    (hr : ∀ j, IsReal (Ideal.rsqrt (v j + wEps))) (hg : ∀ j, IsReal (g j)) (hbe : ∀ j, IsReal (be j)) :
    ∀ r j, IsReal (normAct mu v g be Z r j) :=
  fun r j => isReal_leaky (((((hZ r j).sub (hmu j)).mul (hr j)).mul (hg j)).add (hbe j))

/-- The logistic function of a real is real. -/
theorem isReal_sigm {Z : Mat n p} (hZ : ∀ r j, IsReal (Z r j)) : ∀ r j, IsReal (sigm Z r j) := fun r j => by
  obtain ⟨x, hx⟩ := hZ r j
  unfold sigm
  rw [hx]
  exact ⟨_, Ideal.logistic_coe x⟩

end Blocks

/-! ### Column statistics of a real matrix with 65536 rows -/

section Stats
variable {p : ℕ}

/-- The column means of a real matrix are real. -/
theorem isReal_mean_col {Z : Mat 65536 p} (hZ : ∀ r j, IsReal (Z r j)) : ∀ j, IsReal (mean Z j) := fun j => by
  unfold mean
  rw [wN_eq]
  exact isReal_mean (fun r => Z r j) (fun r => hZ r j) (by norm_num)

/-- For a real matrix the two forms of the column variance agree: the variance identity, and the clamp at zero is
    the identity on a value that is not negative. -/
theorem varMoments_eq {Z : Mat 65536 p} (hZ : ∀ r j, IsReal (Z r j)) : varMoments Z = varCentered Z := by
  funext j
  obtain ⟨v, hv, h1, h2⟩ :=
    variance_identity_val (n := 65536) (by norm_num) (fun r => Z r j) (fun r => hZ r j) 65536 cast_65536
  beta_reduce at h1 h2
  unfold varMoments varCentered mean
  rw [wN_eq, wZero_eq, h1, h2]
  exact max_eq_left (EReal.coe_nonneg.mpr hv)

/-- The centred column variance of a real matrix, plus ε, has a real reciprocal square root. -/
theorem isReal_rsqrt_varCentered {Z : Mat 65536 p} (hZ : ∀ r j, IsReal (Z r j)) :
    ∀ j, IsReal (Ideal.rsqrt (varCentered Z j + wEps)) := fun j => by
  obtain ⟨e, he, hE⟩ := wEps_pos
  obtain ⟨v, hv, h1⟩ :=
    variance_nonneg_real (n := 65536) (by norm_num) (fun r => Z r j) (fun r => hZ r j) 65536 cast_65536
  beta_reduce at h1
  unfold varCentered mean
  rw [wN_eq, hE, h1]
  exact isReal_rsqrt_add hv he

/-- Normalising a real matrix by its own column statistics (centred variance) and rectifying gives a real matrix. -/
theorem isReal_normAct_self {g be : Row p} {Z : Mat 65536 p} (hZ : ∀ r j, IsReal (Z r j)) (hg : ∀ j, IsReal (g j))
    (hbe : ∀ j, IsReal (be j)) : ∀ r j, IsReal (normAct (mean Z) (varCentered Z) g be Z r j) :=
  isReal_normAct hZ (isReal_mean_col hZ) (isReal_rsqrt_varCentered hZ) hg hbe

end Stats

/-! ### The stages -/

section Stages
variable {nh : ℕ} (A : Args 65536 nh)

/-- u is real. -/
theorem isReal_uOf (hA : A.IsReal) : ∀ r j, IsReal (uOf A r j) := by
  obtain ⟨hX, hP, hC, hS, hWx, hbx, hWh, hbh, hWLC, hbLC, hWC, hbC, hWP, hbP, hWf, hbf, hWi, hbi, hWo, hbo,
    hg1, hbe1, hg2, hbe2, hg3, hbe3⟩ := hA
  exact isReal_lin hX hWx hbx

/-- The first pre-activations agree: associativity of addition. -/
theorem z1_eq : K.z1 A = R.z1 A := by
  funext r j
  simp only [K.z1, R.z1, lin, add_assoc]

/-- The first pre-activation is real. -/
theorem isReal_z1 (hA : A.IsReal) : ∀ r j, IsReal (R.z1 A r j) := by
  have hu := isReal_uOf A hA
  obtain ⟨hX, hP, hC, hS, hWx, hbx, hWh, hbh, hWLC, hbLC, hWC, hbC, hWP, hbP, hWf, hbf, hWi, hbi, hWo, hbo,
    hg1, hbe1, hg2, hbe2, hg3, hbe3⟩ := hA
  exact fun r j => ((hu r j).add (isReal_mm hP hWh r j)).add (hbh j)

/-- The first activations agree. -/
theorem a1_eq (hA : A.IsReal) : K.a1 A = R.a1 A := by
  unfold K.a1 R.a1
  rw [z1_eq, varMoments_eq (isReal_z1 A hA)]

/-- The first activation is real. -/
theorem isReal_a1 (hA : A.IsReal) : ∀ r j, IsReal (R.a1 A r j) := by
  have hz := isReal_z1 A hA
  obtain ⟨hX, hP, hC, hS, hWx, hbx, hWh, hbh, hWLC, hbLC, hWC, hbC, hWP, hbP, hWf, hbf, hWi, hbi, hWo, hbo,
    hg1, hbe1, hg2, hbe2, hg3, hbe3⟩ := hA
  exact isReal_normAct_self hz hg1 hbe1

/-- The second pre-activations agree. -/
theorem z2_eq (hA : A.IsReal) : K.z2 A = R.z2 A := by
  unfold K.z2 R.z2
  rw [a1_eq A hA]

/-- The second pre-activation is real. -/
theorem isReal_z2 (hA : A.IsReal) : ∀ r j, IsReal (R.z2 A r j) := by
  have ha := isReal_a1 A hA
  obtain ⟨hX, hP, hC, hS, hWx, hbx, hWh, hbh, hWLC, hbLC, hWC, hbC, hWP, hbP, hWf, hbf, hWi, hbi, hWo, hbo,
    hg1, hbe1, hg2, hbe2, hg3, hbe3⟩ := hA
  exact isReal_lin ha hWLC hbLC

/-- The second activations agree. -/
theorem a2_eq (hA : A.IsReal) : K.a2 A = R.a2 A := by
  unfold K.a2 R.a2
  rw [z2_eq A hA, varMoments_eq (isReal_z2 A hA)]

/-- The second activation is real. -/
theorem isReal_a2 (hA : A.IsReal) : ∀ r j, IsReal (R.a2 A r j) := by
  have hz := isReal_z2 A hA
  obtain ⟨hX, hP, hC, hS, hWx, hbx, hWh, hbh, hWLC, hbLC, hWC, hbC, hWP, hbP, hWf, hbf, hWi, hbi, hWo, hbo,
    hg1, hbe1, hg2, hbe2, hg3, hbe3⟩ := hA
  exact isReal_normAct_self hz hg2 hbe2

/-- The third pre-activations agree: the same second activation, and associativity of addition. -/
theorem z3_eq (hA : A.IsReal) : K.z3 A = R.z3 A := by
  funext r j
  simp only [K.z3, R.z3, a2_eq A hA, lin, add_assoc]

/-- The third pre-activation is real. -/
theorem isReal_z3 (hA : A.IsReal) : ∀ r j, IsReal (R.z3 A r j) := by
  have hu := isReal_uOf A hA
  have ha := isReal_a2 A hA
  obtain ⟨hX, hP, hC, hS, hWx, hbx, hWh, hbh, hWLC, hbLC, hWC, hbC, hWP, hbP, hWf, hbf, hWi, hbi, hWo, hbo,
    hg1, hbe1, hg2, hbe2, hg3, hbe3⟩ := hA
  exact fun r j =>
    ((((isReal_sigm (isReal_lin hC hWf hbf) r j).mul (hS r j)).add
        (((isReal_sigm (isReal_lin hu hWi hbi) r j).mul isReal_wTenth).mul (isReal_lin ha hWLC hbLC r j))).add
      (isReal_mm hu hWC r j)).add (hbC j)

/-- The third activations agree. -/
theorem a3_eq (hA : A.IsReal) : K.a3 A = R.a3 A := by
  unfold K.a3 R.a3
  rw [z3_eq A hA, varMoments_eq (isReal_z3 A hA)]

/-- The last results agree: the same three activations, summed in another order. -/
theorem p_eq (hA : A.IsReal) : K.p A = R.p A := by
  funext r j
  simp only [K.p, R.p, a1_eq A hA, a2_eq A hA, a3_eq A hA, add_right_comm (R.a1 A _ _) (R.a2 A _ _) (R.a3 A _ _)]

end Stages

/-- The two forms give the same five results on real-valued arguments. -/
theorem outs_eq (A : Cert.Spec.Args 65536 256) (hA : A.IsReal) : Cert.Spec.K.outs A = Cert.Spec.R.outs A := by
  unfold K.outs R.outs
  rw [a1_eq A hA, a2_eq A hA, a3_eq A hA, p_eq A hA, z3_eq A hA]

end Cert.Spec
-- ==== Proof.PreReal.lean ====
/-
  From the precondition "every float input is finite" to "every entry of every argument array is a real number".

  The precondition is printed as a chain of operations: for each of the twenty-six argument arrays x, the array of
  bits |x| < +∞ (the comparison of max x (-x) with the word of +∞), reduced by "and" over all its axes from the
  bit 1, and the twenty-six results joined by "and". It says the result is 1. A conjunction of bits that is 1 has
  every bit 1; a reduction by "and" over all axes that is 1 saw only 1s; and an extended real whose absolute value
  is below +∞ is neither infinity, so it is a real number.
-/
import proofs.«173010_j4303557230935_2_alg».proof.Defs
import proofs.«173010_j4303557230935_2_alg».proof.Proof.KArgs
import proofs.«173010_j4303557230935_2_alg».proof.Proof.Spec
import Idealize.ShloMosaic.Lib.ReduceAll
import Idealize.ShloMosaic.Lib.ValueIdx

set_option maxRecDepth 16384

noncomputable section

namespace Cert.KernelIdeal.KV

open Idealize.ShloMosaic Idealize.ShloMosaic.TcCoe Idealize.SL.Sem Cert.KernelIdeal Cert.Spec
open Idealize.ShloMosaic.ValueIdx

/-- The shape of rank zero has one index. -/
instance subsingleton_S_Idx : Subsingleton Cert.Pre_finite_inputs.S_.Idx := ⟨fun a b => funext fun d => d.elim0⟩

/-- An extended real whose absolute value max x (-x) is below +∞ is a real number: at -∞ and at +∞ the maximum
    is +∞. -/
theorem real_of_abs_lt_top (x : EReal) (h : max x (-x) < ⊤) : ∃ r : ℝ, x = r := by
  induction x using EReal.rec with
  | bot => simp at h
  | coe r => exact ⟨r, rfl⟩
  | top => simp at h

/-- The word 0x7F800000 (exponent all ones, fraction zero, sign clear) denotes +∞. -/
theorem ofBits_inf : Ideal.ofBits .f32 0x7F800000#32 = ⊤ := by simp [Ideal.ofBits, Ideal.ieee]

/-- One entry: the comparison |x| < +∞ came out 1, so x is a real number. -/
theorem real_of_cmp (x : Ideal .f32)
    (h : FloatOps.cmpf .olt (FloatOps.hostAbsf x) (FloatOps.ofBits (F := Ideal) .f32 0x7F800000#32) = 1#1) :
    ∃ r : ℝ, x = r := by
  have h' : Ideal.cmp .olt (max (x : EReal) (-(x : EReal))) (Ideal.ofBits .f32 0x7F800000#32) = 1#1 := h
  rw [ofBits_inf] at h'
  unfold Ideal.cmp at h'
  by_cases hlt : max (x : EReal) (-(x : EReal)) < ⊤
  · exact real_of_abs_lt_top x hlt
  · simp [hlt] at h'

/-- One array of any shape: "all of |x| < +∞" — the bits |x| < +∞ reduced by "and" into a result of one index —
    came out 1, so every entry of x is a real number. -/
theorem real_of_all {s t u : Shape} [Subsingleton t.Idx] {axes : List (Fin s.rank)} (x : FVec Ideal s .f32)
    (hb : Cert.Pre_finite_inputs.S_.BroadcastsInDim s (![] : Fin 0 → Fin s.rank)) (hr : s.ReducesTo axes t)
    (hu : 0 < u.numel) (init : IVec u 1) (j : t.Idx)
    (e : Host.reduce IntOp.andi
        (cmpf .olt (Host.absf x) (broadcastInDim s ![] hb (constant Cert.Pre_finite_inputs.S_ .f32 0x7F800000#32)))
        init hr hu j = 1#1)
    (i : s.Idx) : ∃ r : ℝ, x i = r :=
  real_of_cmp (x i) (Host.reduce_andi_all _ init hr hu j e i)

/-- Under the precondition every entry of every argument array of a core is a real number. -/
theorem isReal_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) : (Cert.KernelIdeal.KV.argsOf m c).IsReal := by
  have e := congrFun (h c) ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5,
    Cert.Pre_finite_inputs.fn_part6, Cert.Pre_finite_inputs.fn_part7] at e
  simp only [Idealize.ShloMosaic.andi, IntOp.andi_eq_one] at e
  obtain ⟨⟨⟨⟨⟨⟨⟨⟨⟨⟨⟨⟨⟨⟨⟨⟨⟨⟨⟨⟨⟨⟨⟨⟨⟨e0, e1⟩, e2⟩, e3⟩, e4⟩, e5⟩, e6⟩, e7⟩, e8⟩, e9⟩, e10⟩, e11⟩, e12⟩, e13⟩, e14⟩, e15⟩, e16⟩, e17⟩, e18⟩, e19⟩, e20⟩, e21⟩, e22⟩, e23⟩, e24⟩, e25⟩ := e
  exact ⟨fun r j => real_of_all _ _ _ _ _ _ e0 (ix2 r j),
    fun r j => real_of_all _ _ _ _ _ _ e1 (ix2 r j),
    fun r j => real_of_all _ _ _ _ _ _ e2 (ix2 r j),
    fun r j => real_of_all _ _ _ _ _ _ e3 (ix2 r j),
    fun r j => real_of_all _ _ _ _ _ _ e4 (ix2 r j),
    fun j => real_of_all _ _ _ _ _ _ e5 (ix1 j),
    fun r j => real_of_all _ _ _ _ _ _ e6 (ix2 r j),
    fun j => real_of_all _ _ _ _ _ _ e7 (ix1 j),
    fun r j => real_of_all _ _ _ _ _ _ e8 (ix2 r j),
    fun j => real_of_all _ _ _ _ _ _ e9 (ix1 j),
    fun r j => real_of_all _ _ _ _ _ _ e10 (ix2 r j),
    fun j => real_of_all _ _ _ _ _ _ e11 (ix1 j),
    fun r j => real_of_all _ _ _ _ _ _ e12 (ix2 r j),
    fun j => real_of_all _ _ _ _ _ _ e13 (ix1 j),
    fun r j => real_of_all _ _ _ _ _ _ e14 (ix2 r j),
    fun j => real_of_all _ _ _ _ _ _ e15 (ix1 j),
    fun r j => real_of_all _ _ _ _ _ _ e16 (ix2 r j),
    fun j => real_of_all _ _ _ _ _ _ e17 (ix1 j),
    fun r j => real_of_all _ _ _ _ _ _ e18 (ix2 r j),
    fun j => real_of_all _ _ _ _ _ _ e19 (ix1 j),
    fun j => real_of_all _ _ _ _ _ _ e20 (ix1 j),
    fun j => real_of_all _ _ _ _ _ _ e21 (ix1 j),
    fun j => real_of_all _ _ _ _ _ _ e22 (ix1 j),
    fun j => real_of_all _ _ _ _ _ _ e23 (ix1 j),
    fun j => real_of_all _ _ _ _ _ _ e24 (ix1 j),
    fun j => real_of_all _ _ _ _ _ _ e25 (ix1 j)⟩

end Cert.KernelIdeal.KV

end
-- ==== Proof.lean ====
/-
  The certificate: the kernel program and the reference compute the same five arrays on the extended reals.

  Both programs compute three normalisation stages over a batch of 65536 rows (the specification's two forms,
  Proof/Spec.lean). The kernel program's results are the first form of its arguments (Proof/KValue.lean, from the
  four launches' value modules and the run Proof/KRun.lean); the reference's results are the second form of its
  arguments (Proof/RefRun.lean: its run leaves each result at a named composition of host operations,
  Proof/RefVal.lean: those compositions are the second form). The two forms agree when every argument entry is
  a real number (Proof/SpecLaws.lean: sums regroup freely, and the variance from the two moments, clamped at 0,
  is the mean squared deviation for real data), which the precondition gives (Proof/PreReal.lean). The frames of
  the two kernel programs are the frame modules'; the reference's frame is its run with the results dropped; the
  idealization rewrote nothing.
-/
import proofs.«173010_j4303557230935_2_alg».proof.Defs
import proofs.«173010_j4303557230935_2_alg».proof.Proof.Gen.Kernel
import proofs.«173010_j4303557230935_2_alg».proof.Proof.Gen.KernelIdeal
import proofs.«173010_j4303557230935_2_alg».proof.Proof.Gen.ReferenceIdeal
import proofs.«173010_j4303557230935_2_alg».proof.Proof.Gen.Pre_finite_inputs
import proofs.«173010_j4303557230935_2_alg».proof.Proof.KernelFrameP
import proofs.«173010_j4303557230935_2_alg».proof.Proof.KernelIdealFrameP
import proofs.«173010_j4303557230935_2_alg».proof.Proof.KRun
import proofs.«173010_j4303557230935_2_alg».proof.Proof.KValue
import proofs.«173010_j4303557230935_2_alg».proof.Proof.KFinal
import proofs.«173010_j4303557230935_2_alg».proof.Proof.RefRun
import proofs.«173010_j4303557230935_2_alg».proof.Proof.RefVal
import proofs.«173010_j4303557230935_2_alg».proof.Proof.SpecLaws
import proofs.«173010_j4303557230935_2_alg».proof.Proof.PreReal
import Idealize.ShloMosaic.Adequacy
import Idealize.ShloMosaic.Init

set_option maxRecDepth 16384

noncomputable section

namespace Cert.Proof

open Idealize.ShloMosaic Idealize.ShloMosaic.TcCoe Idealize.SL.Sem Cert.Spec

theorem frame_k [Cert.Kernel.Facts] [Cert.Pre_finite_inputs.Facts] : Cert.frame_Kernel := fun m ρ _ => Cert.Kernel.GenP.frame m ρ

theorem frame_ki [Cert.KernelIdeal.Facts] [Cert.Pre_finite_inputs.Facts] : Cert.frame_KernelIdeal := fun m ρ _ => Cert.KernelIdeal.GenP.frame m ρ

/-- The reference's frame: its run, with the five results dropped. -/
theorem frame_ri [Cert.ReferenceIdeal.Facts] [Cert.Pre_finite_inputs.Facts] : Cert.frame_ReferenceIdeal := fun m ρ _ =>
  (θ_run Cert.ReferenceIdeal.defs _ _).mono (fun _ h c => (h c).2.2.2.2.2) (Cert.ReferenceIdeal.Run.run (F := Ideal) m ρ)

/-- The idealization rewrote nothing. -/
theorem preserves : Cert.preserves_Kernel_KernelIdeal := trivial

section Algebraic

open Cert.KernelIdeal Cert.KernelIdeal.Gen Cert.KernelIdeal.GenP Cert.KernelIdeal.KVal

variable [Cert.KernelIdeal.Facts] [Cert.ReferenceIdeal.Facts] [Cert.Pre_finite_inputs.Facts]

/-- The two forms of the specification at the kernel program's arguments, under the precondition. -/
theorem forms_eq (m : (ℓ : Loc Cert.KernelIdeal.nD Cert.KernelIdeal.τ Cert.KernelIdeal.sig) → Buf (Elt Ideal) ℓ)
    (hpre : Cert.Pre_KernelIdeal m) (c : Dev Cert.KernelIdeal.nD) :
    K.outs (Cert.KernelIdeal.KV.argsOf m c) = R.outs (Cert.KernelIdeal.KV.argsOf m c) :=
  Cert.Spec.outs_eq _ (Cert.KernelIdeal.KV.isReal_of_pre m hpre c)

set_option maxHeartbeats 4000000 in
/-- The two programs, run from memories that agree on the arguments, end with equal results: the kernel
    program's are the first form of the specification at its arguments, the reference's the second form at the
    same arguments, and the forms agree under the precondition. -/
theorem algebraic : Cert.algebraic_KernelIdeal_ReferenceIdeal := by
  intro m ρ m' ρ' hpre hagree
  refine ⟨fun c => GenP.W8 m ρ c (Proc.devRef .tc Cert.KernelIdeal.main_v29_0), fun c => GenP.W8 m ρ c (Proc.devRef .tc Cert.KernelIdeal.main_v44_0),
    fun c => GenP.W8 m ρ c (Proc.devRef .tc Cert.KernelIdeal.main_v59_0), fun c => GenP.W8 m ρ c (Proc.devRef .tc Cert.KernelIdeal.main_v59_1),
    fun c => GenP.W8 m ρ c (Proc.devRef .tc Cert.KernelIdeal.main_v44_1), ?_, ?_⟩
  · exact (θ_run Cert.KernelIdeal.defs _ _).mono (fun r h c =>
      ⟨h c _ (GenP.mem_uc Cert.KernelIdeal.main_v29_0 (by decide)),
      h c _ (GenP.mem_uc Cert.KernelIdeal.main_v44_0 (by decide)),
      h c _ (GenP.mem_uc Cert.KernelIdeal.main_v59_0 (by decide)),
      h c _ (GenP.mem_uc Cert.KernelIdeal.main_v59_1 (by decide)),
      h c _ (GenP.mem_uc Cert.KernelIdeal.main_v44_1 (by decide)),
      (h c _ (GenP.mem_uc Cert.KernelIdeal.main_arg0 (by decide))).trans (GenP.W8_main_arg0 m ρ c),
      (h c _ (GenP.mem_uc Cert.KernelIdeal.main_arg1 (by decide))).trans (GenP.W8_main_arg1 m ρ c),
      (h c _ (GenP.mem_uc Cert.KernelIdeal.main_arg2 (by decide))).trans (GenP.W8_main_arg2 m ρ c),
      (h c _ (GenP.mem_uc Cert.KernelIdeal.main_arg3 (by decide))).trans (GenP.W8_main_arg3 m ρ c),
      (h c _ (GenP.mem_uc Cert.KernelIdeal.main_arg4 (by decide))).trans (GenP.W8_main_arg4 m ρ c),
      (h c _ (GenP.mem_uc Cert.KernelIdeal.main_arg5 (by decide))).trans (GenP.W8_main_arg5 m ρ c),
      (h c _ (GenP.mem_uc Cert.KernelIdeal.main_arg6 (by decide))).trans (GenP.W8_main_arg6 m ρ c),
      (h c _ (GenP.mem_uc Cert.KernelIdeal.main_arg7 (by decide))).trans (GenP.W8_main_arg7 m ρ c),
      (h c _ (GenP.mem_uc Cert.KernelIdeal.main_arg8 (by decide))).trans (GenP.W8_main_arg8 m ρ c),
      (h c _ (GenP.mem_uc Cert.KernelIdeal.main_arg9 (by decide))).trans (GenP.W8_main_arg9 m ρ c),
      (h c _ (GenP.mem_uc Cert.KernelIdeal.main_arg10 (by decide))).trans (GenP.W8_main_arg10 m ρ c),
      (h c _ (GenP.mem_uc Cert.KernelIdeal.main_arg11 (by decide))).trans (GenP.W8_main_arg11 m ρ c),
      (h c _ (GenP.mem_uc Cert.KernelIdeal.main_arg12 (by decide))).trans (GenP.W8_main_arg12 m ρ c),
      (h c _ (GenP.mem_uc Cert.KernelIdeal.main_arg13 (by decide))).trans (GenP.W8_main_arg13 m ρ c),
      (h c _ (GenP.mem_uc Cert.KernelIdeal.main_arg14 (by decide))).trans (GenP.W8_main_arg14 m ρ c),
      (h c _ (GenP.mem_uc Cert.KernelIdeal.main_arg15 (by decide))).trans (GenP.W8_main_arg15 m ρ c),
      (h c _ (GenP.mem_uc Cert.KernelIdeal.main_arg16 (by decide))).trans (GenP.W8_main_arg16 m ρ c),
      (h c _ (GenP.mem_uc Cert.KernelIdeal.main_arg17 (by decide))).trans (GenP.W8_main_arg17 m ρ c),
      (h c _ (GenP.mem_uc Cert.KernelIdeal.main_arg18 (by decide))).trans (GenP.W8_main_arg18 m ρ c),
      (h c _ (GenP.mem_uc Cert.KernelIdeal.main_arg19 (by decide))).trans (GenP.W8_main_arg19 m ρ c),
      (h c _ (GenP.mem_uc Cert.KernelIdeal.main_arg20 (by decide))).trans (GenP.W8_main_arg20 m ρ c),
      (h c _ (GenP.mem_uc Cert.KernelIdeal.main_arg21 (by decide))).trans (GenP.W8_main_arg21 m ρ c),
      (h c _ (GenP.mem_uc Cert.KernelIdeal.main_arg22 (by decide))).trans (GenP.W8_main_arg22 m ρ c),
      (h c _ (GenP.mem_uc Cert.KernelIdeal.main_arg23 (by decide))).trans (GenP.W8_main_arg23 m ρ c),
      (h c _ (GenP.mem_uc Cert.KernelIdeal.main_arg24 (by decide))).trans (GenP.W8_main_arg24 m ρ c),
      (h c _ (GenP.mem_uc Cert.KernelIdeal.main_arg25 (by decide))).trans (GenP.W8_main_arg25 m ρ c)⟩) (Cert.KernelIdeal.KRun.run_W8 m ρ)
  · refine (θ_run Cert.ReferenceIdeal.defs _ _).mono (fun r h c => ?_) (Cert.ReferenceIdeal.Run.run (F := Ideal) m' ρ')
    have hE := forms_eq m hpre c
    have hArgs : Cert.ReferenceIdeal.RefVal.argsOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) = Cert.KernelIdeal.KV.argsOf m c := rfl
    obtain ⟨a0, a1, a2, a3, a4, a5, a6, a7, a8, a9, a10, a11, a12, a13, a14, a15, a16, a17, a18, a19, a20, a21, a22, a23, a24, a25⟩ := hagree c
    obtain ⟨r1, r2, r3, r4, r5, rargs⟩ := h c
    simp only [a0, a1, a2, a3, a4, a5, a6, a7, a8, a9, a10, a11, a12, a13, a14, a15, a16, a17, a18, a19, a20, a21, a22, a23, a24, a25] at r1 r2 r3 r4 r5
    refine ⟨r1.trans ?_, r2.trans ?_, r3.trans ?_, r4.trans ?_, r5.trans ?_, rargs⟩
    · refine (Cert.ReferenceIdeal.RefVal.tA1_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).trans ?_
      rw [hArgs]
      exact (congrArg (fun o : Outs 65536 256 => ofMat o.a1) hE).symm.trans (Comp.W8_a1 regFacts m ρ c).symm
    · refine (Cert.ReferenceIdeal.RefVal.tA2_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).trans ?_
      rw [hArgs]
      exact (congrArg (fun o : Outs 65536 256 => ofMat o.a2) hE).symm.trans (Comp.W8_a2 regFacts m ρ c).symm
    · refine (Cert.ReferenceIdeal.RefVal.tA3_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).trans ?_
      rw [hArgs]
      exact (congrArg (fun o : Outs 65536 256 => ofMat o.a3) hE).symm.trans (Comp.W8_a3 regFacts m ρ c).symm
    · refine (Cert.ReferenceIdeal.RefVal.tP_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).trans ?_
      rw [hArgs]
      exact (congrArg (fun o : Outs 65536 256 => ofMat o.p) hE).symm.trans (Comp.W8_p regFacts m ρ c).symm
    · refine (Cert.ReferenceIdeal.RefVal.tZ3_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))).trans ?_
      rw [hArgs]
      exact (congrArg (fun o : Outs 65536 256 => ofMat o.z3) hE).symm.trans (Comp.W8_z3 regFacts m ρ c).symm

/-- The certificate. -/
theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Algebraic

end Cert.Proof

end
